-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S10000x128 : Shape := ⟨2, ![10000, 128]⟩
abbrev S250000 : Shape := ⟨1, ![250000]⟩
abbrev S50000 : Shape := ⟨1, ![50000]⟩
abbrev S10000 : Shape := ⟨1, ![10000]⟩
abbrev S128x384 : Shape := ⟨2, ![128, 384]⟩
abbrev S384 : Shape := ⟨1, ![384]⟩
abbrev S128 : Shape := ⟨1, ![128]⟩
abbrev S128x6 : Shape := ⟨2, ![128, 6]⟩
abbrev S6 : Shape := ⟨1, ![6]⟩
abbrev S64x64 : Shape := ⟨2, ![64, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg15 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg11 : FVec F S6 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S6 .f32 := Host.absf main_arg11
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_v48 main_v49 main_v50

def fn_part1 {F : FTy → Type} [FloatOps F] (main_arg8 : FVec F S128 .f32) (main_arg9 : FVec F S128 .f32) (main_arg10 : FVec F S128x6 .f32) (main_arg11 : FVec F S6 .f32) (main_arg12 : FVec F S64x64 .f32) (main_arg13 : FVec F S64 .f32) (main_arg14 : FVec F S64x64 .f32) (main_arg15 : FVec F S64 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x6 .f32 := Host.absf main_arg10
  let main_cst_10 : FVec F S_ .f32 := constant S_ .f32 0x7F800000#32
  let main_v30 : FVec F S128x6 .f32 := broadcastInDim S128x6 ![] bcast_S_S128x6 main_cst_10
  let main_v31 : IVec S128x6 1 := cmpf .olt main_v29 main_v30
  let main_c_11 : IVec S_ 1 := constantI S_ 1 1#1
  let main_v32 : IVec S_ 1 := (fun x v => Host.reduce IntOp.andi x v reducesTo_S128x6_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S50000x128 .f32) (main_arg1 : FVec F S10000x128 .f32) (main_arg2 : IVec S250000 32) (main_arg3 : IVec S250000 32) (main_arg4 : IVec S50000 32) (main_arg5 : IVec S10000 32) (main_arg6 : FVec F S128x384 .f32) (main_arg7 : FVec F S384 .f32) (main_arg8 : FVec F S128 .f32) (main_arg9 : FVec F S128 .f32) (main_arg10 : FVec F S128x6 .f32) (main_arg11 : FVec F S6 .f32) (main_arg12 : FVec F S64x64 .f32) (main_arg13 : FVec F S64 .f32) (main_arg14 : FVec F S64x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x384 .f32 := Host.absf main_arg6
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S384 .f32 := Host.absf main_arg7
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg8 main_arg9 main_arg10 main_arg11 main_arg12 main_arg13 main_arg14 main_arg15 main_v13 main_v16
-- ==== Kernel.lean ====
abbrev S50000x128 : Shape := ⟨2, ![50000, 128]⟩
abbrev S10000x128 : Shape := ⟨2, ![10000, 128]⟩
abbrev S250000 : Shape := ⟨1, ![250000]⟩
abbrev S50000 : Shape := ⟨1, ![50000]⟩
abbrev S10000 : Shape := ⟨1, ![10000]⟩
abbrev S128x384 : Shape := ⟨2, ![128, 384]⟩
abbrev S384 : Shape := ⟨1, ![384]⟩
abbrev S128 : Shape := ⟨1, ![128]⟩
abbrev S128x6 : Shape := ⟨2, ![128, 6]⟩
abbrev S6 : Shape := ⟨1, ![6]⟩
abbrev S64x64 : Shape := ⟨2, ![64, 64]⟩
abbrev S64 : Shape := ⟨1, ![64]⟩
abbrev S1x384 : Shape := ⟨2, ![1, 384]⟩
abbrev S50000x384 : Shape := ⟨2, ![50000, 384]⟩
abbrev S2000x128 : Shape := ⟨2, ![2000, 128]⟩
abbrev S2000x384 : Shape := ⟨2, ![2000, 384]⟩
abbrev S10000x384 : Shape := ⟨2, ![10000, 384]⟩
abbrev S300000x64 : Shape := ⟨2, ![300000, 64]⟩
abbrev S60000x64 : Shape := ⟨2, ![60000, 64]⟩
abbrev S50000x6x64 : Shape := ⟨3, ![50000, 6, 64]⟩
abbrev S_ : Shape := ⟨0, ![]⟩
abbrev S50000x64 : Shape := ⟨2, ![50000, 64]⟩
abbrev S10000x6x64 : Shape := ⟨3, ![10000, 6, 64]⟩
abbrev S10000x64 : Shape := ⟨2, ![10000, 64]⟩
abbrev S250000x1 : Shape := ⟨2, ![250000, 1]⟩
abbrev S250000x64 : Shape := ⟨2, ![250000, 64]⟩
abbrev S250000x128 : Shape := ⟨2, ![250000, 128]⟩
abbrev S1x128 : Shape := ⟨2, ![1, 128]⟩
abbrev S1x6 : Shape := ⟨2, ![1, 6]⟩
abbrev S250000x6 : Shape := ⟨2, ![250000, 6]⟩
abbrev S2000x6 : Shape := ⟨2, ![2000, 6]⟩
abbrev S2000 : Shape := ⟨1, ![2000]⟩
abbrev S2000x1 : Shape := ⟨2, ![2000, 1]⟩
abbrev S1500000 : Shape := ⟨1, ![1500000]⟩
abbrev S300000 : Shape := ⟨1, ![300000]⟩
abbrev S1500000x1 : Shape := ⟨2, ![1500000, 1]⟩
abbrev S60000 : Shape := ⟨1, ![60000]⟩
abbrev S1x64 : Shape := ⟨2, ![1, 64]⟩
abbrev S12000x64 : Shape := ⟨2, ![12000, 64]⟩
abbrev S60000x1 : Shape := ⟨2, ![60000, 1]⟩
abbrev S1500000x64 : Shape := ⟨2, ![1500000, 64]⟩
abbrev S300000x1 : Shape := ⟨2, ![300000, 1]⟩
abbrev S6000x64 : Shape := ⟨2, ![6000, 64]⟩

abbrev nBuf : Space → Nat
  | .hbm => 193
  | .vmem => 50
  | .smem => 0
  | _ => 0

abbrev hbmTy0_0 (i : Nat) : BufTy := match i % 128 with
  | 0 => ⟨S50000x128, .f32⟩
  | 1 => ⟨S10000x128, .f32⟩
  | 2 => ⟨S250000, .i32⟩
  | 3 => ⟨S250000, .i32⟩
  | 4 => ⟨S50000, .i32⟩
  | 5 => ⟨S10000, .i32⟩
  | 6 => ⟨S128x384, .f32⟩
  | 7 => ⟨S384, .f32⟩
  | 8 => ⟨S128, .f32⟩
  | 9 => ⟨S128, .f32⟩
  | 10 => ⟨S128x6, .f32⟩
  | 11 => ⟨S6, .f32⟩
  | 12 => ⟨S64x64, .f32⟩
  | 13 => ⟨S64, .f32⟩
  | 14 => ⟨S64x64, .f32⟩
  | 15 => ⟨S64, .f32⟩
  | 16 => ⟨S1x384, .f32⟩
  | 17 => ⟨S50000x384, .f32⟩
  | 18 => ⟨S1x384, .f32⟩
  | 19 => ⟨S10000x384, .f32⟩
  | 20 => ⟨S300000x64, .f32⟩
  | 21 => ⟨S60000x64, .f32⟩
  | 22 => ⟨S50000x6x64, .f32⟩
  | 23 => ⟨S_, .f32⟩
  | 24 => ⟨S50000x64, .f32⟩
  | 25 => ⟨S_, .f32⟩
  | 26 => ⟨S50000x64, .f32⟩
  | 27 => ⟨S50000x64, .f32⟩
  | 28 => ⟨S10000x6x64, .f32⟩
  | 29 => ⟨S_, .f32⟩
  | 30 => ⟨S10000x64, .f32⟩
  | 31 => ⟨S_, .f32⟩
  | 32 => ⟨S10000x64, .f32⟩
  | 33 => ⟨S10000x64, .f32⟩
  | 34 => ⟨S_, .i32⟩
  | 35 => ⟨S250000, .i32⟩
  | 36 => ⟨S250000, .i1⟩
  | 37 => ⟨S_, .i32⟩
  | 38 => ⟨S250000, .i32⟩
  | 39 => ⟨S250000, .i32⟩
  | 40 => ⟨S250000, .i32⟩
  | 41 => ⟨S250000x1, .i32⟩
  | 42 => ⟨S250000x64, .f32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S250000x64, .f32⟩
  | 52 => ⟨S250000x128, .f32⟩
  | 53 => ⟨S1x128, .f32⟩
  | 54 => ⟨S1x128, .f32⟩
  | 55 => ⟨S1x6, .f32⟩
  | 56 => ⟨S250000x6, .f32⟩
  | 57 => ⟨S6, .i32⟩
  | 58 => ⟨S250000x1, .i32⟩
  | 59 => ⟨S_, .i32⟩
  | 60 => ⟨S250000x1, .i32⟩
  | 61 => ⟨S250000x1, .i32⟩
  | 62 => ⟨S1x6, .i32⟩
  | 63 => ⟨S250000x6, .i32⟩
  | 64 => ⟨S250000x6, .i32⟩
  | 65 => ⟨S250000x6, .i32⟩
  | 66 => ⟨S1500000, .i32⟩
  | 67 => ⟨S250000x1, .i32⟩
  | 68 => ⟨S_, .i32⟩
  | 69 => ⟨S250000x1, .i32⟩
  | 70 => ⟨S250000x1, .i32⟩
  | 71 => ⟨S1x6, .i32⟩
  | 72 => ⟨S250000x6, .i32⟩
  | 73 => ⟨S250000x6, .i32⟩
  | 74 => ⟨S250000x6, .i32⟩
  | 75 => ⟨S1500000, .i32⟩
  | 76 => ⟨S1500000, .f32⟩
  | 77 => ⟨S_, .f32⟩
  | 78 => ⟨S1500000, .f32⟩
  | 79 => ⟨S_, .f32⟩
  | 80 => ⟨S300000, .f32⟩
  | 81 => ⟨S1500000x1, .i32⟩
  | 82 => ⟨S300000, .f32⟩
  | 83 => ⟨S_, .f32⟩
  | 84 => ⟨S300000, .f32⟩
  | 85 => ⟨S300000, .i1⟩
  | 86 => ⟨S_, .f32⟩
  | 87 => ⟨S300000, .f32⟩
  | 88 => ⟨S300000, .f32⟩
  | 89 => ⟨S_, .f32⟩
  | 90 => ⟨S_, .f32⟩
  | 91 => ⟨S300000, .f32⟩
  | 92 => ⟨S300000, .f32⟩
  | 93 => ⟨S_, .f32⟩
  | 94 => ⟨S60000, .f32⟩
  | 95 => ⟨S1500000x1, .i32⟩
  | 96 => ⟨S60000, .f32⟩
  | 97 => ⟨S_, .f32⟩
  | 98 => ⟨S60000, .f32⟩
  | 99 => ⟨S60000, .i1⟩
  | 100 => ⟨S_, .f32⟩
  | 101 => ⟨S60000, .f32⟩
  | 102 => ⟨S60000, .f32⟩
  | 103 => ⟨S_, .f32⟩
  | 104 => ⟨S_, .f32⟩
  | 105 => ⟨S60000, .f32⟩
  | 106 => ⟨S60000, .f32⟩
  | 107 => ⟨S_, .f32⟩
  | 108 => ⟨S1x64, .f32⟩
  | 109 => ⟨S300000x64, .f32⟩
  | 110 => ⟨S60000x1, .f32⟩
  | 111 => ⟨S1500000x1, .f32⟩
  | 112 => ⟨S_, .i32⟩
  | 113 => ⟨S1500000, .i32⟩
  | 114 => ⟨S1500000, .i1⟩
  | 115 => ⟨S_, .i32⟩
  | 116 => ⟨S1500000, .i32⟩
  | 117 => ⟨S1500000, .i32⟩
  | 118 => ⟨S1500000, .i32⟩
  | 119 => ⟨S1500000x1, .i32⟩
  | 120 => ⟨S1500000x64, .f32⟩
  | 121 => ⟨S1500000x64, .f32⟩
  | 122 => ⟨S1500000x64, .f32⟩
  | 123 => ⟨S_, .f32⟩
  | 124 => ⟨S60000x64, .f32⟩
  | 125 => ⟨S1500000x1, .i32⟩
  | 126 => ⟨S60000x64, .f32⟩
  | 127 => ⟨S60000x64, .f32⟩
  | _ => ⟨S50000x128, .f32⟩

abbrev hbmTy0_1 (i : Nat) : BufTy := match i % 128 with
  | 0 => ⟨S60000x64, .f32⟩
  | 1 => ⟨S300000x1, .f32⟩
  | 2 => ⟨S1500000x1, .f32⟩
  | 3 => ⟨S_, .i32⟩
  | 4 => ⟨S1500000, .i32⟩
  | 5 => ⟨S1500000, .i1⟩
  | 6 => ⟨S_, .i32⟩
  | 7 => ⟨S1500000, .i32⟩
  | 8 => ⟨S1500000, .i32⟩
  | 9 => ⟨S1500000, .i32⟩
  | 10 => ⟨S1500000x1, .i32⟩
  | 11 => ⟨S1500000x64, .f32⟩
  | 12 => ⟨S1500000x64, .f32⟩
  | 13 => ⟨S1500000x64, .f32⟩
  | 14 => ⟨S_, .f32⟩
  | 15 => ⟨S300000x64, .f32⟩
  | 16 => ⟨S1500000x1, .i32⟩
  | 17 => ⟨S300000x64, .f32⟩
  | 18 => ⟨S300000x64, .f32⟩
  | 19 => ⟨S300000x64, .f32⟩
  | 20 => ⟨S1x64, .f32⟩
  | 21 => ⟨S300000x64, .f32⟩
  | 22 => ⟨S300000x64, .f32⟩
  | 23 => ⟨S60000x1, .f32⟩
  | 24 => ⟨S1500000x1, .f32⟩
  | 25 => ⟨S_, .i32⟩
  | 26 => ⟨S1500000, .i32⟩
  | 27 => ⟨S1500000, .i1⟩
  | 28 => ⟨S_, .i32⟩
  | 29 => ⟨S1500000, .i32⟩
  | 30 => ⟨S1500000, .i32⟩
  | 31 => ⟨S1500000, .i32⟩
  | 32 => ⟨S1500000x1, .i32⟩
  | 33 => ⟨S1500000x64, .f32⟩
  | 34 => ⟨S1500000x64, .f32⟩
  | 35 => ⟨S1500000x64, .f32⟩
  | 36 => ⟨S_, .f32⟩
  | 37 => ⟨S60000x64, .f32⟩
  | 38 => ⟨S1500000x1, .i32⟩
  | 39 => ⟨S60000x64, .f32⟩
  | 40 => ⟨S60000x64, .f32⟩
  | 41 => ⟨S60000x64, .f32⟩
  | 42 => ⟨S300000x1, .f32⟩
  | 43 => ⟨S1500000x1, .f32⟩
  | 44 => ⟨S_, .i32⟩
  | 45 => ⟨S1500000, .i32⟩
  | 46 => ⟨S1500000, .i1⟩
  | 47 => ⟨S_, .i32⟩
  | 48 => ⟨S1500000, .i32⟩
  | 49 => ⟨S1500000, .i32⟩
  | 50 => ⟨S1500000, .i32⟩
  | 51 => ⟨S1500000x1, .i32⟩
  | 52 => ⟨S1500000x64, .f32⟩
  | 53 => ⟨S1500000x64, .f32⟩
  | 54 => ⟨S1500000x64, .f32⟩
  | 55 => ⟨S_, .f32⟩
  | 56 => ⟨S300000x64, .f32⟩
  | 57 => ⟨S1500000x1, .i32⟩
  | 58 => ⟨S300000x64, .f32⟩
  | 59 => ⟨S300000x64, .f32⟩
  | 60 => ⟨S300000x64, .f32⟩
  | 61 => ⟨S1x64, .f32⟩
  | 62 => ⟨S300000x64, .f32⟩
  | 63 => ⟨S50000x384, .f32⟩
  | 64 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S1x384, .f32⟩
  | .local _ .vmem, ⟨4, _⟩ => ⟨S2000x384, .f32⟩
  | .local _ .vmem, ⟨5, _⟩ => ⟨S2000x384, .f32⟩
  | .local _ .vmem, ⟨6, _⟩ => ⟨S2000x128, .f32⟩
  | .local _ .vmem, ⟨7, _⟩ => ⟨S2000x128, .f32⟩
  | .local _ .vmem, ⟨8, _⟩ => ⟨S128x384, .f32⟩
  | .local _ .vmem, ⟨9, _⟩ => ⟨S1x384, .f32⟩
  | .local _ .vmem, ⟨10, _⟩ => ⟨S2000x384, .f32⟩
  | .local _ .vmem, ⟨11, _⟩ => ⟨S2000x384, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S128x6, .f32⟩
  | .local _ .vmem, ⟨17, _⟩ => ⟨S1x6, .f32⟩
  | .local _ .vmem, ⟨18, _⟩ => ⟨S2000x6, .f32⟩
  | .local _ .vmem, ⟨19, _⟩ => ⟨S2000x6, .f32⟩
  | .local _ .vmem, ⟨20, _⟩ => ⟨S12000x64, .f32⟩
  | .local _ .vmem, ⟨21, _⟩ => ⟨S12000x64, .f32⟩
  | .local _ .vmem, ⟨22, _⟩ => ⟨S64x64, .f32⟩
  | .local _ .vmem, ⟨23, _⟩ => ⟨S1x64, .f32⟩
  | .local _ .vmem, ⟨24, _⟩ => ⟨S12000x64, .f32⟩
  | .local _ .vmem, ⟨25, _⟩ => ⟨S12000x64, .f32⟩
  | .local _ .vmem, ⟨26, _⟩ => ⟨S6000x64, .f32⟩
  | .local _ .vmem, ⟨27, _⟩ => ⟨S6000x64, .f32⟩
  | .local _ .vmem, ⟨28, _⟩ => ⟨S6000x64, .f32⟩
  | .local _ .vmem, ⟨29, _⟩ => ⟨S6000x64, .f32⟩
  | .local _ .vmem, ⟨30, _⟩ => ⟨S1x64, .f32⟩
  | .local _ .vmem, ⟨31, _⟩ => ⟨S6000x64, .f32⟩
  | .local _ .vmem, ⟨32, _⟩ => ⟨S6000x64, .f32⟩
  | .local _ .vmem, ⟨33, _⟩ => ⟨S12000x64, .f32⟩
  | .local _ .vmem, ⟨34, _⟩ => ⟨S12000x64, .f32⟩
  | .local _ .vmem, ⟨35, _⟩ => ⟨S64x64, .f32⟩
  | .local _ .vmem, ⟨36, _⟩ => ⟨S1x64, .f32⟩
  | .local _ .vmem, ⟨37, _⟩ => ⟨S12000x64, .f32⟩
  | .local _ .vmem, ⟨38, _⟩ => ⟨S12000x64, .f32⟩
  | .local _ .vmem, ⟨39, _⟩ => ⟨S6000x64, .f32⟩
  | .local _ .vmem, ⟨40, _⟩ => ⟨S6000x64, .f32⟩
  | .local _ .vmem, ⟨41, _⟩ => ⟨S6000x64, .f32⟩
  | .local _ .vmem, ⟨42, _⟩ => ⟨S6000x64, .f32⟩
  | .local _ .vmem, ⟨43, _⟩ => ⟨S1x64, .f32⟩
  | .local _ .vmem, ⟨44, _⟩ => ⟨S6000x64, .f32⟩
  | .local _ .vmem, ⟨45, _⟩ => ⟨S6000x64, .f32⟩
  | .local _ .vmem, ⟨46, _⟩ => ⟨S2000x384, .f32⟩
  | .local _ .vmem, ⟨47, _⟩ => ⟨S2000x384, .f32⟩
  | .local _ .vmem, ⟨48, _⟩ => ⟨S2000x384, .f32⟩
  | .local _ .vmem, ⟨49, _⟩ => ⟨S2000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_call0_v0 : Ref sig .tc := ⟨.hbm, 90, rfl⟩
abbrev main_call0_v1 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_call1_v0 : Ref sig .tc := ⟨.hbm, 104, rfl⟩
abbrev main_call1_v1 : Ref sig .tc := ⟨.hbm, 105, rfl⟩
abbrev main_v67 : Ref sig .tc := ⟨.hbm, 106, rfl⟩
abbrev main_cst_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_18 : Ref sig .tc := ⟨.hbm, 112, rfl⟩
abbrev main_v72 : Ref sig .tc := ⟨.hbm, 113, rfl⟩
abbrev main_v73 : Ref sig .tc := ⟨.hbm, 114, rfl⟩
abbrev main_c_19 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_21 : Ref sig .tc := ⟨.hbm, 131, rfl⟩
abbrev main_v88 : Ref sig .tc := ⟨.hbm, 132, rfl⟩
abbrev main_v89 : Ref sig .tc := ⟨.hbm, 133, rfl⟩
abbrev main_c_22 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_23 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_24 : Ref sig .tc := ⟨.hbm, 153, rfl⟩
abbrev main_v107 : Ref sig .tc := ⟨.hbm, 154, rfl⟩
abbrev main_v108 : Ref sig .tc := ⟨.hbm, 155, rfl⟩
abbrev main_c_25 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_26 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_27 : Ref sig .tc := ⟨.hbm, 172, rfl⟩
abbrev main_v123 : Ref sig .tc := ⟨.hbm, 173, rfl⟩
abbrev main_v124 : Ref sig .tc := ⟨.hbm, 174, rfl⟩
abbrev main_c_28 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_29 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x6 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S12000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S6000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S12000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S6000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x384 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x384 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  shapeCasts_S50000x384_S300000x64 : S50000x384.ShapeCasts S300000x64
  shapeCasts_S10000x384_S60000x64 : S10000x384.ShapeCasts S60000x64
  shapeCasts_S50000x384_S50000x6x64 : S50000x384.ShapeCasts S50000x6x64
  reducesTo_S50000x6x64_S50000x64_d1 : S50000x6x64.ReducesTo [1] S50000x64
  h_S_ : 0 < S_.numel
  bcast_S_S50000x64 : S_.BroadcastsInDim S50000x64 (![] : Fin 0 → Fin S50000x64.rank)
  shapeCasts_S10000x384_S10000x6x64 : S10000x384.ShapeCasts S10000x6x64
  reducesTo_S10000x6x64_S10000x64_d1 : S10000x6x64.ReducesTo [1] S10000x64
  bcast_S_S10000x64 : S_.BroadcastsInDim S10000x64 (![] : Fin 0 → Fin S10000x64.rank)
  bcast_S_S250000 : S_.BroadcastsInDim S250000 (![] : Fin 0 → Fin S250000.rank)
  bcast_S250000_S250000x1_0 : S250000.BroadcastsInDim S250000x1 (![0] : Fin 1 → Fin S250000x1.rank)
  concatenates_S250000x64_S250000x64_S250000x128_d1 : Shape.Concatenates [S250000x64, S250000x64] S250000x128 1
  shapeCasts_S128_S1x128 : S128.ShapeCasts S1x128
  shapeCasts_S6_S1x6 : S6.ShapeCasts S1x6
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2000x6 : S1x6.Broadcasts S2000x6
  inb_S2000x6_S2000x6_0_0 : ∀ a, (![0, 0] : Fin 2 → Nat) a + S2000x6.size a ≤ S2000x6.size a
  h_S2000x6 : 0 < S2000x6.numel
  bcast_S_S250000x1 : S_.BroadcastsInDim S250000x1 (![] : Fin 0 → Fin S250000x1.rank)
  bcast_S6_S1x6_1 : S6.BroadcastsInDim S1x6 (![1] : Fin 1 → Fin S1x6.rank)
  bcast_S250000x1_S250000x6_0_1 : S250000x1.BroadcastsInDim S250000x6 (![0, 1] : Fin 2 → Fin S250000x6.rank)
  bcast_S1x6_S250000x6_0_1 : S1x6.BroadcastsInDim S250000x6 (![0, 1] : Fin 2 → Fin S250000x6.rank)
  shapeCasts_S250000x6_S1500000 : S250000x6.ShapeCasts S1500000
  bcast_S_S1500000 : S_.BroadcastsInDim S1500000 (![] : Fin 0 → Fin S1500000.rank)
  bcast_S_S300000 : S_.BroadcastsInDim S300000 (![] : Fin 0 → Fin S300000.rank)
  bcast_S1500000_S1500000x1_0 : S1500000.BroadcastsInDim S1500000x1 (![0] : Fin 1 → Fin S1500000x1.rank)
  bcast_S_S60000 : S_.BroadcastsInDim S60000 (![] : Fin 0 → Fin S60000.rank)
  bcast_S_S1x64 : S_.BroadcastsInDim S1x64 (![] : Fin 0 → Fin S1x64.rank)
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12000x64 : S1x64.Broadcasts S12000x64
  bcast_S60000_S60000x1_0 : S60000.BroadcastsInDim S60000x1 (![0] : Fin 1 → Fin S60000x1.rank)
  bcast_S1500000x1_S1500000x64_0_1 : S1500000x1.BroadcastsInDim S1500000x64 (![0, 1] : Fin 2 → Fin S1500000x64.rank)
  bcast_S_S60000x64 : S_.BroadcastsInDim S60000x64 (![] : Fin 0 → Fin S60000x64.rank)
  bcast_S60000x1_S60000x64_0_1 : S60000x1.BroadcastsInDim S60000x64 (![0, 1] : Fin 2 → Fin S60000x64.rank)
  bcast_S300000_S300000x1_0 : S300000.BroadcastsInDim S300000x1 (![0] : Fin 1 → Fin S300000x1.rank)
  bcast_S_S300000x64 : S_.BroadcastsInDim S300000x64 (![] : Fin 0 → Fin S300000x64.rank)
  bcast_S300000x1_S300000x64_0_1 : S300000x1.BroadcastsInDim S300000x64 (![0, 1] : Fin 2 → Fin S300000x64.rank)
  shapeCasts_S64_S1x64 : S64.ShapeCasts S1x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  broadcasts_S1x64_S6000x64 : S1x64.Broadcasts S6000x64
  shapeCasts_S300000x64_S50000x384 : S300000x64.ShapeCasts S50000x384
  shapeCasts_S2000x384_S2000x384 : S2000x384.ShapeCasts S2000x384
  dot_S2000x128_S128x384_S2000x384_1_0_0_1_n_n_wf : DotDims.WF S2000x128 S128x384 S2000x384 [1] [0] [0] [1] [] []
  gather_S50000x64_S250000x1_S250000x64_1_0_n_n_0_1_164_wf : GatherDims.WF S50000x64 S250000x1 S250000x64 [1] [0] [] [0] [] 1 ![1, 64]
  gather_S10000x64_S250000x1_S250000x64_1_0_n_n_0_1_164_wf : GatherDims.WF S10000x64 S250000x1 S250000x64 [1] [0] [] [0] [] 1 ![1, 64]
  dot_S2000x128_S128x6_S2000x6_1_0_0_1_n_n_wf : DotDims.WF S2000x128 S128x6 S2000x6 [1] [0] [0] [1] [] []
  scatter_S300000_S1500000x1_S1500000_n_0_0_1_wf : ScatterDims.WF S300000 S1500000x1 S1500000 [] [0] [0] 1
  scatter_S60000_S1500000x1_S1500000_n_0_0_1_wf : ScatterDims.WF S60000 S1500000x1 S1500000 [] [0] [0] 1
  dot_S12000x64_S64x64_S12000x64_1_0_0_1_n_n_wf : DotDims.WF S12000x64 S64x64 S12000x64 [1] [0] [0] [1] [] []
  gather_S300000x64_S1500000x1_S1500000x64_1_0_n_n_0_1_164_wf : GatherDims.WF S300000x64 S1500000x1 S1500000x64 [1] [0] [] [0] [] 1 ![1, 64]
  scatter_S60000x64_S1500000x1_S1500000x64_1_0_0_1_wf : ScatterDims.WF S60000x64 S1500000x1 S1500000x64 [1] [0] [0] 1
  gather_S60000x64_S1500000x1_S1500000x64_1_0_n_n_0_1_164_wf : GatherDims.WF S60000x64 S1500000x1 S1500000x64 [1] [0] [] [0] [] 1 ![1, 64]
  scatter_S300000x64_S1500000x1_S1500000x64_1_0_0_1_wf : ScatterDims.WF S300000x64 S1500000x1 S1500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S50000x384.size a
  hwx0_3 : ∀ i : grid0.Coords, EltTy.bits .f32 = 32 ∨ (Rect.block (s := S50000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S128x384.size a
  hwx1_1 : ∀ i : grid1.Coords, EltTy.bits .f32 = 32 ∨ (Rect.block (s := S128x384) S128x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x384.size a ≤ S10000x384.size a
  hwx1_3 : ∀ i : grid1.Coords, EltTy.bits .f32 = 32 ∨ (Rect.block (s := S10000x384) S2000x384.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S250000x128.size a
  hwx2_0 : ∀ i : grid2.Coords, EltTy.bits .f32 = 32 ∨ (Rect.block (s := S250000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x6.size a ≤ S128x6.size a
  hwx2_3 : ∀ i : grid2.Coords, EltTy.bits .f32 = 32 ∨ (Rect.block (s := S128x6) S128x6.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x6.size a ≤ S1x6.size a
  hwx2_4 : ∀ i : grid2.Coords, EltTy.bits .f32 = 32 ∨ (Rect.block (s := S1x6) S1x6.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x6.size a ≤ S250000x6.size a
  hwx2_5 : ∀ i : grid2.Coords, EltTy.bits .f32 = 32 ∨ (Rect.block (s := S250000x6) S2000x6.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x64.size a ≤ S300000x64.size a
  hwx3_0 : ∀ i : grid3.Coords, EltTy.bits .f32 = 32 ∨ (Rect.block (s := S300000x64) S12000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S12000x64.size a ≤ S300000x64.size a
  hwx3_3 : ∀ i : grid3.Coords, EltTy.bits .f32 = 32 ∨ (Rect.block (s := S300000x64) S12000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x64.size a ≤ S300000x64.size a
  hwx4_0 : ∀ i : grid4.Coords, EltTy.bits .f32 = 32 ∨ (Rect.block (s := S300000x64) S6000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x64.size a ≤ S300000x64.size a
  hwx4_1 : ∀ i : grid4.Coords, EltTy.bits .f32 = 32 ∨ (Rect.block (s := S300000x64) S6000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6000x64.size a ≤ S300000x64.size a
  hwx4_3 : ∀ i : grid4.Coords, EltTy.bits .f32 = 32 ∨ (Rect.block (s := S300000x64) S6000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12000x64.size a ≤ S300000x64.size a
  hwx5_0 : ∀ i : grid5.Coords, EltTy.bits .f32 = 32 ∨ (Rect.block (s := S300000x64) S12000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S12000x64.size a ≤ S300000x64.size a
  hwx5_3 : ∀ i : grid5.Coords, EltTy.bits .f32 = 32 ∨ (Rect.block (s := S300000x64) S12000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x64.size a ≤ S300000x64.size a
  hwx6_0 : ∀ i : grid6.Coords, EltTy.bits .f32 = 32 ∨ (Rect.block (s := S300000x64) S6000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x64.size a ≤ S300000x64.size a
  hwx6_1 : ∀ i : grid6.Coords, EltTy.bits .f32 = 32 ∨ (Rect.block (s := S300000x64) S6000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S6000x64.size a ≤ S300000x64.size a
  hwx6_3 : ∀ i : grid6.Coords, EltTy.bits .f32 = 32 ∨ (Rect.block (s := S300000x64) S6000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x384.size a ≤ S50000x384.size a
  hwx7_0 : ∀ i : grid7.Coords, EltTy.bits .f32 = 32 ∨ (Rect.block (s := S50000x384) S2000x384.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x384.size a ≤ S50000x384.size a
  hwx7_1 : ∀ i : grid7.Coords, EltTy.bits .f32 = 32 ∨ (Rect.block (s := S50000x384) S2000x384.size (cc7_transform_1 i) (hinb7_1 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x64_S250000x1_S250000x64_1_0_n_n_0_1_164 : GatherDims S50000x64 S250000x1 S250000x64 where
  offsetDims := [1]
  collapsedSliceDims := [0]
  operandBatchingDims := []
  startIndicesBatchingDims := []
  startIndexMap := [0]
  indexVectorDim := 1
  sliceSizes := ![1, 64]
  wf := gather_S50000x64_S250000x1_S250000x64_1_0_n_n_0_1_164_wf
def gather_S10000x64_S250000x1_S250000x64_1_0_n_n_0_1_164 : GatherDims S10000x64 S250000x1 S250000x64 where
  offsetDims := [1]
  collapsedSliceDims := [0]
  operandBatchingDims := []
  startIndicesBatchingDims := []
  startIndexMap := [0]
  indexVectorDim := 1
  sliceSizes := ![1, 64]
  wf := gather_S10000x64_S250000x1_S250000x64_1_0_n_n_0_1_164_wf
def dot_S2000x128_S128x6_S2000x6_1_0_0_1_n_n : DotDims S2000x128 S128x6 S2000x6 where
  lhsContracting := [1]
  rhsContracting := [0]
  lhsNonContracting := [0]
  rhsNonContracting := [1]
  lhsBatch := []
  rhsBatch := []
  wf := dot_S2000x128_S128x6_S2000x6_1_0_0_1_n_n_wf
def scatter_S300000_S1500000x1_S1500000_n_0_0_1 : ScatterDims S300000 S1500000x1 S1500000 where
  updateWindowDims := []
  insertedWindowDims := [0]
  scatterDimsToOperandDims := [0]
  indexVectorDim := 1
  wf := scatter_S300000_S1500000x1_S1500000_n_0_0_1_wf
def scatter_S60000_S1500000x1_S1500000_n_0_0_1 : ScatterDims S60000 S1500000x1 S1500000 where
  updateWindowDims := []
  insertedWindowDims := [0]
  scatterDimsToOperandDims := [0]
  indexVectorDim := 1
  wf := scatter_S60000_S1500000x1_S1500000_n_0_0_1_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def gather_S300000x64_S1500000x1_S1500000x64_1_0_n_n_0_1_164 : GatherDims S300000x64 S1500000x1 S1500000x64 where
  offsetDims := [1]
  collapsedSliceDims := [0]
  operandBatchingDims := []
  startIndicesBatchingDims := []
  startIndexMap := [0]
  indexVectorDim := 1
  sliceSizes := ![1, 64]
  wf := gather_S300000x64_S1500000x1_S1500000x64_1_0_n_n_0_1_164_wf
def scatter_S60000x64_S1500000x1_S1500000x64_1_0_0_1 : ScatterDims S60000x64 S1500000x1 S1500000x64 where
  updateWindowDims := [1]
  insertedWindowDims := [0]
  scatterDimsToOperandDims := [0]
  indexVectorDim := 1
  wf := scatter_S60000x64_S1500000x1_S1500000x64_1_0_0_1_wf
def gather_S60000x64_S1500000x1_S1500000x64_1_0_n_n_0_1_164 : GatherDims S60000x64 S1500000x1 S1500000x64 where
  offsetDims := [1]
  collapsedSliceDims := [0]
  operandBatchingDims := []
  startIndicesBatchingDims := []
  startIndexMap := [0]
  indexVectorDim := 1
  sliceSizes := ![1, 64]
  wf := gather_S60000x64_S1500000x1_S1500000x64_1_0_n_n_0_1_164_wf
def scatter_S300000x64_S1500000x1_S1500000x64_1_0_0_1 : ScatterDims S300000x64 S1500000x1 S1500000x64 where
  updateWindowDims := [1]
  insertedWindowDims := [0]
  scatterDimsToOperandDims := [0]
  indexVectorDim := 1
  wf := scatter_S300000x64_S1500000x1_S1500000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x6.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x6.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S2000x6.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v4) S12000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S12000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S6000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S6000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v103) S6000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v103) S12000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S12000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v104) S6000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v136) S6000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v137) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v138) S6000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v139) S2000x384.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v140) S2000x384.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S50000x128 : Shape := ⟨2, ![50000, 128]⟩
abbrev S10000x128 : Shape := ⟨2, ![10000, 128]⟩
abbrev S250000 : Shape := ⟨1, ![250000]⟩
abbrev S50000 : Shape := ⟨1, ![50000]⟩
abbrev S10000 : Shape := ⟨1, ![10000]⟩
abbrev S128x384 : Shape := ⟨2, ![128, 384]⟩
abbrev S384 : Shape := ⟨1, ![384]⟩
abbrev S128 : Shape := ⟨1, ![128]⟩
abbrev S128x6 : Shape := ⟨2, ![128, 6]⟩
abbrev S6 : Shape := ⟨1, ![6]⟩
abbrev S64x64 : Shape := ⟨2, ![64, 64]⟩
abbrev S64 : Shape := ⟨1, ![64]⟩
abbrev S50000x384 : Shape := ⟨2, ![50000, 384]⟩
abbrev S1x384 : Shape := ⟨2, ![1, 384]⟩
abbrev S300000x64 : Shape := ⟨2, ![300000, 64]⟩
abbrev S10000x384 : Shape := ⟨2, ![10000, 384]⟩
abbrev S60000x64 : Shape := ⟨2, ![60000, 64]⟩
abbrev S50000x6x64 : Shape := ⟨3, ![50000, 6, 64]⟩
abbrev S_ : Shape := ⟨0, ![]⟩
abbrev S50000x64 : Shape := ⟨2, ![50000, 64]⟩
abbrev S10000x6x64 : Shape := ⟨3, ![10000, 6, 64]⟩
abbrev S10000x64 : Shape := ⟨2, ![10000, 64]⟩
abbrev S250000x1 : Shape := ⟨2, ![250000, 1]⟩
abbrev S250000x64 : Shape := ⟨2, ![250000, 64]⟩
abbrev S250000x128 : Shape := ⟨2, ![250000, 128]⟩
abbrev S1x128 : Shape := ⟨2, ![1, 128]⟩
abbrev S250000x6 : Shape := ⟨2, ![250000, 6]⟩
abbrev S1x6 : Shape := ⟨2, ![1, 6]⟩
abbrev S1500000 : Shape := ⟨1, ![1500000]⟩
abbrev S300000 : Shape := ⟨1, ![300000]⟩
abbrev S1500000x1 : Shape := ⟨2, ![1500000, 1]⟩
abbrev S60000 : Shape := ⟨1, ![60000]⟩
abbrev S60000x1 : Shape := ⟨2, ![60000, 1]⟩
abbrev S1500000x64 : Shape := ⟨2, ![1500000, 64]⟩
abbrev S300000x1 : Shape := ⟨2, ![300000, 1]⟩
abbrev S1x64 : Shape := ⟨2, ![1, 64]⟩

abbrev nBuf : Space → Nat
  | .hbm => 265
  | .vmem => 0
  | .smem => 0
  | _ => 0

abbrev hbmTy0_0 (i : Nat) : BufTy := match i % 128 with
  | 0 => ⟨S50000x128, .f32⟩
  | 1 => ⟨S10000x128, .f32⟩
  | 2 => ⟨S250000, .i32⟩
  | 3 => ⟨S250000, .i32⟩
  | 4 => ⟨S50000, .i32⟩
  | 5 => ⟨S10000, .i32⟩
  | 6 => ⟨S128x384, .f32⟩
  | 7 => ⟨S384, .f32⟩
  | 8 => ⟨S128, .f32⟩
  | 9 => ⟨S128, .f32⟩
  | 10 => ⟨S128x6, .f32⟩
  | 11 => ⟨S6, .f32⟩
  | 12 => ⟨S64x64, .f32⟩
  | 13 => ⟨S64, .f32⟩
  | 14 => ⟨S64x64, .f32⟩
  | 15 => ⟨S64, .f32⟩
  | 16 => ⟨S50000x384, .f32⟩
  | 17 => ⟨S1x384, .f32⟩
  | 18 => ⟨S50000x384, .f32⟩
  | 19 => ⟨S50000x384, .f32⟩
  | 20 => ⟨S300000x64, .f32⟩
  | 21 => ⟨S10000x384, .f32⟩
  | 22 => ⟨S1x384, .f32⟩
  | 23 => ⟨S10000x384, .f32⟩
  | 24 => ⟨S10000x384, .f32⟩
  | 25 => ⟨S60000x64, .f32⟩
  | 26 => ⟨S50000x6x64, .f32⟩
  | 27 => ⟨S_, .f32⟩
  | 28 => ⟨S50000x64, .f32⟩
  | 29 => ⟨S_, .f32⟩
  | 30 => ⟨S50000x64, .f32⟩
  | 31 => ⟨S50000x64, .f32⟩
  | 32 => ⟨S10000x6x64, .f32⟩
  | 33 => ⟨S_, .f32⟩
  | 34 => ⟨S10000x64, .f32⟩
  | 35 => ⟨S_, .f32⟩
  | 36 => ⟨S10000x64, .f32⟩
  | 37 => ⟨S10000x64, .f32⟩
  | 38 => ⟨S_, .i32⟩
  | 39 => ⟨S250000, .i32⟩
  | 40 => ⟨S250000, .i1⟩
  | 41 => ⟨S_, .i32⟩
  | 42 => ⟨S250000, .i32⟩
  | 43 => ⟨S250000, .i32⟩
  | 44 => ⟨S250000, .i32⟩
  | 45 => ⟨S250000x1, .i32⟩
  | 46 => ⟨S250000x64, .f32⟩
  | 47 => ⟨S_, .i32⟩
  | 48 => ⟨S250000, .i32⟩
  | 49 => ⟨S250000, .i1⟩
  | 50 => ⟨S_, .i32⟩
  | 51 => ⟨S250000, .i32⟩
  | 52 => ⟨S250000, .i32⟩
  | 53 => ⟨S250000, .i32⟩
  | 54 => ⟨S250000x1, .i32⟩
  | 55 => ⟨S250000x64, .f32⟩
  | 56 => ⟨S250000x128, .f32⟩
  | 57 => ⟨S_, .f32⟩
  | 58 => ⟨S250000, .f32⟩
  | 59 => ⟨S250000x1, .f32⟩
  | 60 => ⟨S_, .f32⟩
  | 61 => ⟨S250000x1, .f32⟩
  | 62 => ⟨S250000x1, .f32⟩
  | 63 => ⟨S250000x128, .f32⟩
  | 64 => ⟨S250000x128, .f32⟩
  | 65 => ⟨S250000x128, .f32⟩
  | 66 => ⟨S_, .f32⟩
  | 67 => ⟨S250000, .f32⟩
  | 68 => ⟨S250000x1, .f32⟩
  | 69 => ⟨S_, .f32⟩
  | 70 => ⟨S250000x1, .f32⟩
  | 71 => ⟨S250000x1, .f32⟩
  | 72 => ⟨S250000x128, .f32⟩
  | 73 => ⟨S250000x128, .f32⟩
  | 74 => ⟨S_, .f32⟩
  | 75 => ⟨S250000x1, .f32⟩
  | 76 => ⟨S250000x1, .f32⟩
  | 77 => ⟨S250000x1, .f32⟩
  | 78 => ⟨S250000x128, .f32⟩
  | 79 => ⟨S250000x128, .f32⟩
  | 80 => ⟨S1x128, .f32⟩
  | 81 => ⟨S250000x128, .f32⟩
  | 82 => ⟨S250000x128, .f32⟩
  | 83 => ⟨S1x128, .f32⟩
  | 84 => ⟨S250000x128, .f32⟩
  | 85 => ⟨S250000x128, .f32⟩
  | 86 => ⟨S250000x6, .f32⟩
  | 87 => ⟨S1x6, .f32⟩
  | 88 => ⟨S250000x6, .f32⟩
  | 89 => ⟨S250000x6, .f32⟩
  | 90 => ⟨S250000x6, .f32⟩
  | 91 => ⟨S250000x6, .f32⟩
  | 92 => ⟨S_, .f32⟩
  | 93 => ⟨S250000x6, .f32⟩
  | 94 => ⟨S250000x6, .f32⟩
  | 95 => ⟨S_, .f32⟩
  | 96 => ⟨S250000x6, .f32⟩
  | 97 => ⟨S250000x6, .f32⟩
  | 98 => ⟨S6, .i32⟩
  | 99 => ⟨S250000x1, .i32⟩
  | 100 => ⟨S_, .i32⟩
  | 101 => ⟨S250000x1, .i32⟩
  | 102 => ⟨S250000x1, .i32⟩
  | 103 => ⟨S1x6, .i32⟩
  | 104 => ⟨S250000x6, .i32⟩
  | 105 => ⟨S250000x6, .i32⟩
  | 106 => ⟨S250000x6, .i32⟩
  | 107 => ⟨S1500000, .i32⟩
  | 108 => ⟨S250000x1, .i32⟩
  | 109 => ⟨S_, .i32⟩
  | 110 => ⟨S250000x1, .i32⟩
  | 111 => ⟨S250000x1, .i32⟩
  | 112 => ⟨S1x6, .i32⟩
  | 113 => ⟨S250000x6, .i32⟩
  | 114 => ⟨S250000x6, .i32⟩
  | 115 => ⟨S250000x6, .i32⟩
  | 116 => ⟨S1500000, .i32⟩
  | 117 => ⟨S1500000, .f32⟩
  | 118 => ⟨S_, .f32⟩
  | 119 => ⟨S1500000, .f32⟩
  | 120 => ⟨S_, .f32⟩
  | 121 => ⟨S300000, .f32⟩
  | 122 => ⟨S1500000x1, .i32⟩
  | 123 => ⟨S300000, .f32⟩
  | 124 => ⟨S_, .f32⟩
  | 125 => ⟨S300000, .f32⟩
  | 126 => ⟨S300000, .i1⟩
  | 127 => ⟨S_, .f32⟩
  | _ => ⟨S50000x128, .f32⟩

abbrev hbmTy0_1 (i : Nat) : BufTy := match i % 128 with
  | 0 => ⟨S300000, .f32⟩
  | 1 => ⟨S300000, .f32⟩
  | 2 => ⟨S_, .f32⟩
  | 3 => ⟨S_, .f32⟩
  | 4 => ⟨S300000, .f32⟩
  | 5 => ⟨S300000, .f32⟩
  | 6 => ⟨S_, .f32⟩
  | 7 => ⟨S60000, .f32⟩
  | 8 => ⟨S1500000x1, .i32⟩
  | 9 => ⟨S60000, .f32⟩
  | 10 => ⟨S_, .f32⟩
  | 11 => ⟨S60000, .f32⟩
  | 12 => ⟨S60000, .i1⟩
  | 13 => ⟨S_, .f32⟩
  | 14 => ⟨S60000, .f32⟩
  | 15 => ⟨S60000, .f32⟩
  | 16 => ⟨S_, .f32⟩
  | 17 => ⟨S_, .f32⟩
  | 18 => ⟨S60000, .f32⟩
  | 19 => ⟨S60000, .f32⟩
  | 20 => ⟨S300000x64, .f32⟩
  | 21 => ⟨S60000x1, .f32⟩
  | 22 => ⟨S1500000x1, .f32⟩
  | 23 => ⟨S_, .i32⟩
  | 24 => ⟨S1500000, .i32⟩
  | 25 => ⟨S1500000, .i1⟩
  | 26 => ⟨S_, .i32⟩
  | 27 => ⟨S1500000, .i32⟩
  | 28 => ⟨S1500000, .i32⟩
  | 29 => ⟨S1500000, .i32⟩
  | 30 => ⟨S1500000x1, .i32⟩
  | 31 => ⟨S1500000x64, .f32⟩
  | 32 => ⟨S1500000x64, .f32⟩
  | 33 => ⟨S1500000x64, .f32⟩
  | 34 => ⟨S_, .f32⟩
  | 35 => ⟨S60000x64, .f32⟩
  | 36 => ⟨S1500000x1, .i32⟩
  | 37 => ⟨S60000x64, .f32⟩
  | 38 => ⟨S60000x64, .f32⟩
  | 39 => ⟨S60000x64, .f32⟩
  | 40 => ⟨S300000x1, .f32⟩
  | 41 => ⟨S1500000x1, .f32⟩
  | 42 => ⟨S_, .i32⟩
  | 43 => ⟨S1500000, .i32⟩
  | 44 => ⟨S1500000, .i1⟩
  | 45 => ⟨S_, .i32⟩
  | 46 => ⟨S1500000, .i32⟩
  | 47 => ⟨S1500000, .i32⟩
  | 48 => ⟨S1500000, .i32⟩
  | 49 => ⟨S1500000x1, .i32⟩
  | 50 => ⟨S1500000x64, .f32⟩
  | 51 => ⟨S1500000x64, .f32⟩
  | 52 => ⟨S1500000x64, .f32⟩
  | 53 => ⟨S_, .f32⟩
  | 54 => ⟨S300000x64, .f32⟩
  | 55 => ⟨S1500000x1, .i32⟩
  | 56 => ⟨S300000x64, .f32⟩
  | 57 => ⟨S300000x64, .f32⟩
  | 58 => ⟨S300000x64, .f32⟩
  | 59 => ⟨S300000x64, .f32⟩
  | 60 => ⟨S1x64, .f32⟩
  | 61 => ⟨S300000x64, .f32⟩
  | 62 => ⟨S300000x64, .f32⟩
  | 63 => ⟨S_, .f32⟩
  | 64 => ⟨S300000x64, .f32⟩
  | 65 => ⟨S300000x64, .i1⟩
  | 66 => ⟨S_, .f32⟩
  | 67 => ⟨S300000x64, .f32⟩
  | 68 => ⟨S300000x64, .i1⟩
  | 69 => ⟨S_, .f32⟩
  | 70 => ⟨S_, .f32⟩
  | 71 => ⟨S300000x64, .f32⟩
  | 72 => ⟨S300000x64, .f32⟩
  | 73 => ⟨S300000x64, .f32⟩
  | 74 => ⟨S_, .f32⟩
  | 75 => ⟨S300000x64, .f32⟩
  | 76 => ⟨S300000x64, .f32⟩
  | 77 => ⟨S300000x64, .f32⟩
  | 78 => ⟨S300000x64, .f32⟩
  | 79 => ⟨S60000x1, .f32⟩
  | 80 => ⟨S1500000x1, .f32⟩
  | 81 => ⟨S_, .i32⟩
  | 82 => ⟨S1500000, .i32⟩
  | 83 => ⟨S1500000, .i1⟩
  | 84 => ⟨S_, .i32⟩
  | 85 => ⟨S1500000, .i32⟩
  | 86 => ⟨S1500000, .i32⟩
  | 87 => ⟨S1500000, .i32⟩
  | 88 => ⟨S1500000x1, .i32⟩
  | 89 => ⟨S1500000x64, .f32⟩
  | 90 => ⟨S1500000x64, .f32⟩
  | 91 => ⟨S1500000x64, .f32⟩
  | 92 => ⟨S_, .f32⟩
  | 93 => ⟨S60000x64, .f32⟩
  | 94 => ⟨S1500000x1, .i32⟩
  | 95 => ⟨S60000x64, .f32⟩
  | 96 => ⟨S60000x64, .f32⟩
  | 97 => ⟨S60000x64, .f32⟩
  | 98 => ⟨S300000x1, .f32⟩
  | 99 => ⟨S1500000x1, .f32⟩
  | 100 => ⟨S_, .i32⟩
  | 101 => ⟨S1500000, .i32⟩
  | 102 => ⟨S1500000, .i1⟩
  | 103 => ⟨S_, .i32⟩
  | 104 => ⟨S1500000, .i32⟩
  | 105 => ⟨S1500000, .i32⟩
  | 106 => ⟨S1500000, .i32⟩
  | 107 => ⟨S1500000x1, .i32⟩
  | 108 => ⟨S1500000x64, .f32⟩
  | 109 => ⟨S1500000x64, .f32⟩
  | 110 => ⟨S1500000x64, .f32⟩
  | 111 => ⟨S_, .f32⟩
  | 112 => ⟨S300000x64, .f32⟩
  | 113 => ⟨S1500000x1, .i32⟩
  | 114 => ⟨S300000x64, .f32⟩
  | 115 => ⟨S300000x64, .f32⟩
  | 116 => ⟨S300000x64, .f32⟩
  | 117 => ⟨S300000x64, .f32⟩
  | 118 => ⟨S1x64, .f32⟩
  | 119 => ⟨S300000x64, .f32⟩
  | 120 => ⟨S300000x64, .f32⟩
  | 121 => ⟨S50000x384, .f32⟩
  | 122 => ⟨S_, .f32⟩
  | 123 => ⟨S50000x384, .f32⟩
  | 124 => ⟨S50000x384, .i1⟩
  | 125 => ⟨S_, .f32⟩
  | 126 => ⟨S50000x384, .f32⟩
  | 127 => ⟨S50000x384, .i1⟩
  | _ => ⟨S50000x128, .f32⟩

abbrev hbmTy0_2 (i : Nat) : BufTy := match i % 128 with
  | 0 => ⟨S_, .f32⟩
  | 1 => ⟨S_, .f32⟩
  | 2 => ⟨S50000x384, .f32⟩
  | 3 => ⟨S50000x384, .f32⟩
  | 4 => ⟨S50000x384, .f32⟩
  | 5 => ⟨S_, .f32⟩
  | 6 => ⟨S50000x384, .f32⟩
  | 7 => ⟨S50000x384, .f32⟩
  | 8 => ⟨S50000x384, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_cst_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_cst_19 : Ref sig .tc := ⟨.hbm, 130, rfl⟩
abbrev main_call0_v0 : Ref sig .tc := ⟨.hbm, 131, rfl⟩
abbrev main_call0_v1 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_cst_23 : Ref sig .tc := ⟨.hbm, 144, rfl⟩
abbrev main_call1_v0 : Ref sig .tc := ⟨.hbm, 145, rfl⟩
abbrev main_call1_v1 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_24 : Ref sig .tc := ⟨.hbm, 151, rfl⟩
abbrev main_v105 : Ref sig .tc := ⟨.hbm, 152, rfl⟩
abbrev main_v106 : Ref sig .tc := ⟨.hbm, 153, rfl⟩
abbrev main_c_25 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_26 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_27 : Ref sig .tc := ⟨.hbm, 170, rfl⟩
abbrev main_v121 : Ref sig .tc := ⟨.hbm, 171, rfl⟩
abbrev main_v122 : Ref sig .tc := ⟨.hbm, 172, rfl⟩
abbrev main_c_28 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_29 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_call2_cst : Ref sig .tc := ⟨.hbm, 191, rfl⟩
abbrev main_call2_v0 : Ref sig .tc := ⟨.hbm, 192, rfl⟩
abbrev main_call2_v1 : Ref sig .tc := ⟨.hbm, 193, rfl⟩
abbrev main_call2_cst_0 : Ref sig .tc := ⟨.hbm, 194, rfl⟩
abbrev main_call2_v2 : Ref sig .tc := ⟨.hbm, 195, rfl⟩
abbrev main_call2_v3 : Ref sig .tc := ⟨.hbm, 196, rfl⟩
abbrev main_call2_cst_1 : Ref sig .tc := ⟨.hbm, 197, rfl⟩
abbrev main_call2_call0_v0 : Ref sig .tc := ⟨.hbm, 198, rfl⟩
abbrev main_call2_call0_v1 : Ref sig .tc := ⟨.hbm, 199, rfl⟩
abbrev main_call2_v4 : Ref sig .tc := ⟨.hbm, 200, rfl⟩
abbrev main_call2_v5 : Ref sig .tc := ⟨.hbm, 201, rfl⟩
abbrev main_call2_cst_2 : Ref sig .tc := ⟨.hbm, 202, rfl⟩
abbrev main_call2_v6 : Ref sig .tc := ⟨.hbm, 203, rfl⟩
abbrev main_call2_v7 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_c_30 : Ref sig .tc := ⟨.hbm, 209, rfl⟩
abbrev main_v143 : Ref sig .tc := ⟨.hbm, 210, rfl⟩
abbrev main_v144 : Ref sig .tc := ⟨.hbm, 211, rfl⟩
abbrev main_c_31 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_32 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_c_33 : Ref sig .tc := ⟨.hbm, 228, rfl⟩
abbrev main_v159 : Ref sig .tc := ⟨.hbm, 229, rfl⟩
abbrev main_v160 : Ref sig .tc := ⟨.hbm, 230, rfl⟩
abbrev main_c_34 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_cst_35 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_call3_cst : Ref sig .tc := ⟨.hbm, 250, rfl⟩
abbrev main_call3_v0 : Ref sig .tc := ⟨.hbm, 251, rfl⟩
abbrev main_call3_v1 : Ref sig .tc := ⟨.hbm, 252, rfl⟩
abbrev main_call3_cst_0 : Ref sig .tc := ⟨.hbm, 253, rfl⟩
abbrev main_call3_v2 : Ref sig .tc := ⟨.hbm, 254, rfl⟩
abbrev main_call3_v3 : Ref sig .tc := ⟨.hbm, 255, rfl⟩
abbrev main_call3_cst_1 : Ref sig .tc := ⟨.hbm, 256, rfl⟩
abbrev main_call3_call0_v0 : Ref sig .tc := ⟨.hbm, 257, rfl⟩
abbrev main_call3_call0_v1 : Ref sig .tc := ⟨.hbm, 258, rfl⟩
abbrev main_call3_v4 : Ref sig .tc := ⟨.hbm, 259, rfl⟩
abbrev main_call3_v5 : Ref sig .tc := ⟨.hbm, 260, rfl⟩
abbrev main_call3_cst_2 : Ref sig .tc := ⟨.hbm, 261, rfl⟩
abbrev main_call3_v6 : Ref sig .tc := ⟨.hbm, 262, rfl⟩
abbrev main_call3_v7 : Ref sig .tc := ⟨.hbm, 263, rfl⟩
abbrev main_v178 : Ref sig .tc := ⟨.hbm, 264, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  shapeCasts_S50000x384_S300000x64 : S50000x384.ShapeCasts S300000x64
  bcast_S1x384_S10000x384_0_1 : S1x384.BroadcastsInDim S10000x384 (![0, 1] : Fin 2 → Fin S10000x384.rank)
  shapeCasts_S10000x384_S60000x64 : S10000x384.ShapeCasts S60000x64
  shapeCasts_S300000x64_S50000x6x64 : S300000x64.ShapeCasts S50000x6x64
  reducesTo_S50000x6x64_S50000x64_d1 : S50000x6x64.ReducesTo [1] S50000x64
  h_S_ : 0 < S_.numel
  bcast_S_S50000x64 : S_.BroadcastsInDim S50000x64 (![] : Fin 0 → Fin S50000x64.rank)
  shapeCasts_S60000x64_S10000x6x64 : S60000x64.ShapeCasts S10000x6x64
  reducesTo_S10000x6x64_S10000x64_d1 : S10000x6x64.ReducesTo [1] S10000x64
  bcast_S_S10000x64 : S_.BroadcastsInDim S10000x64 (![] : Fin 0 → Fin S10000x64.rank)
  bcast_S_S250000 : S_.BroadcastsInDim S250000 (![] : Fin 0 → Fin S250000.rank)
  bcast_S250000_S250000x1_0 : S250000.BroadcastsInDim S250000x1 (![0] : Fin 1 → Fin S250000x1.rank)
  concatenates_S250000x64_S250000x64_S250000x128_d1 : Shape.Concatenates [S250000x64, S250000x64] S250000x128 1
  reducesTo_S250000x128_S250000_d1 : S250000x128.ReducesTo [1] S250000
  bcast_S_S250000x1 : S_.BroadcastsInDim S250000x1 (![] : Fin 0 → Fin S250000x1.rank)
  bcast_S250000x1_S250000x128_0_1 : S250000x1.BroadcastsInDim S250000x128 (![0, 1] : Fin 2 → Fin S250000x128.rank)
  bcast_S128_S1x128_1 : S128.BroadcastsInDim S1x128 (![1] : Fin 1 → Fin S1x128.rank)
  bcast_S1x128_S250000x128_0_1 : S1x128.BroadcastsInDim S250000x128 (![0, 1] : Fin 2 → Fin S250000x128.rank)
  bcast_S6_S1x6_1 : S6.BroadcastsInDim S1x6 (![1] : Fin 1 → Fin S1x6.rank)
  bcast_S1x6_S250000x6_0_1 : S1x6.BroadcastsInDim S250000x6 (![0, 1] : Fin 2 → Fin S250000x6.rank)
  bcast_S_S250000x6 : S_.BroadcastsInDim S250000x6 (![] : Fin 0 → Fin S250000x6.rank)
  bcast_S250000x1_S250000x6_0_1 : S250000x1.BroadcastsInDim S250000x6 (![0, 1] : Fin 2 → Fin S250000x6.rank)
  shapeCasts_S250000x6_S1500000 : S250000x6.ShapeCasts S1500000
  bcast_S_S1500000 : S_.BroadcastsInDim S1500000 (![] : Fin 0 → Fin S1500000.rank)
  bcast_S_S300000 : S_.BroadcastsInDim S300000 (![] : Fin 0 → Fin S300000.rank)
  bcast_S1500000_S1500000x1_0 : S1500000.BroadcastsInDim S1500000x1 (![0] : Fin 1 → Fin S1500000x1.rank)
  bcast_S_S60000 : S_.BroadcastsInDim S60000 (![] : Fin 0 → Fin S60000.rank)
  bcast_S60000_S60000x1_0 : S60000.BroadcastsInDim S60000x1 (![0] : Fin 1 → Fin S60000x1.rank)
  bcast_S1500000x1_S1500000x64_0_1 : S1500000x1.BroadcastsInDim S1500000x64 (![0, 1] : Fin 2 → Fin S1500000x64.rank)
  bcast_S_S60000x64 : S_.BroadcastsInDim S60000x64 (![] : Fin 0 → Fin S60000x64.rank)
  bcast_S60000x1_S60000x64_0_1 : S60000x1.BroadcastsInDim S60000x64 (![0, 1] : Fin 2 → Fin S60000x64.rank)
  bcast_S300000_S300000x1_0 : S300000.BroadcastsInDim S300000x1 (![0] : Fin 1 → Fin S300000x1.rank)
  bcast_S_S300000x64 : S_.BroadcastsInDim S300000x64 (![] : Fin 0 → Fin S300000x64.rank)
  bcast_S300000x1_S300000x64_0_1 : S300000x1.BroadcastsInDim S300000x64 (![0, 1] : Fin 2 → Fin S300000x64.rank)
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  shapeCasts_S300000x64_S50000x384 : S300000x64.ShapeCasts S50000x384
  bcast_S_S50000x384 : S_.BroadcastsInDim S50000x384 (![] : Fin 0 → Fin S50000x384.rank)
  dot_S50000x128_S128x384_S50000x384_1_0_0_1_n_n_wf : DotDims.WF S50000x128 S128x384 S50000x384 [1] [0] [0] [1] [] []
  dot_S10000x128_S128x384_S10000x384_1_0_0_1_n_n_wf : DotDims.WF S10000x128 S128x384 S10000x384 [1] [0] [0] [1] [] []
  gather_S50000x64_S250000x1_S250000x64_1_0_n_n_0_1_164_wf : GatherDims.WF S50000x64 S250000x1 S250000x64 [1] [0] [] [0] [] 1 ![1, 64]
  gather_S10000x64_S250000x1_S250000x64_1_0_n_n_0_1_164_wf : GatherDims.WF S10000x64 S250000x1 S250000x64 [1] [0] [] [0] [] 1 ![1, 64]
  dot_S250000x128_S128x6_S250000x6_1_0_0_1_n_n_wf : DotDims.WF S250000x128 S128x6 S250000x6 [1] [0] [0] [1] [] []
  scatter_S300000_S1500000x1_S1500000_n_0_0_1_wf : ScatterDims.WF S300000 S1500000x1 S1500000 [] [0] [0] 1
  scatter_S60000_S1500000x1_S1500000_n_0_0_1_wf : ScatterDims.WF S60000 S1500000x1 S1500000 [] [0] [0] 1
  dot_S300000x64_S64x64_S300000x64_1_0_0_1_n_n_wf : DotDims.WF S300000x64 S64x64 S300000x64 [1] [0] [0] [1] [] []
  gather_S300000x64_S1500000x1_S1500000x64_1_0_n_n_0_1_164_wf : GatherDims.WF S300000x64 S1500000x1 S1500000x64 [1] [0] [] [0] [] 1 ![1, 64]
  scatter_S60000x64_S1500000x1_S1500000x64_1_0_0_1_wf : ScatterDims.WF S60000x64 S1500000x1 S1500000x64 [1] [0] [0] 1
  gather_S60000x64_S1500000x1_S1500000x64_1_0_n_n_0_1_164_wf : GatherDims.WF S60000x64 S1500000x1 S1500000x64 [1] [0] [] [0] [] 1 ![1, 64]
  scatter_S300000x64_S1500000x1_S1500000x64_1_0_0_1_wf : ScatterDims.WF S300000x64 S1500000x1 S1500000x64 [1] [0] [0] 1

variable [Facts₀]

def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def gather_S50000x64_S250000x1_S250000x64_1_0_n_n_0_1_164 : GatherDims S50000x64 S250000x1 S250000x64 where
  offsetDims := [1]
  collapsedSliceDims := [0]
  operandBatchingDims := []
  startIndicesBatchingDims := []
  startIndexMap := [0]
  indexVectorDim := 1
  sliceSizes := ![1, 64]
  wf := gather_S50000x64_S250000x1_S250000x64_1_0_n_n_0_1_164_wf
def gather_S10000x64_S250000x1_S250000x64_1_0_n_n_0_1_164 : GatherDims S10000x64 S250000x1 S250000x64 where
  offsetDims := [1]
  collapsedSliceDims := [0]
  operandBatchingDims := []
  startIndicesBatchingDims := []
  startIndexMap := [0]
  indexVectorDim := 1
  sliceSizes := ![1, 64]
  wf := gather_S10000x64_S250000x1_S250000x64_1_0_n_n_0_1_164_wf
def dot_S250000x128_S128x6_S250000x6_1_0_0_1_n_n : DotDims S250000x128 S128x6 S250000x6 where
  lhsContracting := [1]
  rhsContracting := [0]
  lhsNonContracting := [0]
  rhsNonContracting := [1]
  lhsBatch := []
  rhsBatch := []
  wf := dot_S250000x128_S128x6_S250000x6_1_0_0_1_n_n_wf
def scatter_S300000_S1500000x1_S1500000_n_0_0_1 : ScatterDims S300000 S1500000x1 S1500000 where
  updateWindowDims := []
  insertedWindowDims := [0]
  scatterDimsToOperandDims := [0]
  indexVectorDim := 1
  wf := scatter_S300000_S1500000x1_S1500000_n_0_0_1_wf
def scatter_S60000_S1500000x1_S1500000_n_0_0_1 : ScatterDims S60000 S1500000x1 S1500000 where
  updateWindowDims := []
  insertedWindowDims := [0]
  scatterDimsToOperandDims := [0]
  indexVectorDim := 1
  wf := scatter_S60000_S1500000x1_S1500000_n_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S300000x64_S1500000x1_S1500000x64_1_0_n_n_0_1_164 : GatherDims S300000x64 S1500000x1 S1500000x64 where
  offsetDims := [1]
  collapsedSliceDims := [0]
  operandBatchingDims := []
  startIndicesBatchingDims := []
  startIndexMap := [0]
  indexVectorDim := 1
  sliceSizes := ![1, 64]
  wf := gather_S300000x64_S1500000x1_S1500000x64_1_0_n_n_0_1_164_wf
def scatter_S60000x64_S1500000x1_S1500000x64_1_0_0_1 : ScatterDims S60000x64 S1500000x1 S1500000x64 where
  updateWindowDims := [1]
  insertedWindowDims := [0]
  scatterDimsToOperandDims := [0]
  indexVectorDim := 1
  wf := scatter_S60000x64_S1500000x1_S1500000x64_1_0_0_1_wf
def gather_S60000x64_S1500000x1_S1500000x64_1_0_n_n_0_1_164 : GatherDims S60000x64 S1500000x1 S1500000x64 where
  offsetDims := [1]
  collapsedSliceDims := [0]
  operandBatchingDims := []
  startIndicesBatchingDims := []
  startIndexMap := [0]
  indexVectorDim := 1
  sliceSizes := ![1, 64]
  wf := gather_S60000x64_S1500000x1_S1500000x64_1_0_n_n_0_1_164_wf
def scatter_S300000x64_S1500000x1_S1500000x64_1_0_0_1 : ScatterDims S300000x64 S1500000x1 S1500000x64 where
  updateWindowDims := [1]
  insertedWindowDims := [0]
  scatterDimsToOperandDims := [0]
  indexVectorDim := 1
  wf := scatter_S300000x64_S1500000x1_S1500000x64_1_0_0_1_wf

class Facts : Prop extends Facts₀ where

variable [Facts]
-- ==== Proof.KerRun.lean ====
/-
  The idealized kernel program's run with its result named: every weakly fair execution of the entry function
  terminates, nothing faulting, the sixteen argument arrays end as launched, and the result array ends at the contents
  the run's last boundary gives it — the fold of the host operations and of the eight regions' write-backs from the
  launch memory, read at the result buffer. The run is the launch over the program's segments; only the post differs
  from the frame statement: one more buffer is read off the final thread state.
-/
import proofs.«159071_j31842887533297_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v140) = W19 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v140 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c)⟩)

end Cert.KernelIdeal.Run

end
-- ==== Proof.Carry.lean ====
/-
  What a transition of the idealized kernel program leaves alone. The program's run passes nineteen boundaries: a
  stretch of host operations rewrites exactly its operations' result buffers, and a region rewrites exactly its output
  array (an input array is read through its window and ends as entered; a buffer that is none of the region's arrays is
  not touched). So a buffer outside a transition's list has the same contents on both sides of it: keep0 … keep18,
  one per transition, over the lists written0 … written18.
-/
import proofs.«159071_j31842887533297_2_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

/-- A stretch of host operations whose result buffers all lie in the list L leaves every buffer outside L alone. -/
theorem host_keep (ops : List (HloOp τ sig (Elt F))) (V : Valuation τ sig (Elt F)) (L : List (Ref sig .tc))
    (hW : ops.Forall fun op => op.writes ⊆ (L.map (Proc.devRef (τ := τ) .tc)).toFinset) (b : Ref sig .tc) (hb : b ∉ L) :
    StableHlo.after ops V (Proc.devRef .tc b) = V (Proc.devRef .tc b) :=
  StableHlo.after_of_writes_sub ops V hW hb

/-- Membership of a literal buffer in the image of a literal list. -/
theorem mem_image {L : List (Ref sig .tc)} {x : Ref sig .tc} (h : x ∈ L) :
    (Proc.devRef (τ := τ) .tc x : DevRef τ sig) ∈ (L.map (Proc.devRef (τ := τ) .tc)).toFinset :=
  List.mem_toFinset.mpr (List.mem_map.mpr ⟨x, h, rfl⟩)

/-- The result buffers of the host operations of transition 0. -/
abbrev written0 : List (Ref sig .tc) := [main_v0]
theorem writes0 : (hostOps0 : List (HloOp τ sig (Elt F))).Forall fun op => op.writes ⊆ ((written0).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep0 (c : Dev nD) (b : Ref sig .tc) (hb : b ∉ written0) :
    W1 m ρ c (Proc.devRef .tc b) = W0 m ρ c (Proc.devRef .tc b) :=
  host_keep hostOps0 (W0 m ρ c) written0 writes0 b hb

/-- Region 0 rewrites its output array only. -/
abbrev written1 : List (Ref sig .tc) := [main_v1]
theorem keep1 (c : Dev nD) (b : Ref sig .tc) (hb : b ∉ written1) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd (List.mem_singleton.mpr rfl) hb

/-- The result buffers of the host operations of transition 2. -/
abbrev written2 : List (Ref sig .tc) := [main_v2]
theorem writes2 : (hostOps1 : List (HloOp τ sig (Elt F))).Forall fun op => op.writes ⊆ ((written2).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep2 (c : Dev nD) (b : Ref sig .tc) (hb : b ∉ written2) :
    W3 m ρ c (Proc.devRef .tc b) = W2 m ρ c (Proc.devRef .tc b) :=
  host_keep hostOps1 (W2 m ρ c) written2 writes2 b hb

/-- Region 1 rewrites its output array only. -/
abbrev written3 : List (Ref sig .tc) := [main_v3]
theorem keep3 (c : Dev nD) (b : Ref sig .tc) (hb : b ∉ written3) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd (List.mem_singleton.mpr rfl) hb

/-- The result buffers of the host operations of transition 4. -/
abbrev written4 : List (Ref sig .tc) := [main_v4, main_v5, main_v6, main_cst, main_v7, main_cst_0, main_v8, main_v9, main_v10, main_cst_1, main_v11, main_cst_2, main_v12, main_v13, main_c, main_v14, main_v15, main_c_3, main_v16, main_v17, main_v18, main_v19, main_v20, main_c_4, main_v21, main_v22, main_c_5, main_v23, main_v24, main_v25, main_v26, main_v27, main_v28, main_v29, main_v30, main_v31]
theorem writes4 : (hostOps2 : List (HloOp τ sig (Elt F))).Forall fun op => op.writes ⊆ ((written4).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep4 (c : Dev nD) (b : Ref sig .tc) (hb : b ∉ written4) :
    W5 m ρ c (Proc.devRef .tc b) = W4 m ρ c (Proc.devRef .tc b) :=
  host_keep hostOps2 (W4 m ρ c) written4 writes4 b hb

/-- Region 2 rewrites its output array only. -/
abbrev written5 : List (Ref sig .tc) := [main_v32]
theorem keep5 (c : Dev nD) (b : Ref sig .tc) (hb : b ∉ written5) :
    W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact (W6_arr m ρ c 4).trans (((dat2 (V5 m ρ) c).arrAt_in 4 rfl _).trans (A_eq2 (V5 m ρ) c 4))
    | ⟨5, _⟩ => exact absurd (List.mem_singleton.mpr rfl) hb

/-- The result buffers of the host operations of transition 6. -/
abbrev written6 : List (Ref sig .tc) := [main_v33, main_v34, main_c_6, main_v35, main_v36, main_v37, main_v38, main_v39, main_v40, main_v41, main_v42, main_c_7, main_v43, main_v44, main_v45, main_v46, main_v47, main_v48, main_v49, main_v50, main_cst_8, main_v51, main_cst_9, main_v52, main_v53, main_v54, main_cst_10, main_v55, main_v56, main_cst_11, main_v57, main_v58, main_cst_12]
theorem writes6 : (hostOps3 : List (HloOp τ sig (Elt F))).Forall fun op => op.writes ⊆ ((written6).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep6 (c : Dev nD) (b : Ref sig .tc) (hb : b ∉ written6) :
    W7 m ρ c (Proc.devRef .tc b) = W6 m ρ c (Proc.devRef .tc b) :=
  host_keep hostOps3 (W6 m ρ c) written6 writes6 b hb

/-- The result buffers of the host operations of transition 7. -/
abbrev written7 : List (Ref sig .tc) := [main_call0_v0, main_call0_v1, main_v59]
theorem writes7 : (hostOps3_1 : List (HloOp τ sig (Elt F))).Forall fun op => op.writes ⊆ ((written7).map (Proc.devRef (τ := τ) .tc)).toFinset := by
  simp only [hostOps3_1, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep7 (c : Dev nD) (b : Ref sig .tc) (hb : b ∉ written7) :
    W8 m ρ c (Proc.devRef .tc b) = W7 m ρ c (Proc.devRef .tc b) :=
  host_keep hostOps3_1 (W7 m ρ c) written7 writes7 b hb

/-- The result buffers of the host operations of transition 8. -/
abbrev written8 : List (Ref sig .tc) := [main_cst_13, main_v60, main_v61, main_v62, main_cst_14, main_v63, main_v64, main_cst_15, main_v65, main_v66, main_cst_16]
theorem writes8 : (hostOps3_2 : List (HloOp τ sig (Elt F))).Forall fun op => op.writes ⊆ ((written8).map (Proc.devRef (τ := τ) .tc)).toFinset := by
  simp only [hostOps3_2, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep8 (c : Dev nD) (b : Ref sig .tc) (hb : b ∉ written8) :
    W9 m ρ c (Proc.devRef .tc b) = W8 m ρ c (Proc.devRef .tc b) :=
  host_keep hostOps3_2 (W8 m ρ c) written8 writes8 b hb

/-- The result buffers of the host operations of transition 9. -/
abbrev written9 : List (Ref sig .tc) := [main_call1_v0, main_call1_v1, main_v67]
theorem writes9 : (hostOps3_3 : List (HloOp τ sig (Elt F))).Forall fun op => op.writes ⊆ ((written9).map (Proc.devRef (τ := τ) .tc)).toFinset := by
  simp only [hostOps3_3, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep9 (c : Dev nD) (b : Ref sig .tc) (hb : b ∉ written9) :
    W10 m ρ c (Proc.devRef .tc b) = W9 m ρ c (Proc.devRef .tc b) :=
  host_keep hostOps3_3 (W9 m ρ c) written9 writes9 b hb

/-- The result buffers of the host operations of transition 10. -/
abbrev written10 : List (Ref sig .tc) := [main_cst_17, main_v68]
theorem writes10 : (hostOps3_4 : List (HloOp τ sig (Elt F))).Forall fun op => op.writes ⊆ ((written10).map (Proc.devRef (τ := τ) .tc)).toFinset := by
  simp only [hostOps3_4, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep10 (c : Dev nD) (b : Ref sig .tc) (hb : b ∉ written10) :
    W11 m ρ c (Proc.devRef .tc b) = W10 m ρ c (Proc.devRef .tc b) :=
  host_keep hostOps3_4 (W10 m ρ c) written10 writes10 b hb

/-- Region 3 rewrites its output array only. -/
abbrev written11 : List (Ref sig .tc) := [main_v69]
theorem keep11 (c : Dev nD) (b : Ref sig .tc) (hb : b ∉ written11) :
    W12 m ρ c (Proc.devRef .tc b) = W11 m ρ c (Proc.devRef .tc b) := by
  by_cases h : ∀ w, Pipeline.arrRef spec3 w ≠ b
  · exact W12_of_ne m ρ c b h
  · push Not at h
    obtain ⟨w, rfl⟩ := h
    match w with
    | ⟨0, _⟩ => exact (W12_arr m ρ c 0).trans (((dat3 (V11 m ρ) c).arrAt_in 0 rfl _).trans (A_eq3 (V11 m ρ) c 0))
    | ⟨1, _⟩ => exact (W12_arr m ρ c 1).trans (((dat3 (V11 m ρ) c).arrAt_in 1 rfl _).trans (A_eq3 (V11 m ρ) c 1))
    | ⟨2, _⟩ => exact (W12_arr m ρ c 2).trans (((dat3 (V11 m ρ) c).arrAt_in 2 rfl _).trans (A_eq3 (V11 m ρ) c 2))
    | ⟨3, _⟩ => exact absurd (List.mem_singleton.mpr rfl) hb

/-- The result buffers of the host operations of transition 12. -/
abbrev written12 : List (Ref sig .tc) := [main_v70, main_v71, main_c_18, main_v72, main_v73, main_c_19, main_v74, main_v75, main_v76, main_v77, main_v78, main_v79, main_v80, main_cst_20, main_v81, main_v82, main_v83, main_v84, main_v85, main_v86, main_v87, main_c_21, main_v88, main_v89, main_c_22, main_v90, main_v91, main_v92, main_v93, main_v94, main_v95, main_v96, main_cst_23, main_v97, main_v98, main_v99, main_v100, main_v101, main_v102]
theorem writes12 : (hostOps4 : List (HloOp τ sig (Elt F))).Forall fun op => op.writes ⊆ ((written12).map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep12 (c : Dev nD) (b : Ref sig .tc) (hb : b ∉ written12) :
    W13 m ρ c (Proc.devRef .tc b) = W12 m ρ c (Proc.devRef .tc b) :=
  host_keep hostOps4 (W12 m ρ c) written12 writes12 b hb

/-- Region 4 rewrites its output array only. -/
abbrev written13 : List (Ref sig .tc) := [main_v103]
theorem keep13 (c : Dev nD) (b : Ref sig .tc) (hb : b ∉ written13) :
    W14 m ρ c (Proc.devRef .tc b) = W13 m ρ c (Proc.devRef .tc b) := by
  by_cases h : ∀ w, Pipeline.arrRef spec4 w ≠ b
  · exact W14_of_ne m ρ c b h
  · push Not at h
    obtain ⟨w, rfl⟩ := h
    match w with
    | ⟨0, _⟩ => exact (W14_arr m ρ c 0).trans (((dat4 (V13 m ρ) c).arrAt_in 0 rfl _).trans (A_eq4 (V13 m ρ) c 0))
    | ⟨1, _⟩ => exact (W14_arr m ρ c 1).trans (((dat4 (V13 m ρ) c).arrAt_in 1 rfl _).trans (A_eq4 (V13 m ρ) c 1))
    | ⟨2, _⟩ => exact (W14_arr m ρ c 2).trans (((dat4 (V13 m ρ) c).arrAt_in 2 rfl _).trans (A_eq4 (V13 m ρ) c 2))
    | ⟨3, _⟩ => exact absurd (List.mem_singleton.mpr rfl) hb

/-- Region 5 rewrites its output array only. -/
abbrev written14 : List (Ref sig .tc) := [main_v104]
theorem keep14 (c : Dev nD) (b : Ref sig .tc) (hb : b ∉ written14) :
    W15 m ρ c (Proc.devRef .tc b) = W14 m ρ c (Proc.devRef .tc b) := by
  by_cases h : ∀ w, Pipeline.arrRef spec5 w ≠ b
  · exact W15_of_ne m ρ c b h
  · push Not at h
    obtain ⟨w, rfl⟩ := h
    match w with
    | ⟨0, _⟩ => exact (W15_arr m ρ c 0).trans (((dat5 (V14 m ρ) c).arrAt_in 0 rfl _).trans (A_eq5 (V14 m ρ) c 0))
    | ⟨1, _⟩ => exact (W15_arr m ρ c 1).trans (((dat5 (V14 m ρ) c).arrAt_in 1 rfl _).trans (A_eq5 (V14 m ρ) c 1))
    | ⟨2, _⟩ => exact (W15_arr m ρ c 2).trans (((dat5 (V14 m ρ) c).arrAt_in 2 rfl _).trans (A_eq5 (V14 m ρ) c 2))
    | ⟨3, _⟩ => exact absurd (List.mem_singleton.mpr rfl) hb

/-- The result buffers of the host operations of transition 15. -/
abbrev written15 : List (Ref sig .tc) := [main_v105, main_v106, main_c_24, main_v107, main_v108, main_c_25, main_v109, main_v110, main_v111, main_v112, main_v113, main_v114, main_v115, main_cst_26, main_v116, main_v117, main_v118, main_v119, main_v120, main_v121, main_v122, main_c_27, main_v123, main_v124, main_c_28, main_v125, main_v126, main_v127, main_v128, main_v129, main_v130, main_v131, main_cst_29, main_v132, main_v133, main_v134, main_v135, main_v136, main_v137]
theorem writes15 : (hostOps6 : List (HloOp τ sig (Elt F))).Forall fun op => op.writes ⊆ ((written15).map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep15 (c : Dev nD) (b : Ref sig .tc) (hb : b ∉ written15) :
    W16 m ρ c (Proc.devRef .tc b) = W15 m ρ c (Proc.devRef .tc b) :=
  host_keep hostOps6 (W15 m ρ c) written15 writes15 b hb

/-- Region 6 rewrites its output array only. -/
abbrev written16 : List (Ref sig .tc) := [main_v138]
theorem keep16 (c : Dev nD) (b : Ref sig .tc) (hb : b ∉ written16) :
    W17 m ρ c (Proc.devRef .tc b) = W16 m ρ c (Proc.devRef .tc b) := by
  by_cases h : ∀ w, Pipeline.arrRef spec6 w ≠ b
  · exact W17_of_ne m ρ c b h
  · push Not at h
    obtain ⟨w, rfl⟩ := h
    match w with
    | ⟨0, _⟩ => exact (W17_arr m ρ c 0).trans (((dat6 (V16 m ρ) c).arrAt_in 0 rfl _).trans (A_eq6 (V16 m ρ) c 0))
    | ⟨1, _⟩ => exact (W17_arr m ρ c 1).trans (((dat6 (V16 m ρ) c).arrAt_in 1 rfl _).trans (A_eq6 (V16 m ρ) c 1))
    | ⟨2, _⟩ => exact (W17_arr m ρ c 2).trans (((dat6 (V16 m ρ) c).arrAt_in 2 rfl _).trans (A_eq6 (V16 m ρ) c 2))
    | ⟨3, _⟩ => exact absurd (List.mem_singleton.mpr rfl) hb

/-- The result buffers of the host operations of transition 17. -/
abbrev written17 : List (Ref sig .tc) := [main_v139]
theorem writes17 : (hostOps7 : List (HloOp τ sig (Elt F))).Forall fun op => op.writes ⊆ ((written17).map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact mem_image (by decide)
theorem keep17 (c : Dev nD) (b : Ref sig .tc) (hb : b ∉ written17) :
    W18 m ρ c (Proc.devRef .tc b) = W17 m ρ c (Proc.devRef .tc b) :=
  host_keep hostOps7 (W17 m ρ c) written17 writes17 b hb

/-- Region 7 rewrites its output array only. -/
abbrev written18 : List (Ref sig .tc) := [main_v140]
theorem keep18 (c : Dev nD) (b : Ref sig .tc) (hb : b ∉ written18) :
    W19 m ρ c (Proc.devRef .tc b) = W18 m ρ c (Proc.devRef .tc b) := by
  by_cases h : ∀ w, Pipeline.arrRef spec7 w ≠ b
  · exact W19_of_ne m ρ c b h
  · push Not at h
    obtain ⟨w, rfl⟩ := h
    match w with
    | ⟨0, _⟩ => exact (W19_arr m ρ c 0).trans (((dat7 (V18 m ρ) c).arrAt_in 0 rfl _).trans (A_eq7 (V18 m ρ) c 0))
    | ⟨1, _⟩ => exact absurd (List.mem_singleton.mpr rfl) hb

end Cert.KernelIdeal.Carry

end
-- ==== Proof.Stages.lean ====
/- GENERATED by: bun scratch/gen_ref_tables.js <unit directory> — the reference's computation cut into stages: each definition is the reference's own
   nested term for one value, from the values named as its parameters (scratch/stages.json lists the cuts). Definitions only. -/
import proofs.«159071_j31842887533297_2_alg».proof.Proof.Gen.ReferenceIdeal

noncomputable section

namespace Cert.Stages

open Cert.ReferenceIdeal Cert.ReferenceIdeal.Gen Idealize.ShloMosaic

variable {F : FTy → Type} [FloatOps F]

/-- A length-384 vector as a [1,384] row. -/
def rowVec384 (b : (⟨S384, .f32⟩ : BufTy).Contents (Elt F)) : (⟨S1x384, .f32⟩ : BufTy).Contents (Elt F) :=
  ((broadcastInDim S1x384 ![1] bcast_S384_S1x384_1 : (⟨S384, .f32⟩ : BufTy).Contents (Elt F) → (⟨S1x384, .f32⟩ : BufTy).Contents (Elt F)) b)

/-- A length-128 vector as a [1,128] row. -/
def rowVec128 (b : (⟨S128, .f32⟩ : BufTy).Contents (Elt F)) : (⟨S1x128, .f32⟩ : BufTy).Contents (Elt F) :=
  ((broadcastInDim S1x128 ![1] bcast_S128_S1x128_1 : (⟨S128, .f32⟩ : BufTy).Contents (Elt F) → (⟨S1x128, .f32⟩ : BufTy).Contents (Elt F)) b)

/-- A length-6 vector as a [1,6] row. -/
def rowVec6 (b : (⟨S6, .f32⟩ : BufTy).Contents (Elt F)) : (⟨S1x6, .f32⟩ : BufTy).Contents (Elt F) :=
  ((broadcastInDim S1x6 ![1] bcast_S6_S1x6_1 : (⟨S6, .f32⟩ : BufTy).Contents (Elt F) → (⟨S1x6, .f32⟩ : BufTy).Contents (Elt F)) b)

/-- A length-64 vector as a [1,64] row. -/
def rowVec64 (b : (⟨S64, .f32⟩ : BufTy).Contents (Elt F)) : (⟨S1x64, .f32⟩ : BufTy).Contents (Elt F) :=
  ((broadcastInDim S1x64 ![1] bcast_S64_S1x64_1 : (⟨S64, .f32⟩ : BufTy).Contents (Elt F) → (⟨S1x64, .f32⟩ : BufTy).Contents (Elt F)) b)

/-- x·W plus the row b1 added to every one of the 50000 rows. -/
def linRows50 (x : (⟨S50000x128, .f32⟩ : BufTy).Contents (Elt F)) (w : (⟨S128x384, .f32⟩ : BufTy).Contents (Elt F)) (b1 : (⟨S1x384, .f32⟩ : BufTy).Contents (Elt F)) : (⟨S50000x384, .f32⟩ : BufTy).Contents (Elt F) :=
  ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) x w) ((broadcastInDim S50000x384 ![0, 1] bcast_S1x384_S50000x384_0_1 : (⟨S1x384, .f32⟩ : BufTy).Contents (Elt F) → (⟨S50000x384, .f32⟩ : BufTy).Contents (Elt F)) b1))

/-- x·W plus the row b1 added to every one of the 10000 rows. -/
def linRows10 (x : (⟨S10000x128, .f32⟩ : BufTy).Contents (Elt F)) (w : (⟨S128x384, .f32⟩ : BufTy).Contents (Elt F)) (b1 : (⟨S1x384, .f32⟩ : BufTy).Contents (Elt F)) : (⟨S10000x384, .f32⟩ : BufTy).Contents (Elt F) :=
  ((addf : (⟨S10000x384, .f32⟩ : BufTy).Contents (Elt F) → (⟨S10000x384, .f32⟩ : BufTy).Contents (Elt F) → (⟨S10000x384, .f32⟩ : BufTy).Contents (Elt F)) (((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)) x w) ((broadcastInDim S10000x384 ![0, 1] bcast_S1x384_S10000x384_0_1 : (⟨S1x384, .f32⟩ : BufTy).Contents (Elt F) → (⟨S10000x384, .f32⟩ : BufTy).Contents (Elt F)) b1))

/-- The mean over the 6 stalk coordinates of a [50000,6,64] array. -/
def stalkMean50 (xs3 : (⟨S50000x6x64, .f32⟩ : BufTy).Contents (Elt F)) : (⟨S50000x64, .f32⟩ : BufTy).Contents (Elt F) :=
  ((Host.divf : (⟨S50000x64, .f32⟩ : BufTy).Contents (Elt F) → (⟨S50000x64, .f32⟩ : BufTy).Contents (Elt F) → (⟨S50000x64, .f32⟩ : BufTy).Contents (Elt F)) (((fun x v => Host.reduceAdd x v reducesTo_S50000x6x64_S50000x64_d1 h_S_) : (⟨S50000x6x64, .f32⟩ : BufTy).Contents (Elt F) → (⟨S_, .f32⟩ : BufTy).Contents (Elt F) → (⟨S50000x64, .f32⟩ : BufTy).Contents (Elt F)) xs3 (constant S_ .f32 0x00000000#32)) ((broadcastInDim S50000x64 ![] bcast_S_S50000x64 : (⟨S_, .f32⟩ : BufTy).Contents (Elt F) → (⟨S50000x64, .f32⟩ : BufTy).Contents (Elt F)) (constant S_ .f32 0x40C00000#32)))

/-- The mean over the 6 stalk coordinates of a [10000,6,64] array. -/
def stalkMean10 (es3 : (⟨S10000x6x64, .f32⟩ : BufTy).Contents (Elt F)) : (⟨S10000x64, .f32⟩ : BufTy).Contents (Elt F) :=
  ((Host.divf : (⟨S10000x64, .f32⟩ : BufTy).Contents (Elt F) → (⟨S10000x64, .f32⟩ : BufTy).Contents (Elt F) → (⟨S10000x64, .f32⟩ : BufTy).Contents (Elt F)) (((fun x v => Host.reduceAdd x v reducesTo_S10000x6x64_S10000x64_d1 h_S_) : (⟨S10000x6x64, .f32⟩ : BufTy).Contents (Elt F) → (⟨S_, .f32⟩ : BufTy).Contents (Elt F) → (⟨S10000x64, .f32⟩ : BufTy).Contents (Elt F)) es3 (constant S_ .f32 0x00000000#32)) ((broadcastInDim S10000x64 ![] bcast_S_S10000x64 : (⟨S_, .f32⟩ : BufTy).Contents (Elt F) → (⟨S10000x64, .f32⟩ : BufTy).Contents (Elt F)) (constant S_ .f32 0x40C00000#32)))

/-- Per incidence, the node's averaged features beside the hyperedge's: rows gathered at the (wrapped) indices, joined along the feature axis. -/
def feat (xa : (⟨S50000x64, .f32⟩ : BufTy).Contents (Elt F)) (ea : (⟨S10000x64, .f32⟩ : BufTy).Contents (Elt F)) (nidx : (⟨S250000, .i32⟩ : BufTy).Contents (Elt F)) (eidx : (⟨S250000, .i32⟩ : BufTy).Contents (Elt F)) : (⟨S250000x128, .f32⟩ : BufTy).Contents (Elt F) :=
  (((fun a b => concatenate S250000x128 1 [⟨S250000x64, a⟩, ⟨S250000x64, b⟩] concatenates_S250000x64_S250000x64_S250000x128_d1) : (⟨S250000x64, .f32⟩ : BufTy).Contents (Elt F) → (⟨S250000x64, .f32⟩ : BufTy).Contents (Elt F) → (⟨S250000x128, .f32⟩ : BufTy).Contents (Elt F)) (((fun x i => Host.gather gather_S50000x64_S250000x1_S250000x64_1_0_n_n_0_1_164 x i) : (⟨S50000x64, .f32⟩ : BufTy).Contents (Elt F) → (⟨S250000x1, .i32⟩ : BufTy).Contents (Elt F) → (⟨S250000x64, .f32⟩ : BufTy).Contents (Elt F)) xa ((broadcastInDim S250000x1 ![0] bcast_S250000_S250000x1_0 : (⟨S250000, .i32⟩ : BufTy).Contents (Elt F) → (⟨S250000x1, .i32⟩ : BufTy).Contents (Elt F)) ((select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)) ((cmpi .slt : (⟨S250000, .i32⟩ : BufTy).Contents (Elt F) → (⟨S250000, .i32⟩ : BufTy).Contents (Elt F) → (⟨S250000, .i1⟩ : BufTy).Contents (Elt F)) nidx ((broadcastInDim S250000 ![] bcast_S_S250000 : (⟨S_, .i32⟩ : BufTy).Contents (Elt F) → (⟨S250000, .i32⟩ : BufTy).Contents (Elt F)) (constantI S_ 32 0#32))) ((addi : (⟨S250000, .i32⟩ : BufTy).Contents (Elt F) → (⟨S250000, .i32⟩ : BufTy).Contents (Elt F) → (⟨S250000, .i32⟩ : BufTy).Contents (Elt F)) nidx ((broadcastInDim S250000 ![] bcast_S_S250000 : (⟨S_, .i32⟩ : BufTy).Contents (Elt F) → (⟨S250000, .i32⟩ : BufTy).Contents (Elt F)) (constantI S_ 32 50000#32))) nidx))) (((fun x i => Host.gather gather_S10000x64_S250000x1_S250000x64_1_0_n_n_0_1_164 x i) : (⟨S10000x64, .f32⟩ : BufTy).Contents (Elt F) → (⟨S250000x1, .i32⟩ : BufTy).Contents (Elt F) → (⟨S250000x64, .f32⟩ : BufTy).Contents (Elt F)) ea ((broadcastInDim S250000x1 ![0] bcast_S250000_S250000x1_0 : (⟨S250000, .i32⟩ : BufTy).Contents (Elt F) → (⟨S250000x1, .i32⟩ : BufTy).Contents (Elt F)) ((select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)) ((cmpi .slt : (⟨S250000, .i32⟩ : BufTy).Contents (Elt F) → (⟨S250000, .i32⟩ : BufTy).Contents (Elt F) → (⟨S250000, .i1⟩ : BufTy).Contents (Elt F)) eidx ((broadcastInDim S250000 ![] bcast_S_S250000 : (⟨S_, .i32⟩ : BufTy).Contents (Elt F) → (⟨S250000, .i32⟩ : BufTy).Contents (Elt F)) (constantI S_ 32 0#32))) ((addi : (⟨S250000, .i32⟩ : BufTy).Contents (Elt F) → (⟨S250000, .i32⟩ : BufTy).Contents (Elt F) → (⟨S250000, .i32⟩ : BufTy).Contents (Elt F)) eidx ((broadcastInDim S250000 ![] bcast_S_S250000 : (⟨S_, .i32⟩ : BufTy).Contents (Elt F) → (⟨S250000, .i32⟩ : BufTy).Contents (Elt F)) (constantI S_ 32 10000#32))) eidx))))

/-- Row-wise layer normalization with gain g1 and shift b1, times Ws, plus bs1, through 1/(1+exp(-·)). -/
def alphaRows (ft : (⟨S250000x128, .f32⟩ : BufTy).Contents (Elt F)) (g1 : (⟨S1x128, .f32⟩ : BufTy).Contents (Elt F)) (b1 : (⟨S1x128, .f32⟩ : BufTy).Contents (Elt F)) (ws : (⟨S128x6, .f32⟩ : BufTy).Contents (Elt F)) (bs1 : (⟨S1x6, .f32⟩ : BufTy).Contents (Elt F)) : (⟨S250000x6, .f32⟩ : BufTy).Contents (Elt F) :=
  ((Host.divf : (⟨S250000x6, .f32⟩ : BufTy).Contents (Elt F) → (⟨S250000x6, .f32⟩ : BufTy).Contents (Elt F) → (⟨S250000x6, .f32⟩ : BufTy).Contents (Elt F)) ((broadcastInDim S250000x6 ![] bcast_S_S250000x6 : (⟨S_, .f32⟩ : BufTy).Contents (Elt F) → (⟨S250000x6, .f32⟩ : BufTy).Contents (Elt F)) (constant S_ .f32 0x3F800000#32)) ((addf : (⟨S250000x6, .f32⟩ : BufTy).Contents (Elt F) → (⟨S250000x6, .f32⟩ : BufTy).Contents (Elt F) → (⟨S250000x6, .f32⟩ : BufTy).Contents (Elt F)) ((broadcastInDim S250000x6 ![] bcast_S_S250000x6 : (⟨S_, .f32⟩ : BufTy).Contents (Elt F) → (⟨S250000x6, .f32⟩ : BufTy).Contents (Elt F)) (constant S_ .f32 0x3F800000#32)) ((Host.exp : (⟨S250000x6, .f32⟩ : BufTy).Contents (Elt F) → (⟨S250000x6, .f32⟩ : BufTy).Contents (Elt F)) ((Host.negf : (⟨S250000x6, .f32⟩ : BufTy).Contents (Elt F) → (⟨S250000x6, .f32⟩ : BufTy).Contents (Elt F)) ((addf : (⟨S250000x6, .f32⟩ : BufTy).Contents (Elt F) → (⟨S250000x6, .f32⟩ : BufTy).Contents (Elt F) → (⟨S250000x6, .f32⟩ : BufTy).Contents (Elt F)) (((fun l r => Host.dotGeneral dot_S250000x128_S128x6_S250000x6_1_0_0_1_n_n none l r) : (⟨S250000x128, .f32⟩ : BufTy).Contents (Elt F) → (⟨S128x6, .f32⟩ : BufTy).Contents (Elt F) → (⟨S250000x6, .f32⟩ : BufTy).Contents (Elt F)) ((addf : (⟨S250000x128, .f32⟩ : BufTy).Contents (Elt F) → (⟨S250000x128, .f32⟩ : BufTy).Contents (Elt F) → (⟨S250000x128, .f32⟩ : BufTy).Contents (Elt F)) ((mulf : (⟨S250000x128, .f32⟩ : BufTy).Contents (Elt F) → (⟨S250000x128, .f32⟩ : BufTy).Contents (Elt F) → (⟨S250000x128, .f32⟩ : BufTy).Contents (Elt F)) ((mulf : (⟨S250000x128, .f32⟩ : BufTy).Contents (Elt F) → (⟨S250000x128, .f32⟩ : BufTy).Contents (Elt F) → (⟨S250000x128, .f32⟩ : BufTy).Contents (Elt F)) ((subf : (⟨S250000x128, .f32⟩ : BufTy).Contents (Elt F) → (⟨S250000x128, .f32⟩ : BufTy).Contents (Elt F) → (⟨S250000x128, .f32⟩ : BufTy).Contents (Elt F)) ft ((broadcastInDim S250000x128 ![0, 1] bcast_S250000x1_S250000x128_0_1 : (⟨S250000x1, .f32⟩ : BufTy).Contents (Elt F) → (⟨S250000x128, .f32⟩ : BufTy).Contents (Elt F)) ((Host.divf : (⟨S250000x1, .f32⟩ : BufTy).Contents (Elt F) → (⟨S250000x1, .f32⟩ : BufTy).Contents (Elt F) → (⟨S250000x1, .f32⟩ : BufTy).Contents (Elt F)) ((broadcastInDim S250000x1 ![0] bcast_S250000_S250000x1_0 : (⟨S250000, .f32⟩ : BufTy).Contents (Elt F) → (⟨S250000x1, .f32⟩ : BufTy).Contents (Elt F)) (((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)) ft (constant S_ .f32 0x00000000#32))) ((broadcastInDim S250000x1 ![] bcast_S_S250000x1 : (⟨S_, .f32⟩ : BufTy).Contents (Elt F) → (⟨S250000x1, .f32⟩ : BufTy).Contents (Elt F)) (constant S_ .f32 0x43000000#32))))) ((broadcastInDim S250000x128 ![0, 1] bcast_S250000x1_S250000x128_0_1 : (⟨S250000x1, .f32⟩ : BufTy).Contents (Elt F) → (⟨S250000x128, .f32⟩ : BufTy).Contents (Elt F)) ((Host.rsqrt : (⟨S250000x1, .f32⟩ : BufTy).Contents (Elt F) → (⟨S250000x1, .f32⟩ : BufTy).Contents (Elt F)) ((addf : (⟨S250000x1, .f32⟩ : BufTy).Contents (Elt F) → (⟨S250000x1, .f32⟩ : BufTy).Contents (Elt F) → (⟨S250000x1, .f32⟩ : BufTy).Contents (Elt F)) ((Host.divf : (⟨S250000x1, .f32⟩ : BufTy).Contents (Elt F) → (⟨S250000x1, .f32⟩ : BufTy).Contents (Elt F) → (⟨S250000x1, .f32⟩ : BufTy).Contents (Elt F)) ((broadcastInDim S250000x1 ![0] bcast_S250000_S250000x1_0 : (⟨S250000, .f32⟩ : BufTy).Contents (Elt F) → (⟨S250000x1, .f32⟩ : BufTy).Contents (Elt F)) (((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)) ((mulf : (⟨S250000x128, .f32⟩ : BufTy).Contents (Elt F) → (⟨S250000x128, .f32⟩ : BufTy).Contents (Elt F) → (⟨S250000x128, .f32⟩ : BufTy).Contents (Elt F)) ((subf : (⟨S250000x128, .f32⟩ : BufTy).Contents (Elt F) → (⟨S250000x128, .f32⟩ : BufTy).Contents (Elt F) → (⟨S250000x128, .f32⟩ : BufTy).Contents (Elt F)) ft ((broadcastInDim S250000x128 ![0, 1] bcast_S250000x1_S250000x128_0_1 : (⟨S250000x1, .f32⟩ : BufTy).Contents (Elt F) → (⟨S250000x128, .f32⟩ : BufTy).Contents (Elt F)) ((Host.divf : (⟨S250000x1, .f32⟩ : BufTy).Contents (Elt F) → (⟨S250000x1, .f32⟩ : BufTy).Contents (Elt F) → (⟨S250000x1, .f32⟩ : BufTy).Contents (Elt F)) ((broadcastInDim S250000x1 ![0] bcast_S250000_S250000x1_0 : (⟨S250000, .f32⟩ : BufTy).Contents (Elt F) → (⟨S250000x1, .f32⟩ : BufTy).Contents (Elt F)) (((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)) ft (constant S_ .f32 0x00000000#32))) ((broadcastInDim S250000x1 ![] bcast_S_S250000x1 : (⟨S_, .f32⟩ : BufTy).Contents (Elt F) → (⟨S250000x1, .f32⟩ : BufTy).Contents (Elt F)) (constant S_ .f32 0x43000000#32))))) ((subf : (⟨S250000x128, .f32⟩ : BufTy).Contents (Elt F) → (⟨S250000x128, .f32⟩ : BufTy).Contents (Elt F) → (⟨S250000x128, .f32⟩ : BufTy).Contents (Elt F)) ft ((broadcastInDim S250000x128 ![0, 1] bcast_S250000x1_S250000x128_0_1 : (⟨S250000x1, .f32⟩ : BufTy).Contents (Elt F) → (⟨S250000x128, .f32⟩ : BufTy).Contents (Elt F)) ((Host.divf : (⟨S250000x1, .f32⟩ : BufTy).Contents (Elt F) → (⟨S250000x1, .f32⟩ : BufTy).Contents (Elt F) → (⟨S250000x1, .f32⟩ : BufTy).Contents (Elt F)) ((broadcastInDim S250000x1 ![0] bcast_S250000_S250000x1_0 : (⟨S250000, .f32⟩ : BufTy).Contents (Elt F) → (⟨S250000x1, .f32⟩ : BufTy).Contents (Elt F)) (((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)) ft (constant S_ .f32 0x00000000#32))) ((broadcastInDim S250000x1 ![] bcast_S_S250000x1 : (⟨S_, .f32⟩ : BufTy).Contents (Elt F) → (⟨S250000x1, .f32⟩ : BufTy).Contents (Elt F)) (constant S_ .f32 0x43000000#32)))))) (constant S_ .f32 0x00000000#32))) ((broadcastInDim S250000x1 ![] bcast_S_S250000x1 : (⟨S_, .f32⟩ : BufTy).Contents (Elt F) → (⟨S250000x1, .f32⟩ : BufTy).Contents (Elt F)) (constant S_ .f32 0x43000000#32))) ((broadcastInDim S250000x1 ![] bcast_S_S250000x1 : (⟨S_, .f32⟩ : BufTy).Contents (Elt F) → (⟨S250000x1, .f32⟩ : BufTy).Contents (Elt F)) (constant S_ .f32 0x3727C5AC#32)))))) ((broadcastInDim S250000x128 ![0, 1] bcast_S1x128_S250000x128_0_1 : (⟨S1x128, .f32⟩ : BufTy).Contents (Elt F) → (⟨S250000x128, .f32⟩ : BufTy).Contents (Elt F)) g1)) ((broadcastInDim S250000x128 ![0, 1] bcast_S1x128_S250000x128_0_1 : (⟨S1x128, .f32⟩ : BufTy).Contents (Elt F) → (⟨S250000x128, .f32⟩ : BufTy).Contents (Elt F)) b1)) ws) ((broadcastInDim S250000x6 ![0, 1] bcast_S1x6_S250000x6_0_1 : (⟨S1x6, .f32⟩ : BufTy).Contents (Elt F) → (⟨S250000x6, .f32⟩ : BufTy).Contents (Elt F)) bs1))))))

/-- Each index i expanded to the six stalk indices 6i, …, 6i+5, flattened. -/
def expandIdx (idx : (⟨S250000, .i32⟩ : BufTy).Contents (Elt F)) : (⟨S1500000, .i32⟩ : BufTy).Contents (Elt F) :=
  (shapeCast S1500000 ((addi : (⟨S250000x6, .i32⟩ : BufTy).Contents (Elt F) → (⟨S250000x6, .i32⟩ : BufTy).Contents (Elt F) → (⟨S250000x6, .i32⟩ : BufTy).Contents (Elt F)) ((broadcastInDim S250000x6 ![0, 1] bcast_S250000x1_S250000x6_0_1 : (⟨S250000x1, .i32⟩ : BufTy).Contents (Elt F) → (⟨S250000x6, .i32⟩ : BufTy).Contents (Elt F)) ((muli : (⟨S250000x1, .i32⟩ : BufTy).Contents (Elt F) → (⟨S250000x1, .i32⟩ : BufTy).Contents (Elt F) → (⟨S250000x1, .i32⟩ : BufTy).Contents (Elt F)) ((broadcastInDim S250000x1 ![0] bcast_S250000_S250000x1_0 : (⟨S250000, .i32⟩ : BufTy).Contents (Elt F) → (⟨S250000x1, .i32⟩ : BufTy).Contents (Elt F)) idx) ((broadcastInDim S250000x1 ![] bcast_S_S250000x1 : (⟨S_, .i32⟩ : BufTy).Contents (Elt F) → (⟨S250000x1, .i32⟩ : BufTy).Contents (Elt F)) (constantI S_ 32 6#32)))) ((broadcastInDim S250000x6 ![0, 1] bcast_S1x6_S250000x6_0_1 : (⟨S1x6, .i32⟩ : BufTy).Contents (Elt F) → (⟨S250000x6, .i32⟩ : BufTy).Contents (Elt F)) ((broadcastInDim S1x6 ![1] bcast_S6_S1x6_1 : (⟨S6, .i32⟩ : BufTy).Contents (Elt F) → (⟨S1x6, .i32⟩ : BufTy).Contents (Elt F)) (iotaInDim S6 32 0)))) shapeCasts_S250000x6_S1500000)

/-- The reciprocal of the number of incidences per expanded node index (0 where there is none). -/
def degInv300 (rowE : (⟨S1500000, .i32⟩ : BufTy).Contents (Elt F)) : (⟨S300000, .f32⟩ : BufTy).Contents (Elt F) :=
  ((select : (⟨S300000, .i1⟩ : BufTy).Contents (Elt F) → (⟨S300000, .f32⟩ : BufTy).Contents (Elt F) → (⟨S300000, .f32⟩ : BufTy).Contents (Elt F) → (⟨S300000, .f32⟩ : BufTy).Contents (Elt F)) ((cmpf .ogt : (⟨S300000, .f32⟩ : BufTy).Contents (Elt F) → (⟨S300000, .f32⟩ : BufTy).Contents (Elt F) → (⟨S300000, .i1⟩ : BufTy).Contents (Elt F)) (((fun x i u => Host.scatterAdd scatter_S300000_S1500000x1_S1500000_n_0_0_1 x i u) : (⟨S300000, .f32⟩ : BufTy).Contents (Elt F) → (⟨S1500000x1, .i32⟩ : BufTy).Contents (Elt F) → (⟨S1500000, .f32⟩ : BufTy).Contents (Elt F) → (⟨S300000, .f32⟩ : BufTy).Contents (Elt F)) ((broadcastInDim S300000 ![] bcast_S_S300000 : (⟨S_, .f32⟩ : BufTy).Contents (Elt F) → (⟨S300000, .f32⟩ : BufTy).Contents (Elt F)) (constant S_ .f32 0x00000000#32)) ((broadcastInDim S1500000x1 ![0] bcast_S1500000_S1500000x1_0 : (⟨S1500000, .i32⟩ : BufTy).Contents (Elt F) → (⟨S1500000x1, .i32⟩ : BufTy).Contents (Elt F)) rowE) ((broadcastInDim S1500000 ![] bcast_S_S1500000 : (⟨S_, .f32⟩ : BufTy).Contents (Elt F) → (⟨S1500000, .f32⟩ : BufTy).Contents (Elt F)) (constant S_ .f32 0x3F800000#32))) ((broadcastInDim S300000 ![] bcast_S_S300000 : (⟨S_, .f32⟩ : BufTy).Contents (Elt F) → (⟨S300000, .f32⟩ : BufTy).Contents (Elt F)) (constant S_ .f32 0x00000000#32))) ((Host.divf : (⟨S300000, .f32⟩ : BufTy).Contents (Elt F) → (⟨S300000, .f32⟩ : BufTy).Contents (Elt F) → (⟨S300000, .f32⟩ : BufTy).Contents (Elt F)) ((broadcastInDim S300000 ![] bcast_S_S300000 : (⟨S_, .f32⟩ : BufTy).Contents (Elt F) → (⟨S300000, .f32⟩ : BufTy).Contents (Elt F)) (constant S_ .f32 0x3F800000#32)) (((fun x i u => Host.scatterAdd scatter_S300000_S1500000x1_S1500000_n_0_0_1 x i u) : (⟨S300000, .f32⟩ : BufTy).Contents (Elt F) → (⟨S1500000x1, .i32⟩ : BufTy).Contents (Elt F) → (⟨S1500000, .f32⟩ : BufTy).Contents (Elt F) → (⟨S300000, .f32⟩ : BufTy).Contents (Elt F)) ((broadcastInDim S300000 ![] bcast_S_S300000 : (⟨S_, .f32⟩ : BufTy).Contents (Elt F) → (⟨S300000, .f32⟩ : BufTy).Contents (Elt F)) (constant S_ .f32 0x00000000#32)) ((broadcastInDim S1500000x1 ![0] bcast_S1500000_S1500000x1_0 : (⟨S1500000, .i32⟩ : BufTy).Contents (Elt F) → (⟨S1500000x1, .i32⟩ : BufTy).Contents (Elt F)) rowE) ((broadcastInDim S1500000 ![] bcast_S_S1500000 : (⟨S_, .f32⟩ : BufTy).Contents (Elt F) → (⟨S1500000, .f32⟩ : BufTy).Contents (Elt F)) (constant S_ .f32 0x3F800000#32)))) (((broadcastInDim S300000 ![] bcast_S_S300000) : (⟨S_, .f32⟩ : BufTy).Contents (Elt F) → (⟨S300000, .f32⟩ : BufTy).Contents (Elt F)) ((id : (⟨S_, .f32⟩ : BufTy).Contents (Elt F) → (⟨S_, .f32⟩ : BufTy).Contents (Elt F)) (constant S_ .f32 0x00000000#32))))

/-- The reciprocal of the number of incidences per expanded hyperedge index (0 where there is none). -/
def degInv60 (colE : (⟨S1500000, .i32⟩ : BufTy).Contents (Elt F)) : (⟨S60000, .f32⟩ : BufTy).Contents (Elt F) :=
  ((select : (⟨S60000, .i1⟩ : BufTy).Contents (Elt F) → (⟨S60000, .f32⟩ : BufTy).Contents (Elt F) → (⟨S60000, .f32⟩ : BufTy).Contents (Elt F) → (⟨S60000, .f32⟩ : BufTy).Contents (Elt F)) ((cmpf .ogt : (⟨S60000, .f32⟩ : BufTy).Contents (Elt F) → (⟨S60000, .f32⟩ : BufTy).Contents (Elt F) → (⟨S60000, .i1⟩ : BufTy).Contents (Elt F)) (((fun x i u => Host.scatterAdd scatter_S60000_S1500000x1_S1500000_n_0_0_1 x i u) : (⟨S60000, .f32⟩ : BufTy).Contents (Elt F) → (⟨S1500000x1, .i32⟩ : BufTy).Contents (Elt F) → (⟨S1500000, .f32⟩ : BufTy).Contents (Elt F) → (⟨S60000, .f32⟩ : BufTy).Contents (Elt F)) ((broadcastInDim S60000 ![] bcast_S_S60000 : (⟨S_, .f32⟩ : BufTy).Contents (Elt F) → (⟨S60000, .f32⟩ : BufTy).Contents (Elt F)) (constant S_ .f32 0x00000000#32)) ((broadcastInDim S1500000x1 ![0] bcast_S1500000_S1500000x1_0 : (⟨S1500000, .i32⟩ : BufTy).Contents (Elt F) → (⟨S1500000x1, .i32⟩ : BufTy).Contents (Elt F)) colE) ((broadcastInDim S1500000 ![] bcast_S_S1500000 : (⟨S_, .f32⟩ : BufTy).Contents (Elt F) → (⟨S1500000, .f32⟩ : BufTy).Contents (Elt F)) (constant S_ .f32 0x3F800000#32))) ((broadcastInDim S60000 ![] bcast_S_S60000 : (⟨S_, .f32⟩ : BufTy).Contents (Elt F) → (⟨S60000, .f32⟩ : BufTy).Contents (Elt F)) (constant S_ .f32 0x00000000#32))) ((Host.divf : (⟨S60000, .f32⟩ : BufTy).Contents (Elt F) → (⟨S60000, .f32⟩ : BufTy).Contents (Elt F) → (⟨S60000, .f32⟩ : BufTy).Contents (Elt F)) ((broadcastInDim S60000 ![] bcast_S_S60000 : (⟨S_, .f32⟩ : BufTy).Contents (Elt F) → (⟨S60000, .f32⟩ : BufTy).Contents (Elt F)) (constant S_ .f32 0x3F800000#32)) (((fun x i u => Host.scatterAdd scatter_S60000_S1500000x1_S1500000_n_0_0_1 x i u) : (⟨S60000, .f32⟩ : BufTy).Contents (Elt F) → (⟨S1500000x1, .i32⟩ : BufTy).Contents (Elt F) → (⟨S1500000, .f32⟩ : BufTy).Contents (Elt F) → (⟨S60000, .f32⟩ : BufTy).Contents (Elt F)) ((broadcastInDim S60000 ![] bcast_S_S60000 : (⟨S_, .f32⟩ : BufTy).Contents (Elt F) → (⟨S60000, .f32⟩ : BufTy).Contents (Elt F)) (constant S_ .f32 0x00000000#32)) ((broadcastInDim S1500000x1 ![0] bcast_S1500000_S1500000x1_0 : (⟨S1500000, .i32⟩ : BufTy).Contents (Elt F) → (⟨S1500000x1, .i32⟩ : BufTy).Contents (Elt F)) colE) ((broadcastInDim S1500000 ![] bcast_S_S1500000 : (⟨S_, .f32⟩ : BufTy).Contents (Elt F) → (⟨S1500000, .f32⟩ : BufTy).Contents (Elt F)) (constant S_ .f32 0x3F800000#32)))) (((broadcastInDim S60000 ![] bcast_S_S60000) : (⟨S_, .f32⟩ : BufTy).Contents (Elt F) → (⟨S60000, .f32⟩ : BufTy).Contents (Elt F)) ((id : (⟨S_, .f32⟩ : BufTy).Contents (Elt F) → (⟨S_, .f32⟩ : BufTy).Contents (Elt F)) (constant S_ .f32 0x00000000#32))))

/-- A [300000,64] array times a [64,64] matrix. -/
def matmul64 (xs : (⟨S300000x64, .f32⟩ : BufTy).Contents (Elt F)) (w : (⟨S64x64, .f32⟩ : BufTy).Contents (Elt F)) : (⟨S300000x64, .f32⟩ : BufTy).Contents (Elt F) :=
  (((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)) xs w)

/-- Weighted rows summed into hyperedges, scaled, gathered back, weighted and summed into nodes, scaled: the diffusion term. -/
def aggregate (xl : (⟨S300000x64, .f32⟩ : BufTy).Contents (Elt F)) (a : (⟨S1500000, .f32⟩ : BufTy).Contents (Elt F)) (rowE : (⟨S1500000, .i32⟩ : BufTy).Contents (Elt F)) (colE : (⟨S1500000, .i32⟩ : BufTy).Contents (Elt F)) (dinv : (⟨S300000, .f32⟩ : BufTy).Contents (Elt F)) (binv : (⟨S60000, .f32⟩ : BufTy).Contents (Elt F)) : (⟨S300000x64, .f32⟩ : BufTy).Contents (Elt F) :=
  ((mulf : (⟨S300000x64, .f32⟩ : BufTy).Contents (Elt F) → (⟨S300000x64, .f32⟩ : BufTy).Contents (Elt F) → (⟨S300000x64, .f32⟩ : BufTy).Contents (Elt F)) ((broadcastInDim S300000x64 ![0, 1] bcast_S300000x1_S300000x64_0_1 : (⟨S300000x1, .f32⟩ : BufTy).Contents (Elt F) → (⟨S300000x64, .f32⟩ : BufTy).Contents (Elt F)) ((broadcastInDim S300000x1 ![0] bcast_S300000_S300000x1_0 : (⟨S300000, .f32⟩ : BufTy).Contents (Elt F) → (⟨S300000x1, .f32⟩ : BufTy).Contents (Elt F)) dinv)) (((fun x i u => Host.scatterAdd scatter_S300000x64_S1500000x1_S1500000x64_1_0_0_1 x i u) : (⟨S300000x64, .f32⟩ : BufTy).Contents (Elt F) → (⟨S1500000x1, .i32⟩ : BufTy).Contents (Elt F) → (⟨S1500000x64, .f32⟩ : BufTy).Contents (Elt F) → (⟨S300000x64, .f32⟩ : BufTy).Contents (Elt F)) ((broadcastInDim S300000x64 ![] bcast_S_S300000x64 : (⟨S_, .f32⟩ : BufTy).Contents (Elt F) → (⟨S300000x64, .f32⟩ : BufTy).Contents (Elt F)) (constant S_ .f32 0x00000000#32)) ((broadcastInDim S1500000x1 ![0] bcast_S1500000_S1500000x1_0 : (⟨S1500000, .i32⟩ : BufTy).Contents (Elt F) → (⟨S1500000x1, .i32⟩ : BufTy).Contents (Elt F)) rowE) ((mulf : (⟨S1500000x64, .f32⟩ : BufTy).Contents (Elt F) → (⟨S1500000x64, .f32⟩ : BufTy).Contents (Elt F) → (⟨S1500000x64, .f32⟩ : BufTy).Contents (Elt F)) ((broadcastInDim S1500000x64 ![0, 1] bcast_S1500000x1_S1500000x64_0_1 : (⟨S1500000x1, .f32⟩ : BufTy).Contents (Elt F) → (⟨S1500000x64, .f32⟩ : BufTy).Contents (Elt F)) ((broadcastInDim S1500000x1 ![0] bcast_S1500000_S1500000x1_0 : (⟨S1500000, .f32⟩ : BufTy).Contents (Elt F) → (⟨S1500000x1, .f32⟩ : BufTy).Contents (Elt F)) a)) (((fun x i => Host.gather gather_S60000x64_S1500000x1_S1500000x64_1_0_n_n_0_1_164 x i) : (⟨S60000x64, .f32⟩ : BufTy).Contents (Elt F) → (⟨S1500000x1, .i32⟩ : BufTy).Contents (Elt F) → (⟨S1500000x64, .f32⟩ : BufTy).Contents (Elt F)) ((mulf : (⟨S60000x64, .f32⟩ : BufTy).Contents (Elt F) → (⟨S60000x64, .f32⟩ : BufTy).Contents (Elt F) → (⟨S60000x64, .f32⟩ : BufTy).Contents (Elt F)) ((broadcastInDim S60000x64 ![0, 1] bcast_S60000x1_S60000x64_0_1 : (⟨S60000x1, .f32⟩ : BufTy).Contents (Elt F) → (⟨S60000x64, .f32⟩ : BufTy).Contents (Elt F)) ((broadcastInDim S60000x1 ![0] bcast_S60000_S60000x1_0 : (⟨S60000, .f32⟩ : BufTy).Contents (Elt F) → (⟨S60000x1, .f32⟩ : BufTy).Contents (Elt F)) binv)) (((fun x i u => Host.scatterAdd scatter_S60000x64_S1500000x1_S1500000x64_1_0_0_1 x i u) : (⟨S60000x64, .f32⟩ : BufTy).Contents (Elt F) → (⟨S1500000x1, .i32⟩ : BufTy).Contents (Elt F) → (⟨S1500000x64, .f32⟩ : BufTy).Contents (Elt F) → (⟨S60000x64, .f32⟩ : BufTy).Contents (Elt F)) ((broadcastInDim S60000x64 ![] bcast_S_S60000x64 : (⟨S_, .f32⟩ : BufTy).Contents (Elt F) → (⟨S60000x64, .f32⟩ : BufTy).Contents (Elt F)) (constant S_ .f32 0x00000000#32)) ((broadcastInDim S1500000x1 ![0] bcast_S1500000_S1500000x1_0 : (⟨S1500000, .i32⟩ : BufTy).Contents (Elt F) → (⟨S1500000x1, .i32⟩ : BufTy).Contents (Elt F)) colE) ((mulf : (⟨S1500000x64, .f32⟩ : BufTy).Contents (Elt F) → (⟨S1500000x64, .f32⟩ : BufTy).Contents (Elt F) → (⟨S1500000x64, .f32⟩ : BufTy).Contents (Elt F)) ((broadcastInDim S1500000x64 ![0, 1] bcast_S1500000x1_S1500000x64_0_1 : (⟨S1500000x1, .f32⟩ : BufTy).Contents (Elt F) → (⟨S1500000x64, .f32⟩ : BufTy).Contents (Elt F)) ((broadcastInDim S1500000x1 ![0] bcast_S1500000_S1500000x1_0 : (⟨S1500000, .f32⟩ : BufTy).Contents (Elt F) → (⟨S1500000x1, .f32⟩ : BufTy).Contents (Elt F)) a)) (((fun x i => Host.gather gather_S300000x64_S1500000x1_S1500000x64_1_0_n_n_0_1_164 x i) : (⟨S300000x64, .f32⟩ : BufTy).Contents (Elt F) → (⟨S1500000x1, .i32⟩ : BufTy).Contents (Elt F) → (⟨S1500000x64, .f32⟩ : BufTy).Contents (Elt F)) xl ((broadcastInDim S1500000x1 ![0] bcast_S1500000_S1500000x1_0 : (⟨S1500000, .i32⟩ : BufTy).Contents (Elt F) → (⟨S1500000x1, .i32⟩ : BufTy).Contents (Elt F)) ((select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)) ((cmpi .slt : (⟨S1500000, .i32⟩ : BufTy).Contents (Elt F) → (⟨S1500000, .i32⟩ : BufTy).Contents (Elt F) → (⟨S1500000, .i1⟩ : BufTy).Contents (Elt F)) rowE ((broadcastInDim S1500000 ![] bcast_S_S1500000 : (⟨S_, .i32⟩ : BufTy).Contents (Elt F) → (⟨S1500000, .i32⟩ : BufTy).Contents (Elt F)) (constantI S_ 32 0#32))) ((addi : (⟨S1500000, .i32⟩ : BufTy).Contents (Elt F) → (⟨S1500000, .i32⟩ : BufTy).Contents (Elt F) → (⟨S1500000, .i32⟩ : BufTy).Contents (Elt F)) rowE ((broadcastInDim S1500000 ![] bcast_S_S1500000 : (⟨S_, .i32⟩ : BufTy).Contents (Elt F) → (⟨S1500000, .i32⟩ : BufTy).Contents (Elt F)) (constantI S_ 32 300000#32))) rowE)))))) ((broadcastInDim S1500000x1 ![0] bcast_S1500000_S1500000x1_0 : (⟨S1500000, .i32⟩ : BufTy).Contents (Elt F) → (⟨S1500000x1, .i32⟩ : BufTy).Contents (Elt F)) ((select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)) ((cmpi .slt : (⟨S1500000, .i32⟩ : BufTy).Contents (Elt F) → (⟨S1500000, .i32⟩ : BufTy).Contents (Elt F) → (⟨S1500000, .i1⟩ : BufTy).Contents (Elt F)) colE ((broadcastInDim S1500000 ![] bcast_S_S1500000 : (⟨S_, .i32⟩ : BufTy).Contents (Elt F) → (⟨S1500000, .i32⟩ : BufTy).Contents (Elt F)) (constantI S_ 32 0#32))) ((addi : (⟨S1500000, .i32⟩ : BufTy).Contents (Elt F) → (⟨S1500000, .i32⟩ : BufTy).Contents (Elt F) → (⟨S1500000, .i32⟩ : BufTy).Contents (Elt F)) colE ((broadcastInDim S1500000 ![] bcast_S_S1500000 : (⟨S_, .i32⟩ : BufTy).Contents (Elt F) → (⟨S1500000, .i32⟩ : BufTy).Contents (Elt F)) (constantI S_ 32 60000#32))) colE))))))

/-- xl − agg + the row b1, then x where x > 0 and 1·expm1(x) elsewhere. -/
def combineElu (xl : (⟨S300000x64, .f32⟩ : BufTy).Contents (Elt F)) (agg : (⟨S300000x64, .f32⟩ : BufTy).Contents (Elt F)) (b1 : (⟨S1x64, .f32⟩ : BufTy).Contents (Elt F)) : (⟨S300000x64, .f32⟩ : BufTy).Contents (Elt F) :=
  ((select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)) (((cmpf .ogt) : (⟨S300000x64, .f32⟩ : BufTy).Contents (Elt F) → (⟨S300000x64, .f32⟩ : BufTy).Contents (Elt F) → (⟨S300000x64, .i1⟩ : BufTy).Contents (Elt F)) ((addf : (⟨S300000x64, .f32⟩ : BufTy).Contents (Elt F) → (⟨S300000x64, .f32⟩ : BufTy).Contents (Elt F) → (⟨S300000x64, .f32⟩ : BufTy).Contents (Elt F)) ((subf : (⟨S300000x64, .f32⟩ : BufTy).Contents (Elt F) → (⟨S300000x64, .f32⟩ : BufTy).Contents (Elt F) → (⟨S300000x64, .f32⟩ : BufTy).Contents (Elt F)) xl agg) ((broadcastInDim S300000x64 ![0, 1] bcast_S1x64_S300000x64_0_1 : (⟨S1x64, .f32⟩ : BufTy).Contents (Elt F) → (⟨S300000x64, .f32⟩ : BufTy).Contents (Elt F)) b1)) (((broadcastInDim S300000x64 ![] bcast_S_S300000x64) : (⟨S_, .f32⟩ : BufTy).Contents (Elt F) → (⟨S300000x64, .f32⟩ : BufTy).Contents (Elt F)) ((constant S_ .f32 0x00000000#32) : (⟨S_, .f32⟩ : BufTy).Contents (Elt F)))) ((addf : (⟨S300000x64, .f32⟩ : BufTy).Contents (Elt F) → (⟨S300000x64, .f32⟩ : BufTy).Contents (Elt F) → (⟨S300000x64, .f32⟩ : BufTy).Contents (Elt F)) ((subf : (⟨S300000x64, .f32⟩ : BufTy).Contents (Elt F) → (⟨S300000x64, .f32⟩ : BufTy).Contents (Elt F) → (⟨S300000x64, .f32⟩ : BufTy).Contents (Elt F)) xl agg) ((broadcastInDim S300000x64 ![0, 1] bcast_S1x64_S300000x64_0_1 : (⟨S1x64, .f32⟩ : BufTy).Contents (Elt F) → (⟨S300000x64, .f32⟩ : BufTy).Contents (Elt F)) b1)) ((mulf : (⟨S300000x64, .f32⟩ : BufTy).Contents (Elt F) → (⟨S300000x64, .f32⟩ : BufTy).Contents (Elt F) → (⟨S300000x64, .f32⟩ : BufTy).Contents (Elt F)) (((broadcastInDim S300000x64 ![] bcast_S_S300000x64) : (⟨S_, .f32⟩ : BufTy).Contents (Elt F) → (⟨S300000x64, .f32⟩ : BufTy).Contents (Elt F)) ((constant S_ .f32 0x3F800000#32) : (⟨S_, .f32⟩ : BufTy).Contents (Elt F))) ((Host.expm1 : (⟨S300000x64, .f32⟩ : BufTy).Contents (Elt F) → (⟨S300000x64, .f32⟩ : BufTy).Contents (Elt F)) ((select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)) (((cmpf .ogt) : (⟨S300000x64, .f32⟩ : BufTy).Contents (Elt F) → (⟨S300000x64, .f32⟩ : BufTy).Contents (Elt F) → (⟨S300000x64, .i1⟩ : BufTy).Contents (Elt F)) ((addf : (⟨S300000x64, .f32⟩ : BufTy).Contents (Elt F) → (⟨S300000x64, .f32⟩ : BufTy).Contents (Elt F) → (⟨S300000x64, .f32⟩ : BufTy).Contents (Elt F)) ((subf : (⟨S300000x64, .f32⟩ : BufTy).Contents (Elt F) → (⟨S300000x64, .f32⟩ : BufTy).Contents (Elt F) → (⟨S300000x64, .f32⟩ : BufTy).Contents (Elt F)) xl agg) ((broadcastInDim S300000x64 ![0, 1] bcast_S1x64_S300000x64_0_1 : (⟨S1x64, .f32⟩ : BufTy).Contents (Elt F) → (⟨S300000x64, .f32⟩ : BufTy).Contents (Elt F)) b1)) (((broadcastInDim S300000x64 ![] bcast_S_S300000x64) : (⟨S_, .f32⟩ : BufTy).Contents (Elt F) → (⟨S300000x64, .f32⟩ : BufTy).Contents (Elt F)) ((constant S_ .f32 0x00000000#32) : (⟨S_, .f32⟩ : BufTy).Contents (Elt F)))) (((broadcastInDim S300000x64 ![] bcast_S_S300000x64) : (⟨S_, .f32⟩ : BufTy).Contents (Elt F) → (⟨S300000x64, .f32⟩ : BufTy).Contents (Elt F)) ((id : (⟨S_, .f32⟩ : BufTy).Contents (Elt F) → (⟨S_, .f32⟩ : BufTy).Contents (Elt F)) ((constant S_ .f32 0x00000000#32) : (⟨S_, .f32⟩ : BufTy).Contents (Elt F)))) ((addf : (⟨S300000x64, .f32⟩ : BufTy).Contents (Elt F) → (⟨S300000x64, .f32⟩ : BufTy).Contents (Elt F) → (⟨S300000x64, .f32⟩ : BufTy).Contents (Elt F)) ((subf : (⟨S300000x64, .f32⟩ : BufTy).Contents (Elt F) → (⟨S300000x64, .f32⟩ : BufTy).Contents (Elt F) → (⟨S300000x64, .f32⟩ : BufTy).Contents (Elt F)) xl agg) ((broadcastInDim S300000x64 ![0, 1] bcast_S1x64_S300000x64_0_1 : (⟨S1x64, .f32⟩ : BufTy).Contents (Elt F) → (⟨S300000x64, .f32⟩ : BufTy).Contents (Elt F)) b1))))))

/-- xl − agg + the row b1. -/
def combinePlain (xl : (⟨S300000x64, .f32⟩ : BufTy).Contents (Elt F)) (agg : (⟨S300000x64, .f32⟩ : BufTy).Contents (Elt F)) (b1 : (⟨S1x64, .f32⟩ : BufTy).Contents (Elt F)) : (⟨S300000x64, .f32⟩ : BufTy).Contents (Elt F) :=
  ((addf : (⟨S300000x64, .f32⟩ : BufTy).Contents (Elt F) → (⟨S300000x64, .f32⟩ : BufTy).Contents (Elt F) → (⟨S300000x64, .f32⟩ : BufTy).Contents (Elt F)) ((subf : (⟨S300000x64, .f32⟩ : BufTy).Contents (Elt F) → (⟨S300000x64, .f32⟩ : BufTy).Contents (Elt F) → (⟨S300000x64, .f32⟩ : BufTy).Contents (Elt F)) xl agg) ((broadcastInDim S300000x64 ![0, 1] bcast_S1x64_S300000x64_0_1 : (⟨S1x64, .f32⟩ : BufTy).Contents (Elt F) → (⟨S300000x64, .f32⟩ : BufTy).Contents (Elt F)) b1))

/-- x where x > 0 and 1·expm1(x) elsewhere, on a [50000,384] array. -/
def elu50 (h : (⟨S50000x384, .f32⟩ : BufTy).Contents (Elt F)) : (⟨S50000x384, .f32⟩ : BufTy).Contents (Elt F) :=
  ((select : (⟨S50000x384, .i1⟩ : BufTy).Contents (Elt F) → (⟨S50000x384, .f32⟩ : BufTy).Contents (Elt F) → (⟨S50000x384, .f32⟩ : BufTy).Contents (Elt F) → (⟨S50000x384, .f32⟩ : BufTy).Contents (Elt F)) (((cmpf .ogt) : (⟨S50000x384, .f32⟩ : BufTy).Contents (Elt F) → (⟨S50000x384, .f32⟩ : BufTy).Contents (Elt F) → (⟨S50000x384, .i1⟩ : BufTy).Contents (Elt F)) h (((broadcastInDim S50000x384 ![] bcast_S_S50000x384) : (⟨S_, .f32⟩ : BufTy).Contents (Elt F) → (⟨S50000x384, .f32⟩ : BufTy).Contents (Elt F)) ((constant S_ .f32 0x00000000#32) : (⟨S_, .f32⟩ : BufTy).Contents (Elt F)))) h ((mulf : (⟨S50000x384, .f32⟩ : BufTy).Contents (Elt F) → (⟨S50000x384, .f32⟩ : BufTy).Contents (Elt F) → (⟨S50000x384, .f32⟩ : BufTy).Contents (Elt F)) (((broadcastInDim S50000x384 ![] bcast_S_S50000x384) : (⟨S_, .f32⟩ : BufTy).Contents (Elt F) → (⟨S50000x384, .f32⟩ : BufTy).Contents (Elt F)) ((constant S_ .f32 0x3F800000#32) : (⟨S_, .f32⟩ : BufTy).Contents (Elt F))) ((Host.expm1 : (⟨S50000x384, .f32⟩ : BufTy).Contents (Elt F) → (⟨S50000x384, .f32⟩ : BufTy).Contents (Elt F)) ((select : (⟨S50000x384, .i1⟩ : BufTy).Contents (Elt F) → (⟨S50000x384, .f32⟩ : BufTy).Contents (Elt F) → (⟨S50000x384, .f32⟩ : BufTy).Contents (Elt F) → (⟨S50000x384, .f32⟩ : BufTy).Contents (Elt F)) (((cmpf .ogt) : (⟨S50000x384, .f32⟩ : BufTy).Contents (Elt F) → (⟨S50000x384, .f32⟩ : BufTy).Contents (Elt F) → (⟨S50000x384, .i1⟩ : BufTy).Contents (Elt F)) h (((broadcastInDim S50000x384 ![] bcast_S_S50000x384) : (⟨S_, .f32⟩ : BufTy).Contents (Elt F) → (⟨S50000x384, .f32⟩ : BufTy).Contents (Elt F)) ((constant S_ .f32 0x00000000#32) : (⟨S_, .f32⟩ : BufTy).Contents (Elt F)))) (((broadcastInDim S50000x384 ![] bcast_S_S50000x384) : (⟨S_, .f32⟩ : BufTy).Contents (Elt F) → (⟨S50000x384, .f32⟩ : BufTy).Contents (Elt F)) ((id : (⟨S_, .f32⟩ : BufTy).Contents (Elt F) → (⟨S_, .f32⟩ : BufTy).Contents (Elt F)) ((constant S_ .f32 0x00000000#32) : (⟨S_, .f32⟩ : BufTy).Contents (Elt F)))) h))))

end Cert.Stages

end
-- ==== Proof.Spec.lean ====
/-
  The whole computation as one function of the sixteen argument arrays, composed of the stages of Stages.lean:
  the input projection x·W_lin + b_lin for nodes and hyperedges, read as stalks [·,6,64]; the stalk means gathered
  per incidence and joined; the sheaf weights alpha (layer normalization, a linear map, the logistic function);
  the expanded incidence indices and the reciprocal degrees; two diffusion layers
  xl − D⁻¹Hᵀ(alpha · B⁻¹H(alpha · xl)) + bias, the first followed by ELU; and a final ELU on the [50000,384] layout.
  Also the conv product with a bias row, which is how a row-tiled kernel states xin·W (its bias row is zero).
-/
import proofs.«159071_j31842887533297_2_alg».proof.Proof.Stages

noncomputable section

namespace Cert.Stages

open Cert.ReferenceIdeal Cert.ReferenceIdeal.Gen Idealize.ShloMosaic

variable {F : FTy → Type} [FloatOps F]

/-- The contents of an array of shape S and element type e. -/
abbrev Arr (F : FTy → Type) (S : Shape) (e : EltTy) : Type := (⟨S, e⟩ : BufTy).Contents (Elt F)

/-- xs·w with the row z added to every row. -/
def convRows (xs : Arr F S300000x64 .f32) (w : Arr F S64x64 .f32) (z : Arr F S1x64 .f32) : Arr F S300000x64 .f32 :=
  addf (matmul64 xs w) (broadcastInDim S300000x64 ![0, 1] bcast_S1x64_S300000x64_0_1 z)

/-- One diffusion layer before its activation: xl − aggregate(xl) + bias, with xl = xin·w. -/
def layerElu (xin : Arr F S300000x64 .f32) (w : Arr F S64x64 .f32) (bias : Arr F S64 .f32)
    (a : Arr F S1500000 .f32) (rowE colE : Arr F S1500000 .i32) (dinv : Arr F S300000 .f32) (binv : Arr F S60000 .f32) :
    Arr F S300000x64 .f32 :=
  combineElu (matmul64 xin w) (aggregate (matmul64 xin w) a rowE colE dinv binv) (rowVec64 bias)

/-- The second diffusion layer: no activation. -/
def layerPlain (xin : Arr F S300000x64 .f32) (w : Arr F S64x64 .f32) (bias : Arr F S64 .f32)
    (a : Arr F S1500000 .f32) (rowE colE : Arr F S1500000 .i32) (dinv : Arr F S300000 .f32) (binv : Arr F S60000 .f32) :
    Arr F S300000x64 .f32 :=
  combinePlain (matmul64 xin w) (aggregate (matmul64 xin w) a rowE colE dinv binv) (rowVec64 bias)

/-- The node stalks [300000,64] from the projected nodes [50000,384]. -/
def xsOf (p : Arr F S50000x384 .f32) : Arr F S300000x64 .f32 := shapeCast S300000x64 p shapeCasts_S50000x384_S300000x64
/-- The hyperedge stalks [60000,64] from the projected hyperedges [10000,384]. -/
def esOf (p : Arr F S10000x384 .f32) : Arr F S60000x64 .f32 := shapeCast S60000x64 p shapeCasts_S10000x384_S60000x64

/-- The incidence features from the two projections and the two index arrays. -/
def featOf (px : Arr F S50000x384 .f32) (pe : Arr F S10000x384 .f32) (nidx eidx : Arr F S250000 .i32) : Arr F S250000x128 .f32 :=
  feat (stalkMean50 (shapeCast S50000x6x64 (xsOf px) shapeCasts_S300000x64_S50000x6x64))
    (stalkMean10 (shapeCast S10000x6x64 (esOf pe) shapeCasts_S60000x64_S10000x6x64)) nidx eidx

/-- The flattened sheaf weights [1500000] from the [250000,6] array. -/
def flatOf (al : Arr F S250000x6 .f32) : Arr F S1500000 .f32 := shapeCast S1500000 al shapeCasts_S250000x6_S1500000

/-- Everything after the sheaf weights: the two layers and the final activation, from the node stalks, the weights and
    the index arrays. -/
def tailOf (xs : Arr F S300000x64 .f32) (al : Arr F S250000x6 .f32) (nidx eidx : Arr F S250000 .i32)
    (w0 : Arr F S64x64 .f32) (b0 : Arr F S64 .f32) (w1 : Arr F S64x64 .f32) (b1 : Arr F S64 .f32) : Arr F S50000x384 .f32 :=
  elu50 (shapeCast S50000x384
    (layerPlain
      (layerElu xs w0 b0 (flatOf al) (expandIdx nidx) (expandIdx eidx) (degInv300 (expandIdx nidx)) (degInv60 (expandIdx eidx)))
      w1 b1 (flatOf al) (expandIdx nidx) (expandIdx eidx) (degInv300 (expandIdx nidx)) (degInv60 (expandIdx eidx)))
    shapeCasts_S300000x64_S50000x384)

/-- The result as a function of the argument arrays (the two type arrays are not read). -/
def wholeOf (x : Arr F S50000x128 .f32) (he : Arr F S10000x128 .f32) (nidx eidx : Arr F S250000 .i32)
    (wl : Arr F S128x384 .f32) (bl : Arr F S384 .f32) (g bb : Arr F S128 .f32) (ws : Arr F S128x6 .f32) (bs : Arr F S6 .f32)
    (w0 : Arr F S64x64 .f32) (b0 : Arr F S64 .f32) (w1 : Arr F S64x64 .f32) (b1 : Arr F S64 .f32) : Arr F S50000x384 .f32 :=
  tailOf (xsOf (linRows50 x wl (rowVec384 bl)))
    (alphaRows (featOf (linRows50 x wl (rowVec384 bl)) (linRows10 he wl (rowVec384 bl)) nidx eidx)
      (rowVec128 g) (rowVec128 bb) ws (rowVec6 bs))
    nidx eidx w0 b0 w1 b1

end Cert.Stages

end
-- ==== Proof.Glue.lean ====
/-
  Three small facts that join the two programs' spellings of one value.
  A cast of a cast is one cast: both read the operand at the index with the same row-major position.
  A length-n vector cast to a one-row matrix is the vector broadcast along the second axis: entry (0, i) of either is
  entry i of the vector.
  On the extended reals the matrix product with a row of zeros added to every row is the product itself.
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«159071_j31842887533297_2_alg».proof.Proof.Spec

noncomputable section

namespace Cert.Glue

open Idealize.ShloMosaic Idealize.ShloMosaic.ValueIdx

/-- A cast to u and then to t is the cast to t. -/
theorem shapeCast_comp {s u t : Shape} {α : Type} (x : s.Idx → α) (h1 : s.ShapeCasts u) (h2 : u.ShapeCasts t)
    (h3 : s.ShapeCasts t) : shapeCast t (shapeCast u x h1) h2 = shapeCast t x h3 :=
  funext fun j => congrArg x (Shape.reshapeEquiv_reshapeEquiv h1 h2 j)

/-- A vector as a one-row matrix: the cast and the broadcast along the second axis agree. -/
theorem row_of_vec {n : ℕ} {α : Type} (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  obtain ⟨u, i, rfl⟩ : ∃ (u : Fin 1) (i : Fin n), j = ix2 u i := ⟨j 0, j 1, eq_ix2 j⟩
  rw [shapeCast_a_1a_apply]
  refine (broadcastInDim_apply _ hb x (ix2 u i) (ix1 i) ?_).symm
  intro a
  match a with
  | ⟨0, _⟩ =>
    show i.val = if n = 1 then 0 else i.val
    have := i.isLt
    split <;> omega

open Cert.ReferenceIdeal Cert.ReferenceIdeal.Gen in
/-- The product with a row of zeros added is the product. -/
theorem convRows_zero (xs : Cert.Stages.Arr Ideal S300000x64 .f32) (w : Cert.Stages.Arr Ideal S64x64 .f32)
    (h0 : S_.BroadcastsInDim S1x64 (![] : Fin 0 → Fin 2)) :
    Cert.Stages.convRows (F := Ideal) xs w (broadcastInDim S1x64 ![] h0 (constant (F := Ideal) S_ .f32 0x00000000#32))
      = Cert.Stages.matmul64 (F := Ideal) xs w := by
  funext j
  simp only [Cert.Stages.convRows, addf, broadcastInDim, constant, Ideal.addf_def, Ideal.ofBits_def,
    Ideal.ofBits_zero_f32, add_zero]

end Cert.Glue

end
-- ==== Proof.Chain.lean ====
/-
  The idealized kernel program's result as a function of its arguments. The run passes nineteen boundaries; at each,
  the buffers that later stages read are named here as stage functions (Stages.lean, Spec.lean) of the argument
  arrays: a stretch of host operations by reading its operations' results back, a region by its closed form (taken
  here as hypotheses: the output array after the region is the stage function of the input arrays as entered), and a
  buffer that a transition does not rewrite by Carry.lean.
-/
import proofs.«159071_j31842887533297_2_alg».proof.Proof.Carry
import proofs.«159071_j31842887533297_2_alg».proof.Proof.Glue
import Idealize.ShloMosaic.Lib.StableHlo.Run

set_option maxRecDepth 16384

noncomputable section

namespace Cert.KernelIdeal.Chain

open Cert.KernelIdeal Cert.KernelIdeal.Gen Cert.KernelIdeal.Carry
open Idealize.ShloMosaic Idealize.ShloMosaic.TcCoe Idealize.SL.Sem Idealize.ShloMosaic.StableHlo
open Idealize.ShloMosaic.Pipeline (Dat Cfg Window)
open Cert.Stages

/-- The eight regions' closed forms: each output array after its region is a stage function of the region's input
    arrays as the region found them. -/
structure Regions : Prop where
  r0 : ∀ (V : (c : Dev nD) → (b : Ref sig .tc) → Buf (Elt Ideal) ((c : Thread nD τ).loc b)) (c : Dev nD),
    (dat0 (F := Ideal) V c).arrAt 3 cfg0.N = linRows50 (F := Ideal) (V c main_arg0) (V c main_arg6) (V c main_v0)
  r1 : ∀ (V : (c : Dev nD) → (b : Ref sig .tc) → Buf (Elt Ideal) ((c : Thread nD τ).loc b)) (c : Dev nD),
    (dat1 (F := Ideal) V c).arrAt 3 cfg1.N = linRows10 (F := Ideal) (V c main_arg1) (V c main_arg6) (V c main_v2)
  r2 : ∀ (V : (c : Dev nD) → (b : Ref sig .tc) → Buf (Elt Ideal) ((c : Thread nD τ).loc b)) (c : Dev nD),
    (dat2 (F := Ideal) V c).arrAt 5 cfg2.N
      = alphaRows (F := Ideal) (V c main_v28) (V c main_v29) (V c main_v30) (V c main_arg10) (V c main_v31)
  r3 : ∀ (V : (c : Dev nD) → (b : Ref sig .tc) → Buf (Elt Ideal) ((c : Thread nD τ).loc b)) (c : Dev nD),
    (dat3 (F := Ideal) V c).arrAt 3 cfg3.N = convRows (F := Ideal) (V c main_v4) (V c main_arg12) (V c main_v68)
  r4 : ∀ (V : (c : Dev nD) → (b : Ref sig .tc) → Buf (Elt Ideal) ((c : Thread nD τ).loc b)) (c : Dev nD),
    (dat4 (F := Ideal) V c).arrAt 3 cfg4.N = combineElu (F := Ideal) (V c main_v69) (V c main_v101) (V c main_v102)
  r5 : ∀ (V : (c : Dev nD) → (b : Ref sig .tc) → Buf (Elt Ideal) ((c : Thread nD τ).loc b)) (c : Dev nD),
    (dat5 (F := Ideal) V c).arrAt 3 cfg5.N = convRows (F := Ideal) (V c main_v103) (V c main_arg14) (V c main_v68)
  r6 : ∀ (V : (c : Dev nD) → (b : Ref sig .tc) → Buf (Elt Ideal) ((c : Thread nD τ).loc b)) (c : Dev nD),
    (dat6 (F := Ideal) V c).arrAt 3 cfg6.N = combinePlain (F := Ideal) (V c main_v104) (V c main_v136) (V c main_v137)
  r7 : ∀ (V : (c : Dev nD) → (b : Ref sig .tc) → Buf (Elt Ideal) ((c : Thread nD τ).loc b)) (c : Dev nD),
    (dat7 (F := Ideal) V c).arrAt 1 cfg7.N = elu50 (F := Ideal) (V c main_v139)

variable (m : (ℓ : Loc nD τ sig) → Buf (Elt Ideal) ℓ) (ρ : Dev nD → PrngReg) (c : Dev nD)

/-- An argument array's launch contents. -/
abbrev arg (b : Ref sig .tc) : Buf (Elt Ideal) ((c : Thread nD τ).loc b) := m ((c : Thread nD τ).loc b)

/-- The bias b_lin as the one-row matrix both projections read. -/
abbrev biasRow : Arr Ideal Cert.ReferenceIdeal.S1x384 .f32 :=
  shapeCast S1x384 (arg m c main_arg7) shapeCasts_S384_S1x384

/-! ## The two input projections -/

theorem v0_at1 : W1 m ρ c (Proc.devRef .tc main_v0) = biasRow m c := by
  show StableHlo.after hostOps0 (W0 m ρ c) (Proc.devRef .tc main_v0) = _
  after_results
  rfl

theorem arg0_at1 : W1 m ρ c (Proc.devRef .tc main_arg0) = arg m c main_arg0 := (keep0 m ρ c main_arg0 (by decide))
theorem arg6_at1 : W1 m ρ c (Proc.devRef .tc main_arg6) = arg m c main_arg6 := (keep0 m ρ c main_arg6 (by decide))

/-- The projected nodes x·W_lin + b_lin. -/
abbrev px : Arr Ideal Cert.ReferenceIdeal.S50000x384 .f32 :=
  linRows50 (F := Ideal) (arg m c main_arg0) (arg m c main_arg6) (biasRow m c)

theorem v1_at2 (R : Regions) : W2 m ρ c (Proc.devRef .tc main_v1) = px m c := by
  refine ((W2_arr m ρ c 3).trans (R.r0 (V1 m ρ) c)).trans ?_
  show linRows50 (F := Ideal) (W1 m ρ c (Proc.devRef .tc main_arg0)) (W1 m ρ c (Proc.devRef .tc main_arg6))
    (W1 m ρ c (Proc.devRef .tc main_v0)) = _
  rw [arg0_at1, arg6_at1, v0_at1]

theorem v2_at3 : W3 m ρ c (Proc.devRef .tc main_v2) = biasRow m c := by
  show StableHlo.after hostOps1 (W2 m ρ c) (Proc.devRef .tc main_v2) = _
  after_results
  have e : W2 m ρ c (Proc.devRef .tc main_arg7) = arg m c main_arg7 := ((keep1 m ρ c main_arg7 (by decide)).trans (keep0 m ρ c main_arg7 (by decide)))
  rw [e]
  rfl

theorem arg1_at3 : W3 m ρ c (Proc.devRef .tc main_arg1) = arg m c main_arg1 := ((keep2 m ρ c main_arg1 (by decide)).trans ((keep1 m ρ c main_arg1 (by decide)).trans (keep0 m ρ c main_arg1 (by decide))))
theorem arg6_at3 : W3 m ρ c (Proc.devRef .tc main_arg6) = arg m c main_arg6 := ((keep2 m ρ c main_arg6 (by decide)).trans ((keep1 m ρ c main_arg6 (by decide)).trans (keep0 m ρ c main_arg6 (by decide))))

/-- The projected hyperedges. -/
abbrev pe : Arr Ideal Cert.ReferenceIdeal.S10000x384 .f32 :=
  linRows10 (F := Ideal) (arg m c main_arg1) (arg m c main_arg6) (biasRow m c)

theorem v3_at4 (R : Regions) : W4 m ρ c (Proc.devRef .tc main_v3) = pe m c := by
  refine ((W4_arr m ρ c 3).trans (R.r1 (V3 m ρ) c)).trans ?_
  show linRows10 (F := Ideal) (W3 m ρ c (Proc.devRef .tc main_arg1)) (W3 m ρ c (Proc.devRef .tc main_arg6))
    (W3 m ρ c (Proc.devRef .tc main_v2)) = _
  rw [arg1_at3, arg6_at3, v2_at3]

theorem v1_at4 (R : Regions) : W4 m ρ c (Proc.devRef .tc main_v1) = px m c :=
  ((keep3 m ρ c main_v1 (by decide)).trans (keep2 m ρ c main_v1 (by decide))).trans (v1_at2 m ρ c R)

/-! ## The host stage between the projections and the sheaf weights -/

abbrev nidx : Arr Ideal Cert.ReferenceIdeal.S250000 .i32 := arg m c main_arg2
abbrev eidx : Arr Ideal Cert.ReferenceIdeal.S250000 .i32 := arg m c main_arg3

theorem arg2_at4 : W4 m ρ c (Proc.devRef .tc main_arg2) = nidx m c := ((keep3 m ρ c main_arg2 (by decide)).trans ((keep2 m ρ c main_arg2 (by decide)).trans ((keep1 m ρ c main_arg2 (by decide)).trans (keep0 m ρ c main_arg2 (by decide)))))
theorem arg3_at4 : W4 m ρ c (Proc.devRef .tc main_arg3) = eidx m c := ((keep3 m ρ c main_arg3 (by decide)).trans ((keep2 m ρ c main_arg3 (by decide)).trans ((keep1 m ρ c main_arg3 (by decide)).trans (keep0 m ρ c main_arg3 (by decide)))))
theorem arg8_at4 : W4 m ρ c (Proc.devRef .tc main_arg8) = arg m c main_arg8 := ((keep3 m ρ c main_arg8 (by decide)).trans ((keep2 m ρ c main_arg8 (by decide)).trans ((keep1 m ρ c main_arg8 (by decide)).trans (keep0 m ρ c main_arg8 (by decide)))))
theorem arg9_at4 : W4 m ρ c (Proc.devRef .tc main_arg9) = arg m c main_arg9 := ((keep3 m ρ c main_arg9 (by decide)).trans ((keep2 m ρ c main_arg9 (by decide)).trans ((keep1 m ρ c main_arg9 (by decide)).trans (keep0 m ρ c main_arg9 (by decide)))))
theorem arg11_at4 : W4 m ρ c (Proc.devRef .tc main_arg11) = arg m c main_arg11 := ((keep3 m ρ c main_arg11 (by decide)).trans ((keep2 m ρ c main_arg11 (by decide)).trans ((keep1 m ρ c main_arg11 (by decide)).trans (keep0 m ρ c main_arg11 (by decide)))))
theorem arg10_at5 : W5 m ρ c (Proc.devRef .tc main_arg10) = arg m c main_arg10 := ((keep4 m ρ c main_arg10 (by decide)).trans ((keep3 m ρ c main_arg10 (by decide)).trans ((keep2 m ρ c main_arg10 (by decide)).trans ((keep1 m ρ c main_arg10 (by decide)).trans (keep0 m ρ c main_arg10 (by decide))))))

/-- The node stalks. -/
abbrev xs : Arr Ideal Cert.ReferenceIdeal.S300000x64 .f32 := xsOf (px m c)

theorem v4_at5 (R : Regions) : W5 m ρ c (Proc.devRef .tc main_v4) = xs m c := by
  show StableHlo.after hostOps2 (W4 m ρ c) (Proc.devRef .tc main_v4) = _
  after_results_simp
  rw [v1_at4 m ρ c R]
  rfl

/-- Reading results back one operation at a time by rewriting (the form that reaches the pieces of a concatenation, which
    sit in shape-array pairs). -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The incidence features. -/
abbrev ft : Arr Ideal Cert.ReferenceIdeal.S250000x128 .f32 := featOf (px m c) (pe m c) (nidx m c) (eidx m c)

set_option maxHeartbeats 8000000 in
theorem v28_at5 (R : Regions) : W5 m ρ c (Proc.devRef .tc main_v28) = ft m c := by
  show StableHlo.after hostOps2 (W4 m ρ c) (Proc.devRef .tc main_v28) = _
  after_results_simp
  results_rw
  rw [v1_at4 m ρ c R, v3_at4 m ρ c R, arg2_at4, arg3_at4]
  refine Eq.trans ?_ (show feat (F := Ideal)
      (stalkMean50 (shapeCast S50000x6x64 (px m c) shapeCasts_S50000x384_S50000x6x64))
      (stalkMean10 (shapeCast S10000x6x64 (pe m c) shapeCasts_S10000x384_S10000x6x64)) (nidx m c) (eidx m c) = ft m c from by
    unfold ft featOf xsOf esOf
    rw [Cert.Glue.shapeCast_comp, Cert.Glue.shapeCast_comp])
  rfl

theorem v29_at5 : W5 m ρ c (Proc.devRef .tc main_v29) = rowVec128 (F := Ideal) (arg m c main_arg8) := by
  show StableHlo.after hostOps2 (W4 m ρ c) (Proc.devRef .tc main_v29) = _
  after_results_simp
  rw [arg8_at4]
  exact (show _ = shapeCast S1x128 (arg m c main_arg8) shapeCasts_S128_S1x128 from rfl).trans
    (Cert.Glue.row_of_vec _ _ Cert.ReferenceIdeal.Gen.bcast_S128_S1x128_1)

theorem v30_at5 : W5 m ρ c (Proc.devRef .tc main_v30) = rowVec128 (F := Ideal) (arg m c main_arg9) := by
  show StableHlo.after hostOps2 (W4 m ρ c) (Proc.devRef .tc main_v30) = _
  after_results_simp
  rw [arg9_at4]
  exact (show _ = shapeCast S1x128 (arg m c main_arg9) shapeCasts_S128_S1x128 from rfl).trans
    (Cert.Glue.row_of_vec _ _ Cert.ReferenceIdeal.Gen.bcast_S128_S1x128_1)

theorem v31_at5 : W5 m ρ c (Proc.devRef .tc main_v31) = rowVec6 (F := Ideal) (arg m c main_arg11) := by
  show StableHlo.after hostOps2 (W4 m ρ c) (Proc.devRef .tc main_v31) = _
  after_results_simp
  rw [arg11_at4]
  exact (show _ = shapeCast S1x6 (arg m c main_arg11) shapeCasts_S6_S1x6 from rfl).trans
    (Cert.Glue.row_of_vec _ _ Cert.ReferenceIdeal.Gen.bcast_S6_S1x6_1)

/-! ## The sheaf weights -/

/-- The sheaf weights alpha, [250000,6]. -/
abbrev al : Arr Ideal Cert.ReferenceIdeal.S250000x6 .f32 :=
  alphaRows (F := Ideal) (ft m c) (rowVec128 (arg m c main_arg8)) (rowVec128 (arg m c main_arg9)) (arg m c main_arg10)
    (rowVec6 (arg m c main_arg11))

theorem v32_at6 (R : Regions) : W6 m ρ c (Proc.devRef .tc main_v32) = al m c := by
  refine ((W6_arr m ρ c 5).trans (R.r2 (V5 m ρ) c)).trans ?_
  show alphaRows (F := Ideal) (W5 m ρ c (Proc.devRef .tc main_v28)) (W5 m ρ c (Proc.devRef .tc main_v29)) (W5 m ρ c (Proc.devRef .tc main_v30))
    (W5 m ρ c (Proc.devRef .tc main_arg10)) (W5 m ρ c (Proc.devRef .tc main_v31)) = _
  rw [v28_at5 m ρ c R, v29_at5, v30_at5, arg10_at5, v31_at5]

/-! ## The expanded indices, the reciprocal degrees, the flattened weights, the zero bias row -/

abbrev aa : Arr Ideal Cert.ReferenceIdeal.S1500000 .f32 := flatOf (al m c)
abbrev rowE : Arr Ideal Cert.ReferenceIdeal.S1500000 .i32 := expandIdx (F := Ideal) (nidx m c)
abbrev colE : Arr Ideal Cert.ReferenceIdeal.S1500000 .i32 := expandIdx (F := Ideal) (eidx m c)
abbrev dinv : Arr Ideal Cert.ReferenceIdeal.S300000 .f32 := degInv300 (F := Ideal) (rowE m c)
abbrev binv : Arr Ideal Cert.ReferenceIdeal.S60000 .f32 := degInv60 (F := Ideal) (colE m c)
abbrev zrow : Arr Ideal Cert.ReferenceIdeal.S1x64 .f32 :=
  broadcastInDim S1x64 ![] bcast_S_S1x64 (constant (F := Ideal) S_ .f32 0x00000000#32)

theorem arg2_at6 : W6 m ρ c (Proc.devRef .tc main_arg2) = nidx m c := ((keep5 m ρ c main_arg2 (by decide)).trans ((keep4 m ρ c main_arg2 (by decide)).trans ((keep3 m ρ c main_arg2 (by decide)).trans ((keep2 m ρ c main_arg2 (by decide)).trans ((keep1 m ρ c main_arg2 (by decide)).trans (keep0 m ρ c main_arg2 (by decide)))))))
theorem arg3_at6 : W6 m ρ c (Proc.devRef .tc main_arg3) = eidx m c := ((keep5 m ρ c main_arg3 (by decide)).trans ((keep4 m ρ c main_arg3 (by decide)).trans ((keep3 m ρ c main_arg3 (by decide)).trans ((keep2 m ρ c main_arg3 (by decide)).trans ((keep1 m ρ c main_arg3 (by decide)).trans (keep0 m ρ c main_arg3 (by decide)))))))

/-- The called selection of the node degrees: the two operands selected against the broadcast scalar. -/
theorem where300 (V : Valuation τ sig (Elt Ideal)) :
    StableHlo.after hostOps3_1 V (Proc.devRef .tc main_v59)
      = select (V (Proc.devRef .tc main_v56)) (V (Proc.devRef .tc main_v58))
          (broadcastInDim S300000 ![] bcast_S_S300000 (id (V (Proc.devRef .tc main_cst_12)))) := by
  after_results
  rfl

/-- The called selection of the hyperedge degrees. -/
theorem where60 (V : Valuation τ sig (Elt Ideal)) :
    StableHlo.after hostOps3_3 V (Proc.devRef .tc main_v67)
      = select (V (Proc.devRef .tc main_v64)) (V (Proc.devRef .tc main_v66))
          (broadcastInDim S60000 ![] bcast_S_S60000 (id (V (Proc.devRef .tc main_cst_16)))) := by
  after_results
  rfl

theorem v41_at7 : W7 m ρ c (Proc.devRef .tc main_v41) = rowE m c := by
  show StableHlo.after hostOps3 (W6 m ρ c) (Proc.devRef .tc main_v41) = _
  after_results_simp
  rw [arg2_at6]
  rfl

theorem v49_at7 : W7 m ρ c (Proc.devRef .tc main_v49) = colE m c := by
  show StableHlo.after hostOps3 (W6 m ρ c) (Proc.devRef .tc main_v49) = _
  after_results_simp
  rw [arg3_at6]
  rfl

theorem v50_at7 (R : Regions) : W7 m ρ c (Proc.devRef .tc main_v50) = aa m c := by
  show StableHlo.after hostOps3 (W6 m ρ c) (Proc.devRef .tc main_v50) = _
  after_results_simp
  rw [v32_at6 m ρ c R]
  rfl

/-- The all-ones update of the degree counts. -/
abbrev ones : Arr Ideal Cert.ReferenceIdeal.S1500000 .f32 :=
  broadcastInDim S1500000 ![] bcast_S_S1500000 (constant (F := Ideal) S_ .f32 0x3F800000#32)

theorem v51_at7 : W7 m ρ c (Proc.devRef .tc main_v51) = ones := by
  show StableHlo.after hostOps3 (W6 m ρ c) (Proc.devRef .tc main_v51) = _
  after_results_simp

theorem v41_at11 : W11 m ρ c (Proc.devRef .tc main_v41) = rowE m c := ((keep10 m ρ c main_v41 (by decide)).trans ((keep9 m ρ c main_v41 (by decide)).trans ((keep8 m ρ c main_v41 (by decide)).trans (keep7 m ρ c main_v41 (by decide))))).trans (v41_at7 m ρ c)
theorem v49_at11 : W11 m ρ c (Proc.devRef .tc main_v49) = colE m c := ((keep10 m ρ c main_v49 (by decide)).trans ((keep9 m ρ c main_v49 (by decide)).trans ((keep8 m ρ c main_v49 (by decide)).trans (keep7 m ρ c main_v49 (by decide))))).trans (v49_at7 m ρ c)
theorem v50_at11 (R : Regions) : W11 m ρ c (Proc.devRef .tc main_v50) = aa m c := ((keep10 m ρ c main_v50 (by decide)).trans ((keep9 m ρ c main_v50 (by decide)).trans ((keep8 m ρ c main_v50 (by decide)).trans (keep7 m ρ c main_v50 (by decide))))).trans (v50_at7 m ρ c R)

theorem v59_at11 : W11 m ρ c (Proc.devRef .tc main_v59) = dinv m c := by
  refine ((keep10 m ρ c main_v59 (by decide)).trans ((keep9 m ρ c main_v59 (by decide)).trans (keep8 m ρ c main_v59 (by decide)))).trans ?_
  show StableHlo.after hostOps3_1 (W7 m ρ c) (Proc.devRef .tc main_v59) = _
  rw [where300]
  show select (StableHlo.after hostOps3 (W6 m ρ c) (Proc.devRef .tc main_v56)) (StableHlo.after hostOps3 (W6 m ρ c) (Proc.devRef .tc main_v58))
      (broadcastInDim S300000 ![] bcast_S_S300000 (id (StableHlo.after hostOps3 (W6 m ρ c) (Proc.devRef .tc main_cst_12)))) = _
  after_results_simp
  rw [arg2_at6]
  rfl

theorem v67_at11 : W11 m ρ c (Proc.devRef .tc main_v67) = binv m c := by
  refine (keep10 m ρ c main_v67 (by decide)).trans ?_
  show StableHlo.after hostOps3_3 (W9 m ρ c) (Proc.devRef .tc main_v67) = _
  rw [where60]
  show select (StableHlo.after hostOps3_2 (W8 m ρ c) (Proc.devRef .tc main_v64)) (StableHlo.after hostOps3_2 (W8 m ρ c) (Proc.devRef .tc main_v66))
      (broadcastInDim S60000 ![] bcast_S_S60000 (id (StableHlo.after hostOps3_2 (W8 m ρ c) (Proc.devRef .tc main_cst_16)))) = _
  after_results_simp
  rw [arg3_at6]
  rfl

theorem v68_at11 : W11 m ρ c (Proc.devRef .tc main_v68) = zrow := by
  show StableHlo.after hostOps3_4 (W10 m ρ c) (Proc.devRef .tc main_v68) = _
  after_results

theorem v4_at11 (R : Regions) : W11 m ρ c (Proc.devRef .tc main_v4) = xs m c :=
  ((keep10 m ρ c main_v4 (by decide)).trans ((keep9 m ρ c main_v4 (by decide)).trans ((keep8 m ρ c main_v4 (by decide)).trans ((keep7 m ρ c main_v4 (by decide)).trans ((keep6 m ρ c main_v4 (by decide)).trans (keep5 m ρ c main_v4 (by decide))))))).trans (v4_at5 m ρ c R)
theorem arg12_at11 : W11 m ρ c (Proc.devRef .tc main_arg12) = arg m c main_arg12 := ((keep10 m ρ c main_arg12 (by decide)).trans ((keep9 m ρ c main_arg12 (by decide)).trans ((keep8 m ρ c main_arg12 (by decide)).trans ((keep7 m ρ c main_arg12 (by decide)).trans ((keep6 m ρ c main_arg12 (by decide)).trans ((keep5 m ρ c main_arg12 (by decide)).trans ((keep4 m ρ c main_arg12 (by decide)).trans ((keep3 m ρ c main_arg12 (by decide)).trans ((keep2 m ρ c main_arg12 (by decide)).trans ((keep1 m ρ c main_arg12 (by decide)).trans (keep0 m ρ c main_arg12 (by decide))))))))))))

/-! ## The first layer -/

theorem v69_at12 (R : Regions) : W12 m ρ c (Proc.devRef .tc main_v69) = matmul64 (F := Ideal) (xs m c) (arg m c main_arg12) := by
  refine ((W12_arr m ρ c 3).trans (R.r3 (V11 m ρ) c)).trans ?_
  show convRows (F := Ideal) (W11 m ρ c (Proc.devRef .tc main_v4)) (W11 m ρ c (Proc.devRef .tc main_arg12)) (W11 m ρ c (Proc.devRef .tc main_v68)) = _
  rw [v4_at11 m ρ c R, arg12_at11, v68_at11]
  exact Cert.Glue.convRows_zero _ _ _

theorem v41_at12 : W12 m ρ c (Proc.devRef .tc main_v41) = rowE m c := (keep11 m ρ c main_v41 (by decide)).trans (v41_at11 m ρ c)
theorem v49_at12 : W12 m ρ c (Proc.devRef .tc main_v49) = colE m c := (keep11 m ρ c main_v49 (by decide)).trans (v49_at11 m ρ c)
theorem v50_at12 (R : Regions) : W12 m ρ c (Proc.devRef .tc main_v50) = aa m c := (keep11 m ρ c main_v50 (by decide)).trans (v50_at11 m ρ c R)
theorem v59_at12 : W12 m ρ c (Proc.devRef .tc main_v59) = dinv m c := (keep11 m ρ c main_v59 (by decide)).trans (v59_at11 m ρ c)
theorem v67_at12 : W12 m ρ c (Proc.devRef .tc main_v67) = binv m c := (keep11 m ρ c main_v67 (by decide)).trans (v67_at11 m ρ c)
theorem arg13_at12 : W12 m ρ c (Proc.devRef .tc main_arg13) = arg m c main_arg13 := ((keep11 m ρ c main_arg13 (by decide)).trans ((keep10 m ρ c main_arg13 (by decide)).trans ((keep9 m ρ c main_arg13 (by decide)).trans ((keep8 m ρ c main_arg13 (by decide)).trans ((keep7 m ρ c main_arg13 (by decide)).trans ((keep6 m ρ c main_arg13 (by decide)).trans ((keep5 m ρ c main_arg13 (by decide)).trans ((keep4 m ρ c main_arg13 (by decide)).trans ((keep3 m ρ c main_arg13 (by decide)).trans ((keep2 m ρ c main_arg13 (by decide)).trans ((keep1 m ρ c main_arg13 (by decide)).trans (keep0 m ρ c main_arg13 (by decide)))))))))))))

theorem v101_at13 (R : Regions) : W13 m ρ c (Proc.devRef .tc main_v101)
    = aggregate (F := Ideal) (matmul64 (F := Ideal) (xs m c) (arg m c main_arg12)) (aa m c) (rowE m c) (colE m c) (dinv m c) (binv m c) := by
  show StableHlo.after hostOps4 (W12 m ρ c) (Proc.devRef .tc main_v101) = _
  after_results_simp
  rw [v69_at12 m ρ c R, v50_at12 m ρ c R, v41_at12, v49_at12, v59_at12, v67_at12]
  rfl

theorem v102_at13 : W13 m ρ c (Proc.devRef .tc main_v102) = rowVec64 (F := Ideal) (arg m c main_arg13) := by
  show StableHlo.after hostOps4 (W12 m ρ c) (Proc.devRef .tc main_v102) = _
  after_results_simp
  rw [arg13_at12]
  exact (show _ = shapeCast S1x64 (arg m c main_arg13) shapeCasts_S64_S1x64 from rfl).trans
    (Cert.Glue.row_of_vec _ _ Cert.ReferenceIdeal.Gen.bcast_S64_S1x64_1)

theorem v69_at13 (R : Regions) : W13 m ρ c (Proc.devRef .tc main_v69) = matmul64 (F := Ideal) (xs m c) (arg m c main_arg12) :=
  (keep12 m ρ c main_v69 (by decide)).trans (v69_at12 m ρ c R)

/-- The first layer's output (after ELU). -/
abbrev h1 : Arr Ideal Cert.ReferenceIdeal.S300000x64 .f32 :=
  layerElu (F := Ideal) (xs m c) (arg m c main_arg12) (arg m c main_arg13) (aa m c) (rowE m c) (colE m c) (dinv m c) (binv m c)

theorem v103_at14 (R : Regions) : W14 m ρ c (Proc.devRef .tc main_v103) = h1 m c := by
  refine ((W14_arr m ρ c 3).trans (R.r4 (V13 m ρ) c)).trans ?_
  show combineElu (F := Ideal) (W13 m ρ c (Proc.devRef .tc main_v69)) (W13 m ρ c (Proc.devRef .tc main_v101)) (W13 m ρ c (Proc.devRef .tc main_v102)) = _
  rw [v69_at13 m ρ c R, v101_at13 m ρ c R, v102_at13]
  rfl

/-! ## The second layer -/

theorem arg14_at14 : W14 m ρ c (Proc.devRef .tc main_arg14) = arg m c main_arg14 := ((keep13 m ρ c main_arg14 (by decide)).trans ((keep12 m ρ c main_arg14 (by decide)).trans ((keep11 m ρ c main_arg14 (by decide)).trans ((keep10 m ρ c main_arg14 (by decide)).trans ((keep9 m ρ c main_arg14 (by decide)).trans ((keep8 m ρ c main_arg14 (by decide)).trans ((keep7 m ρ c main_arg14 (by decide)).trans ((keep6 m ρ c main_arg14 (by decide)).trans ((keep5 m ρ c main_arg14 (by decide)).trans ((keep4 m ρ c main_arg14 (by decide)).trans ((keep3 m ρ c main_arg14 (by decide)).trans ((keep2 m ρ c main_arg14 (by decide)).trans ((keep1 m ρ c main_arg14 (by decide)).trans (keep0 m ρ c main_arg14 (by decide)))))))))))))))
theorem v68_at14 : W14 m ρ c (Proc.devRef .tc main_v68) = zrow := ((keep13 m ρ c main_v68 (by decide)).trans ((keep12 m ρ c main_v68 (by decide)).trans (keep11 m ρ c main_v68 (by decide)))).trans (v68_at11 m ρ c)

theorem v104_at15 (R : Regions) : W15 m ρ c (Proc.devRef .tc main_v104) = matmul64 (F := Ideal) (h1 m c) (arg m c main_arg14) := by
  refine ((W15_arr m ρ c 3).trans (R.r5 (V14 m ρ) c)).trans ?_
  show convRows (F := Ideal) (W14 m ρ c (Proc.devRef .tc main_v103)) (W14 m ρ c (Proc.devRef .tc main_arg14)) (W14 m ρ c (Proc.devRef .tc main_v68)) = _
  rw [v103_at14 m ρ c R, arg14_at14, v68_at14]
  exact Cert.Glue.convRows_zero _ _ _

theorem v41_at15 : W15 m ρ c (Proc.devRef .tc main_v41) = rowE m c := ((keep14 m ρ c main_v41 (by decide)).trans ((keep13 m ρ c main_v41 (by decide)).trans ((keep12 m ρ c main_v41 (by decide)).trans (keep11 m ρ c main_v41 (by decide))))).trans (v41_at11 m ρ c)
theorem v49_at15 : W15 m ρ c (Proc.devRef .tc main_v49) = colE m c := ((keep14 m ρ c main_v49 (by decide)).trans ((keep13 m ρ c main_v49 (by decide)).trans ((keep12 m ρ c main_v49 (by decide)).trans (keep11 m ρ c main_v49 (by decide))))).trans (v49_at11 m ρ c)
theorem v50_at15 (R : Regions) : W15 m ρ c (Proc.devRef .tc main_v50) = aa m c := ((keep14 m ρ c main_v50 (by decide)).trans ((keep13 m ρ c main_v50 (by decide)).trans ((keep12 m ρ c main_v50 (by decide)).trans (keep11 m ρ c main_v50 (by decide))))).trans (v50_at11 m ρ c R)
theorem v59_at15 : W15 m ρ c (Proc.devRef .tc main_v59) = dinv m c := ((keep14 m ρ c main_v59 (by decide)).trans ((keep13 m ρ c main_v59 (by decide)).trans ((keep12 m ρ c main_v59 (by decide)).trans (keep11 m ρ c main_v59 (by decide))))).trans (v59_at11 m ρ c)
theorem v67_at15 : W15 m ρ c (Proc.devRef .tc main_v67) = binv m c := ((keep14 m ρ c main_v67 (by decide)).trans ((keep13 m ρ c main_v67 (by decide)).trans ((keep12 m ρ c main_v67 (by decide)).trans (keep11 m ρ c main_v67 (by decide))))).trans (v67_at11 m ρ c)
theorem arg15_at15 : W15 m ρ c (Proc.devRef .tc main_arg15) = arg m c main_arg15 := ((keep14 m ρ c main_arg15 (by decide)).trans ((keep13 m ρ c main_arg15 (by decide)).trans ((keep12 m ρ c main_arg15 (by decide)).trans ((keep11 m ρ c main_arg15 (by decide)).trans ((keep10 m ρ c main_arg15 (by decide)).trans ((keep9 m ρ c main_arg15 (by decide)).trans ((keep8 m ρ c main_arg15 (by decide)).trans ((keep7 m ρ c main_arg15 (by decide)).trans ((keep6 m ρ c main_arg15 (by decide)).trans ((keep5 m ρ c main_arg15 (by decide)).trans ((keep4 m ρ c main_arg15 (by decide)).trans ((keep3 m ρ c main_arg15 (by decide)).trans ((keep2 m ρ c main_arg15 (by decide)).trans ((keep1 m ρ c main_arg15 (by decide)).trans (keep0 m ρ c main_arg15 (by decide))))))))))))))))

theorem v136_at16 (R : Regions) : W16 m ρ c (Proc.devRef .tc main_v136)
    = aggregate (F := Ideal) (matmul64 (F := Ideal) (h1 m c) (arg m c main_arg14)) (aa m c) (rowE m c) (colE m c) (dinv m c) (binv m c) := by
  show StableHlo.after hostOps6 (W15 m ρ c) (Proc.devRef .tc main_v136) = _
  after_results_simp
  rw [v104_at15 m ρ c R, v50_at15 m ρ c R, v41_at15, v49_at15, v59_at15, v67_at15]
  rfl

theorem v137_at16 : W16 m ρ c (Proc.devRef .tc main_v137) = rowVec64 (F := Ideal) (arg m c main_arg15) := by
  show StableHlo.after hostOps6 (W15 m ρ c) (Proc.devRef .tc main_v137) = _
  after_results_simp
  rw [arg15_at15]
  exact (show _ = shapeCast S1x64 (arg m c main_arg15) shapeCasts_S64_S1x64 from rfl).trans
    (Cert.Glue.row_of_vec _ _ Cert.ReferenceIdeal.Gen.bcast_S64_S1x64_1)

theorem v104_at16 (R : Regions) : W16 m ρ c (Proc.devRef .tc main_v104) = matmul64 (F := Ideal) (h1 m c) (arg m c main_arg14) :=
  (keep15 m ρ c main_v104 (by decide)).trans (v104_at15 m ρ c R)

/-- The second layer's output. -/
abbrev h2 : Arr Ideal Cert.ReferenceIdeal.S300000x64 .f32 :=
  layerPlain (F := Ideal) (h1 m c) (arg m c main_arg14) (arg m c main_arg15) (aa m c) (rowE m c) (colE m c) (dinv m c) (binv m c)

theorem v138_at17 (R : Regions) : W17 m ρ c (Proc.devRef .tc main_v138) = h2 m c := by
  refine ((W17_arr m ρ c 3).trans (R.r6 (V16 m ρ) c)).trans ?_
  show combinePlain (F := Ideal) (W16 m ρ c (Proc.devRef .tc main_v104)) (W16 m ρ c (Proc.devRef .tc main_v136)) (W16 m ρ c (Proc.devRef .tc main_v137)) = _
  rw [v104_at16 m ρ c R, v136_at16 m ρ c R, v137_at16]
  rfl

/-! ## The final activation, and the result -/

theorem v139_at18 (R : Regions) : W18 m ρ c (Proc.devRef .tc main_v139)
    = shapeCast S50000x384 (h2 m c) shapeCasts_S300000x64_S50000x384 := by
  show StableHlo.after hostOps7 (W17 m ρ c) (Proc.devRef .tc main_v139) = _
  after_results
  rw [v138_at17 m ρ c R]
  rfl

/-- The result buffer after the run is the whole computation of the argument arrays. -/
theorem result (R : Regions) : W19 m ρ c (Proc.devRef .tc main_v140)
    = wholeOf (F := Ideal) (arg m c main_arg0) (arg m c main_arg1) (arg m c main_arg2) (arg m c main_arg3)
        (arg m c main_arg6) (arg m c main_arg7) (arg m c main_arg8) (arg m c main_arg9) (arg m c main_arg10)
        (arg m c main_arg11) (arg m c main_arg12) (arg m c main_arg13) (arg m c main_arg14) (arg m c main_arg15) := by
  refine ((W19_arr m ρ c 1).trans (R.r7 (V18 m ρ) c)).trans ?_
  show elu50 (F := Ideal) (W18 m ρ c (Proc.devRef .tc main_v139)) = _
  rw [v139_at18 m ρ c R]
  have hb : biasRow m c = rowVec384 (F := Ideal) (arg m c main_arg7) :=
    Cert.Glue.row_of_vec _ _ Cert.ReferenceIdeal.Gen.bcast_S384_S1x384_1
  unfold wholeOf tailOf
  rw [← hb]

end Cert.KernelIdeal.Chain

end
-- ==== Proof.RefOps.lean ====
/- GENERATED by: bun scratch/gen_ref_tables.js <unit directory> — the reference program's host operations as lists, in order, one list per printed
   part of its entry function, every called function's operations written at its call over that call's buffers. Tables only. -/
import proofs.«159071_j31842887533297_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of the entry function (60 of them), in order. -/
abbrev ops0 : List (HloOp τ sig (Elt F)) :=
  [ StableHlo.binary main_arg0 main_arg6 main_v0 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg7 main_v1 (broadcastInDim S1x384 ![1] bcast_S384_S1x384_1 : (⟨S384, .f32⟩ : BufTy).Contents (Elt F) → (⟨S1x384, .f32⟩ : BufTy).Contents (Elt F)),
    StableHlo.unary main_v1 main_v2 (broadcastInDim S50000x384 ![0, 1] bcast_S1x384_S50000x384_0_1 : (⟨S1x384, .f32⟩ : BufTy).Contents (Elt F) → (⟨S50000x384, .f32⟩ : BufTy).Contents (Elt F)),
    StableHlo.binary main_v0 main_v2 main_v3 (addf : (⟨S50000x384, .f32⟩ : BufTy).Contents (Elt F) → (⟨S50000x384, .f32⟩ : BufTy).Contents (Elt F) → (⟨S50000x384, .f32⟩ : BufTy).Contents (Elt F)),
    StableHlo.reshape main_v3 main_v4 rfl shapeCasts_S50000x384_S300000x64,
    StableHlo.binary main_arg1 main_arg6 main_v5 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    StableHlo.unary main_arg7 main_v6 (broadcastInDim S1x384 ![1] bcast_S384_S1x384_1 : (⟨S384, .f32⟩ : BufTy).Contents (Elt F) → (⟨S1x384, .f32⟩ : BufTy).Contents (Elt F)),
    StableHlo.unary main_v6 main_v7 (broadcastInDim S10000x384 ![0, 1] bcast_S1x384_S10000x384_0_1 : (⟨S1x384, .f32⟩ : BufTy).Contents (Elt F) → (⟨S10000x384, .f32⟩ : BufTy).Contents (Elt F)),
    StableHlo.binary main_v5 main_v7 main_v8 (addf : (⟨S10000x384, .f32⟩ : BufTy).Contents (Elt F) → (⟨S10000x384, .f32⟩ : BufTy).Contents (Elt F) → (⟨S10000x384, .f32⟩ : BufTy).Contents (Elt F)),
    StableHlo.reshape main_v8 main_v9 rfl shapeCasts_S10000x384_S60000x64,
    StableHlo.reshape main_v4 main_v10 rfl shapeCasts_S300000x64_S50000x6x64,
    StableHlo.nullary main_cst (constant S_ .f32 0x00000000#32),
    StableHlo.binary main_v10 main_cst main_v11 ((fun x v => Host.reduceAdd x v reducesTo_S50000x6x64_S50000x64_d1 h_S_) : (⟨S50000x6x64, .f32⟩ : BufTy).Contents (Elt F) → (⟨S_, .f32⟩ : BufTy).Contents (Elt F) → (⟨S50000x64, .f32⟩ : BufTy).Contents (Elt F)),
    StableHlo.nullary main_cst_0 (constant S_ .f32 0x40C00000#32),
    StableHlo.unary main_cst_0 main_v12 (broadcastInDim S50000x64 ![] bcast_S_S50000x64 : (⟨S_, .f32⟩ : BufTy).Contents (Elt F) → (⟨S50000x64, .f32⟩ : BufTy).Contents (Elt F)),
    StableHlo.binary main_v11 main_v12 main_v13 (Host.divf : (⟨S50000x64, .f32⟩ : BufTy).Contents (Elt F) → (⟨S50000x64, .f32⟩ : BufTy).Contents (Elt F) → (⟨S50000x64, .f32⟩ : BufTy).Contents (Elt F)),
    StableHlo.reshape main_v9 main_v14 rfl shapeCasts_S60000x64_S10000x6x64,
    StableHlo.nullary main_cst_1 (constant S_ .f32 0x00000000#32),
    StableHlo.binary main_v14 main_cst_1 main_v15 ((fun x v => Host.reduceAdd x v reducesTo_S10000x6x64_S10000x64_d1 h_S_) : (⟨S10000x6x64, .f32⟩ : BufTy).Contents (Elt F) → (⟨S_, .f32⟩ : BufTy).Contents (Elt F) → (⟨S10000x64, .f32⟩ : BufTy).Contents (Elt F)),
    StableHlo.nullary main_cst_2 (constant S_ .f32 0x40C00000#32),
    StableHlo.unary main_cst_2 main_v16 (broadcastInDim S10000x64 ![] bcast_S_S10000x64 : (⟨S_, .f32⟩ : BufTy).Contents (Elt F) → (⟨S10000x64, .f32⟩ : BufTy).Contents (Elt F)),
    StableHlo.binary main_v15 main_v16 main_v17 (Host.divf : (⟨S10000x64, .f32⟩ : BufTy).Contents (Elt F) → (⟨S10000x64, .f32⟩ : BufTy).Contents (Elt F) → (⟨S10000x64, .f32⟩ : BufTy).Contents (Elt F)),
    StableHlo.nullary main_c (constantI S_ 32 0#32),
    StableHlo.unary main_c main_v18 (broadcastInDim S250000 ![] bcast_S_S250000 : (⟨S_, .i32⟩ : BufTy).Contents (Elt F) → (⟨S250000, .i32⟩ : BufTy).Contents (Elt F)),
    StableHlo.binary main_arg2 main_v18 main_v19 (cmpi .slt : (⟨S250000, .i32⟩ : BufTy).Contents (Elt F) → (⟨S250000, .i32⟩ : BufTy).Contents (Elt F) → (⟨S250000, .i1⟩ : BufTy).Contents (Elt F)),
    StableHlo.nullary main_c_3 (constantI S_ 32 50000#32),
    StableHlo.unary main_c_3 main_v20 (broadcastInDim S250000 ![] bcast_S_S250000 : (⟨S_, .i32⟩ : BufTy).Contents (Elt F) → (⟨S250000, .i32⟩ : BufTy).Contents (Elt F)),
    StableHlo.binary main_arg2 main_v20 main_v21 (addi : (⟨S250000, .i32⟩ : BufTy).Contents (Elt F) → (⟨S250000, .i32⟩ : BufTy).Contents (Elt F) → (⟨S250000, .i32⟩ : BufTy).Contents (Elt F)),
    StableHlo.ternary main_v19 main_v21 main_arg2 main_v22 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v22 main_v23 (broadcastInDim S250000x1 ![0] bcast_S250000_S250000x1_0 : (⟨S250000, .i32⟩ : BufTy).Contents (Elt F) → (⟨S250000x1, .i32⟩ : BufTy).Contents (Elt F)),
    StableHlo.binary main_v13 main_v23 main_v24 ((fun x i => Host.gather gather_S50000x64_S250000x1_S250000x64_1_0_n_n_0_1_164 x i) : (⟨S50000x64, .f32⟩ : BufTy).Contents (Elt F) → (⟨S250000x1, .i32⟩ : BufTy).Contents (Elt F) → (⟨S250000x64, .f32⟩ : BufTy).Contents (Elt F)),
    StableHlo.nullary main_c_4 (constantI S_ 32 0#32),
    StableHlo.unary main_c_4 main_v25 (broadcastInDim S250000 ![] bcast_S_S250000 : (⟨S_, .i32⟩ : BufTy).Contents (Elt F) → (⟨S250000, .i32⟩ : BufTy).Contents (Elt F)),
    StableHlo.binary main_arg3 main_v25 main_v26 (cmpi .slt : (⟨S250000, .i32⟩ : BufTy).Contents (Elt F) → (⟨S250000, .i32⟩ : BufTy).Contents (Elt F) → (⟨S250000, .i1⟩ : BufTy).Contents (Elt F)),
    StableHlo.nullary main_c_5 (constantI S_ 32 10000#32),
    StableHlo.unary main_c_5 main_v27 (broadcastInDim S250000 ![] bcast_S_S250000 : (⟨S_, .i32⟩ : BufTy).Contents (Elt F) → (⟨S250000, .i32⟩ : BufTy).Contents (Elt F)),
    StableHlo.binary main_arg3 main_v27 main_v28 (addi : (⟨S250000, .i32⟩ : BufTy).Contents (Elt F) → (⟨S250000, .i32⟩ : BufTy).Contents (Elt F) → (⟨S250000, .i32⟩ : BufTy).Contents (Elt F)),
    StableHlo.ternary main_v26 main_v28 main_arg3 main_v29 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v29 main_v30 (broadcastInDim S250000x1 ![0] bcast_S250000_S250000x1_0 : (⟨S250000, .i32⟩ : BufTy).Contents (Elt F) → (⟨S250000x1, .i32⟩ : BufTy).Contents (Elt F)),
    StableHlo.binary main_v17 main_v30 main_v31 ((fun x i => Host.gather gather_S10000x64_S250000x1_S250000x64_1_0_n_n_0_1_164 x i) : (⟨S10000x64, .f32⟩ : BufTy).Contents (Elt F) → (⟨S250000x1, .i32⟩ : BufTy).Contents (Elt F) → (⟨S250000x64, .f32⟩ : BufTy).Contents (Elt F)),
    StableHlo.binary main_v24 main_v31 main_v32 ((fun a b => concatenate S250000x128 1 [⟨S250000x64, a⟩, ⟨S250000x64, b⟩] concatenates_S250000x64_S250000x64_S250000x128_d1) : (⟨S250000x64, .f32⟩ : BufTy).Contents (Elt F) → (⟨S250000x64, .f32⟩ : BufTy).Contents (Elt F) → (⟨S250000x128, .f32⟩ : BufTy).Contents (Elt F)),
    StableHlo.nullary main_cst_6 (constant S_ .f32 0x00000000#32),
    StableHlo.binary main_v32 main_cst_6 main_v33 ((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)),
    StableHlo.unary main_v33 main_v34 (broadcastInDim S250000x1 ![0] bcast_S250000_S250000x1_0 : (⟨S250000, .f32⟩ : BufTy).Contents (Elt F) → (⟨S250000x1, .f32⟩ : BufTy).Contents (Elt F)),
    StableHlo.nullary main_cst_7 (constant S_ .f32 0x43000000#32),
    StableHlo.unary main_cst_7 main_v35 (broadcastInDim S250000x1 ![] bcast_S_S250000x1 : (⟨S_, .f32⟩ : BufTy).Contents (Elt F) → (⟨S250000x1, .f32⟩ : BufTy).Contents (Elt F)),
    StableHlo.binary main_v34 main_v35 main_v36 (Host.divf : (⟨S250000x1, .f32⟩ : BufTy).Contents (Elt F) → (⟨S250000x1, .f32⟩ : BufTy).Contents (Elt F) → (⟨S250000x1, .f32⟩ : BufTy).Contents (Elt F)),
    StableHlo.unary main_v36 main_v37 (broadcastInDim S250000x128 ![0, 1] bcast_S250000x1_S250000x128_0_1 : (⟨S250000x1, .f32⟩ : BufTy).Contents (Elt F) → (⟨S250000x128, .f32⟩ : BufTy).Contents (Elt F)),
    StableHlo.binary main_v32 main_v37 main_v38 (subf : (⟨S250000x128, .f32⟩ : BufTy).Contents (Elt F) → (⟨S250000x128, .f32⟩ : BufTy).Contents (Elt F) → (⟨S250000x128, .f32⟩ : BufTy).Contents (Elt F)),
    StableHlo.binary main_v38 main_v38 main_v39 (mulf : (⟨S250000x128, .f32⟩ : BufTy).Contents (Elt F) → (⟨S250000x128, .f32⟩ : BufTy).Contents (Elt F) → (⟨S250000x128, .f32⟩ : BufTy).Contents (Elt F)),
    StableHlo.nullary main_cst_8 (constant S_ .f32 0x00000000#32),
    StableHlo.binary main_v39 main_cst_8 main_v40 ((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)),
    StableHlo.unary main_v40 main_v41 (broadcastInDim S250000x1 ![0] bcast_S250000_S250000x1_0 : (⟨S250000, .f32⟩ : BufTy).Contents (Elt F) → (⟨S250000x1, .f32⟩ : BufTy).Contents (Elt F)),
    StableHlo.nullary main_cst_9 (constant S_ .f32 0x43000000#32),
    StableHlo.unary main_cst_9 main_v42 (broadcastInDim S250000x1 ![] bcast_S_S250000x1 : (⟨S_, .f32⟩ : BufTy).Contents (Elt F) → (⟨S250000x1, .f32⟩ : BufTy).Contents (Elt F)),
    StableHlo.binary main_v41 main_v42 main_v43 (Host.divf : (⟨S250000x1, .f32⟩ : BufTy).Contents (Elt F) → (⟨S250000x1, .f32⟩ : BufTy).Contents (Elt F) → (⟨S250000x1, .f32⟩ : BufTy).Contents (Elt F)),
    StableHlo.unary main_v36 main_v44 (broadcastInDim S250000x128 ![0, 1] bcast_S250000x1_S250000x128_0_1 : (⟨S250000x1, .f32⟩ : BufTy).Contents (Elt F) → (⟨S250000x128, .f32⟩ : BufTy).Contents (Elt F)),
    StableHlo.binary main_v32 main_v44 main_v45 (subf : (⟨S250000x128, .f32⟩ : BufTy).Contents (Elt F) → (⟨S250000x128, .f32⟩ : BufTy).Contents (Elt F) → (⟨S250000x128, .f32⟩ : BufTy).Contents (Elt F)),
    StableHlo.nullary main_cst_10 (constant S_ .f32 0x3727C5AC#32),
    StableHlo.unary main_cst_10 main_v46 (broadcastInDim S250000x1 ![] bcast_S_S250000x1 : (⟨S_, .f32⟩ : BufTy).Contents (Elt F) → (⟨S250000x1, .f32⟩ : BufTy).Contents (Elt F)) ]
theorem ops0_sub : (ops0 : List (HloOp τ sig (Elt F))).Forall fun op => op.bufs ⊆ tcRefs τ sig :=
  ⟨binary_bufs_sub .., unary_bufs_sub .., unary_bufs_sub .., binary_bufs_sub .., reshape_bufs_sub .., binary_bufs_sub .., unary_bufs_sub .., unary_bufs_sub .., binary_bufs_sub .., reshape_bufs_sub .., reshape_bufs_sub .., nullary_bufs_sub .., binary_bufs_sub .., nullary_bufs_sub .., unary_bufs_sub .., binary_bufs_sub .., reshape_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub ..⟩

/-- The operations of part 1 of the entry function (62 of them), in order. -/
abbrev ops1 : List (HloOp τ sig (Elt F)) :=
  [ StableHlo.binary main_v43 main_v46 main_v47 (addf : (⟨S250000x1, .f32⟩ : BufTy).Contents (Elt F) → (⟨S250000x1, .f32⟩ : BufTy).Contents (Elt F) → (⟨S250000x1, .f32⟩ : BufTy).Contents (Elt F)),
    StableHlo.unary main_v47 main_v48 (Host.rsqrt : (⟨S250000x1, .f32⟩ : BufTy).Contents (Elt F) → (⟨S250000x1, .f32⟩ : BufTy).Contents (Elt F)),
    StableHlo.unary main_v48 main_v49 (broadcastInDim S250000x128 ![0, 1] bcast_S250000x1_S250000x128_0_1 : (⟨S250000x1, .f32⟩ : BufTy).Contents (Elt F) → (⟨S250000x128, .f32⟩ : BufTy).Contents (Elt F)),
    StableHlo.binary main_v45 main_v49 main_v50 (mulf : (⟨S250000x128, .f32⟩ : BufTy).Contents (Elt F) → (⟨S250000x128, .f32⟩ : BufTy).Contents (Elt F) → (⟨S250000x128, .f32⟩ : BufTy).Contents (Elt F)),
    StableHlo.unary main_arg8 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S250000x128 ![0, 1] bcast_S1x128_S250000x128_0_1 : (⟨S1x128, .f32⟩ : BufTy).Contents (Elt F) → (⟨S250000x128, .f32⟩ : BufTy).Contents (Elt F)),
    StableHlo.binary main_v50 main_v52 main_v53 (mulf : (⟨S250000x128, .f32⟩ : BufTy).Contents (Elt F) → (⟨S250000x128, .f32⟩ : BufTy).Contents (Elt F) → (⟨S250000x128, .f32⟩ : BufTy).Contents (Elt F)),
    StableHlo.unary main_arg9 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S250000x128 ![0, 1] bcast_S1x128_S250000x128_0_1 : (⟨S1x128, .f32⟩ : BufTy).Contents (Elt F) → (⟨S250000x128, .f32⟩ : BufTy).Contents (Elt F)),
    StableHlo.binary main_v53 main_v55 main_v56 (addf : (⟨S250000x128, .f32⟩ : BufTy).Contents (Elt F) → (⟨S250000x128, .f32⟩ : BufTy).Contents (Elt F) → (⟨S250000x128, .f32⟩ : BufTy).Contents (Elt F)),
    StableHlo.binary main_v56 main_arg10 main_v57 ((fun l r => Host.dotGeneral dot_S250000x128_S128x6_S250000x6_1_0_0_1_n_n none l r) : (⟨S250000x128, .f32⟩ : BufTy).Contents (Elt F) → (⟨S128x6, .f32⟩ : BufTy).Contents (Elt F) → (⟨S250000x6, .f32⟩ : BufTy).Contents (Elt F)),
    StableHlo.unary main_arg11 main_v58 (broadcastInDim S1x6 ![1] bcast_S6_S1x6_1 : (⟨S6, .f32⟩ : BufTy).Contents (Elt F) → (⟨S1x6, .f32⟩ : BufTy).Contents (Elt F)),
    StableHlo.unary main_v58 main_v59 (broadcastInDim S250000x6 ![0, 1] bcast_S1x6_S250000x6_0_1 : (⟨S1x6, .f32⟩ : BufTy).Contents (Elt F) → (⟨S250000x6, .f32⟩ : BufTy).Contents (Elt F)),
    StableHlo.binary main_v57 main_v59 main_v60 (addf : (⟨S250000x6, .f32⟩ : BufTy).Contents (Elt F) → (⟨S250000x6, .f32⟩ : BufTy).Contents (Elt F) → (⟨S250000x6, .f32⟩ : BufTy).Contents (Elt F)),
    StableHlo.unary main_v60 main_v61 (Host.negf : (⟨S250000x6, .f32⟩ : BufTy).Contents (Elt F) → (⟨S250000x6, .f32⟩ : BufTy).Contents (Elt F)),
    StableHlo.unary main_v61 main_v62 (Host.exp : (⟨S250000x6, .f32⟩ : BufTy).Contents (Elt F) → (⟨S250000x6, .f32⟩ : BufTy).Contents (Elt F)),
    StableHlo.nullary main_cst_11 (constant S_ .f32 0x3F800000#32),
    StableHlo.unary main_cst_11 main_v63 (broadcastInDim S250000x6 ![] bcast_S_S250000x6 : (⟨S_, .f32⟩ : BufTy).Contents (Elt F) → (⟨S250000x6, .f32⟩ : BufTy).Contents (Elt F)),
    StableHlo.binary main_v63 main_v62 main_v64 (addf : (⟨S250000x6, .f32⟩ : BufTy).Contents (Elt F) → (⟨S250000x6, .f32⟩ : BufTy).Contents (Elt F) → (⟨S250000x6, .f32⟩ : BufTy).Contents (Elt F)),
    StableHlo.nullary main_cst_12 (constant S_ .f32 0x3F800000#32),
    StableHlo.unary main_cst_12 main_v65 (broadcastInDim S250000x6 ![] bcast_S_S250000x6 : (⟨S_, .f32⟩ : BufTy).Contents (Elt F) → (⟨S250000x6, .f32⟩ : BufTy).Contents (Elt F)),
    StableHlo.binary main_v65 main_v64 main_v66 (Host.divf : (⟨S250000x6, .f32⟩ : BufTy).Contents (Elt F) → (⟨S250000x6, .f32⟩ : BufTy).Contents (Elt F) → (⟨S250000x6, .f32⟩ : BufTy).Contents (Elt F)),
    StableHlo.nullary main_v67 (iotaInDim S6 32 0),
    StableHlo.unary main_arg2 main_v68 (broadcastInDim S250000x1 ![0] bcast_S250000_S250000x1_0 : (⟨S250000, .i32⟩ : BufTy).Contents (Elt F) → (⟨S250000x1, .i32⟩ : BufTy).Contents (Elt F)),
    StableHlo.nullary main_c_13 (constantI S_ 32 6#32),
    StableHlo.unary main_c_13 main_v69 (broadcastInDim S250000x1 ![] bcast_S_S250000x1 : (⟨S_, .i32⟩ : BufTy).Contents (Elt F) → (⟨S250000x1, .i32⟩ : BufTy).Contents (Elt F)),
    StableHlo.binary main_v68 main_v69 main_v70 (muli : (⟨S250000x1, .i32⟩ : BufTy).Contents (Elt F) → (⟨S250000x1, .i32⟩ : BufTy).Contents (Elt F) → (⟨S250000x1, .i32⟩ : BufTy).Contents (Elt F)),
    StableHlo.unary main_v67 main_v71 (broadcastInDim S1x6 ![1] bcast_S6_S1x6_1 : (⟨S6, .i32⟩ : BufTy).Contents (Elt F) → (⟨S1x6, .i32⟩ : BufTy).Contents (Elt F)),
    StableHlo.unary main_v70 main_v72 (broadcastInDim S250000x6 ![0, 1] bcast_S250000x1_S250000x6_0_1 : (⟨S250000x1, .i32⟩ : BufTy).Contents (Elt F) → (⟨S250000x6, .i32⟩ : BufTy).Contents (Elt F)),
    StableHlo.unary main_v71 main_v73 (broadcastInDim S250000x6 ![0, 1] bcast_S1x6_S250000x6_0_1 : (⟨S1x6, .i32⟩ : BufTy).Contents (Elt F) → (⟨S250000x6, .i32⟩ : BufTy).Contents (Elt F)),
    StableHlo.binary main_v72 main_v73 main_v74 (addi : (⟨S250000x6, .i32⟩ : BufTy).Contents (Elt F) → (⟨S250000x6, .i32⟩ : BufTy).Contents (Elt F) → (⟨S250000x6, .i32⟩ : BufTy).Contents (Elt F)),
    StableHlo.reshape main_v74 main_v75 rfl shapeCasts_S250000x6_S1500000,
    StableHlo.unary main_arg3 main_v76 (broadcastInDim S250000x1 ![0] bcast_S250000_S250000x1_0 : (⟨S250000, .i32⟩ : BufTy).Contents (Elt F) → (⟨S250000x1, .i32⟩ : BufTy).Contents (Elt F)),
    StableHlo.nullary main_c_14 (constantI S_ 32 6#32),
    StableHlo.unary main_c_14 main_v77 (broadcastInDim S250000x1 ![] bcast_S_S250000x1 : (⟨S_, .i32⟩ : BufTy).Contents (Elt F) → (⟨S250000x1, .i32⟩ : BufTy).Contents (Elt F)),
    StableHlo.binary main_v76 main_v77 main_v78 (muli : (⟨S250000x1, .i32⟩ : BufTy).Contents (Elt F) → (⟨S250000x1, .i32⟩ : BufTy).Contents (Elt F) → (⟨S250000x1, .i32⟩ : BufTy).Contents (Elt F)),
    StableHlo.unary main_v67 main_v79 (broadcastInDim S1x6 ![1] bcast_S6_S1x6_1 : (⟨S6, .i32⟩ : BufTy).Contents (Elt F) → (⟨S1x6, .i32⟩ : BufTy).Contents (Elt F)),
    StableHlo.unary main_v78 main_v80 (broadcastInDim S250000x6 ![0, 1] bcast_S250000x1_S250000x6_0_1 : (⟨S250000x1, .i32⟩ : BufTy).Contents (Elt F) → (⟨S250000x6, .i32⟩ : BufTy).Contents (Elt F)),
    StableHlo.unary main_v79 main_v81 (broadcastInDim S250000x6 ![0, 1] bcast_S1x6_S250000x6_0_1 : (⟨S1x6, .i32⟩ : BufTy).Contents (Elt F) → (⟨S250000x6, .i32⟩ : BufTy).Contents (Elt F)),
    StableHlo.binary main_v80 main_v81 main_v82 (addi : (⟨S250000x6, .i32⟩ : BufTy).Contents (Elt F) → (⟨S250000x6, .i32⟩ : BufTy).Contents (Elt F) → (⟨S250000x6, .i32⟩ : BufTy).Contents (Elt F)),
    StableHlo.reshape main_v82 main_v83 rfl shapeCasts_S250000x6_S1500000,
    StableHlo.reshape main_v66 main_v84 rfl shapeCasts_S250000x6_S1500000,
    StableHlo.nullary main_cst_15 (constant S_ .f32 0x3F800000#32),
    StableHlo.unary main_cst_15 main_v85 (broadcastInDim S1500000 ![] bcast_S_S1500000 : (⟨S_, .f32⟩ : BufTy).Contents (Elt F) → (⟨S1500000, .f32⟩ : BufTy).Contents (Elt F)),
    StableHlo.nullary main_cst_16 (constant S_ .f32 0x00000000#32),
    StableHlo.unary main_cst_16 main_v86 (broadcastInDim S300000 ![] bcast_S_S300000 : (⟨S_, .f32⟩ : BufTy).Contents (Elt F) → (⟨S300000, .f32⟩ : BufTy).Contents (Elt F)),
    StableHlo.unary main_v75 main_v87 (broadcastInDim S1500000x1 ![0] bcast_S1500000_S1500000x1_0 : (⟨S1500000, .i32⟩ : BufTy).Contents (Elt F) → (⟨S1500000x1, .i32⟩ : BufTy).Contents (Elt F)),
    StableHlo.ternary main_v86 main_v87 main_v85 main_v88 ((fun x i u => Host.scatterAdd scatter_S300000_S1500000x1_S1500000_n_0_0_1 x i u) : (⟨S300000, .f32⟩ : BufTy).Contents (Elt F) → (⟨S1500000x1, .i32⟩ : BufTy).Contents (Elt F) → (⟨S1500000, .f32⟩ : BufTy).Contents (Elt F) → (⟨S300000, .f32⟩ : BufTy).Contents (Elt F)),
    StableHlo.nullary main_cst_17 (constant S_ .f32 0x00000000#32),
    StableHlo.unary main_cst_17 main_v89 (broadcastInDim S300000 ![] bcast_S_S300000 : (⟨S_, .f32⟩ : BufTy).Contents (Elt F) → (⟨S300000, .f32⟩ : BufTy).Contents (Elt F)),
    StableHlo.binary main_v88 main_v89 main_v90 (cmpf .ogt : (⟨S300000, .f32⟩ : BufTy).Contents (Elt F) → (⟨S300000, .f32⟩ : BufTy).Contents (Elt F) → (⟨S300000, .i1⟩ : BufTy).Contents (Elt F)),
    StableHlo.nullary main_cst_18 (constant S_ .f32 0x3F800000#32),
    StableHlo.unary main_cst_18 main_v91 (broadcastInDim S300000 ![] bcast_S_S300000 : (⟨S_, .f32⟩ : BufTy).Contents (Elt F) → (⟨S300000, .f32⟩ : BufTy).Contents (Elt F)),
    StableHlo.binary main_v91 main_v88 main_v92 (Host.divf : (⟨S300000, .f32⟩ : BufTy).Contents (Elt F) → (⟨S300000, .f32⟩ : BufTy).Contents (Elt F) → (⟨S300000, .f32⟩ : BufTy).Contents (Elt F)),
    StableHlo.nullary main_cst_19 (constant S_ .f32 0x00000000#32),
    StableHlo.TRef.unary (.of main_cst_19 : StableHlo.TRef sig ⟨S_, .f32⟩) main_call0.v0 id,
    StableHlo.TRef.unary main_call0.v0 main_call0.v1 (broadcastInDim S300000 ![] bcast_S_S300000),
    StableHlo.TRef.ternary (.of main_v90 : StableHlo.TRef sig ⟨S300000, .i1⟩) (.of main_v92 : StableHlo.TRef sig ⟨S300000, .f32⟩) main_call0.v1 main_call0.v2 select,
    StableHlo.nullary main_cst_20 (constant S_ .f32 0x00000000#32),
    StableHlo.unary main_cst_20 main_v94 (broadcastInDim S60000 ![] bcast_S_S60000 : (⟨S_, .f32⟩ : BufTy).Contents (Elt F) → (⟨S60000, .f32⟩ : BufTy).Contents (Elt F)),
    StableHlo.unary main_v83 main_v95 (broadcastInDim S1500000x1 ![0] bcast_S1500000_S1500000x1_0 : (⟨S1500000, .i32⟩ : BufTy).Contents (Elt F) → (⟨S1500000x1, .i32⟩ : BufTy).Contents (Elt F)),
    StableHlo.ternary main_v94 main_v95 main_v85 main_v96 ((fun x i u => Host.scatterAdd scatter_S60000_S1500000x1_S1500000_n_0_0_1 x i u) : (⟨S60000, .f32⟩ : BufTy).Contents (Elt F) → (⟨S1500000x1, .i32⟩ : BufTy).Contents (Elt F) → (⟨S1500000, .f32⟩ : BufTy).Contents (Elt F) → (⟨S60000, .f32⟩ : BufTy).Contents (Elt F)) ]
theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., unary_bufs_sub .., unary_bufs_sub .., unary_bufs_sub .., binary_bufs_sub .., reshape_bufs_sub .., unary_bufs_sub .., nullary_bufs_sub .., unary_bufs_sub .., binary_bufs_sub .., unary_bufs_sub .., unary_bufs_sub .., unary_bufs_sub .., binary_bufs_sub .., reshape_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩

/-- The operations of part 2 of the entry function (76 of them), in order. -/
abbrev ops2 : List (HloOp τ sig (Elt F)) :=
  [ StableHlo.nullary main_cst_21 (constant S_ .f32 0x00000000#32),
    StableHlo.unary main_cst_21 main_v97 (broadcastInDim S60000 ![] bcast_S_S60000 : (⟨S_, .f32⟩ : BufTy).Contents (Elt F) → (⟨S60000, .f32⟩ : BufTy).Contents (Elt F)),
    StableHlo.binary main_v96 main_v97 main_v98 (cmpf .ogt : (⟨S60000, .f32⟩ : BufTy).Contents (Elt F) → (⟨S60000, .f32⟩ : BufTy).Contents (Elt F) → (⟨S60000, .i1⟩ : BufTy).Contents (Elt F)),
    StableHlo.nullary main_cst_22 (constant S_ .f32 0x3F800000#32),
    StableHlo.unary main_cst_22 main_v99 (broadcastInDim S60000 ![] bcast_S_S60000 : (⟨S_, .f32⟩ : BufTy).Contents (Elt F) → (⟨S60000, .f32⟩ : BufTy).Contents (Elt F)),
    StableHlo.binary main_v99 main_v96 main_v100 (Host.divf : (⟨S60000, .f32⟩ : BufTy).Contents (Elt F) → (⟨S60000, .f32⟩ : BufTy).Contents (Elt F) → (⟨S60000, .f32⟩ : BufTy).Contents (Elt F)),
    StableHlo.nullary main_cst_23 (constant S_ .f32 0x00000000#32),
    StableHlo.TRef.unary (.of main_cst_23 : StableHlo.TRef sig ⟨S_, .f32⟩) main_call1.v0 id,
    StableHlo.TRef.unary main_call1.v0 main_call1.v1 (broadcastInDim S60000 ![] bcast_S_S60000),
    StableHlo.TRef.ternary (.of main_v98 : StableHlo.TRef sig ⟨S60000, .i1⟩) (.of main_v100 : StableHlo.TRef sig ⟨S60000, .f32⟩) main_call1.v1 main_call1.v2 select,
    StableHlo.binary main_v4 main_arg12 main_v102 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_v101 main_v103 (broadcastInDim S60000x1 ![0] bcast_S60000_S60000x1_0 : (⟨S60000, .f32⟩ : BufTy).Contents (Elt F) → (⟨S60000x1, .f32⟩ : BufTy).Contents (Elt F)),
    StableHlo.unary main_v84 main_v104 (broadcastInDim S1500000x1 ![0] bcast_S1500000_S1500000x1_0 : (⟨S1500000, .f32⟩ : BufTy).Contents (Elt F) → (⟨S1500000x1, .f32⟩ : BufTy).Contents (Elt F)),
    StableHlo.nullary main_c_24 (constantI S_ 32 0#32),
    StableHlo.unary main_c_24 main_v105 (broadcastInDim S1500000 ![] bcast_S_S1500000 : (⟨S_, .i32⟩ : BufTy).Contents (Elt F) → (⟨S1500000, .i32⟩ : BufTy).Contents (Elt F)),
    StableHlo.binary main_v75 main_v105 main_v106 (cmpi .slt : (⟨S1500000, .i32⟩ : BufTy).Contents (Elt F) → (⟨S1500000, .i32⟩ : BufTy).Contents (Elt F) → (⟨S1500000, .i1⟩ : BufTy).Contents (Elt F)),
    StableHlo.nullary main_c_25 (constantI S_ 32 300000#32),
    StableHlo.unary main_c_25 main_v107 (broadcastInDim S1500000 ![] bcast_S_S1500000 : (⟨S_, .i32⟩ : BufTy).Contents (Elt F) → (⟨S1500000, .i32⟩ : BufTy).Contents (Elt F)),
    StableHlo.binary main_v75 main_v107 main_v108 (addi : (⟨S1500000, .i32⟩ : BufTy).Contents (Elt F) → (⟨S1500000, .i32⟩ : BufTy).Contents (Elt F) → (⟨S1500000, .i32⟩ : BufTy).Contents (Elt F)),
    StableHlo.ternary main_v106 main_v108 main_v75 main_v109 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v109 main_v110 (broadcastInDim S1500000x1 ![0] bcast_S1500000_S1500000x1_0 : (⟨S1500000, .i32⟩ : BufTy).Contents (Elt F) → (⟨S1500000x1, .i32⟩ : BufTy).Contents (Elt F)),
    StableHlo.binary main_v102 main_v110 main_v111 ((fun x i => Host.gather gather_S300000x64_S1500000x1_S1500000x64_1_0_n_n_0_1_164 x i) : (⟨S300000x64, .f32⟩ : BufTy).Contents (Elt F) → (⟨S1500000x1, .i32⟩ : BufTy).Contents (Elt F) → (⟨S1500000x64, .f32⟩ : BufTy).Contents (Elt F)),
    StableHlo.unary main_v104 main_v112 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v112 main_v111 main_v113 (mulf : (⟨S1500000x64, .f32⟩ : BufTy).Contents (Elt F) → (⟨S1500000x64, .f32⟩ : BufTy).Contents (Elt F) → (⟨S1500000x64, .f32⟩ : BufTy).Contents (Elt F)),
    StableHlo.nullary main_cst_26 (constant S_ .f32 0x00000000#32),
    StableHlo.unary main_cst_26 main_v114 (broadcastInDim S60000x64 ![] bcast_S_S60000x64 : (⟨S_, .f32⟩ : BufTy).Contents (Elt F) → (⟨S60000x64, .f32⟩ : BufTy).Contents (Elt F)),
    StableHlo.unary main_v83 main_v115 (broadcastInDim S1500000x1 ![0] bcast_S1500000_S1500000x1_0 : (⟨S1500000, .i32⟩ : BufTy).Contents (Elt F) → (⟨S1500000x1, .i32⟩ : BufTy).Contents (Elt F)),
    StableHlo.ternary main_v114 main_v115 main_v113 main_v116 ((fun x i u => Host.scatterAdd scatter_S60000x64_S1500000x1_S1500000x64_1_0_0_1 x i u) : (⟨S60000x64, .f32⟩ : BufTy).Contents (Elt F) → (⟨S1500000x1, .i32⟩ : BufTy).Contents (Elt F) → (⟨S1500000x64, .f32⟩ : BufTy).Contents (Elt F) → (⟨S60000x64, .f32⟩ : BufTy).Contents (Elt F)),
    StableHlo.unary main_v103 main_v117 (broadcastInDim S60000x64 ![0, 1] bcast_S60000x1_S60000x64_0_1 : (⟨S60000x1, .f32⟩ : BufTy).Contents (Elt F) → (⟨S60000x64, .f32⟩ : BufTy).Contents (Elt F)),
    StableHlo.binary main_v117 main_v116 main_v118 (mulf : (⟨S60000x64, .f32⟩ : BufTy).Contents (Elt F) → (⟨S60000x64, .f32⟩ : BufTy).Contents (Elt F) → (⟨S60000x64, .f32⟩ : BufTy).Contents (Elt F)),
    StableHlo.unary main_v93 main_v119 (broadcastInDim S300000x1 ![0] bcast_S300000_S300000x1_0 : (⟨S300000, .f32⟩ : BufTy).Contents (Elt F) → (⟨S300000x1, .f32⟩ : BufTy).Contents (Elt F)),
    StableHlo.unary main_v84 main_v120 (broadcastInDim S1500000x1 ![0] bcast_S1500000_S1500000x1_0 : (⟨S1500000, .f32⟩ : BufTy).Contents (Elt F) → (⟨S1500000x1, .f32⟩ : BufTy).Contents (Elt F)),
    StableHlo.nullary main_c_27 (constantI S_ 32 0#32),
    StableHlo.unary main_c_27 main_v121 (broadcastInDim S1500000 ![] bcast_S_S1500000 : (⟨S_, .i32⟩ : BufTy).Contents (Elt F) → (⟨S1500000, .i32⟩ : BufTy).Contents (Elt F)),
    StableHlo.binary main_v83 main_v121 main_v122 (cmpi .slt : (⟨S1500000, .i32⟩ : BufTy).Contents (Elt F) → (⟨S1500000, .i32⟩ : BufTy).Contents (Elt F) → (⟨S1500000, .i1⟩ : BufTy).Contents (Elt F)),
    StableHlo.nullary main_c_28 (constantI S_ 32 60000#32),
    StableHlo.unary main_c_28 main_v123 (broadcastInDim S1500000 ![] bcast_S_S1500000 : (⟨S_, .i32⟩ : BufTy).Contents (Elt F) → (⟨S1500000, .i32⟩ : BufTy).Contents (Elt F)),
    StableHlo.binary main_v83 main_v123 main_v124 (addi : (⟨S1500000, .i32⟩ : BufTy).Contents (Elt F) → (⟨S1500000, .i32⟩ : BufTy).Contents (Elt F) → (⟨S1500000, .i32⟩ : BufTy).Contents (Elt F)),
    StableHlo.ternary main_v122 main_v124 main_v83 main_v125 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v125 main_v126 (broadcastInDim S1500000x1 ![0] bcast_S1500000_S1500000x1_0 : (⟨S1500000, .i32⟩ : BufTy).Contents (Elt F) → (⟨S1500000x1, .i32⟩ : BufTy).Contents (Elt F)),
    StableHlo.binary main_v118 main_v126 main_v127 ((fun x i => Host.gather gather_S60000x64_S1500000x1_S1500000x64_1_0_n_n_0_1_164 x i) : (⟨S60000x64, .f32⟩ : BufTy).Contents (Elt F) → (⟨S1500000x1, .i32⟩ : BufTy).Contents (Elt F) → (⟨S1500000x64, .f32⟩ : BufTy).Contents (Elt F)),
    StableHlo.unary main_v120 main_v128 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v128 main_v127 main_v129 (mulf : (⟨S1500000x64, .f32⟩ : BufTy).Contents (Elt F) → (⟨S1500000x64, .f32⟩ : BufTy).Contents (Elt F) → (⟨S1500000x64, .f32⟩ : BufTy).Contents (Elt F)),
    StableHlo.nullary main_cst_29 (constant S_ .f32 0x00000000#32),
    StableHlo.unary main_cst_29 main_v130 (broadcastInDim S300000x64 ![] bcast_S_S300000x64 : (⟨S_, .f32⟩ : BufTy).Contents (Elt F) → (⟨S300000x64, .f32⟩ : BufTy).Contents (Elt F)),
    StableHlo.unary main_v75 main_v131 (broadcastInDim S1500000x1 ![0] bcast_S1500000_S1500000x1_0 : (⟨S1500000, .i32⟩ : BufTy).Contents (Elt F) → (⟨S1500000x1, .i32⟩ : BufTy).Contents (Elt F)),
    StableHlo.ternary main_v130 main_v131 main_v129 main_v132 ((fun x i u => Host.scatterAdd scatter_S300000x64_S1500000x1_S1500000x64_1_0_0_1 x i u) : (⟨S300000x64, .f32⟩ : BufTy).Contents (Elt F) → (⟨S1500000x1, .i32⟩ : BufTy).Contents (Elt F) → (⟨S1500000x64, .f32⟩ : BufTy).Contents (Elt F) → (⟨S300000x64, .f32⟩ : BufTy).Contents (Elt F)),
    StableHlo.unary main_v119 main_v133 (broadcastInDim S300000x64 ![0, 1] bcast_S300000x1_S300000x64_0_1 : (⟨S300000x1, .f32⟩ : BufTy).Contents (Elt F) → (⟨S300000x64, .f32⟩ : BufTy).Contents (Elt F)),
    StableHlo.binary main_v133 main_v132 main_v134 (mulf : (⟨S300000x64, .f32⟩ : BufTy).Contents (Elt F) → (⟨S300000x64, .f32⟩ : BufTy).Contents (Elt F) → (⟨S300000x64, .f32⟩ : BufTy).Contents (Elt F)),
    StableHlo.binary main_v102 main_v134 main_v135 (subf : (⟨S300000x64, .f32⟩ : BufTy).Contents (Elt F) → (⟨S300000x64, .f32⟩ : BufTy).Contents (Elt F) → (⟨S300000x64, .f32⟩ : BufTy).Contents (Elt F)),
    StableHlo.unary main_arg13 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S300000x64 ![0, 1] bcast_S1x64_S300000x64_0_1 : (⟨S1x64, .f32⟩ : BufTy).Contents (Elt F) → (⟨S300000x64, .f32⟩ : BufTy).Contents (Elt F)),
    StableHlo.binary main_v135 main_v137 main_v138 (addf : (⟨S300000x64, .f32⟩ : BufTy).Contents (Elt F) → (⟨S300000x64, .f32⟩ : BufTy).Contents (Elt F) → (⟨S300000x64, .f32⟩ : BufTy).Contents (Elt F)),
    StableHlo.TRef.nullary main_call2.cst (constant S_ .f32 0x00000000#32),
    StableHlo.TRef.unary main_call2.cst main_call2.v0 (broadcastInDim S300000x64 ![] bcast_S_S300000x64),
    StableHlo.TRef.binary (.of main_v138 : StableHlo.TRef sig ⟨S300000x64, .f32⟩) main_call2.v0 main_call2.v1 (cmpf .ogt),
    StableHlo.TRef.nullary main_call2.cst_0 (constant S_ .f32 0x00000000#32),
    StableHlo.TRef.unary main_call2.cst_0 main_call2.v2 (broadcastInDim S300000x64 ![] bcast_S_S300000x64),
    StableHlo.TRef.binary (.of main_v138 : StableHlo.TRef sig ⟨S300000x64, .f32⟩) main_call2.v2 main_call2.v3 (cmpf .ogt),
    StableHlo.TRef.nullary main_call2.cst_1 (constant S_ .f32 0x00000000#32),
    StableHlo.TRef.unary main_call2.cst_1 main_call2_call0.v0 id,
    StableHlo.TRef.unary main_call2_call0.v0 main_call2_call0.v1 (broadcastInDim S300000x64 ![] bcast_S_S300000x64),
    StableHlo.TRef.ternary main_call2.v3 main_call2_call0.v1 (.of main_v138 : StableHlo.TRef sig ⟨S300000x64, .f32⟩) main_call2_call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S300000x64 ![] bcast_S_S300000x64),
    StableHlo.TRef.binary main_call2.v6 main_call2.v5 main_call2.v7 mulf,
    StableHlo.TRef.ternary main_call2.v1 (.of main_v138 : StableHlo.TRef sig ⟨S300000x64, .f32⟩) main_call2.v7 main_call2_call1.v0 select,
    StableHlo.binary main_v139 main_arg14 main_v140 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_v101 main_v141 (broadcastInDim S60000x1 ![0] bcast_S60000_S60000x1_0 : (⟨S60000, .f32⟩ : BufTy).Contents (Elt F) → (⟨S60000x1, .f32⟩ : BufTy).Contents (Elt F)),
    StableHlo.unary main_v84 main_v142 (broadcastInDim S1500000x1 ![0] bcast_S1500000_S1500000x1_0 : (⟨S1500000, .f32⟩ : BufTy).Contents (Elt F) → (⟨S1500000x1, .f32⟩ : BufTy).Contents (Elt F)),
    StableHlo.nullary main_c_30 (constantI S_ 32 0#32),
    StableHlo.unary main_c_30 main_v143 (broadcastInDim S1500000 ![] bcast_S_S1500000 : (⟨S_, .i32⟩ : BufTy).Contents (Elt F) → (⟨S1500000, .i32⟩ : BufTy).Contents (Elt F)),
    StableHlo.binary main_v75 main_v143 main_v144 (cmpi .slt : (⟨S1500000, .i32⟩ : BufTy).Contents (Elt F) → (⟨S1500000, .i32⟩ : BufTy).Contents (Elt F) → (⟨S1500000, .i1⟩ : BufTy).Contents (Elt F)),
    StableHlo.nullary main_c_31 (constantI S_ 32 300000#32),
    StableHlo.unary main_c_31 main_v145 (broadcastInDim S1500000 ![] bcast_S_S1500000 : (⟨S_, .i32⟩ : BufTy).Contents (Elt F) → (⟨S1500000, .i32⟩ : BufTy).Contents (Elt F)) ]
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., nullary_bufs_sub .., unary_bufs_sub .., binary_bufs_sub .., nullary_bufs_sub .., unary_bufs_sub ..⟩

/-- The operations of part 3 of the entry function (51 of them), in order. -/
abbrev ops3 : List (HloOp τ sig (Elt F)) :=
  [ StableHlo.binary main_v75 main_v145 main_v146 (addi : (⟨S1500000, .i32⟩ : BufTy).Contents (Elt F) → (⟨S1500000, .i32⟩ : BufTy).Contents (Elt F) → (⟨S1500000, .i32⟩ : BufTy).Contents (Elt F)),
    StableHlo.ternary main_v144 main_v146 main_v75 main_v147 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v147 main_v148 (broadcastInDim S1500000x1 ![0] bcast_S1500000_S1500000x1_0 : (⟨S1500000, .i32⟩ : BufTy).Contents (Elt F) → (⟨S1500000x1, .i32⟩ : BufTy).Contents (Elt F)),
    StableHlo.binary main_v140 main_v148 main_v149 ((fun x i => Host.gather gather_S300000x64_S1500000x1_S1500000x64_1_0_n_n_0_1_164 x i) : (⟨S300000x64, .f32⟩ : BufTy).Contents (Elt F) → (⟨S1500000x1, .i32⟩ : BufTy).Contents (Elt F) → (⟨S1500000x64, .f32⟩ : BufTy).Contents (Elt F)),
    StableHlo.unary main_v142 main_v150 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v150 main_v149 main_v151 (mulf : (⟨S1500000x64, .f32⟩ : BufTy).Contents (Elt F) → (⟨S1500000x64, .f32⟩ : BufTy).Contents (Elt F) → (⟨S1500000x64, .f32⟩ : BufTy).Contents (Elt F)),
    StableHlo.nullary main_cst_32 (constant S_ .f32 0x00000000#32),
    StableHlo.unary main_cst_32 main_v152 (broadcastInDim S60000x64 ![] bcast_S_S60000x64 : (⟨S_, .f32⟩ : BufTy).Contents (Elt F) → (⟨S60000x64, .f32⟩ : BufTy).Contents (Elt F)),
    StableHlo.unary main_v83 main_v153 (broadcastInDim S1500000x1 ![0] bcast_S1500000_S1500000x1_0 : (⟨S1500000, .i32⟩ : BufTy).Contents (Elt F) → (⟨S1500000x1, .i32⟩ : BufTy).Contents (Elt F)),
    StableHlo.ternary main_v152 main_v153 main_v151 main_v154 ((fun x i u => Host.scatterAdd scatter_S60000x64_S1500000x1_S1500000x64_1_0_0_1 x i u) : (⟨S60000x64, .f32⟩ : BufTy).Contents (Elt F) → (⟨S1500000x1, .i32⟩ : BufTy).Contents (Elt F) → (⟨S1500000x64, .f32⟩ : BufTy).Contents (Elt F) → (⟨S60000x64, .f32⟩ : BufTy).Contents (Elt F)),
    StableHlo.unary main_v141 main_v155 (broadcastInDim S60000x64 ![0, 1] bcast_S60000x1_S60000x64_0_1 : (⟨S60000x1, .f32⟩ : BufTy).Contents (Elt F) → (⟨S60000x64, .f32⟩ : BufTy).Contents (Elt F)),
    StableHlo.binary main_v155 main_v154 main_v156 (mulf : (⟨S60000x64, .f32⟩ : BufTy).Contents (Elt F) → (⟨S60000x64, .f32⟩ : BufTy).Contents (Elt F) → (⟨S60000x64, .f32⟩ : BufTy).Contents (Elt F)),
    StableHlo.unary main_v93 main_v157 (broadcastInDim S300000x1 ![0] bcast_S300000_S300000x1_0 : (⟨S300000, .f32⟩ : BufTy).Contents (Elt F) → (⟨S300000x1, .f32⟩ : BufTy).Contents (Elt F)),
    StableHlo.unary main_v84 main_v158 (broadcastInDim S1500000x1 ![0] bcast_S1500000_S1500000x1_0 : (⟨S1500000, .f32⟩ : BufTy).Contents (Elt F) → (⟨S1500000x1, .f32⟩ : BufTy).Contents (Elt F)),
    StableHlo.nullary main_c_33 (constantI S_ 32 0#32),
    StableHlo.unary main_c_33 main_v159 (broadcastInDim S1500000 ![] bcast_S_S1500000 : (⟨S_, .i32⟩ : BufTy).Contents (Elt F) → (⟨S1500000, .i32⟩ : BufTy).Contents (Elt F)),
    StableHlo.binary main_v83 main_v159 main_v160 (cmpi .slt : (⟨S1500000, .i32⟩ : BufTy).Contents (Elt F) → (⟨S1500000, .i32⟩ : BufTy).Contents (Elt F) → (⟨S1500000, .i1⟩ : BufTy).Contents (Elt F)),
    StableHlo.nullary main_c_34 (constantI S_ 32 60000#32),
    StableHlo.unary main_c_34 main_v161 (broadcastInDim S1500000 ![] bcast_S_S1500000 : (⟨S_, .i32⟩ : BufTy).Contents (Elt F) → (⟨S1500000, .i32⟩ : BufTy).Contents (Elt F)),
    StableHlo.binary main_v83 main_v161 main_v162 (addi : (⟨S1500000, .i32⟩ : BufTy).Contents (Elt F) → (⟨S1500000, .i32⟩ : BufTy).Contents (Elt F) → (⟨S1500000, .i32⟩ : BufTy).Contents (Elt F)),
    StableHlo.ternary main_v160 main_v162 main_v83 main_v163 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v163 main_v164 (broadcastInDim S1500000x1 ![0] bcast_S1500000_S1500000x1_0 : (⟨S1500000, .i32⟩ : BufTy).Contents (Elt F) → (⟨S1500000x1, .i32⟩ : BufTy).Contents (Elt F)),
    StableHlo.binary main_v156 main_v164 main_v165 ((fun x i => Host.gather gather_S60000x64_S1500000x1_S1500000x64_1_0_n_n_0_1_164 x i) : (⟨S60000x64, .f32⟩ : BufTy).Contents (Elt F) → (⟨S1500000x1, .i32⟩ : BufTy).Contents (Elt F) → (⟨S1500000x64, .f32⟩ : BufTy).Contents (Elt F)),
    StableHlo.unary main_v158 main_v166 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v166 main_v165 main_v167 (mulf : (⟨S1500000x64, .f32⟩ : BufTy).Contents (Elt F) → (⟨S1500000x64, .f32⟩ : BufTy).Contents (Elt F) → (⟨S1500000x64, .f32⟩ : BufTy).Contents (Elt F)),
    StableHlo.nullary main_cst_35 (constant S_ .f32 0x00000000#32),
    StableHlo.unary main_cst_35 main_v168 (broadcastInDim S300000x64 ![] bcast_S_S300000x64 : (⟨S_, .f32⟩ : BufTy).Contents (Elt F) → (⟨S300000x64, .f32⟩ : BufTy).Contents (Elt F)),
    StableHlo.unary main_v75 main_v169 (broadcastInDim S1500000x1 ![0] bcast_S1500000_S1500000x1_0 : (⟨S1500000, .i32⟩ : BufTy).Contents (Elt F) → (⟨S1500000x1, .i32⟩ : BufTy).Contents (Elt F)),
    StableHlo.ternary main_v168 main_v169 main_v167 main_v170 ((fun x i u => Host.scatterAdd scatter_S300000x64_S1500000x1_S1500000x64_1_0_0_1 x i u) : (⟨S300000x64, .f32⟩ : BufTy).Contents (Elt F) → (⟨S1500000x1, .i32⟩ : BufTy).Contents (Elt F) → (⟨S1500000x64, .f32⟩ : BufTy).Contents (Elt F) → (⟨S300000x64, .f32⟩ : BufTy).Contents (Elt F)),
    StableHlo.unary main_v157 main_v171 (broadcastInDim S300000x64 ![0, 1] bcast_S300000x1_S300000x64_0_1 : (⟨S300000x1, .f32⟩ : BufTy).Contents (Elt F) → (⟨S300000x64, .f32⟩ : BufTy).Contents (Elt F)),
    StableHlo.binary main_v171 main_v170 main_v172 (mulf : (⟨S300000x64, .f32⟩ : BufTy).Contents (Elt F) → (⟨S300000x64, .f32⟩ : BufTy).Contents (Elt F) → (⟨S300000x64, .f32⟩ : BufTy).Contents (Elt F)),
    StableHlo.binary main_v140 main_v172 main_v173 (subf : (⟨S300000x64, .f32⟩ : BufTy).Contents (Elt F) → (⟨S300000x64, .f32⟩ : BufTy).Contents (Elt F) → (⟨S300000x64, .f32⟩ : BufTy).Contents (Elt F)),
    StableHlo.unary main_arg15 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S300000x64 ![0, 1] bcast_S1x64_S300000x64_0_1 : (⟨S1x64, .f32⟩ : BufTy).Contents (Elt F) → (⟨S300000x64, .f32⟩ : BufTy).Contents (Elt F)),
    StableHlo.binary main_v173 main_v175 main_v176 (addf : (⟨S300000x64, .f32⟩ : BufTy).Contents (Elt F) → (⟨S300000x64, .f32⟩ : BufTy).Contents (Elt F) → (⟨S300000x64, .f32⟩ : BufTy).Contents (Elt F)),
    StableHlo.reshape main_v176 main_v177 rfl shapeCasts_S300000x64_S50000x384,
    StableHlo.TRef.nullary main_call3.cst (constant S_ .f32 0x00000000#32),
    StableHlo.TRef.unary main_call3.cst main_call3.v0 (broadcastInDim S50000x384 ![] bcast_S_S50000x384),
    StableHlo.TRef.binary (.of main_v177 : StableHlo.TRef sig ⟨S50000x384, .f32⟩) main_call3.v0 main_call3.v1 (cmpf .ogt),
    StableHlo.TRef.nullary main_call3.cst_0 (constant S_ .f32 0x00000000#32),
    StableHlo.TRef.unary main_call3.cst_0 main_call3.v2 (broadcastInDim S50000x384 ![] bcast_S_S50000x384),
    StableHlo.TRef.binary (.of main_v177 : StableHlo.TRef sig ⟨S50000x384, .f32⟩) main_call3.v2 main_call3.v3 (cmpf .ogt),
    StableHlo.TRef.nullary main_call3.cst_1 (constant S_ .f32 0x00000000#32),
    StableHlo.TRef.unary main_call3.cst_1 main_call3_call0.v0 id,
    StableHlo.TRef.unary main_call3_call0.v0 main_call3_call0.v1 (broadcastInDim S50000x384 ![] bcast_S_S50000x384),
    StableHlo.TRef.ternary main_call3.v3 main_call3_call0.v1 (.of main_v177 : StableHlo.TRef sig ⟨S50000x384, .f32⟩) main_call3_call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x384 ![] bcast_S_S50000x384),
    StableHlo.TRef.binary main_call3.v6 main_call3.v5 main_call3.v7 mulf,
    StableHlo.TRef.ternary main_call3.v1 (.of main_v177 : StableHlo.TRef sig ⟨S50000x384, .f32⟩) main_call3.v7 main_call3_call1.v0 select ]
theorem ops3_sub : (ops3 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.ReferenceIdeal.RefRun

end
-- ==== Proof.RefRun.lean ====
/-
  The reference program's run. Its entry function is printed in four consecutive parts; each part is a straight line
  of host operations (a called function's operations standing at its call, over that call's buffers), so the whole
  program is the straight line of the four lists joined, and every weakly fair execution ends with each buffer at the
  fold of the operations' results over the launch contents.
-/
import proofs.«159071_j31842887533297_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations, in order: the four parts' lists joined. -/
abbrev ops : List (HloOp τ sig (Elt F)) := ops0 ++ ops1 ++ ops2 ++ ops3

set_option maxRecDepth 8192 in
/-- Part 0 of the entry function is the straight line of its operations. -/
theorem part0_eq (c : Dev nD) : main_part0 (F := F) c = seq ops0 := rfl

set_option maxRecDepth 8192 in
/-- Part 1 likewise; the body of the called select-with-scalar function stands at its call. -/
theorem part1_eq (c : Dev nD) : main_part1 (F := F) c = seq ops1 := rfl

set_option maxRecDepth 8192 in
/-- Part 2 likewise, with the first activation function's body (and the two selects it calls) at its call. -/
theorem part2_eq (c : Dev nD) : main_part2 (F := F) c = seq ops2 := rfl

set_option maxRecDepth 8192 in
/-- Part 3 likewise, ending with the final activation function's body at its call. -/
theorem part3_eq (c : Dev nD) : main_part3 (F := F) c = seq ops3 := rfl

/-- The entry function runs its four parts in order, so it is the straight line of the joined list
    (sequencing reassociated). -/
theorem main_eq (c : Dev nD) : main (F := F) c = seq ops := by
  show (main_part0 (F := F) c >>= fun _ => main_part1 (F := F) c >>= fun _ => main_part2 (F := F) c >>= fun _ =>
    main_part3 (F := F) c) = _
  rw [part0_eq, part1_eq, part2_eq, part3_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation of the joined list touches TensorCore references only. -/
theorem ops_sub : (ops : List (HloOp τ sig (Elt F))).Forall fun op => op.bufs ⊆ tcRefs τ sig :=
  List.forall_append.mpr ⟨List.forall_append.mpr ⟨List.forall_append.mpr ⟨ops0_sub, ops1_sub⟩, ops2_sub⟩, ops3_sub⟩

/-- Every operation determines its result (none leaves a buffer at contents not chosen). -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp
    (List.forall_append.mpr ⟨List.forall_append.mpr ⟨List.forall_append.mpr ⟨ops0_fresh, ops1_fresh⟩, ops2_fresh⟩, ops3_fresh⟩)

/-- For any float values, from any memory with zero counters: every weakly fair execution of the entry function
    terminates, and every final state has each TensorCore buffer at the fold of the operations' results over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefArgs.lean ====
/-
  No operation of the reference program writes an argument.  Each of the four parts of the entry function is a
  straight line of host operations, every one of which rewrites exactly its result buffer; the result buffers of a part
  are listed, in order, and no argument buffer is in any of the four lists.  The fold of a joined list is the fold of
  the second list over the fold of the first, so each argument buffer holds after the whole line what it held before.
-/
import proofs.«159071_j31842887533297_2_alg».proof.Proof.RefRun

set_option maxRecDepth 16384

noncomputable section

namespace Cert.ReferenceIdeal.RefArgs

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

/-- Membership of a buffer in the image of a list of buffers. -/
theorem mem_image {L : List (Ref sig .tc)} {x : Ref sig .tc} (h : x ∈ L) :
    (Proc.devRef (τ := τ) .tc x : DevRef τ sig) ∈ (L.map (Proc.devRef (τ := τ) .tc)).toFinset :=
  List.mem_toFinset.mpr (List.mem_map.mpr ⟨x, h, rfl⟩)

/-- The fold of a joined list is the fold of the second list over the fold of the first. -/
theorem after_join : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_join l₁ l₂]

/-- The result buffers of part 0's operations, in order. -/
abbrev written0 : List (Ref sig .tc) := [main_v0, main_v1, main_v2, main_v3, main_v4, main_v5, main_v6, main_v7, main_v8, main_v9, main_v10, main_cst, main_v11, main_cst_0, main_v12, main_v13, main_v14, main_cst_1, main_v15, main_cst_2, main_v16, main_v17, main_c, main_v18, main_v19, main_c_3, main_v20, main_v21, main_v22, main_v23, main_v24, main_c_4, main_v25, main_v26, main_c_5, main_v27, main_v28, main_v29, main_v30, main_v31, main_v32, main_cst_6, main_v33, main_v34, main_cst_7, main_v35, main_v36, main_v37, main_v38, main_v39, main_cst_8, main_v40, main_v41, main_cst_9, main_v42, main_v43, main_v44, main_v45, main_cst_10, main_v46]

theorem writes0 : (ops0 : List (HloOp τ sig (Elt F))).Forall fun op => op.writes ⊆ ((written0).map (Proc.devRef (τ := τ) .tc)).toFinset := by
  simp only [ops0, List.Forall, StableHlo.nullary_writes, StableHlo.unary_writes, StableHlo.binary_writes, StableHlo.ternary_writes, StableHlo.reshape_writes, Finset.singleton_subset_iff]
  repeat' apply And.intro
  all_goals exact mem_image (by decide)

/-- Part 0 leaves every buffer outside its list alone. -/
theorem keep0 (V : Valuation τ sig (Elt F)) (b : Ref sig .tc) (hb : b ∉ written0) :
    after (ops0 : List (HloOp τ sig (Elt F))) V (Proc.devRef .tc b) = V (Proc.devRef .tc b) :=
  after_of_writes_sub ops0 V writes0 hb

/-- The result buffers of part 1's operations, in order. -/
abbrev written1 : List (Ref sig .tc) := [main_v47, main_v48, main_v49, main_v50, main_v51, main_v52, main_v53, main_v54, main_v55, main_v56, main_v57, main_v58, main_v59, main_v60, main_v61, main_v62, main_cst_11, main_v63, main_v64, main_cst_12, main_v65, main_v66, main_v67, main_v68, main_c_13, main_v69, main_v70, main_v71, main_v72, main_v73, main_v74, main_v75, main_v76, main_c_14, main_v77, main_v78, main_v79, main_v80, main_v81, main_v82, main_v83, main_v84, main_cst_15, main_v85, main_cst_16, main_v86, main_v87, main_v88, main_cst_17, main_v89, main_v90, main_cst_18, main_v91, main_v92, main_cst_19, main_call0.v0.ref, main_call0.v1.ref, main_call0.v2.ref, main_cst_20, main_v94, main_v95, main_v96]

theorem writes1 : (ops1 : List (HloOp τ sig (Elt F))).Forall fun op => op.writes ⊆ ((written1).map (Proc.devRef (τ := τ) .tc)).toFinset := by
  simp only [ops1, List.Forall, StableHlo.nullary_writes, StableHlo.unary_writes, StableHlo.binary_writes, StableHlo.ternary_writes, StableHlo.reshape_writes, Finset.singleton_subset_iff]
  repeat' apply And.intro
  all_goals exact mem_image (by decide)

/-- Part 1 leaves every buffer outside its list alone. -/
theorem keep1 (V : Valuation τ sig (Elt F)) (b : Ref sig .tc) (hb : b ∉ written1) :
    after (ops1 : List (HloOp τ sig (Elt F))) V (Proc.devRef .tc b) = V (Proc.devRef .tc b) :=
  after_of_writes_sub ops1 V writes1 hb

/-- The result buffers of part 2's operations, in order. -/
abbrev written2 : List (Ref sig .tc) := [main_cst_21, main_v97, main_v98, main_cst_22, main_v99, main_v100, main_cst_23, main_call1.v0.ref, main_call1.v1.ref, main_call1.v2.ref, main_v102, main_v103, main_v104, main_c_24, main_v105, main_v106, main_c_25, main_v107, main_v108, main_v109, main_v110, main_v111, main_v112, main_v113, main_cst_26, main_v114, main_v115, main_v116, main_v117, main_v118, main_v119, main_v120, main_c_27, main_v121, main_v122, main_c_28, main_v123, main_v124, main_v125, main_v126, main_v127, main_v128, main_v129, main_cst_29, main_v130, main_v131, main_v132, main_v133, main_v134, main_v135, main_v136, main_v137, main_v138, main_call2.cst.ref, main_call2.v0.ref, main_call2.v1.ref, main_call2.cst_0.ref, main_call2.v2.ref, main_call2.v3.ref, main_call2.cst_1.ref, main_call2_call0.v0.ref, main_call2_call0.v1.ref, main_call2_call0.v2.ref, main_call2.v5.ref, main_call2.cst_2.ref, main_call2.v6.ref, main_call2.v7.ref, main_call2_call1.v0.ref, main_v140, main_v141, main_v142, main_c_30, main_v143, main_v144, main_c_31, main_v145]

theorem writes2 : (ops2 : List (HloOp τ sig (Elt F))).Forall fun op => op.writes ⊆ ((written2).map (Proc.devRef (τ := τ) .tc)).toFinset := by
  simp only [ops2, List.Forall, StableHlo.nullary_writes, StableHlo.unary_writes, StableHlo.binary_writes, StableHlo.ternary_writes, StableHlo.reshape_writes, Finset.singleton_subset_iff]
  repeat' apply And.intro
  all_goals exact mem_image (by decide)

/-- Part 2 leaves every buffer outside its list alone. -/
theorem keep2 (V : Valuation τ sig (Elt F)) (b : Ref sig .tc) (hb : b ∉ written2) :
    after (ops2 : List (HloOp τ sig (Elt F))) V (Proc.devRef .tc b) = V (Proc.devRef .tc b) :=
  after_of_writes_sub ops2 V writes2 hb

/-- The result buffers of part 3's operations, in order. -/
abbrev written3 : List (Ref sig .tc) := [main_v146, main_v147, main_v148, main_v149, main_v150, main_v151, main_cst_32, main_v152, main_v153, main_v154, main_v155, main_v156, main_v157, main_v158, main_c_33, main_v159, main_v160, main_c_34, main_v161, main_v162, main_v163, main_v164, main_v165, main_v166, main_v167, main_cst_35, main_v168, main_v169, main_v170, main_v171, main_v172, main_v173, main_v174, main_v175, main_v176, main_v177, main_call3.cst.ref, main_call3.v0.ref, main_call3.v1.ref, main_call3.cst_0.ref, main_call3.v2.ref, main_call3.v3.ref, main_call3.cst_1.ref, main_call3_call0.v0.ref, main_call3_call0.v1.ref, main_call3_call0.v2.ref, main_call3.v5.ref, main_call3.cst_2.ref, main_call3.v6.ref, main_call3.v7.ref, main_call3_call1.v0.ref]

theorem writes3 : (ops3 : List (HloOp τ sig (Elt F))).Forall fun op => op.writes ⊆ ((written3).map (Proc.devRef (τ := τ) .tc)).toFinset := by
  simp only [ops3, List.Forall, StableHlo.nullary_writes, StableHlo.unary_writes, StableHlo.binary_writes, StableHlo.ternary_writes, StableHlo.reshape_writes, Finset.singleton_subset_iff]
  repeat' apply And.intro
  all_goals exact mem_image (by decide)

/-- Part 3 leaves every buffer outside its list alone. -/
theorem keep3 (V : Valuation τ sig (Elt F)) (b : Ref sig .tc) (hb : b ∉ written3) :
    after (ops3 : List (HloOp τ sig (Elt F))) V (Proc.devRef .tc b) = V (Proc.devRef .tc b) :=
  after_of_writes_sub ops3 V writes3 hb

/-- A buffer in none of the four lists holds after the whole line what it held before. -/
theorem keep_all (V : Valuation τ sig (Elt F)) (b : Ref sig .tc)
    (h0 : b ∉ written0) (h1 : b ∉ written1) (h2 : b ∉ written2) (h3 : b ∉ written3) :
    after (ops : List (HloOp τ sig (Elt F))) V (Proc.devRef .tc b) = V (Proc.devRef .tc b) := by
  show after (ops0 ++ ops1 ++ ops2 ++ ops3) V (Proc.devRef .tc b) = _
  rw [after_join, after_join, after_join, keep3 _ b h3, keep2 _ b h2, keep1 _ b h1, keep0 _ b h0]

/-! The sixteen arguments. -/

theorem arg_eq0 (V : Valuation τ sig (Elt F)) :
    StableHlo.after Cert.ReferenceIdeal.RefRun.ops V (main_arg0 : DevRef τ sig) = V (main_arg0 : DevRef τ sig) :=
  keep_all V main_arg0 (by decide) (by decide) (by decide) (by decide)
theorem arg_eq1 (V : Valuation τ sig (Elt F)) :
    StableHlo.after Cert.ReferenceIdeal.RefRun.ops V (main_arg1 : DevRef τ sig) = V (main_arg1 : DevRef τ sig) :=
  keep_all V main_arg1 (by decide) (by decide) (by decide) (by decide)
theorem arg_eq2 (V : Valuation τ sig (Elt F)) :
    StableHlo.after Cert.ReferenceIdeal.RefRun.ops V (main_arg2 : DevRef τ sig) = V (main_arg2 : DevRef τ sig) :=
  keep_all V main_arg2 (by decide) (by decide) (by decide) (by decide)
theorem arg_eq3 (V : Valuation τ sig (Elt F)) :
    StableHlo.after Cert.ReferenceIdeal.RefRun.ops V (main_arg3 : DevRef τ sig) = V (main_arg3 : DevRef τ sig) :=
  keep_all V main_arg3 (by decide) (by decide) (by decide) (by decide)
theorem arg_eq4 (V : Valuation τ sig (Elt F)) :
    StableHlo.after Cert.ReferenceIdeal.RefRun.ops V (main_arg4 : DevRef τ sig) = V (main_arg4 : DevRef τ sig) :=
  keep_all V main_arg4 (by decide) (by decide) (by decide) (by decide)
theorem arg_eq5 (V : Valuation τ sig (Elt F)) :
    StableHlo.after Cert.ReferenceIdeal.RefRun.ops V (main_arg5 : DevRef τ sig) = V (main_arg5 : DevRef τ sig) :=
  keep_all V main_arg5 (by decide) (by decide) (by decide) (by decide)
theorem arg_eq6 (V : Valuation τ sig (Elt F)) :
    StableHlo.after Cert.ReferenceIdeal.RefRun.ops V (main_arg6 : DevRef τ sig) = V (main_arg6 : DevRef τ sig) :=
  keep_all V main_arg6 (by decide) (by decide) (by decide) (by decide)
theorem arg_eq7 (V : Valuation τ sig (Elt F)) :
    StableHlo.after Cert.ReferenceIdeal.RefRun.ops V (main_arg7 : DevRef τ sig) = V (main_arg7 : DevRef τ sig) :=
  keep_all V main_arg7 (by decide) (by decide) (by decide) (by decide)
theorem arg_eq8 (V : Valuation τ sig (Elt F)) :
    StableHlo.after Cert.ReferenceIdeal.RefRun.ops V (main_arg8 : DevRef τ sig) = V (main_arg8 : DevRef τ sig) :=
  keep_all V main_arg8 (by decide) (by decide) (by decide) (by decide)
theorem arg_eq9 (V : Valuation τ sig (Elt F)) :
    StableHlo.after Cert.ReferenceIdeal.RefRun.ops V (main_arg9 : DevRef τ sig) = V (main_arg9 : DevRef τ sig) :=
  keep_all V main_arg9 (by decide) (by decide) (by decide) (by decide)
theorem arg_eq10 (V : Valuation τ sig (Elt F)) :
    StableHlo.after Cert.ReferenceIdeal.RefRun.ops V (main_arg10 : DevRef τ sig) = V (main_arg10 : DevRef τ sig) :=
  keep_all V main_arg10 (by decide) (by decide) (by decide) (by decide)
theorem arg_eq11 (V : Valuation τ sig (Elt F)) :
    StableHlo.after Cert.ReferenceIdeal.RefRun.ops V (main_arg11 : DevRef τ sig) = V (main_arg11 : DevRef τ sig) :=
  keep_all V main_arg11 (by decide) (by decide) (by decide) (by decide)
theorem arg_eq12 (V : Valuation τ sig (Elt F)) :
    StableHlo.after Cert.ReferenceIdeal.RefRun.ops V (main_arg12 : DevRef τ sig) = V (main_arg12 : DevRef τ sig) :=
  keep_all V main_arg12 (by decide) (by decide) (by decide) (by decide)
theorem arg_eq13 (V : Valuation τ sig (Elt F)) :
    StableHlo.after Cert.ReferenceIdeal.RefRun.ops V (main_arg13 : DevRef τ sig) = V (main_arg13 : DevRef τ sig) :=
  keep_all V main_arg13 (by decide) (by decide) (by decide) (by decide)
theorem arg_eq14 (V : Valuation τ sig (Elt F)) :
    StableHlo.after Cert.ReferenceIdeal.RefRun.ops V (main_arg14 : DevRef τ sig) = V (main_arg14 : DevRef τ sig) :=
  keep_all V main_arg14 (by decide) (by decide) (by decide) (by decide)
theorem arg_eq15 (V : Valuation τ sig (Elt F)) :
    StableHlo.after Cert.ReferenceIdeal.RefRun.ops V (main_arg15 : DevRef τ sig) = V (main_arg15 : DevRef τ sig) :=
  keep_all V main_arg15 (by decide) (by decide) (by decide) (by decide)

end Cert.ReferenceIdeal.RefArgs

end
-- ==== Proof.RefValue.lean ====
/-
  The reference program's value. The straight line of its operations is cut at five stretches that follow the
  computation: the projections and incidence features; the sheaf weights; the expanded indices, flattened weights and
  reciprocal degrees; the first diffusion layer; the second layer with the final activation. Each stretch's result is
  one stage function of the values it reads, and a stretch leaves every buffer it does not write; composed, the result
  buffer holds the whole function of the argument arrays.
-/
import proofs.«159071_j31842887533297_2_alg».proof.Proof.RefRun
import proofs.«159071_j31842887533297_2_alg».proof.Proof.RefArgs
import proofs.«159071_j31842887533297_2_alg».proof.Proof.Spec
import Idealize.ShloMosaic.Lib.Pipeline.Frame
import Idealize.ShloMosaic.PureOps.Ideal

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The input projections, the stalk means, and the incidence features: the operations up to the joined gathers. -/
def opsFeat : List (HloOp τ sig (Elt F)) :=
  [ StableHlo.binary main_arg0 main_arg6 main_v0 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg7 main_v1 (broadcastInDim S1x384 ![1] bcast_S384_S1x384_1 : (⟨S384, .f32⟩ : BufTy).Contents (Elt F) → (⟨S1x384, .f32⟩ : BufTy).Contents (Elt F)),
    StableHlo.unary main_v1 main_v2 (broadcastInDim S50000x384 ![0, 1] bcast_S1x384_S50000x384_0_1 : (⟨S1x384, .f32⟩ : BufTy).Contents (Elt F) → (⟨S50000x384, .f32⟩ : BufTy).Contents (Elt F)),
    StableHlo.binary main_v0 main_v2 main_v3 (addf : (⟨S50000x384, .f32⟩ : BufTy).Contents (Elt F) → (⟨S50000x384, .f32⟩ : BufTy).Contents (Elt F) → (⟨S50000x384, .f32⟩ : BufTy).Contents (Elt F)),
    StableHlo.reshape main_v3 main_v4 rfl shapeCasts_S50000x384_S300000x64,
    StableHlo.binary main_arg1 main_arg6 main_v5 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    StableHlo.unary main_arg7 main_v6 (broadcastInDim S1x384 ![1] bcast_S384_S1x384_1 : (⟨S384, .f32⟩ : BufTy).Contents (Elt F) → (⟨S1x384, .f32⟩ : BufTy).Contents (Elt F)),
    StableHlo.unary main_v6 main_v7 (broadcastInDim S10000x384 ![0, 1] bcast_S1x384_S10000x384_0_1 : (⟨S1x384, .f32⟩ : BufTy).Contents (Elt F) → (⟨S10000x384, .f32⟩ : BufTy).Contents (Elt F)),
    StableHlo.binary main_v5 main_v7 main_v8 (addf : (⟨S10000x384, .f32⟩ : BufTy).Contents (Elt F) → (⟨S10000x384, .f32⟩ : BufTy).Contents (Elt F) → (⟨S10000x384, .f32⟩ : BufTy).Contents (Elt F)),
    StableHlo.reshape main_v8 main_v9 rfl shapeCasts_S10000x384_S60000x64,
    StableHlo.reshape main_v4 main_v10 rfl shapeCasts_S300000x64_S50000x6x64,
    StableHlo.nullary main_cst (constant S_ .f32 0x00000000#32),
    StableHlo.binary main_v10 main_cst main_v11 ((fun x v => Host.reduceAdd x v reducesTo_S50000x6x64_S50000x64_d1 h_S_) : (⟨S50000x6x64, .f32⟩ : BufTy).Contents (Elt F) → (⟨S_, .f32⟩ : BufTy).Contents (Elt F) → (⟨S50000x64, .f32⟩ : BufTy).Contents (Elt F)),
    StableHlo.nullary main_cst_0 (constant S_ .f32 0x40C00000#32),
    StableHlo.unary main_cst_0 main_v12 (broadcastInDim S50000x64 ![] bcast_S_S50000x64 : (⟨S_, .f32⟩ : BufTy).Contents (Elt F) → (⟨S50000x64, .f32⟩ : BufTy).Contents (Elt F)),
    StableHlo.binary main_v11 main_v12 main_v13 (Host.divf : (⟨S50000x64, .f32⟩ : BufTy).Contents (Elt F) → (⟨S50000x64, .f32⟩ : BufTy).Contents (Elt F) → (⟨S50000x64, .f32⟩ : BufTy).Contents (Elt F)),
    StableHlo.reshape main_v9 main_v14 rfl shapeCasts_S60000x64_S10000x6x64,
    StableHlo.nullary main_cst_1 (constant S_ .f32 0x00000000#32),
    StableHlo.binary main_v14 main_cst_1 main_v15 ((fun x v => Host.reduceAdd x v reducesTo_S10000x6x64_S10000x64_d1 h_S_) : (⟨S10000x6x64, .f32⟩ : BufTy).Contents (Elt F) → (⟨S_, .f32⟩ : BufTy).Contents (Elt F) → (⟨S10000x64, .f32⟩ : BufTy).Contents (Elt F)),
    StableHlo.nullary main_cst_2 (constant S_ .f32 0x40C00000#32),
    StableHlo.unary main_cst_2 main_v16 (broadcastInDim S10000x64 ![] bcast_S_S10000x64 : (⟨S_, .f32⟩ : BufTy).Contents (Elt F) → (⟨S10000x64, .f32⟩ : BufTy).Contents (Elt F)),
    StableHlo.binary main_v15 main_v16 main_v17 (Host.divf : (⟨S10000x64, .f32⟩ : BufTy).Contents (Elt F) → (⟨S10000x64, .f32⟩ : BufTy).Contents (Elt F) → (⟨S10000x64, .f32⟩ : BufTy).Contents (Elt F)),
    StableHlo.nullary main_c (constantI S_ 32 0#32),
    StableHlo.unary main_c main_v18 (broadcastInDim S250000 ![] bcast_S_S250000 : (⟨S_, .i32⟩ : BufTy).Contents (Elt F) → (⟨S250000, .i32⟩ : BufTy).Contents (Elt F)),
    StableHlo.binary main_arg2 main_v18 main_v19 (cmpi .slt : (⟨S250000, .i32⟩ : BufTy).Contents (Elt F) → (⟨S250000, .i32⟩ : BufTy).Contents (Elt F) → (⟨S250000, .i1⟩ : BufTy).Contents (Elt F)),
    StableHlo.nullary main_c_3 (constantI S_ 32 50000#32),
    StableHlo.unary main_c_3 main_v20 (broadcastInDim S250000 ![] bcast_S_S250000 : (⟨S_, .i32⟩ : BufTy).Contents (Elt F) → (⟨S250000, .i32⟩ : BufTy).Contents (Elt F)),
    StableHlo.binary main_arg2 main_v20 main_v21 (addi : (⟨S250000, .i32⟩ : BufTy).Contents (Elt F) → (⟨S250000, .i32⟩ : BufTy).Contents (Elt F) → (⟨S250000, .i32⟩ : BufTy).Contents (Elt F)),
    StableHlo.ternary main_v19 main_v21 main_arg2 main_v22 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v22 main_v23 (broadcastInDim S250000x1 ![0] bcast_S250000_S250000x1_0 : (⟨S250000, .i32⟩ : BufTy).Contents (Elt F) → (⟨S250000x1, .i32⟩ : BufTy).Contents (Elt F)),
    StableHlo.binary main_v13 main_v23 main_v24 ((fun x i => Host.gather gather_S50000x64_S250000x1_S250000x64_1_0_n_n_0_1_164 x i) : (⟨S50000x64, .f32⟩ : BufTy).Contents (Elt F) → (⟨S250000x1, .i32⟩ : BufTy).Contents (Elt F) → (⟨S250000x64, .f32⟩ : BufTy).Contents (Elt F)),
    StableHlo.nullary main_c_4 (constantI S_ 32 0#32),
    StableHlo.unary main_c_4 main_v25 (broadcastInDim S250000 ![] bcast_S_S250000 : (⟨S_, .i32⟩ : BufTy).Contents (Elt F) → (⟨S250000, .i32⟩ : BufTy).Contents (Elt F)),
    StableHlo.binary main_arg3 main_v25 main_v26 (cmpi .slt : (⟨S250000, .i32⟩ : BufTy).Contents (Elt F) → (⟨S250000, .i32⟩ : BufTy).Contents (Elt F) → (⟨S250000, .i1⟩ : BufTy).Contents (Elt F)),
    StableHlo.nullary main_c_5 (constantI S_ 32 10000#32),
    StableHlo.unary main_c_5 main_v27 (broadcastInDim S250000 ![] bcast_S_S250000 : (⟨S_, .i32⟩ : BufTy).Contents (Elt F) → (⟨S250000, .i32⟩ : BufTy).Contents (Elt F)),
    StableHlo.binary main_arg3 main_v27 main_v28 (addi : (⟨S250000, .i32⟩ : BufTy).Contents (Elt F) → (⟨S250000, .i32⟩ : BufTy).Contents (Elt F) → (⟨S250000, .i32⟩ : BufTy).Contents (Elt F)),
    StableHlo.ternary main_v26 main_v28 main_arg3 main_v29 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v29 main_v30 (broadcastInDim S250000x1 ![0] bcast_S250000_S250000x1_0 : (⟨S250000, .i32⟩ : BufTy).Contents (Elt F) → (⟨S250000x1, .i32⟩ : BufTy).Contents (Elt F)),
    StableHlo.binary main_v17 main_v30 main_v31 ((fun x i => Host.gather gather_S10000x64_S250000x1_S250000x64_1_0_n_n_0_1_164 x i) : (⟨S10000x64, .f32⟩ : BufTy).Contents (Elt F) → (⟨S250000x1, .i32⟩ : BufTy).Contents (Elt F) → (⟨S250000x64, .f32⟩ : BufTy).Contents (Elt F)),
    StableHlo.binary main_v24 main_v31 main_v32 ((fun a b => concatenate S250000x128 1 [⟨S250000x64, a⟩, ⟨S250000x64, b⟩] concatenates_S250000x64_S250000x64_S250000x128_d1) : (⟨S250000x64, .f32⟩ : BufTy).Contents (Elt F) → (⟨S250000x64, .f32⟩ : BufTy).Contents (Elt F) → (⟨S250000x128, .f32⟩ : BufTy).Contents (Elt F)) ]

/-- The sheaf weights: layer normalization, the linear map, the logistic function. -/
def opsAlpha : List (HloOp τ sig (Elt F)) :=
  [ StableHlo.nullary main_cst_6 (constant S_ .f32 0x00000000#32),
    StableHlo.binary main_v32 main_cst_6 main_v33 ((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)),
    StableHlo.unary main_v33 main_v34 (broadcastInDim S250000x1 ![0] bcast_S250000_S250000x1_0 : (⟨S250000, .f32⟩ : BufTy).Contents (Elt F) → (⟨S250000x1, .f32⟩ : BufTy).Contents (Elt F)),
    StableHlo.nullary main_cst_7 (constant S_ .f32 0x43000000#32),
    StableHlo.unary main_cst_7 main_v35 (broadcastInDim S250000x1 ![] bcast_S_S250000x1 : (⟨S_, .f32⟩ : BufTy).Contents (Elt F) → (⟨S250000x1, .f32⟩ : BufTy).Contents (Elt F)),
    StableHlo.binary main_v34 main_v35 main_v36 (Host.divf : (⟨S250000x1, .f32⟩ : BufTy).Contents (Elt F) → (⟨S250000x1, .f32⟩ : BufTy).Contents (Elt F) → (⟨S250000x1, .f32⟩ : BufTy).Contents (Elt F)),
    StableHlo.unary main_v36 main_v37 (broadcastInDim S250000x128 ![0, 1] bcast_S250000x1_S250000x128_0_1 : (⟨S250000x1, .f32⟩ : BufTy).Contents (Elt F) → (⟨S250000x128, .f32⟩ : BufTy).Contents (Elt F)),
    StableHlo.binary main_v32 main_v37 main_v38 (subf : (⟨S250000x128, .f32⟩ : BufTy).Contents (Elt F) → (⟨S250000x128, .f32⟩ : BufTy).Contents (Elt F) → (⟨S250000x128, .f32⟩ : BufTy).Contents (Elt F)),
    StableHlo.binary main_v38 main_v38 main_v39 (mulf : (⟨S250000x128, .f32⟩ : BufTy).Contents (Elt F) → (⟨S250000x128, .f32⟩ : BufTy).Contents (Elt F) → (⟨S250000x128, .f32⟩ : BufTy).Contents (Elt F)),
    StableHlo.nullary main_cst_8 (constant S_ .f32 0x00000000#32),
    StableHlo.binary main_v39 main_cst_8 main_v40 ((fun x v => Host.reduceAdd x v reducesTo_S250000x128_S250000_d1 h_S_) : (⟨S250000x128, .f32⟩ : BufTy).Contents (Elt F) → (⟨S_, .f32⟩ : BufTy).Contents (Elt F) → (⟨S250000, .f32⟩ : BufTy).Contents (Elt F)),
    StableHlo.unary main_v40 main_v41 (broadcastInDim S250000x1 ![0] bcast_S250000_S250000x1_0 : (⟨S250000, .f32⟩ : BufTy).Contents (Elt F) → (⟨S250000x1, .f32⟩ : BufTy).Contents (Elt F)),
    StableHlo.nullary main_cst_9 (constant S_ .f32 0x43000000#32),
    StableHlo.unary main_cst_9 main_v42 (broadcastInDim S250000x1 ![] bcast_S_S250000x1 : (⟨S_, .f32⟩ : BufTy).Contents (Elt F) → (⟨S250000x1, .f32⟩ : BufTy).Contents (Elt F)),
    StableHlo.binary main_v41 main_v42 main_v43 (Host.divf : (⟨S250000x1, .f32⟩ : BufTy).Contents (Elt F) → (⟨S250000x1, .f32⟩ : BufTy).Contents (Elt F) → (⟨S250000x1, .f32⟩ : BufTy).Contents (Elt F)),
    StableHlo.unary main_v36 main_v44 (broadcastInDim S250000x128 ![0, 1] bcast_S250000x1_S250000x128_0_1 : (⟨S250000x1, .f32⟩ : BufTy).Contents (Elt F) → (⟨S250000x128, .f32⟩ : BufTy).Contents (Elt F)),
    StableHlo.binary main_v32 main_v44 main_v45 (subf : (⟨S250000x128, .f32⟩ : BufTy).Contents (Elt F) → (⟨S250000x128, .f32⟩ : BufTy).Contents (Elt F) → (⟨S250000x128, .f32⟩ : BufTy).Contents (Elt F)),
    StableHlo.nullary main_cst_10 (constant S_ .f32 0x3727C5AC#32),
    StableHlo.unary main_cst_10 main_v46 (broadcastInDim S250000x1 ![] bcast_S_S250000x1 : (⟨S_, .f32⟩ : BufTy).Contents (Elt F) → (⟨S250000x1, .f32⟩ : BufTy).Contents (Elt F)),
    StableHlo.binary main_v43 main_v46 main_v47 (addf : (⟨S250000x1, .f32⟩ : BufTy).Contents (Elt F) → (⟨S250000x1, .f32⟩ : BufTy).Contents (Elt F) → (⟨S250000x1, .f32⟩ : BufTy).Contents (Elt F)),
    StableHlo.unary main_v47 main_v48 (Host.rsqrt : (⟨S250000x1, .f32⟩ : BufTy).Contents (Elt F) → (⟨S250000x1, .f32⟩ : BufTy).Contents (Elt F)),
    StableHlo.unary main_v48 main_v49 (broadcastInDim S250000x128 ![0, 1] bcast_S250000x1_S250000x128_0_1 : (⟨S250000x1, .f32⟩ : BufTy).Contents (Elt F) → (⟨S250000x128, .f32⟩ : BufTy).Contents (Elt F)),
    StableHlo.binary main_v45 main_v49 main_v50 (mulf : (⟨S250000x128, .f32⟩ : BufTy).Contents (Elt F) → (⟨S250000x128, .f32⟩ : BufTy).Contents (Elt F) → (⟨S250000x128, .f32⟩ : BufTy).Contents (Elt F)),
    StableHlo.unary main_arg8 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S250000x128 ![0, 1] bcast_S1x128_S250000x128_0_1 : (⟨S1x128, .f32⟩ : BufTy).Contents (Elt F) → (⟨S250000x128, .f32⟩ : BufTy).Contents (Elt F)),
    StableHlo.binary main_v50 main_v52 main_v53 (mulf : (⟨S250000x128, .f32⟩ : BufTy).Contents (Elt F) → (⟨S250000x128, .f32⟩ : BufTy).Contents (Elt F) → (⟨S250000x128, .f32⟩ : BufTy).Contents (Elt F)),
    StableHlo.unary main_arg9 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S250000x128 ![0, 1] bcast_S1x128_S250000x128_0_1 : (⟨S1x128, .f32⟩ : BufTy).Contents (Elt F) → (⟨S250000x128, .f32⟩ : BufTy).Contents (Elt F)),
    StableHlo.binary main_v53 main_v55 main_v56 (addf : (⟨S250000x128, .f32⟩ : BufTy).Contents (Elt F) → (⟨S250000x128, .f32⟩ : BufTy).Contents (Elt F) → (⟨S250000x128, .f32⟩ : BufTy).Contents (Elt F)),
    StableHlo.binary main_v56 main_arg10 main_v57 ((fun l r => Host.dotGeneral dot_S250000x128_S128x6_S250000x6_1_0_0_1_n_n none l r) : (⟨S250000x128, .f32⟩ : BufTy).Contents (Elt F) → (⟨S128x6, .f32⟩ : BufTy).Contents (Elt F) → (⟨S250000x6, .f32⟩ : BufTy).Contents (Elt F)),
    StableHlo.unary main_arg11 main_v58 (broadcastInDim S1x6 ![1] bcast_S6_S1x6_1 : (⟨S6, .f32⟩ : BufTy).Contents (Elt F) → (⟨S1x6, .f32⟩ : BufTy).Contents (Elt F)),
    StableHlo.unary main_v58 main_v59 (broadcastInDim S250000x6 ![0, 1] bcast_S1x6_S250000x6_0_1 : (⟨S1x6, .f32⟩ : BufTy).Contents (Elt F) → (⟨S250000x6, .f32⟩ : BufTy).Contents (Elt F)),
    StableHlo.binary main_v57 main_v59 main_v60 (addf : (⟨S250000x6, .f32⟩ : BufTy).Contents (Elt F) → (⟨S250000x6, .f32⟩ : BufTy).Contents (Elt F) → (⟨S250000x6, .f32⟩ : BufTy).Contents (Elt F)),
    StableHlo.unary main_v60 main_v61 (Host.negf : (⟨S250000x6, .f32⟩ : BufTy).Contents (Elt F) → (⟨S250000x6, .f32⟩ : BufTy).Contents (Elt F)),
    StableHlo.unary main_v61 main_v62 (Host.exp : (⟨S250000x6, .f32⟩ : BufTy).Contents (Elt F) → (⟨S250000x6, .f32⟩ : BufTy).Contents (Elt F)),
    StableHlo.nullary main_cst_11 (constant S_ .f32 0x3F800000#32),
    StableHlo.unary main_cst_11 main_v63 (broadcastInDim S250000x6 ![] bcast_S_S250000x6 : (⟨S_, .f32⟩ : BufTy).Contents (Elt F) → (⟨S250000x6, .f32⟩ : BufTy).Contents (Elt F)),
    StableHlo.binary main_v63 main_v62 main_v64 (addf : (⟨S250000x6, .f32⟩ : BufTy).Contents (Elt F) → (⟨S250000x6, .f32⟩ : BufTy).Contents (Elt F) → (⟨S250000x6, .f32⟩ : BufTy).Contents (Elt F)),
    StableHlo.nullary main_cst_12 (constant S_ .f32 0x3F800000#32),
    StableHlo.unary main_cst_12 main_v65 (broadcastInDim S250000x6 ![] bcast_S_S250000x6 : (⟨S_, .f32⟩ : BufTy).Contents (Elt F) → (⟨S250000x6, .f32⟩ : BufTy).Contents (Elt F)),
    StableHlo.binary main_v65 main_v64 main_v66 (Host.divf : (⟨S250000x6, .f32⟩ : BufTy).Contents (Elt F) → (⟨S250000x6, .f32⟩ : BufTy).Contents (Elt F) → (⟨S250000x6, .f32⟩ : BufTy).Contents (Elt F)) ]

/-- The expanded incidence indices, the flattened weights, and the two reciprocal degrees. -/
def opsIdx : List (HloOp τ sig (Elt F)) :=
  [ StableHlo.nullary main_v67 (iotaInDim S6 32 0),
    StableHlo.unary main_arg2 main_v68 (broadcastInDim S250000x1 ![0] bcast_S250000_S250000x1_0 : (⟨S250000, .i32⟩ : BufTy).Contents (Elt F) → (⟨S250000x1, .i32⟩ : BufTy).Contents (Elt F)),
    StableHlo.nullary main_c_13 (constantI S_ 32 6#32),
    StableHlo.unary main_c_13 main_v69 (broadcastInDim S250000x1 ![] bcast_S_S250000x1 : (⟨S_, .i32⟩ : BufTy).Contents (Elt F) → (⟨S250000x1, .i32⟩ : BufTy).Contents (Elt F)),
    StableHlo.binary main_v68 main_v69 main_v70 (muli : (⟨S250000x1, .i32⟩ : BufTy).Contents (Elt F) → (⟨S250000x1, .i32⟩ : BufTy).Contents (Elt F) → (⟨S250000x1, .i32⟩ : BufTy).Contents (Elt F)),
    StableHlo.unary main_v67 main_v71 (broadcastInDim S1x6 ![1] bcast_S6_S1x6_1 : (⟨S6, .i32⟩ : BufTy).Contents (Elt F) → (⟨S1x6, .i32⟩ : BufTy).Contents (Elt F)),
    StableHlo.unary main_v70 main_v72 (broadcastInDim S250000x6 ![0, 1] bcast_S250000x1_S250000x6_0_1 : (⟨S250000x1, .i32⟩ : BufTy).Contents (Elt F) → (⟨S250000x6, .i32⟩ : BufTy).Contents (Elt F)),
    StableHlo.unary main_v71 main_v73 (broadcastInDim S250000x6 ![0, 1] bcast_S1x6_S250000x6_0_1 : (⟨S1x6, .i32⟩ : BufTy).Contents (Elt F) → (⟨S250000x6, .i32⟩ : BufTy).Contents (Elt F)),
    StableHlo.binary main_v72 main_v73 main_v74 (addi : (⟨S250000x6, .i32⟩ : BufTy).Contents (Elt F) → (⟨S250000x6, .i32⟩ : BufTy).Contents (Elt F) → (⟨S250000x6, .i32⟩ : BufTy).Contents (Elt F)),
    StableHlo.reshape main_v74 main_v75 rfl shapeCasts_S250000x6_S1500000,
    StableHlo.unary main_arg3 main_v76 (broadcastInDim S250000x1 ![0] bcast_S250000_S250000x1_0 : (⟨S250000, .i32⟩ : BufTy).Contents (Elt F) → (⟨S250000x1, .i32⟩ : BufTy).Contents (Elt F)),
    StableHlo.nullary main_c_14 (constantI S_ 32 6#32),
    StableHlo.unary main_c_14 main_v77 (broadcastInDim S250000x1 ![] bcast_S_S250000x1 : (⟨S_, .i32⟩ : BufTy).Contents (Elt F) → (⟨S250000x1, .i32⟩ : BufTy).Contents (Elt F)),
    StableHlo.binary main_v76 main_v77 main_v78 (muli : (⟨S250000x1, .i32⟩ : BufTy).Contents (Elt F) → (⟨S250000x1, .i32⟩ : BufTy).Contents (Elt F) → (⟨S250000x1, .i32⟩ : BufTy).Contents (Elt F)),
    StableHlo.unary main_v67 main_v79 (broadcastInDim S1x6 ![1] bcast_S6_S1x6_1 : (⟨S6, .i32⟩ : BufTy).Contents (Elt F) → (⟨S1x6, .i32⟩ : BufTy).Contents (Elt F)),
    StableHlo.unary main_v78 main_v80 (broadcastInDim S250000x6 ![0, 1] bcast_S250000x1_S250000x6_0_1 : (⟨S250000x1, .i32⟩ : BufTy).Contents (Elt F) → (⟨S250000x6, .i32⟩ : BufTy).Contents (Elt F)),
    StableHlo.unary main_v79 main_v81 (broadcastInDim S250000x6 ![0, 1] bcast_S1x6_S250000x6_0_1 : (⟨S1x6, .i32⟩ : BufTy).Contents (Elt F) → (⟨S250000x6, .i32⟩ : BufTy).Contents (Elt F)),
    StableHlo.binary main_v80 main_v81 main_v82 (addi : (⟨S250000x6, .i32⟩ : BufTy).Contents (Elt F) → (⟨S250000x6, .i32⟩ : BufTy).Contents (Elt F) → (⟨S250000x6, .i32⟩ : BufTy).Contents (Elt F)),
    StableHlo.reshape main_v82 main_v83 rfl shapeCasts_S250000x6_S1500000,
    StableHlo.reshape main_v66 main_v84 rfl shapeCasts_S250000x6_S1500000,
    StableHlo.nullary main_cst_15 (constant S_ .f32 0x3F800000#32),
    StableHlo.unary main_cst_15 main_v85 (broadcastInDim S1500000 ![] bcast_S_S1500000 : (⟨S_, .f32⟩ : BufTy).Contents (Elt F) → (⟨S1500000, .f32⟩ : BufTy).Contents (Elt F)),
    StableHlo.nullary main_cst_16 (constant S_ .f32 0x00000000#32),
    StableHlo.unary main_cst_16 main_v86 (broadcastInDim S300000 ![] bcast_S_S300000 : (⟨S_, .f32⟩ : BufTy).Contents (Elt F) → (⟨S300000, .f32⟩ : BufTy).Contents (Elt F)),
    StableHlo.unary main_v75 main_v87 (broadcastInDim S1500000x1 ![0] bcast_S1500000_S1500000x1_0 : (⟨S1500000, .i32⟩ : BufTy).Contents (Elt F) → (⟨S1500000x1, .i32⟩ : BufTy).Contents (Elt F)),
    StableHlo.ternary main_v86 main_v87 main_v85 main_v88 ((fun x i u => Host.scatterAdd scatter_S300000_S1500000x1_S1500000_n_0_0_1 x i u) : (⟨S300000, .f32⟩ : BufTy).Contents (Elt F) → (⟨S1500000x1, .i32⟩ : BufTy).Contents (Elt F) → (⟨S1500000, .f32⟩ : BufTy).Contents (Elt F) → (⟨S300000, .f32⟩ : BufTy).Contents (Elt F)),
    StableHlo.nullary main_cst_17 (constant S_ .f32 0x00000000#32),
    StableHlo.unary main_cst_17 main_v89 (broadcastInDim S300000 ![] bcast_S_S300000 : (⟨S_, .f32⟩ : BufTy).Contents (Elt F) → (⟨S300000, .f32⟩ : BufTy).Contents (Elt F)),
    StableHlo.binary main_v88 main_v89 main_v90 (cmpf .ogt : (⟨S300000, .f32⟩ : BufTy).Contents (Elt F) → (⟨S300000, .f32⟩ : BufTy).Contents (Elt F) → (⟨S300000, .i1⟩ : BufTy).Contents (Elt F)),
    StableHlo.nullary main_cst_18 (constant S_ .f32 0x3F800000#32),
    StableHlo.unary main_cst_18 main_v91 (broadcastInDim S300000 ![] bcast_S_S300000 : (⟨S_, .f32⟩ : BufTy).Contents (Elt F) → (⟨S300000, .f32⟩ : BufTy).Contents (Elt F)),
    StableHlo.binary main_v91 main_v88 main_v92 (Host.divf : (⟨S300000, .f32⟩ : BufTy).Contents (Elt F) → (⟨S300000, .f32⟩ : BufTy).Contents (Elt F) → (⟨S300000, .f32⟩ : BufTy).Contents (Elt F)),
    StableHlo.nullary main_cst_19 (constant S_ .f32 0x00000000#32),
    StableHlo.TRef.unary (.of main_cst_19 : StableHlo.TRef sig ⟨S_, .f32⟩) main_call0.v0 id,
    StableHlo.TRef.unary main_call0.v0 main_call0.v1 (broadcastInDim S300000 ![] bcast_S_S300000),
    StableHlo.TRef.ternary (.of main_v90 : StableHlo.TRef sig ⟨S300000, .i1⟩) (.of main_v92 : StableHlo.TRef sig ⟨S300000, .f32⟩) main_call0.v1 main_call0.v2 select,
    StableHlo.nullary main_cst_20 (constant S_ .f32 0x00000000#32),
    StableHlo.unary main_cst_20 main_v94 (broadcastInDim S60000 ![] bcast_S_S60000 : (⟨S_, .f32⟩ : BufTy).Contents (Elt F) → (⟨S60000, .f32⟩ : BufTy).Contents (Elt F)),
    StableHlo.unary main_v83 main_v95 (broadcastInDim S1500000x1 ![0] bcast_S1500000_S1500000x1_0 : (⟨S1500000, .i32⟩ : BufTy).Contents (Elt F) → (⟨S1500000x1, .i32⟩ : BufTy).Contents (Elt F)),
    StableHlo.ternary main_v94 main_v95 main_v85 main_v96 ((fun x i u => Host.scatterAdd scatter_S60000_S1500000x1_S1500000_n_0_0_1 x i u) : (⟨S60000, .f32⟩ : BufTy).Contents (Elt F) → (⟨S1500000x1, .i32⟩ : BufTy).Contents (Elt F) → (⟨S1500000, .f32⟩ : BufTy).Contents (Elt F) → (⟨S60000, .f32⟩ : BufTy).Contents (Elt F)),
    StableHlo.nullary main_cst_21 (constant S_ .f32 0x00000000#32),
    StableHlo.unary main_cst_21 main_v97 (broadcastInDim S60000 ![] bcast_S_S60000 : (⟨S_, .f32⟩ : BufTy).Contents (Elt F) → (⟨S60000, .f32⟩ : BufTy).Contents (Elt F)),
    StableHlo.binary main_v96 main_v97 main_v98 (cmpf .ogt : (⟨S60000, .f32⟩ : BufTy).Contents (Elt F) → (⟨S60000, .f32⟩ : BufTy).Contents (Elt F) → (⟨S60000, .i1⟩ : BufTy).Contents (Elt F)),
    StableHlo.nullary main_cst_22 (constant S_ .f32 0x3F800000#32),
    StableHlo.unary main_cst_22 main_v99 (broadcastInDim S60000 ![] bcast_S_S60000 : (⟨S_, .f32⟩ : BufTy).Contents (Elt F) → (⟨S60000, .f32⟩ : BufTy).Contents (Elt F)),
    StableHlo.binary main_v99 main_v96 main_v100 (Host.divf : (⟨S60000, .f32⟩ : BufTy).Contents (Elt F) → (⟨S60000, .f32⟩ : BufTy).Contents (Elt F) → (⟨S60000, .f32⟩ : BufTy).Contents (Elt F)),
    StableHlo.nullary main_cst_23 (constant S_ .f32 0x00000000#32),
    StableHlo.TRef.unary (.of main_cst_23 : StableHlo.TRef sig ⟨S_, .f32⟩) main_call1.v0 id,
    StableHlo.TRef.unary main_call1.v0 main_call1.v1 (broadcastInDim S60000 ![] bcast_S_S60000),
    StableHlo.TRef.ternary (.of main_v98 : StableHlo.TRef sig ⟨S60000, .i1⟩) (.of main_v100 : StableHlo.TRef sig ⟨S60000, .f32⟩) main_call1.v1 main_call1.v2 select ]

/-- The first diffusion layer with its activation. -/
def opsLayer0 : List (HloOp τ sig (Elt F)) :=
  [ StableHlo.binary main_v4 main_arg12 main_v102 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_v101 main_v103 (broadcastInDim S60000x1 ![0] bcast_S60000_S60000x1_0 : (⟨S60000, .f32⟩ : BufTy).Contents (Elt F) → (⟨S60000x1, .f32⟩ : BufTy).Contents (Elt F)),
    StableHlo.unary main_v84 main_v104 (broadcastInDim S1500000x1 ![0] bcast_S1500000_S1500000x1_0 : (⟨S1500000, .f32⟩ : BufTy).Contents (Elt F) → (⟨S1500000x1, .f32⟩ : BufTy).Contents (Elt F)),
    StableHlo.nullary main_c_24 (constantI S_ 32 0#32),
    StableHlo.unary main_c_24 main_v105 (broadcastInDim S1500000 ![] bcast_S_S1500000 : (⟨S_, .i32⟩ : BufTy).Contents (Elt F) → (⟨S1500000, .i32⟩ : BufTy).Contents (Elt F)),
    StableHlo.binary main_v75 main_v105 main_v106 (cmpi .slt : (⟨S1500000, .i32⟩ : BufTy).Contents (Elt F) → (⟨S1500000, .i32⟩ : BufTy).Contents (Elt F) → (⟨S1500000, .i1⟩ : BufTy).Contents (Elt F)),
    StableHlo.nullary main_c_25 (constantI S_ 32 300000#32),
    StableHlo.unary main_c_25 main_v107 (broadcastInDim S1500000 ![] bcast_S_S1500000 : (⟨S_, .i32⟩ : BufTy).Contents (Elt F) → (⟨S1500000, .i32⟩ : BufTy).Contents (Elt F)),
    StableHlo.binary main_v75 main_v107 main_v108 (addi : (⟨S1500000, .i32⟩ : BufTy).Contents (Elt F) → (⟨S1500000, .i32⟩ : BufTy).Contents (Elt F) → (⟨S1500000, .i32⟩ : BufTy).Contents (Elt F)),
    StableHlo.ternary main_v106 main_v108 main_v75 main_v109 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v109 main_v110 (broadcastInDim S1500000x1 ![0] bcast_S1500000_S1500000x1_0 : (⟨S1500000, .i32⟩ : BufTy).Contents (Elt F) → (⟨S1500000x1, .i32⟩ : BufTy).Contents (Elt F)),
    StableHlo.binary main_v102 main_v110 main_v111 ((fun x i => Host.gather gather_S300000x64_S1500000x1_S1500000x64_1_0_n_n_0_1_164 x i) : (⟨S300000x64, .f32⟩ : BufTy).Contents (Elt F) → (⟨S1500000x1, .i32⟩ : BufTy).Contents (Elt F) → (⟨S1500000x64, .f32⟩ : BufTy).Contents (Elt F)),
    StableHlo.unary main_v104 main_v112 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v112 main_v111 main_v113 (mulf : (⟨S1500000x64, .f32⟩ : BufTy).Contents (Elt F) → (⟨S1500000x64, .f32⟩ : BufTy).Contents (Elt F) → (⟨S1500000x64, .f32⟩ : BufTy).Contents (Elt F)),
    StableHlo.nullary main_cst_26 (constant S_ .f32 0x00000000#32),
    StableHlo.unary main_cst_26 main_v114 (broadcastInDim S60000x64 ![] bcast_S_S60000x64 : (⟨S_, .f32⟩ : BufTy).Contents (Elt F) → (⟨S60000x64, .f32⟩ : BufTy).Contents (Elt F)),
    StableHlo.unary main_v83 main_v115 (broadcastInDim S1500000x1 ![0] bcast_S1500000_S1500000x1_0 : (⟨S1500000, .i32⟩ : BufTy).Contents (Elt F) → (⟨S1500000x1, .i32⟩ : BufTy).Contents (Elt F)),
    StableHlo.ternary main_v114 main_v115 main_v113 main_v116 ((fun x i u => Host.scatterAdd scatter_S60000x64_S1500000x1_S1500000x64_1_0_0_1 x i u) : (⟨S60000x64, .f32⟩ : BufTy).Contents (Elt F) → (⟨S1500000x1, .i32⟩ : BufTy).Contents (Elt F) → (⟨S1500000x64, .f32⟩ : BufTy).Contents (Elt F) → (⟨S60000x64, .f32⟩ : BufTy).Contents (Elt F)),
    StableHlo.unary main_v103 main_v117 (broadcastInDim S60000x64 ![0, 1] bcast_S60000x1_S60000x64_0_1 : (⟨S60000x1, .f32⟩ : BufTy).Contents (Elt F) → (⟨S60000x64, .f32⟩ : BufTy).Contents (Elt F)),
    StableHlo.binary main_v117 main_v116 main_v118 (mulf : (⟨S60000x64, .f32⟩ : BufTy).Contents (Elt F) → (⟨S60000x64, .f32⟩ : BufTy).Contents (Elt F) → (⟨S60000x64, .f32⟩ : BufTy).Contents (Elt F)),
    StableHlo.unary main_v93 main_v119 (broadcastInDim S300000x1 ![0] bcast_S300000_S300000x1_0 : (⟨S300000, .f32⟩ : BufTy).Contents (Elt F) → (⟨S300000x1, .f32⟩ : BufTy).Contents (Elt F)),
    StableHlo.unary main_v84 main_v120 (broadcastInDim S1500000x1 ![0] bcast_S1500000_S1500000x1_0 : (⟨S1500000, .f32⟩ : BufTy).Contents (Elt F) → (⟨S1500000x1, .f32⟩ : BufTy).Contents (Elt F)),
    StableHlo.nullary main_c_27 (constantI S_ 32 0#32),
    StableHlo.unary main_c_27 main_v121 (broadcastInDim S1500000 ![] bcast_S_S1500000 : (⟨S_, .i32⟩ : BufTy).Contents (Elt F) → (⟨S1500000, .i32⟩ : BufTy).Contents (Elt F)),
    StableHlo.binary main_v83 main_v121 main_v122 (cmpi .slt : (⟨S1500000, .i32⟩ : BufTy).Contents (Elt F) → (⟨S1500000, .i32⟩ : BufTy).Contents (Elt F) → (⟨S1500000, .i1⟩ : BufTy).Contents (Elt F)),
    StableHlo.nullary main_c_28 (constantI S_ 32 60000#32),
    StableHlo.unary main_c_28 main_v123 (broadcastInDim S1500000 ![] bcast_S_S1500000 : (⟨S_, .i32⟩ : BufTy).Contents (Elt F) → (⟨S1500000, .i32⟩ : BufTy).Contents (Elt F)),
    StableHlo.binary main_v83 main_v123 main_v124 (addi : (⟨S1500000, .i32⟩ : BufTy).Contents (Elt F) → (⟨S1500000, .i32⟩ : BufTy).Contents (Elt F) → (⟨S1500000, .i32⟩ : BufTy).Contents (Elt F)),
    StableHlo.ternary main_v122 main_v124 main_v83 main_v125 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v125 main_v126 (broadcastInDim S1500000x1 ![0] bcast_S1500000_S1500000x1_0 : (⟨S1500000, .i32⟩ : BufTy).Contents (Elt F) → (⟨S1500000x1, .i32⟩ : BufTy).Contents (Elt F)),
    StableHlo.binary main_v118 main_v126 main_v127 ((fun x i => Host.gather gather_S60000x64_S1500000x1_S1500000x64_1_0_n_n_0_1_164 x i) : (⟨S60000x64, .f32⟩ : BufTy).Contents (Elt F) → (⟨S1500000x1, .i32⟩ : BufTy).Contents (Elt F) → (⟨S1500000x64, .f32⟩ : BufTy).Contents (Elt F)),
    StableHlo.unary main_v120 main_v128 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v128 main_v127 main_v129 (mulf : (⟨S1500000x64, .f32⟩ : BufTy).Contents (Elt F) → (⟨S1500000x64, .f32⟩ : BufTy).Contents (Elt F) → (⟨S1500000x64, .f32⟩ : BufTy).Contents (Elt F)),
    StableHlo.nullary main_cst_29 (constant S_ .f32 0x00000000#32),
    StableHlo.unary main_cst_29 main_v130 (broadcastInDim S300000x64 ![] bcast_S_S300000x64 : (⟨S_, .f32⟩ : BufTy).Contents (Elt F) → (⟨S300000x64, .f32⟩ : BufTy).Contents (Elt F)),
    StableHlo.unary main_v75 main_v131 (broadcastInDim S1500000x1 ![0] bcast_S1500000_S1500000x1_0 : (⟨S1500000, .i32⟩ : BufTy).Contents (Elt F) → (⟨S1500000x1, .i32⟩ : BufTy).Contents (Elt F)),
    StableHlo.ternary main_v130 main_v131 main_v129 main_v132 ((fun x i u => Host.scatterAdd scatter_S300000x64_S1500000x1_S1500000x64_1_0_0_1 x i u) : (⟨S300000x64, .f32⟩ : BufTy).Contents (Elt F) → (⟨S1500000x1, .i32⟩ : BufTy).Contents (Elt F) → (⟨S1500000x64, .f32⟩ : BufTy).Contents (Elt F) → (⟨S300000x64, .f32⟩ : BufTy).Contents (Elt F)),
    StableHlo.unary main_v119 main_v133 (broadcastInDim S300000x64 ![0, 1] bcast_S300000x1_S300000x64_0_1 : (⟨S300000x1, .f32⟩ : BufTy).Contents (Elt F) → (⟨S300000x64, .f32⟩ : BufTy).Contents (Elt F)),
    StableHlo.binary main_v133 main_v132 main_v134 (mulf : (⟨S300000x64, .f32⟩ : BufTy).Contents (Elt F) → (⟨S300000x64, .f32⟩ : BufTy).Contents (Elt F) → (⟨S300000x64, .f32⟩ : BufTy).Contents (Elt F)),
    StableHlo.binary main_v102 main_v134 main_v135 (subf : (⟨S300000x64, .f32⟩ : BufTy).Contents (Elt F) → (⟨S300000x64, .f32⟩ : BufTy).Contents (Elt F) → (⟨S300000x64, .f32⟩ : BufTy).Contents (Elt F)),
    StableHlo.unary main_arg13 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S300000x64 ![0, 1] bcast_S1x64_S300000x64_0_1 : (⟨S1x64, .f32⟩ : BufTy).Contents (Elt F) → (⟨S300000x64, .f32⟩ : BufTy).Contents (Elt F)),
    StableHlo.binary main_v135 main_v137 main_v138 (addf : (⟨S300000x64, .f32⟩ : BufTy).Contents (Elt F) → (⟨S300000x64, .f32⟩ : BufTy).Contents (Elt F) → (⟨S300000x64, .f32⟩ : BufTy).Contents (Elt F)),
    StableHlo.TRef.nullary main_call2.cst (constant S_ .f32 0x00000000#32),
    StableHlo.TRef.unary main_call2.cst main_call2.v0 (broadcastInDim S300000x64 ![] bcast_S_S300000x64),
    StableHlo.TRef.binary (.of main_v138 : StableHlo.TRef sig ⟨S300000x64, .f32⟩) main_call2.v0 main_call2.v1 (cmpf .ogt),
    StableHlo.TRef.nullary main_call2.cst_0 (constant S_ .f32 0x00000000#32),
    StableHlo.TRef.unary main_call2.cst_0 main_call2.v2 (broadcastInDim S300000x64 ![] bcast_S_S300000x64),
    StableHlo.TRef.binary (.of main_v138 : StableHlo.TRef sig ⟨S300000x64, .f32⟩) main_call2.v2 main_call2.v3 (cmpf .ogt),
    StableHlo.TRef.nullary main_call2.cst_1 (constant S_ .f32 0x00000000#32),
    StableHlo.TRef.unary main_call2.cst_1 main_call2_call0.v0 id,
    StableHlo.TRef.unary main_call2_call0.v0 main_call2_call0.v1 (broadcastInDim S300000x64 ![] bcast_S_S300000x64),
    StableHlo.TRef.ternary main_call2.v3 main_call2_call0.v1 (.of main_v138 : StableHlo.TRef sig ⟨S300000x64, .f32⟩) main_call2_call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S300000x64 ![] bcast_S_S300000x64),
    StableHlo.TRef.binary main_call2.v6 main_call2.v5 main_call2.v7 mulf,
    StableHlo.TRef.ternary main_call2.v1 (.of main_v138 : StableHlo.TRef sig ⟨S300000x64, .f32⟩) main_call2.v7 main_call2_call1.v0 select ]

/-- The second diffusion layer, the change of layout, and the final activation. -/
def opsLayer1 : List (HloOp τ sig (Elt F)) :=
  [ StableHlo.binary main_v139 main_arg14 main_v140 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_v101 main_v141 (broadcastInDim S60000x1 ![0] bcast_S60000_S60000x1_0 : (⟨S60000, .f32⟩ : BufTy).Contents (Elt F) → (⟨S60000x1, .f32⟩ : BufTy).Contents (Elt F)),
    StableHlo.unary main_v84 main_v142 (broadcastInDim S1500000x1 ![0] bcast_S1500000_S1500000x1_0 : (⟨S1500000, .f32⟩ : BufTy).Contents (Elt F) → (⟨S1500000x1, .f32⟩ : BufTy).Contents (Elt F)),
    StableHlo.nullary main_c_30 (constantI S_ 32 0#32),
    StableHlo.unary main_c_30 main_v143 (broadcastInDim S1500000 ![] bcast_S_S1500000 : (⟨S_, .i32⟩ : BufTy).Contents (Elt F) → (⟨S1500000, .i32⟩ : BufTy).Contents (Elt F)),
    StableHlo.binary main_v75 main_v143 main_v144 (cmpi .slt : (⟨S1500000, .i32⟩ : BufTy).Contents (Elt F) → (⟨S1500000, .i32⟩ : BufTy).Contents (Elt F) → (⟨S1500000, .i1⟩ : BufTy).Contents (Elt F)),
    StableHlo.nullary main_c_31 (constantI S_ 32 300000#32),
    StableHlo.unary main_c_31 main_v145 (broadcastInDim S1500000 ![] bcast_S_S1500000 : (⟨S_, .i32⟩ : BufTy).Contents (Elt F) → (⟨S1500000, .i32⟩ : BufTy).Contents (Elt F)),
    StableHlo.binary main_v75 main_v145 main_v146 (addi : (⟨S1500000, .i32⟩ : BufTy).Contents (Elt F) → (⟨S1500000, .i32⟩ : BufTy).Contents (Elt F) → (⟨S1500000, .i32⟩ : BufTy).Contents (Elt F)),
    StableHlo.ternary main_v144 main_v146 main_v75 main_v147 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v147 main_v148 (broadcastInDim S1500000x1 ![0] bcast_S1500000_S1500000x1_0 : (⟨S1500000, .i32⟩ : BufTy).Contents (Elt F) → (⟨S1500000x1, .i32⟩ : BufTy).Contents (Elt F)),
    StableHlo.binary main_v140 main_v148 main_v149 ((fun x i => Host.gather gather_S300000x64_S1500000x1_S1500000x64_1_0_n_n_0_1_164 x i) : (⟨S300000x64, .f32⟩ : BufTy).Contents (Elt F) → (⟨S1500000x1, .i32⟩ : BufTy).Contents (Elt F) → (⟨S1500000x64, .f32⟩ : BufTy).Contents (Elt F)),
    StableHlo.unary main_v142 main_v150 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v150 main_v149 main_v151 (mulf : (⟨S1500000x64, .f32⟩ : BufTy).Contents (Elt F) → (⟨S1500000x64, .f32⟩ : BufTy).Contents (Elt F) → (⟨S1500000x64, .f32⟩ : BufTy).Contents (Elt F)),
    StableHlo.nullary main_cst_32 (constant S_ .f32 0x00000000#32),
    StableHlo.unary main_cst_32 main_v152 (broadcastInDim S60000x64 ![] bcast_S_S60000x64 : (⟨S_, .f32⟩ : BufTy).Contents (Elt F) → (⟨S60000x64, .f32⟩ : BufTy).Contents (Elt F)),
    StableHlo.unary main_v83 main_v153 (broadcastInDim S1500000x1 ![0] bcast_S1500000_S1500000x1_0 : (⟨S1500000, .i32⟩ : BufTy).Contents (Elt F) → (⟨S1500000x1, .i32⟩ : BufTy).Contents (Elt F)),
    StableHlo.ternary main_v152 main_v153 main_v151 main_v154 ((fun x i u => Host.scatterAdd scatter_S60000x64_S1500000x1_S1500000x64_1_0_0_1 x i u) : (⟨S60000x64, .f32⟩ : BufTy).Contents (Elt F) → (⟨S1500000x1, .i32⟩ : BufTy).Contents (Elt F) → (⟨S1500000x64, .f32⟩ : BufTy).Contents (Elt F) → (⟨S60000x64, .f32⟩ : BufTy).Contents (Elt F)),
    StableHlo.unary main_v141 main_v155 (broadcastInDim S60000x64 ![0, 1] bcast_S60000x1_S60000x64_0_1 : (⟨S60000x1, .f32⟩ : BufTy).Contents (Elt F) → (⟨S60000x64, .f32⟩ : BufTy).Contents (Elt F)),
    StableHlo.binary main_v155 main_v154 main_v156 (mulf : (⟨S60000x64, .f32⟩ : BufTy).Contents (Elt F) → (⟨S60000x64, .f32⟩ : BufTy).Contents (Elt F) → (⟨S60000x64, .f32⟩ : BufTy).Contents (Elt F)),
    StableHlo.unary main_v93 main_v157 (broadcastInDim S300000x1 ![0] bcast_S300000_S300000x1_0 : (⟨S300000, .f32⟩ : BufTy).Contents (Elt F) → (⟨S300000x1, .f32⟩ : BufTy).Contents (Elt F)),
    StableHlo.unary main_v84 main_v158 (broadcastInDim S1500000x1 ![0] bcast_S1500000_S1500000x1_0 : (⟨S1500000, .f32⟩ : BufTy).Contents (Elt F) → (⟨S1500000x1, .f32⟩ : BufTy).Contents (Elt F)),
    StableHlo.nullary main_c_33 (constantI S_ 32 0#32),
    StableHlo.unary main_c_33 main_v159 (broadcastInDim S1500000 ![] bcast_S_S1500000 : (⟨S_, .i32⟩ : BufTy).Contents (Elt F) → (⟨S1500000, .i32⟩ : BufTy).Contents (Elt F)),
    StableHlo.binary main_v83 main_v159 main_v160 (cmpi .slt : (⟨S1500000, .i32⟩ : BufTy).Contents (Elt F) → (⟨S1500000, .i32⟩ : BufTy).Contents (Elt F) → (⟨S1500000, .i1⟩ : BufTy).Contents (Elt F)),
    StableHlo.nullary main_c_34 (constantI S_ 32 60000#32),
    StableHlo.unary main_c_34 main_v161 (broadcastInDim S1500000 ![] bcast_S_S1500000 : (⟨S_, .i32⟩ : BufTy).Contents (Elt F) → (⟨S1500000, .i32⟩ : BufTy).Contents (Elt F)),
    StableHlo.binary main_v83 main_v161 main_v162 (addi : (⟨S1500000, .i32⟩ : BufTy).Contents (Elt F) → (⟨S1500000, .i32⟩ : BufTy).Contents (Elt F) → (⟨S1500000, .i32⟩ : BufTy).Contents (Elt F)),
    StableHlo.ternary main_v160 main_v162 main_v83 main_v163 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v163 main_v164 (broadcastInDim S1500000x1 ![0] bcast_S1500000_S1500000x1_0 : (⟨S1500000, .i32⟩ : BufTy).Contents (Elt F) → (⟨S1500000x1, .i32⟩ : BufTy).Contents (Elt F)),
    StableHlo.binary main_v156 main_v164 main_v165 ((fun x i => Host.gather gather_S60000x64_S1500000x1_S1500000x64_1_0_n_n_0_1_164 x i) : (⟨S60000x64, .f32⟩ : BufTy).Contents (Elt F) → (⟨S1500000x1, .i32⟩ : BufTy).Contents (Elt F) → (⟨S1500000x64, .f32⟩ : BufTy).Contents (Elt F)),
    StableHlo.unary main_v158 main_v166 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v166 main_v165 main_v167 (mulf : (⟨S1500000x64, .f32⟩ : BufTy).Contents (Elt F) → (⟨S1500000x64, .f32⟩ : BufTy).Contents (Elt F) → (⟨S1500000x64, .f32⟩ : BufTy).Contents (Elt F)),
    StableHlo.nullary main_cst_35 (constant S_ .f32 0x00000000#32),
    StableHlo.unary main_cst_35 main_v168 (broadcastInDim S300000x64 ![] bcast_S_S300000x64 : (⟨S_, .f32⟩ : BufTy).Contents (Elt F) → (⟨S300000x64, .f32⟩ : BufTy).Contents (Elt F)),
    StableHlo.unary main_v75 main_v169 (broadcastInDim S1500000x1 ![0] bcast_S1500000_S1500000x1_0 : (⟨S1500000, .i32⟩ : BufTy).Contents (Elt F) → (⟨S1500000x1, .i32⟩ : BufTy).Contents (Elt F)),
    StableHlo.ternary main_v168 main_v169 main_v167 main_v170 ((fun x i u => Host.scatterAdd scatter_S300000x64_S1500000x1_S1500000x64_1_0_0_1 x i u) : (⟨S300000x64, .f32⟩ : BufTy).Contents (Elt F) → (⟨S1500000x1, .i32⟩ : BufTy).Contents (Elt F) → (⟨S1500000x64, .f32⟩ : BufTy).Contents (Elt F) → (⟨S300000x64, .f32⟩ : BufTy).Contents (Elt F)),
    StableHlo.unary main_v157 main_v171 (broadcastInDim S300000x64 ![0, 1] bcast_S300000x1_S300000x64_0_1 : (⟨S300000x1, .f32⟩ : BufTy).Contents (Elt F) → (⟨S300000x64, .f32⟩ : BufTy).Contents (Elt F)),
    StableHlo.binary main_v171 main_v170 main_v172 (mulf : (⟨S300000x64, .f32⟩ : BufTy).Contents (Elt F) → (⟨S300000x64, .f32⟩ : BufTy).Contents (Elt F) → (⟨S300000x64, .f32⟩ : BufTy).Contents (Elt F)),
    StableHlo.binary main_v140 main_v172 main_v173 (subf : (⟨S300000x64, .f32⟩ : BufTy).Contents (Elt F) → (⟨S300000x64, .f32⟩ : BufTy).Contents (Elt F) → (⟨S300000x64, .f32⟩ : BufTy).Contents (Elt F)),
    StableHlo.unary main_arg15 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S300000x64 ![0, 1] bcast_S1x64_S300000x64_0_1 : (⟨S1x64, .f32⟩ : BufTy).Contents (Elt F) → (⟨S300000x64, .f32⟩ : BufTy).Contents (Elt F)),
    StableHlo.binary main_v173 main_v175 main_v176 (addf : (⟨S300000x64, .f32⟩ : BufTy).Contents (Elt F) → (⟨S300000x64, .f32⟩ : BufTy).Contents (Elt F) → (⟨S300000x64, .f32⟩ : BufTy).Contents (Elt F)),
    StableHlo.reshape main_v176 main_v177 rfl shapeCasts_S300000x64_S50000x384,
    StableHlo.TRef.nullary main_call3.cst (constant S_ .f32 0x00000000#32),
    StableHlo.TRef.unary main_call3.cst main_call3.v0 (broadcastInDim S50000x384 ![] bcast_S_S50000x384),
    StableHlo.TRef.binary (.of main_v177 : StableHlo.TRef sig ⟨S50000x384, .f32⟩) main_call3.v0 main_call3.v1 (cmpf .ogt),
    StableHlo.TRef.nullary main_call3.cst_0 (constant S_ .f32 0x00000000#32),
    StableHlo.TRef.unary main_call3.cst_0 main_call3.v2 (broadcastInDim S50000x384 ![] bcast_S_S50000x384),
    StableHlo.TRef.binary (.of main_v177 : StableHlo.TRef sig ⟨S50000x384, .f32⟩) main_call3.v2 main_call3.v3 (cmpf .ogt),
    StableHlo.TRef.nullary main_call3.cst_1 (constant S_ .f32 0x00000000#32),
    StableHlo.TRef.unary main_call3.cst_1 main_call3_call0.v0 id,
    StableHlo.TRef.unary main_call3_call0.v0 main_call3_call0.v1 (broadcastInDim S50000x384 ![] bcast_S_S50000x384),
    StableHlo.TRef.ternary main_call3.v3 main_call3_call0.v1 (.of main_v177 : StableHlo.TRef sig ⟨S50000x384, .f32⟩) main_call3_call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x384 ![] bcast_S_S50000x384),
    StableHlo.TRef.binary main_call3.v6 main_call3.v5 main_call3.v7 mulf,
    StableHlo.TRef.ternary main_call3.v1 (.of main_v177 : StableHlo.TRef sig ⟨S50000x384, .f32⟩) main_call3.v7 main_call3_call1.v0 select ]

/-- Membership of a buffer in the image of a list of buffers. -/
theorem mem_image {L : List (Ref sig .tc)} {x : Ref sig .tc} (h : x ∈ L) :
    (Proc.devRef (τ := τ) .tc x : DevRef τ sig) ∈ (L.map (Proc.devRef (τ := τ) .tc)).toFinset :=
  List.mem_toFinset.mpr (List.mem_map.mpr ⟨x, h, rfl⟩)

/-- The result buffers of the operations of `opsFeat`, in order. -/
abbrev wr0 : List (Ref sig .tc) := [main_v0, main_v1, main_v2, main_v3, main_v4, main_v5, main_v6, main_v7, main_v8, main_v9, main_v10, main_cst, main_v11, main_cst_0, main_v12, main_v13, main_v14, main_cst_1, main_v15, main_cst_2, main_v16, main_v17, main_c, main_v18, main_v19, main_c_3, main_v20, main_v21, main_v22, main_v23, main_v24, main_c_4, main_v25, main_v26, main_c_5, main_v27, main_v28, main_v29, main_v30, main_v31, main_v32]

theorem writes0 : (opsFeat : List (HloOp τ sig (Elt F))).Forall fun op => op.writes ⊆ ((wr0).map (Proc.devRef (τ := τ) .tc)).toFinset := by
  simp only [opsFeat, List.Forall, StableHlo.nullary_writes, StableHlo.unary_writes, StableHlo.binary_writes, StableHlo.ternary_writes, StableHlo.reshape_writes, Finset.singleton_subset_iff]
  repeat' apply And.intro
  all_goals exact mem_image (by decide)

/-- This stretch leaves every buffer outside its list alone. -/
theorem keep0 (W : Valuation τ sig (Elt F)) (b : Ref sig .tc) (hb : b ∉ wr0) :
    after (opsFeat : List (HloOp τ sig (Elt F))) W (Proc.devRef .tc b) = W (Proc.devRef .tc b) :=
  after_of_writes_sub opsFeat W writes0 hb

/-- The result buffers of the operations of `opsAlpha`, in order. -/
abbrev wr1 : List (Ref sig .tc) := [main_cst_6, main_v33, main_v34, main_cst_7, main_v35, main_v36, main_v37, main_v38, main_v39, main_cst_8, main_v40, main_v41, main_cst_9, main_v42, main_v43, main_v44, main_v45, main_cst_10, main_v46, main_v47, main_v48, main_v49, main_v50, main_v51, main_v52, main_v53, main_v54, main_v55, main_v56, main_v57, main_v58, main_v59, main_v60, main_v61, main_v62, main_cst_11, main_v63, main_v64, main_cst_12, main_v65, main_v66]

theorem writes1 : (opsAlpha : List (HloOp τ sig (Elt F))).Forall fun op => op.writes ⊆ ((wr1).map (Proc.devRef (τ := τ) .tc)).toFinset := by
  simp only [opsAlpha, List.Forall, StableHlo.nullary_writes, StableHlo.unary_writes, StableHlo.binary_writes, StableHlo.ternary_writes, StableHlo.reshape_writes, Finset.singleton_subset_iff]
  repeat' apply And.intro
  all_goals exact mem_image (by decide)

/-- This stretch leaves every buffer outside its list alone. -/
theorem keep1 (W : Valuation τ sig (Elt F)) (b : Ref sig .tc) (hb : b ∉ wr1) :
    after (opsAlpha : List (HloOp τ sig (Elt F))) W (Proc.devRef .tc b) = W (Proc.devRef .tc b) :=
  after_of_writes_sub opsAlpha W writes1 hb

/-- The result buffers of the operations of `opsIdx`, in order. -/
abbrev wr2 : List (Ref sig .tc) := [main_v67, main_v68, main_c_13, main_v69, main_v70, main_v71, main_v72, main_v73, main_v74, main_v75, main_v76, main_c_14, main_v77, main_v78, main_v79, main_v80, main_v81, main_v82, main_v83, main_v84, main_cst_15, main_v85, main_cst_16, main_v86, main_v87, main_v88, main_cst_17, main_v89, main_v90, main_cst_18, main_v91, main_v92, main_cst_19, main_call0_v0, main_call0_v1, main_v93, main_cst_20, main_v94, main_v95, main_v96, main_cst_21, main_v97, main_v98, main_cst_22, main_v99, main_v100, main_cst_23, main_call1_v0, main_call1_v1, main_v101]

theorem writes2 : (opsIdx : List (HloOp τ sig (Elt F))).Forall fun op => op.writes ⊆ ((wr2).map (Proc.devRef (τ := τ) .tc)).toFinset := by
  simp only [opsIdx, List.Forall, StableHlo.nullary_writes, StableHlo.unary_writes, StableHlo.binary_writes, StableHlo.ternary_writes, StableHlo.reshape_writes, Finset.singleton_subset_iff]
  repeat' apply And.intro
  all_goals exact mem_image (by decide)

/-- This stretch leaves every buffer outside its list alone. -/
theorem keep2 (W : Valuation τ sig (Elt F)) (b : Ref sig .tc) (hb : b ∉ wr2) :
    after (opsIdx : List (HloOp τ sig (Elt F))) W (Proc.devRef .tc b) = W (Proc.devRef .tc b) :=
  after_of_writes_sub opsIdx W writes2 hb

/-- The result buffers of the operations of `opsLayer0`, in order. -/
abbrev wr3 : List (Ref sig .tc) := [main_v102, main_v103, main_v104, main_c_24, main_v105, main_v106, main_c_25, main_v107, main_v108, main_v109, main_v110, main_v111, main_v112, main_v113, main_cst_26, main_v114, main_v115, main_v116, main_v117, main_v118, main_v119, main_v120, main_c_27, main_v121, main_v122, main_c_28, main_v123, main_v124, main_v125, main_v126, main_v127, main_v128, main_v129, main_cst_29, main_v130, main_v131, main_v132, main_v133, main_v134, main_v135, main_v136, main_v137, main_v138, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v139]

theorem writes3 : (opsLayer0 : List (HloOp τ sig (Elt F))).Forall fun op => op.writes ⊆ ((wr3).map (Proc.devRef (τ := τ) .tc)).toFinset := by
  simp only [opsLayer0, List.Forall, StableHlo.nullary_writes, StableHlo.unary_writes, StableHlo.binary_writes, StableHlo.ternary_writes, StableHlo.reshape_writes, Finset.singleton_subset_iff]
  repeat' apply And.intro
  all_goals exact mem_image (by decide)

/-- This stretch leaves every buffer outside its list alone. -/
theorem keep3 (W : Valuation τ sig (Elt F)) (b : Ref sig .tc) (hb : b ∉ wr3) :
    after (opsLayer0 : List (HloOp τ sig (Elt F))) W (Proc.devRef .tc b) = W (Proc.devRef .tc b) :=
  after_of_writes_sub opsLayer0 W writes3 hb

/-- The result buffers of the operations of `opsLayer1`, in order. -/
abbrev wr4 : List (Ref sig .tc) := [main_v140, main_v141, main_v142, main_c_30, main_v143, main_v144, main_c_31, main_v145, main_v146, main_v147, main_v148, main_v149, main_v150, main_v151, main_cst_32, main_v152, main_v153, main_v154, main_v155, main_v156, main_v157, main_v158, main_c_33, main_v159, main_v160, main_c_34, main_v161, main_v162, main_v163, main_v164, main_v165, main_v166, main_v167, main_cst_35, main_v168, main_v169, main_v170, main_v171, main_v172, main_v173, main_v174, main_v175, main_v176, main_v177, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v178]

theorem writes4 : (opsLayer1 : List (HloOp τ sig (Elt F))).Forall fun op => op.writes ⊆ ((wr4).map (Proc.devRef (τ := τ) .tc)).toFinset := by
  simp only [opsLayer1, List.Forall, StableHlo.nullary_writes, StableHlo.unary_writes, StableHlo.binary_writes, StableHlo.ternary_writes, StableHlo.reshape_writes, Finset.singleton_subset_iff]
  repeat' apply And.intro
  all_goals exact mem_image (by decide)

/-- This stretch leaves every buffer outside its list alone. -/
theorem keep4 (W : Valuation τ sig (Elt F)) (b : Ref sig .tc) (hb : b ∉ wr4) :
    after (opsLayer1 : List (HloOp τ sig (Elt F))) W (Proc.devRef .tc b) = W (Proc.devRef .tc b) :=
  after_of_writes_sub opsLayer1 W writes4 hb

/-! ## Each stretch at the values the later ones read -/

attribute [local irreducible] Host.gather Host.scatterAdd Host.reduceAdd

set_option maxRecDepth 65536 in
set_option maxHeartbeats 2000000 in
/-- After the first stretch the node stalks are the reshaped projection. -/
theorem feat_xs (W : Valuation τ sig (Elt F)) :
    after opsFeat W (main_v4 : DevRef τ sig)
      = Cert.Stages.xsOf (Cert.Stages.linRows50 (W (main_arg0 : DevRef τ sig)) (W (main_arg6 : DevRef τ sig)) (Cert.Stages.rowVec384 (W (main_arg7 : DevRef τ sig)))) := by
  unfold opsFeat
  after_results_simp
  rfl

set_option maxRecDepth 65536 in
set_option maxHeartbeats 2000000 in
/-- After the first stretch the incidence features are the joined gathers of the two stalk means. -/
theorem feat_ft (W : Valuation τ sig (Elt F)) :
    after opsFeat W (main_v32 : DevRef τ sig)
      = Cert.Stages.featOf (Cert.Stages.linRows50 (W (main_arg0 : DevRef τ sig)) (W (main_arg6 : DevRef τ sig)) (Cert.Stages.rowVec384 (W (main_arg7 : DevRef τ sig))))
          (Cert.Stages.linRows10 (W (main_arg1 : DevRef τ sig)) (W (main_arg6 : DevRef τ sig)) (Cert.Stages.rowVec384 (W (main_arg7 : DevRef τ sig)))) (W (main_arg2 : DevRef τ sig)) (W (main_arg3 : DevRef τ sig)) := by
  unfold opsFeat
  after_results_simp
  rfl

set_option maxRecDepth 65536 in
set_option maxHeartbeats 2000000 in
/-- The second stretch computes the sheaf weights from the incidence features. -/
theorem alpha_al (W : Valuation τ sig (Elt F)) :
    after opsAlpha W (main_v66 : DevRef τ sig)
      = Cert.Stages.alphaRows (W (main_v32 : DevRef τ sig)) (Cert.Stages.rowVec128 (W (main_arg8 : DevRef τ sig))) (Cert.Stages.rowVec128 (W (main_arg9 : DevRef τ sig))) (W (main_arg10 : DevRef τ sig)) (Cert.Stages.rowVec6 (W (main_arg11 : DevRef τ sig))) := by
  unfold opsAlpha
  after_results_simp
  rfl

set_option maxRecDepth 65536 in
set_option maxHeartbeats 2000000 in
theorem idx_row (W : Valuation τ sig (Elt F)) :
    after opsIdx W (main_v75 : DevRef τ sig) = Cert.Stages.expandIdx (W (main_arg2 : DevRef τ sig)) := by
  unfold opsIdx
  after_results_simp
  rfl

set_option maxRecDepth 65536 in
set_option maxHeartbeats 2000000 in
theorem idx_col (W : Valuation τ sig (Elt F)) :
    after opsIdx W (main_v83 : DevRef τ sig) = Cert.Stages.expandIdx (W (main_arg3 : DevRef τ sig)) := by
  unfold opsIdx
  after_results_simp
  rfl

set_option maxRecDepth 65536 in
set_option maxHeartbeats 2000000 in
theorem idx_flat (W : Valuation τ sig (Elt F)) :
    after opsIdx W (main_v84 : DevRef τ sig) = Cert.Stages.flatOf (W (main_v66 : DevRef τ sig)) := by
  unfold opsIdx
  after_results_simp
  rfl

set_option maxRecDepth 65536 in
set_option maxHeartbeats 2000000 in
theorem idx_dinv (W : Valuation τ sig (Elt F)) :
    after opsIdx W (main_v93 : DevRef τ sig) = Cert.Stages.degInv300 (Cert.Stages.expandIdx (W (main_arg2 : DevRef τ sig))) := by
  unfold opsIdx
  after_results_simp
  rfl

set_option maxRecDepth 65536 in
set_option maxHeartbeats 2000000 in
theorem idx_binv (W : Valuation τ sig (Elt F)) :
    after opsIdx W (main_v101 : DevRef τ sig) = Cert.Stages.degInv60 (Cert.Stages.expandIdx (W (main_arg3 : DevRef τ sig))) := by
  unfold opsIdx
  after_results_simp
  rfl

set_option maxRecDepth 400000 in
set_option maxHeartbeats 4000000 in
/-- The fourth stretch is the first diffusion layer with its activation. -/
theorem layer0_out (W : Valuation τ sig (Elt F)) :
    after opsLayer0 W (main_v139 : DevRef τ sig)
      = Cert.Stages.layerElu (W (main_v4 : DevRef τ sig)) (W (main_arg12 : DevRef τ sig)) (W (main_arg13 : DevRef τ sig)) (W (main_v84 : DevRef τ sig)) (W (main_v75 : DevRef τ sig)) (W (main_v83 : DevRef τ sig)) (W (main_v93 : DevRef τ sig)) (W (main_v101 : DevRef τ sig)) := by
  unfold opsLayer0
  after_results_simp
  rfl

set_option maxRecDepth 400000 in
set_option maxHeartbeats 4000000 in
/-- The last stretch is the second diffusion layer, reshaped, through the final activation. -/
theorem layer1_out (W : Valuation τ sig (Elt F)) :
    after opsLayer1 W (main_v178 : DevRef τ sig)
      = Cert.Stages.elu50 (shapeCast S50000x384
          (Cert.Stages.layerPlain (W (main_v139 : DevRef τ sig)) (W (main_arg14 : DevRef τ sig)) (W (main_arg15 : DevRef τ sig)) (W (main_v84 : DevRef τ sig)) (W (main_v75 : DevRef τ sig)) (W (main_v83 : DevRef τ sig)) (W (main_v93 : DevRef τ sig)) (W (main_v101 : DevRef τ sig)))
          shapeCasts_S300000x64_S50000x384) := by
  unfold opsLayer1
  after_results_simp
  rfl

/-! ## The whole line -/

/-- The joined list of the four parts is the same list cut at the five stretches. -/
theorem ops_cut : (ops : List (HloOp τ sig (Elt F))) = opsFeat ++ opsAlpha ++ opsIdx ++ opsLayer0 ++ opsLayer1 := rfl

set_option maxRecDepth 65536 in
/-- The result buffer after the whole line is the composed function of the argument arrays: each stretch's value is
    read at the values the stretch before it left, and a stretch that does not write a buffer leaves it. -/
theorem out_eq (V : Valuation τ sig (Elt F)) :
    after ops V (main_v178 : DevRef τ sig) = Cert.Stages.wholeOf (F := F) (V main_arg0) (V main_arg1) (V main_arg2) (V main_arg3) (V main_arg6) (V main_arg7) (V main_arg8) (V main_arg9) (V main_arg10) (V main_arg11) (V main_arg12) (V main_arg13) (V main_arg14) (V main_arg15) := by
  rw [ops_cut, after_append, after_append, after_append, after_append]
  rw [layer1_out]
  rw [layer0_out, keep3 _ main_arg14 (by decide), keep3 _ main_arg15 (by decide), keep3 _ main_v84 (by decide), keep3 _ main_v75 (by decide), keep3 _ main_v83 (by decide), keep3 _ main_v93 (by decide), keep3 _ main_v101 (by decide)]
  rw [idx_flat, idx_row, idx_col, idx_dinv, idx_binv, keep2 _ main_v4 (by decide), keep2 _ main_arg12 (by decide), keep2 _ main_arg13 (by decide), keep2 _ main_arg14 (by decide), keep2 _ main_arg15 (by decide)]
  rw [alpha_al, keep1 _ main_arg2 (by decide), keep1 _ main_arg3 (by decide), keep1 _ main_v4 (by decide), keep1 _ main_arg12 (by decide), keep1 _ main_arg13 (by decide), keep1 _ main_arg14 (by decide), keep1 _ main_arg15 (by decide)]
  rw [feat_ft, feat_xs, keep0 _ main_arg2 (by decide), keep0 _ main_arg3 (by decide), keep0 _ main_arg8 (by decide), keep0 _ main_arg9 (by decide), keep0 _ main_arg10 (by decide), keep0 _ main_arg11 (by decide), keep0 _ main_arg12 (by decide), keep0 _ main_arg13 (by decide), keep0 _ main_arg14 (by decide), keep0 _ main_arg15 (by decide)]
  rfl

/-! ## The run at the exact reals -/

/-- From any memory with zero counters, every weakly fair execution of the reference program terminates with the
    result buffer at the whole function of the argument arrays and every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v178)
        = Cert.Stages.wholeOf (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (defs (F := Ideal)) _ _).mono (fun _ h c => ⟨(h c main_v178).trans (out_eq _),
      (h c main_arg0).trans (RefArgs.arg_eq0 _),
      (h c main_arg1).trans (RefArgs.arg_eq1 _),
      (h c main_arg2).trans (RefArgs.arg_eq2 _),
      (h c main_arg3).trans (RefArgs.arg_eq3 _),
      (h c main_arg4).trans (RefArgs.arg_eq4 _),
      (h c main_arg5).trans (RefArgs.arg_eq5 _),
      (h c main_arg6).trans (RefArgs.arg_eq6 _),
      (h c main_arg7).trans (RefArgs.arg_eq7 _),
      (h c main_arg8).trans (RefArgs.arg_eq8 _),
      (h c main_arg9).trans (RefArgs.arg_eq9 _),
      (h c main_arg10).trans (RefArgs.arg_eq10 _),
      (h c main_arg11).trans (RefArgs.arg_eq11 _),
      (h c main_arg12).trans (RefArgs.arg_eq12 _),
      (h c main_arg13).trans (RefArgs.arg_eq13 _),
      (h c main_arg14).trans (RefArgs.arg_eq14 _),
      (h c main_arg15).trans (RefArgs.arg_eq15 _)⟩)
    (run_main m ρ)

end Cert.ReferenceIdeal.RefValue

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«159071_j31842887533297_2_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Region0.lean ====
/-
  The input projection of the nodes, tiled by rows.  The grid has 25 points; point t takes rows 2000·t … 2000·t + 1999 of the
  left array [50000,128], the whole matrix [128,384] and the whole row [1,384], multiplies the row tile by the matrix into a
  zero accumulator and adds the row to every row of the tile.  On the extended reals a change of float format is the
  identity, and entry (p, q) of the tile's product is the sum over k of left(2000·t + p, k) · matrix(k, q): entry
  (2000·t + p, q) of the whole product.  So point t writes back block t of (left · matrix + row), the 25 blocks tile the
  result, and the result array ends holding left · matrix + row.  No finiteness is used: both sides are the same sum.
-/
import proofs.«159071_j31842887533297_2_alg».proof.Proof.Gen.KernelIdeal.Frame
import proofs.«159071_j31842887533297_2_alg».proof.Proof.Spec
import proofs.«159071_j31842887533297_2_alg».proof.Proof.LibRowTileDot
import proofs.«159071_j31842887533297_2_alg».proof.Proof.LibUnitAxes
import Idealize.ShloMosaic.Lib.Pipeline.Value
import Idealize.ShloMosaic.Lib.ValueIdx
import Idealize.ShloMosaic.Lib.ValueLayout

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-- The tile's dimension numbers: the second axis of a [2000,128] tile against the first axis of the [128,384] matrix. -/
abbrev Dt := dot_S2000x128_S128x384_S2000x384_1_0_0_1_n_n
/-- The whole product's dimension numbers: the same axes, on all 50000 rows. -/
abbrev Dh := Cert.ReferenceIdeal.dot_S50000x128_S128x384_S50000x384_1_0_0_1_n_n

/-- The tile's left index keeps the output's row. -/
theorem tL0 (j : S2000x384.Idx) (k : Dt.contr.Idx) : (Dt.lhsIdx j k 0).val = (j 0).val := by
  unfold DotDims.lhsIdx
  rw [dif_neg (show ¬(0 : Fin S2000x128.rank) ∈ Dt.lhsBatch by decide), dif_pos (show (0 : Fin S2000x128.rank) ∈ Dt.lhsNonContracting by decide)]
  rfl

/-- The tile's right index keeps the output's column. -/
theorem tR1 (j : S2000x384.Idx) (k : Dt.contr.Idx) : (Dt.rhsIdx j k 1).val = (j 1).val := by
  unfold DotDims.rhsIdx
  rw [dif_neg (show ¬(1 : Fin S128x384.rank) ∈ Dt.rhsBatch by decide), dif_pos (show (1 : Fin S128x384.rank) ∈ Dt.rhsNonContracting by decide)]
  rfl

/-- The whole product's left index keeps the output's row. -/
theorem hL0 (j : S50000x384.Idx) (k : Dh.contr.Idx) : (Dh.lhsIdx j k 0).val = (j 0).val := by
  unfold DotDims.lhsIdx
  rw [dif_neg (show ¬(0 : Fin S50000x128.rank) ∈ Dh.lhsBatch by decide), dif_pos (show (0 : Fin S50000x128.rank) ∈ Dh.lhsNonContracting by decide)]
  rfl

/-- The whole product's right index keeps the output's column. -/
theorem hR1 (j : S50000x384.Idx) (k : Dh.contr.Idx) : (Dh.rhsIdx j k 1).val = (j 1).val := by
  unfold DotDims.rhsIdx
  rw [dif_neg (show ¬(1 : Fin S128x384.rank) ∈ Dh.rhsBatch by decide), dif_pos (show (1 : Fin S128x384.rank) ∈ Dh.rhsNonContracting by decide)]
  rfl

/-- The body's value at entry (p, q) of a row tile: when the tile's row p is row r of the left array, it is entry
    (r, q) of the whole product plus the row's entry q. The changes of float format are the identity on the extended
    reals, and the two sums over the contracted axis agree term by term. -/
theorem pay_apply (v0 : Vec Ideal S2000x128 .f32) (v2 : Vec Ideal S128x384 .f32) (v5 : Vec Ideal S1x384 .f32)
    (X : Vec Ideal S50000x128 .f32) (W : Vec Ideal S128x384 .f32) (b : Vec Ideal S1x384 .f32)
    (p : Fin 2000) (q : Fin 384) (r : Fin 50000)
    (hX : ∀ k : Fin 128, v0 (ix2 p k) = X (ix2 r k)) (hW : ∀ k : Fin 128, v2 (ix2 k q) = W (ix2 k q))
    (hb : v5 (ix2 (0 : Fin 1) q) = b (ix2 (0 : Fin 1) q)) :
    k0_pay1 v0 v2 v5 (ix2 p q) = Cert.Stages.linRows50 (F := Ideal) X W b (ix2 r q) := by
  unfold k0_pay1 Cert.Stages.linRows50
  show _ + _ = _ + _
  rw [shapeCast_self]
  refine congrArg₂ (· + ·) ?_ ?_
  · exact Cert.LibRowTileDot.tile_entry Dt rfl rfl rfl rfl tL0 tR1 Dh rfl rfl rfl rfl hL0 hR1 none none .single _ _ X W p q r hX hW
  · exact (broadcastTo_1b_ab_apply _ _ p q).trans (hb.trans (Cert.LibUnitAxes.broadcastInDim_1b_ab_apply b _ r q).symm)

theorem hz : (![0, 0] : Fin 2 → Nat) = fun _ => 0 := funext fun a => by fin_cases a <;> rfl

/-- The index maps over the grid: point t takes row block t of the left array and of the result; the matrix and the
    row are whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry j of what point t's body computes is the stage's value at row 2000·t + j₀, column j₁: the tile's row j₀ is
    that row of the left array, and the matrix and the row are read where they stand. -/
theorem blk_val (c : Dev nD) (t : Fin cfg0.N) (j : S2000x384.Idx) :
    k0_pay1 (iblk0 V c 0 t) (iblk0 V c 1 t) (iblk0 V c 2 t) j
      = Cert.Stages.linRows50 (F := Ideal) (V c main_arg0) (V c main_arg6) (V c main_v0) (((cfg0.win 3).blk t).view.emb j) := by
  obtain ⟨p, q, rfl⟩ : ∃ (p : Fin 2000) (q : Fin 384), j = ix2 p q := ⟨j 0, j 1, eq_ix2 j⟩
  obtain ⟨e0, e1, e2, e3, e4, e5, e6, e7⟩ := idx_facts t
  have ht : t.val < 25 := lt_of_lt_of_eq t.isLt N_0
  have hemb : ((cfg0.win 3).blk t).view.emb (ix2 p q) = ix2 (⟨t.val * 2000 + p.val, by omega⟩ : Fin 50000) q := by
    funext a; apply Fin.ext
    match a with
    | ⟨0, _⟩ => show win0_3.index t (0 : Fin 2) * 2000 + 1 * p.val = t.val * 2000 + p.val; rw [e6]; omega
    | ⟨1, _⟩ => show win0_3.index t (1 : Fin 2) * 384 + 1 * q.val = q.val; rw [e7]; omega
  rw [hemb]
  refine pay_apply (iblk0 V c 0 t) (iblk0 V c 1 t) (iblk0 V c 2 t) (V c main_arg0) (V c main_arg6) (V c main_v0) p q _ (fun k => ?_) (fun k => ?_) ?_
  · show V c main_arg0 (((cfg0.win 0).blk t).view.emb (ix2 p k)) = V c main_arg0 _
    refine congrArg (V c main_arg0) ?_
    funext a; apply Fin.ext
    match a with
    | ⟨0, _⟩ => show win0_0.index t (0 : Fin 2) * 2000 + 1 * p.val = t.val * 2000 + p.val; rw [e0]; omega
    | ⟨1, _⟩ => show win0_0.index t (1 : Fin 2) * 128 + 1 * k.val = k.val; rw [e1]; omega
  · show V c main_arg6 (((cfg0.win 1).blk t).view.emb (ix2 k q)) = V c main_arg6 _
    refine congrArg (V c main_arg6) ?_
    funext a; apply Fin.ext
    match a with
    | ⟨0, _⟩ => show win0_1.index t (0 : Fin 2) * 128 + 1 * k.val = k.val; rw [e2]; omega
    | ⟨1, _⟩ => show win0_1.index t (1 : Fin 2) * 384 + 1 * q.val = q.val; rw [e3]; omega
  · show V c main_v0 (((cfg0.win 2).blk t).view.emb (ix2 (0 : Fin 1) q)) = V c main_v0 _
    refine congrArg (V c main_v0) ?_
    funext a; apply Fin.ext
    match a with
    | ⟨0, _⟩ => show win0_2.index t (0 : Fin 2) * 1 + 1 * 0 = 0; rw [e4]
    | ⟨1, _⟩ => show win0_2.index t (1 : Fin 2) * 384 + 1 * q.val = q.val; rw [e5]; omega

/-- What point t writes back is block t of the stage's value. -/
theorem flushed_eq (c : Dev nD) (t : Fin cfg0.N) :
    (dat0 V c).flushed 3 t = ((cfg0.win 3).blk t).view.read (Elt Ideal)
      (Cert.Stages.linRows50 (F := Ideal) (V c main_arg0) (V c main_arg6) (V c main_v0)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x384) hz, View.ld_unit_zero (S := S1x384) hz]
  funext j
  exact blk_val V c t j

/-- An index of the result is in point t's block iff each coordinate is in the block's range on its axis. -/
theorem mem_blk (t : Fin cfg0.N) (i : S50000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v1).slice (win0_3.rect t)).set ↔ _
  rw [View.set_slice_whole, Rect.mem_set_unit]
  exact Iff.rfl

/-- Row r of the result is in the block of point r / 2000: the 25 blocks tile the 50000 rows. -/
theorem cover (i : S50000x384.Idx) : ∃ t : Fin cfg0.N, (cfg0.win 3).flush t = true ∧ i ∈ ((cfg0.win 3).blk t).view.set := by
  have hi0 : (i 0).val < 50000 := (i 0).isLt
  have hi1 : (i 1).val < 384 := (i 1).isLt
  obtain ⟨t, ht⟩ : ∃ t : Fin cfg0.N, t.val = (i 0).val / 2000 := ⟨⟨(i 0).val / 2000, by rw [show cfg0.N = 25 from N_0]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e6, ht]; omega
  | ⟨1, _⟩ => show win0_3.index t (1 : Fin 2) * 384 ≤ (i 1).val ∧ (i 1).val < win0_3.index t (1 : Fin 2) * 384 + 384; rw [e7]; omega

/-- The result array after the region is the whole product plus the row, as a function of the arrays the region found. -/
theorem value (c : Dev nD) :
    (Gen.dat0 (F := Ideal) V c).arrAt 3 cfg0.N = Cert.Stages.linRows50 (F := Ideal) (V c main_arg0) (V c main_arg6) (V c main_v0) :=
  (dat0 V c).arrAt_eq_of_cover 3 _ (fun t _ => flushed_eq V c t) cover

end Cert.KernelIdeal.Region0
end
-- ==== Proof.Region1.lean ====
/-
  The input projection of the hyperedges, tiled by rows.  The grid has 5 points; point t takes rows 2000·t … 2000·t + 1999 of the
  left array [10000,128], the whole matrix [128,384] and the whole row [1,384], multiplies the row tile by the matrix into a
  zero accumulator and adds the row to every row of the tile.  On the extended reals a change of float format is the
  identity, and entry (p, q) of the tile's product is the sum over k of left(2000·t + p, k) · matrix(k, q): entry
  (2000·t + p, q) of the whole product.  So point t writes back block t of (left · matrix + row), the 5 blocks tile the
  result, and the result array ends holding left · matrix + row.  No finiteness is used: both sides are the same sum.
-/
import proofs.«159071_j31842887533297_2_alg».proof.Proof.Gen.KernelIdeal.Frame
import proofs.«159071_j31842887533297_2_alg».proof.Proof.Spec
import proofs.«159071_j31842887533297_2_alg».proof.Proof.LibRowTileDot
import proofs.«159071_j31842887533297_2_alg».proof.Proof.LibUnitAxes
import Idealize.ShloMosaic.Lib.Pipeline.Value
import Idealize.ShloMosaic.Lib.ValueIdx
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-- The tile's dimension numbers: the second axis of a [2000,128] tile against the first axis of the [128,384] matrix. -/
abbrev Dt := dot_S2000x128_S128x384_S2000x384_1_0_0_1_n_n
/-- The whole product's dimension numbers: the same axes, on all 10000 rows. -/
abbrev Dh := Cert.ReferenceIdeal.dot_S10000x128_S128x384_S10000x384_1_0_0_1_n_n

/-- The tile's left index keeps the output's row. -/
theorem tL0 (j : S2000x384.Idx) (k : Dt.contr.Idx) : (Dt.lhsIdx j k 0).val = (j 0).val := by
  unfold DotDims.lhsIdx
  rw [dif_neg (show ¬(0 : Fin S2000x128.rank) ∈ Dt.lhsBatch by decide), dif_pos (show (0 : Fin S2000x128.rank) ∈ Dt.lhsNonContracting by decide)]
  rfl

/-- The tile's right index keeps the output's column. -/
theorem tR1 (j : S2000x384.Idx) (k : Dt.contr.Idx) : (Dt.rhsIdx j k 1).val = (j 1).val := by
  unfold DotDims.rhsIdx
  rw [dif_neg (show ¬(1 : Fin S128x384.rank) ∈ Dt.rhsBatch by decide), dif_pos (show (1 : Fin S128x384.rank) ∈ Dt.rhsNonContracting by decide)]
  rfl

/-- The whole product's left index keeps the output's row. -/
theorem hL0 (j : S10000x384.Idx) (k : Dh.contr.Idx) : (Dh.lhsIdx j k 0).val = (j 0).val := by
  unfold DotDims.lhsIdx
  rw [dif_neg (show ¬(0 : Fin S10000x128.rank) ∈ Dh.lhsBatch by decide), dif_pos (show (0 : Fin S10000x128.rank) ∈ Dh.lhsNonContracting by decide)]
  rfl

/-- The whole product's right index keeps the output's column. -/
theorem hR1 (j : S10000x384.Idx) (k : Dh.contr.Idx) : (Dh.rhsIdx j k 1).val = (j 1).val := by
  unfold DotDims.rhsIdx
  rw [dif_neg (show ¬(1 : Fin S128x384.rank) ∈ Dh.rhsBatch by decide), dif_pos (show (1 : Fin S128x384.rank) ∈ Dh.rhsNonContracting by decide)]
  rfl

/-- The body's value at entry (p, q) of a row tile: when the tile's row p is row r of the left array, it is entry
    (r, q) of the whole product plus the row's entry q. The changes of float format are the identity on the extended
    reals, and the two sums over the contracted axis agree term by term. -/
theorem pay_apply (v0 : Vec Ideal S2000x128 .f32) (v2 : Vec Ideal S128x384 .f32) (v5 : Vec Ideal S1x384 .f32)
    (X : Vec Ideal S10000x128 .f32) (W : Vec Ideal S128x384 .f32) (b : Vec Ideal S1x384 .f32)
    (p : Fin 2000) (q : Fin 384) (r : Fin 10000)
    (hX : ∀ k : Fin 128, v0 (ix2 p k) = X (ix2 r k)) (hW : ∀ k : Fin 128, v2 (ix2 k q) = W (ix2 k q))
    (hb : v5 (ix2 (0 : Fin 1) q) = b (ix2 (0 : Fin 1) q)) :
    k1_pay1 v0 v2 v5 (ix2 p q) = Cert.Stages.linRows10 (F := Ideal) X W b (ix2 r q) := by
  unfold k1_pay1 Cert.Stages.linRows10
  show _ + _ = _ + _
  rw [shapeCast_self]
  refine congrArg₂ (· + ·) ?_ ?_
  · exact Cert.LibRowTileDot.tile_entry Dt rfl rfl rfl rfl tL0 tR1 Dh rfl rfl rfl rfl hL0 hR1 none none .single _ _ X W p q r hX hW
  · exact (broadcastTo_1b_ab_apply _ _ p q).trans (hb.trans (Cert.LibUnitAxes.broadcastInDim_1b_ab_apply b _ r q).symm)

theorem hz : (![0, 0] : Fin 2 → Nat) = fun _ => 0 := funext fun a => by fin_cases a <;> rfl

/-- The index maps over the grid: point t takes row block t of the left array and of the result; the matrix and the
    row are whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry j of what point t's body computes is the stage's value at row 2000·t + j₀, column j₁: the tile's row j₀ is
    that row of the left array, and the matrix and the row are read where they stand. -/
theorem blk_val (c : Dev nD) (t : Fin cfg1.N) (j : S2000x384.Idx) :
    k1_pay1 (iblk1 V c 0 t) (iblk1 V c 1 t) (iblk1 V c 2 t) j
      = Cert.Stages.linRows10 (F := Ideal) (V c main_arg1) (V c main_arg6) (V c main_v2) (((cfg1.win 3).blk t).view.emb j) := by
  obtain ⟨p, q, rfl⟩ : ∃ (p : Fin 2000) (q : Fin 384), j = ix2 p q := ⟨j 0, j 1, eq_ix2 j⟩
  obtain ⟨e0, e1, e2, e3, e4, e5, e6, e7⟩ := idx_facts t
  have ht : t.val < 5 := lt_of_lt_of_eq t.isLt N_1
  have hemb : ((cfg1.win 3).blk t).view.emb (ix2 p q) = ix2 (⟨t.val * 2000 + p.val, by omega⟩ : Fin 10000) q := by
    funext a; apply Fin.ext
    match a with
    | ⟨0, _⟩ => show win1_3.index t (0 : Fin 2) * 2000 + 1 * p.val = t.val * 2000 + p.val; rw [e6]; omega
    | ⟨1, _⟩ => show win1_3.index t (1 : Fin 2) * 384 + 1 * q.val = q.val; rw [e7]; omega
  rw [hemb]
  refine pay_apply (iblk1 V c 0 t) (iblk1 V c 1 t) (iblk1 V c 2 t) (V c main_arg1) (V c main_arg6) (V c main_v2) p q _ (fun k => ?_) (fun k => ?_) ?_
  · show V c main_arg1 (((cfg1.win 0).blk t).view.emb (ix2 p k)) = V c main_arg1 _
    refine congrArg (V c main_arg1) ?_
    funext a; apply Fin.ext
    match a with
    | ⟨0, _⟩ => show win1_0.index t (0 : Fin 2) * 2000 + 1 * p.val = t.val * 2000 + p.val; rw [e0]; omega
    | ⟨1, _⟩ => show win1_0.index t (1 : Fin 2) * 128 + 1 * k.val = k.val; rw [e1]; omega
  · show V c main_arg6 (((cfg1.win 1).blk t).view.emb (ix2 k q)) = V c main_arg6 _
    refine congrArg (V c main_arg6) ?_
    funext a; apply Fin.ext
    match a with
    | ⟨0, _⟩ => show win1_1.index t (0 : Fin 2) * 128 + 1 * k.val = k.val; rw [e2]; omega
    | ⟨1, _⟩ => show win1_1.index t (1 : Fin 2) * 384 + 1 * q.val = q.val; rw [e3]; omega
  · show V c main_v2 (((cfg1.win 2).blk t).view.emb (ix2 (0 : Fin 1) q)) = V c main_v2 _
    refine congrArg (V c main_v2) ?_
    funext a; apply Fin.ext
    match a with
    | ⟨0, _⟩ => show win1_2.index t (0 : Fin 2) * 1 + 1 * 0 = 0; rw [e4]
    | ⟨1, _⟩ => show win1_2.index t (1 : Fin 2) * 384 + 1 * q.val = q.val; rw [e5]; omega

/-- What point t writes back is block t of the stage's value. -/
theorem flushed_eq (c : Dev nD) (t : Fin cfg1.N) :
    (dat1 V c).flushed 3 t = ((cfg1.win 3).blk t).view.read (Elt Ideal)
      (Cert.Stages.linRows10 (F := Ideal) (V c main_arg1) (V c main_arg6) (V c main_v2)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x384) hz, View.ld_unit_zero (S := S1x384) hz]
  funext j
  exact blk_val V c t j

/-- An index of the result is in point t's block iff each coordinate is in the block's range on its axis. -/
theorem mem_blk (t : Fin cfg1.N) (i : S10000x384.Idx) :
    i ∈ ((cfg1.win 3).blk t).view.set ↔ ∀ a : Fin 2, win1_3.index t a * S2000x384.size a ≤ (i a).val ∧ (i a).val < win1_3.index t a * S2000x384.size a + S2000x384.size a := by
  show i ∈ ((View.whole main_v3).slice (win1_3.rect t)).set ↔ _
  rw [View.set_slice_whole, Rect.mem_set_unit]
  exact Iff.rfl

/-- Row r of the result is in the block of point r / 2000: the 5 blocks tile the 10000 rows. -/
theorem cover (i : S10000x384.Idx) : ∃ t : Fin cfg1.N, (cfg1.win 3).flush t = true ∧ i ∈ ((cfg1.win 3).blk t).view.set := by
  have hi0 : (i 0).val < 10000 := (i 0).isLt
  have hi1 : (i 1).val < 384 := (i 1).isLt
  obtain ⟨t, ht⟩ : ∃ t : Fin cfg1.N, t.val = (i 0).val / 2000 := ⟨⟨(i 0).val / 2000, by rw [show cfg1.N = 5 from N_1]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; rw [e6, ht]; omega
  | ⟨1, _⟩ => show win1_3.index t (1 : Fin 2) * 384 ≤ (i 1).val ∧ (i 1).val < win1_3.index t (1 : Fin 2) * 384 + 384; rw [e7]; omega

/-- The result array after the region is the whole product plus the row, as a function of the arrays the region found. -/
theorem value (c : Dev nD) :
    (Gen.dat1 (F := Ideal) V c).arrAt 3 cfg1.N = Cert.Stages.linRows10 (F := Ideal) (V c main_arg1) (V c main_arg6) (V c main_v2) :=
  (dat1 V c).arrAt_eq_of_cover 3 _ (fun t _ => flushed_eq V c t) cover

end Cert.KernelIdeal.Region1
end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibRowNorm.lean ====
/-
  Layer normalization of the rows of an [a, n] array, read at one entry, on the extended reals.

  For a row x(r, ·) of n numbers let μ = (∑ₖ x(r, k)) / N and σ² = (∑ₖ (x(r, k) − μ)²) / N, the divisor N and the
  constant ε given by their f32 words.  The normalized entry is (x(r, c) − μ) · rsqrt(σ² + ε), optionally followed by a
  maximum with zero.  Entry (r, c) depends on row r only.

  Two spellings of the same computation are read here at an entry and shown to be that formula of the row:
  the vector unit's (a lane sum with a trailing unit axis restored by a shape cast, scalars splat, the [a, 1] column
  spread over [a, n] by a vector broadcast, `math.rsqrt`) and the host's (a `reduce` by addition from a zero
  initial value, every re-layout a `broadcast_in_dim`, `divide`, `rsqrt`).  Because both are the same function of
  one row, a row tile normalized on its own holds the same numbers as the whole array normalized at once.
-/
import Idealize.ShloMosaic.PureOps.Ideal.Laws
import Idealize.ShloMosaic.Lib.ValueIdx
import Idealize.ShloMosaic.Lib.IdealHost
import Idealize.ShloMosaic.Lib.Pipeline.Value
import proofs.«159071_j31842887533297_2_alg».proof.Proof.LibLaneSums
import proofs.«159071_j31842887533297_2_alg».proof.Proof.LibUnitAxes

noncomputable section

namespace Cert.LibRowNorm

open Idealize.ShloMosaic Idealize.ShloMosaic.ValueIdx

/-! ## The row-local formulas -/

/-- The mean of a row, the divisor given by its f32 word. -/
def rowMean {n : ℕ} (nw : BitVec 32) (row : Fin n → EReal) : EReal :=
  Ideal.div (∑ k : Fin n, row k) (Ideal.ofBits .f32 nw)

/-- The reciprocal standard deviation of a row: rsqrt of the mean squared deviation plus ε. -/
def rowInv {n : ℕ} (nw ew : BitVec 32) (row : Fin n → EReal) : EReal :=
  Ideal.rsqrt (Ideal.div (∑ k : Fin n, (row k - rowMean nw row) * (row k - rowMean nw row)) (Ideal.ofBits .f32 nw)
    + Ideal.ofBits .f32 ew)

/-- The normalized row at column c. -/
def lnRow {n : ℕ} (nw ew : BitVec 32) (row : Fin n → EReal) (c : Fin n) : EReal :=
  (row c - rowMean nw row) * rowInv nw ew row

/-- The normalized row at column c, then the maximum with the f32 word of zero. -/
def lnReluRow {n : ℕ} (nw ew : BitVec 32) (row : Fin n → EReal) (c : Fin n) : EReal :=
  max (lnRow nw ew row c) (Ideal.ofBits .f32 0x00000000#32)

/-! ## The vector unit's spelling -/

section Vector

variable {a n : ℕ} (nw ew : BitVec 32)
  (hr : (⟨2, ![a, n]⟩ : Shape).Reduces [1] ⟨1, ![a]⟩)
  (hs : (⟨1, ![a]⟩ : Shape).ShapeCasts ⟨2, ![a, 1]⟩)
  (hb : (⟨2, ![a, 1]⟩ : Shape).Broadcasts ⟨2, ![a, n]⟩)

/-- The column of row sums over the splat divisor. -/
def vMean (x : FVec Ideal ⟨2, ![a, n]⟩ .f32) : FVec Ideal ⟨2, ![a, 1]⟩ .f32 :=
  divf (shapeCast ⟨2, ![a, 1]⟩ (multiReduction .add [1] ⟨1, ![a]⟩ x 0x00000000#32 hr (.inl rfl) rfl) hs)
    (broadcast ⟨2, ![a, 1]⟩ (Scalar.ofBits (F := Ideal) .f32 nw))

/-- The array minus its column of means spread over the rows. -/
def vDev (x : FVec Ideal ⟨2, ![a, n]⟩ .f32) : FVec Ideal ⟨2, ![a, n]⟩ .f32 :=
  subf x (broadcastTo ⟨2, ![a, n]⟩ (vMean nw hr hs x) hb)

/-- The column of reciprocal standard deviations. -/
def vInv (x : FVec Ideal ⟨2, ![a, n]⟩ .f32) : FVec Ideal ⟨2, ![a, 1]⟩ .f32 :=
  rsqrt (addf
    (divf (shapeCast ⟨2, ![a, 1]⟩
        (multiReduction .add [1] ⟨1, ![a]⟩ (mulf (vDev nw hr hs hb x) (vDev nw hr hs hb x)) 0x00000000#32 hr (.inl rfl) rfl) hs)
      (broadcast ⟨2, ![a, 1]⟩ (Scalar.ofBits (F := Ideal) .f32 nw)))
    (broadcast ⟨2, ![a, 1]⟩ (Scalar.ofBits (F := Ideal) .f32 ew)))

/-- The normalized array. -/
def vNorm (x : FVec Ideal ⟨2, ![a, n]⟩ .f32) : FVec Ideal ⟨2, ![a, n]⟩ .f32 :=
  mulf (vDev nw hr hs hb x) (broadcastTo ⟨2, ![a, n]⟩ (vInv nw ew hr hs hb x) hb)

/-- The normalized array, then the maximum with a splat zero. -/
def vNormRelu (x : FVec Ideal ⟨2, ![a, n]⟩ .f32) : FVec Ideal ⟨2, ![a, n]⟩ .f32 :=
  maximumf (vNorm nw ew hr hs hb x) (broadcast ⟨2, ![a, n]⟩ (Scalar.ofBits (F := Ideal) .f32 0x00000000#32))

theorem vMean_apply (x : FVec Ideal ⟨2, ![a, n]⟩ .f32) (r : Fin a) (u : Fin 1) :
    vMean nw hr hs x (ix2 r u) = rowMean nw (fun k => x (ix2 r k)) :=
  congrArg (fun z => Ideal.div z (Ideal.ofBits .f32 nw))
    ((Cert.LibLaneSums.shapeCast_a_a1_apply _ hs r u).trans
      (Cert.LibLaneSums.sum_last_apply x 0x00000000#32 hr (.inl rfl) rfl r))

theorem vDev_apply (x : FVec Ideal ⟨2, ![a, n]⟩ .f32) (r : Fin a) (c : Fin n) :
    vDev nw hr hs hb x (ix2 r c) = x (ix2 r c) - rowMean nw (fun k => x (ix2 r k)) :=
  congrArg (fun z => x (ix2 r c) - z)
    ((Cert.LibUnitAxes.broadcastTo_a1_ab_apply _ hb r c).trans (vMean_apply nw hr hs x r 0))

theorem vInv_apply (x : FVec Ideal ⟨2, ![a, n]⟩ .f32) (r : Fin a) (u : Fin 1) :
    vInv nw ew hr hs hb x (ix2 r u) = rowInv nw ew (fun k => x (ix2 r k)) :=
  congrArg (fun z => Ideal.rsqrt (Ideal.div z (Ideal.ofBits .f32 nw) + Ideal.ofBits .f32 ew))
    (((Cert.LibLaneSums.shapeCast_a_a1_apply _ hs r u).trans
      (Cert.LibLaneSums.sum_last_apply (mulf (vDev nw hr hs hb x) (vDev nw hr hs hb x)) 0x00000000#32 hr (.inl rfl) rfl r)).trans
      (Finset.sum_congr rfl fun k _ =>
        (congrArg₂ (· * ·) (vDev_apply nw hr hs hb x r k) (vDev_apply nw hr hs hb x r k))))

/-- The vector unit's normalized array at (r, c) is the normalized row r at c. -/
theorem vNorm_apply (x : FVec Ideal ⟨2, ![a, n]⟩ .f32) (r : Fin a) (c : Fin n) :
    vNorm nw ew hr hs hb x (ix2 r c) = lnRow nw ew (fun k => x (ix2 r k)) c :=
  congrArg₂ (· * ·) (vDev_apply nw hr hs hb x r c)
    ((Cert.LibUnitAxes.broadcastTo_a1_ab_apply _ hb r c).trans (vInv_apply nw ew hr hs hb x r 0))

/-- … and with the maximum against zero. -/
theorem vNormRelu_apply (x : FVec Ideal ⟨2, ![a, n]⟩ .f32) (r : Fin a) (c : Fin n) :
    vNormRelu nw ew hr hs hb x (ix2 r c) = lnReluRow nw ew (fun k => x (ix2 r k)) c :=
  congrArg (fun z => max z (Ideal.ofBits .f32 0x00000000#32)) (vNorm_apply nw ew hr hs hb x r c)

end Vector

/-! ## The host's spelling -/

section Host

variable {a n : ℕ} (nw ew : BitVec 32)
  (hR : (⟨2, ![a, n]⟩ : Shape).ReducesTo [1] ⟨1, ![a]⟩)
  (hr : (⟨2, ![a, n]⟩ : Shape).Reduces [1] ⟨1, ![a]⟩)
  (h0 : 0 < (⟨0, ![]⟩ : Shape).numel)
  (hb0 : (⟨1, ![a]⟩ : Shape).BroadcastsInDim ⟨2, ![a, 1]⟩ ![0])
  (hbs : (⟨0, ![]⟩ : Shape).BroadcastsInDim ⟨2, ![a, 1]⟩ ![])
  (hb01 : (⟨2, ![a, 1]⟩ : Shape).BroadcastsInDim ⟨2, ![a, n]⟩ ![0, 1])
  (hbz : (⟨0, ![]⟩ : Shape).BroadcastsInDim ⟨2, ![a, n]⟩ ![])

include hr in
/-- The host's row sums from a zero initial value, at row r. -/
theorem hSum_apply (x : FVec Ideal ⟨2, ![a, n]⟩ .f32) (r : Fin a) :
    Host.reduceAdd x (constant (F := Ideal) ⟨0, ![]⟩ .f32 0x00000000#32) hR h0 (ix1 r) = ∑ k : Fin n, x (ix2 r k) := by
  refine (Ideal.hostReduceAdd_single hR hr x _ (ix1 r)).trans ?_
  rw [show (constant (F := Ideal) ⟨0, ![]⟩ .f32 0x00000000#32) (Shape.Idx.first h0) = 0 from Ideal.ofBits_zero_f32, zero_add]
  exact Finset.sum_congr rfl fun k _ => congrArg x (Cert.LibLaneSums.lift_last hr r k)

/-- An [a] array spread to [a, 1] along dimension 0 reads, at (r, u), the array at r. -/
theorem col_apply {α : Type} (v : (⟨1, ![a]⟩ : Shape).Idx → α) (r : Fin a) (u : Fin 1) :
    broadcastInDim ⟨2, ![a, 1]⟩ ![0] hb0 v (ix2 r u) = v (ix1 r) :=
  broadcastInDim_apply ![0] hb0 v (ix2 r u) (ix1 r) fun ax => match ax with
    | ⟨0, _⟩ => by
      show r.val = if a = 1 then 0 else r.val
      split
      · have := r.isLt; omega
      · rfl

/-- The host's column of row sums over the broadcast divisor. -/
def hMean (x : FVec Ideal ⟨2, ![a, n]⟩ .f32) : FVec Ideal ⟨2, ![a, 1]⟩ .f32 :=
  Host.divf (broadcastInDim ⟨2, ![a, 1]⟩ ![0] hb0 (Host.reduceAdd x (constant (F := Ideal) ⟨0, ![]⟩ .f32 0x00000000#32) hR h0))
    (broadcastInDim ⟨2, ![a, 1]⟩ ![] hbs (constant (F := Ideal) ⟨0, ![]⟩ .f32 nw))

/-- The array minus its column of means spread over the rows. -/
def hDev (x : FVec Ideal ⟨2, ![a, n]⟩ .f32) : FVec Ideal ⟨2, ![a, n]⟩ .f32 :=
  subf x (broadcastInDim ⟨2, ![a, n]⟩ ![0, 1] hb01 (hMean nw hR h0 hb0 hbs x))

/-- The host's column of reciprocal standard deviations. -/
def hInv (x : FVec Ideal ⟨2, ![a, n]⟩ .f32) : FVec Ideal ⟨2, ![a, 1]⟩ .f32 :=
  Host.rsqrt (addf
    (Host.divf (broadcastInDim ⟨2, ![a, 1]⟩ ![0] hb0
        (Host.reduceAdd (mulf (hDev nw hR h0 hb0 hbs hb01 x) (hDev nw hR h0 hb0 hbs hb01 x))
          (constant (F := Ideal) ⟨0, ![]⟩ .f32 0x00000000#32) hR h0))
      (broadcastInDim ⟨2, ![a, 1]⟩ ![] hbs (constant (F := Ideal) ⟨0, ![]⟩ .f32 nw)))
    (broadcastInDim ⟨2, ![a, 1]⟩ ![] hbs (constant (F := Ideal) ⟨0, ![]⟩ .f32 ew)))

/-- The host's normalized array. -/
def hNorm (x : FVec Ideal ⟨2, ![a, n]⟩ .f32) : FVec Ideal ⟨2, ![a, n]⟩ .f32 :=
  mulf (hDev nw hR h0 hb0 hbs hb01 x) (broadcastInDim ⟨2, ![a, n]⟩ ![0, 1] hb01 (hInv nw ew hR h0 hb0 hbs hb01 x))

/-- The host's normalized array, then the maximum with a broadcast zero. -/
def hNormRelu (x : FVec Ideal ⟨2, ![a, n]⟩ .f32) : FVec Ideal ⟨2, ![a, n]⟩ .f32 :=
  maximumf (hNorm nw ew hR h0 hb0 hbs hb01 x)
    (broadcastInDim ⟨2, ![a, n]⟩ ![] hbz (constant (F := Ideal) ⟨0, ![]⟩ .f32 0x00000000#32))

include hr in
theorem hMean_apply (x : FVec Ideal ⟨2, ![a, n]⟩ .f32) (r : Fin a) (u : Fin 1) :
    hMean nw hR h0 hb0 hbs x (ix2 r u) = rowMean nw (fun k => x (ix2 r k)) :=
  congrArg₂ Ideal.div ((col_apply hb0 _ r u).trans (hSum_apply hR hr h0 x r))
    (Cert.LibUnitAxes.broadcastInDim_scalar_apply _ hbs (ix2 r u))

include hr in
theorem hDev_apply (x : FVec Ideal ⟨2, ![a, n]⟩ .f32) (r : Fin a) (c : Fin n) :
    hDev nw hR h0 hb0 hbs hb01 x (ix2 r c) = x (ix2 r c) - rowMean nw (fun k => x (ix2 r k)) :=
  congrArg (fun z => x (ix2 r c) - z)
    ((Cert.LibUnitAxes.broadcastInDim_a1_ab_apply _ hb01 r c).trans (hMean_apply nw hR hr h0 hb0 hbs x r 0))

include hr in
theorem hInv_apply (x : FVec Ideal ⟨2, ![a, n]⟩ .f32) (r : Fin a) (u : Fin 1) :
    hInv nw ew hR h0 hb0 hbs hb01 x (ix2 r u) = rowInv nw ew (fun k => x (ix2 r k)) :=
  congrArg Ideal.rsqrt (congrArg₂ (· + ·)
    (congrArg₂ Ideal.div
      (((col_apply hb0 _ r u).trans (hSum_apply hR hr h0 _ r)).trans
        (Finset.sum_congr rfl fun k _ =>
          congrArg₂ (· * ·) (hDev_apply nw hR hr h0 hb0 hbs hb01 x r k) (hDev_apply nw hR hr h0 hb0 hbs hb01 x r k)))
      (Cert.LibUnitAxes.broadcastInDim_scalar_apply _ hbs (ix2 r u)))
    (Cert.LibUnitAxes.broadcastInDim_scalar_apply _ hbs (ix2 r u)))

include hr in
/-- The host's normalized array at (r, c) is the normalized row r at c. -/
theorem hNorm_apply (x : FVec Ideal ⟨2, ![a, n]⟩ .f32) (r : Fin a) (c : Fin n) :
    hNorm nw ew hR h0 hb0 hbs hb01 x (ix2 r c) = lnRow nw ew (fun k => x (ix2 r k)) c :=
  congrArg₂ (· * ·) (hDev_apply nw hR hr h0 hb0 hbs hb01 x r c)
    ((Cert.LibUnitAxes.broadcastInDim_a1_ab_apply _ hb01 r c).trans (hInv_apply nw ew hR hr h0 hb0 hbs hb01 x r 0))

include hr in
/-- … and with the maximum against zero. -/
theorem hNormRelu_apply (x : FVec Ideal ⟨2, ![a, n]⟩ .f32) (r : Fin a) (c : Fin n) :
    hNormRelu nw ew hR h0 hb0 hbs hb01 hbz x (ix2 r c) = lnReluRow nw ew (fun k => x (ix2 r k)) c :=
  congrArg₂ max (hNorm_apply nw ew hR hr h0 hb0 hbs hb01 x r c)
    (Cert.LibUnitAxes.broadcastInDim_scalar_apply _ hbz (ix2 r c))

end Host

end Cert.LibRowNorm

end
-- ==== Proof.Region2Entry.lean ====
/-
  The sheaf weight at one entry, and the vector unit's computation of it.

  From one feature row x(r, ·) of 128 numbers, the gain row g, the shift row b, the [128, 6] matrix W and the [1, 6] row s,
  the weight at (r, q) is logistic(∑ₖ (ln(x(r, ·))(k) · g(k) + b(k)) · W(k, q) + s(q)), where ln is the layer normalization of
  the row (mean and mean squared deviation over its 128 entries, the divisor 128 and the constant ε given by their f32
  words).  The entry depends on row r of the features only.  Here the body's one stored value is read at an entry of its
  [2000, 6] tile as that formula of the tile's row.
-/
import proofs.«159071_j31842887533297_2_alg».proof.Proof.Gen.KernelIdeal.Skeleton
import proofs.«159071_j31842887533297_2_alg».proof.Proof.LibRowNorm
import proofs.«159071_j31842887533297_2_alg».proof.Proof.LibPlainDot
import Idealize.ShloMosaic.Lib.ValueLayout

noncomputable section

namespace Cert.KernelIdeal.Region2

open Cert.KernelIdeal Cert.KernelIdeal.Gen Idealize.ShloMosaic Idealize.ShloMosaic.ValueIdx

/-- The weight at one entry from one feature row, the gain and shift rows, one column of the matrix and one entry of
    the last row. -/
def alphaEntry (row g b w : Fin 128 → EReal) (s : EReal) : EReal :=
  Ideal.logistic ((∑ k : Fin 128, (Cert.LibRowNorm.lnRow 0x43000000#32 0x3727C5AC#32 row k * g k + b k) * w k) + s)

/-- The tile product's left index keeps the output's row. -/
theorem tileDot_L0 (j : S2000x6.Idx) (q : dot_S2000x128_S128x6_S2000x6_1_0_0_1_n_n.contr.Idx) :
    (dot_S2000x128_S128x6_S2000x6_1_0_0_1_n_n.lhsIdx j q 0).val = (j 0).val := by
  unfold DotDims.lhsIdx
  rw [dif_neg (show ¬(0 : Fin S2000x128.rank) ∈ dot_S2000x128_S128x6_S2000x6_1_0_0_1_n_n.lhsBatch by decide),
    dif_pos (show (0 : Fin S2000x128.rank) ∈ dot_S2000x128_S128x6_S2000x6_1_0_0_1_n_n.lhsNonContracting by decide)]
  rfl

/-- The tile product's right index keeps the output's column. -/
theorem tileDot_R1 (j : S2000x6.Idx) (q : dot_S2000x128_S128x6_S2000x6_1_0_0_1_n_n.contr.Idx) :
    (dot_S2000x128_S128x6_S2000x6_1_0_0_1_n_n.rhsIdx j q 1).val = (j 1).val := by
  unfold DotDims.rhsIdx
  rw [dif_neg (show ¬(1 : Fin S128x6.rank) ∈ dot_S2000x128_S128x6_S2000x6_1_0_0_1_n_n.rhsBatch by decide),
    dif_pos (show (1 : Fin S128x6.rank) ∈ dot_S2000x128_S128x6_S2000x6_1_0_0_1_n_n.rhsNonContracting by decide)]
  rfl

/-- The body's stored value at entry (p, q) of its tile: the weight formula of the tile's row p. -/
theorem pay_apply (x0 : Vec Ideal S2000x128 .f32) (x1 x2 : Vec Ideal S1x128 .f32) (x3 : Vec Ideal S128x6 .f32)
    (x4 : Vec Ideal S1x6 .f32) (p : Fin 2000) (q : Fin 6) :
    k2_pay1 x0 x1 x2 x3 x4 (ix2 p q)
      = alphaEntry (fun k => x0 (ix2 p k)) (fun k => x1 (ix2 (0 : Fin 1) k)) (fun k => x2 (ix2 (0 : Fin 1) k))
          (fun k => x3 (ix2 k q)) (x4 (ix2 (0 : Fin 1) q)) := by
  unfold k2_pay1 alphaEntry
  refine congrArg Ideal.logistic (congrArg₂ (fun a b : EReal => a + b) ?_ ?_)
  · refine (Cert.LibPlainDot.matmul_zero_apply dot_S2000x128_S128x6_S2000x6_1_0_0_1_n_n rfl rfl rfl rfl tileDot_L0 tileDot_R1
      none _ _ p q).trans (Finset.sum_congr rfl fun k _ => congrArg₂ (fun a b : EReal => a * b) ?_ rfl)
    refine congrArg₂ (fun a b : EReal => a + b) (congrArg₂ (fun a b : EReal => a * b) ?_ ?_) ?_
    · refine (Cert.LibRowNorm.vNorm_apply 0x43000000#32 0x3727C5AC#32 reduces_S2000x128_S2000 shapeCasts_S2000_S2000x1
        broadcasts_S2000x1_S2000x128 (shapeCast S2000x128 x0 shapeCasts_S2000x128_S2000x128) p k).trans ?_
      rw [shapeCast_self]
    · refine (broadcastTo_1b_ab_apply _ broadcasts_S1x128_S2000x128 p k).trans ?_
      rw [shapeCast_self]
    · refine (broadcastTo_1b_ab_apply _ broadcasts_S1x128_S2000x128 p k).trans ?_
      rw [shapeCast_self]
  · refine (broadcastTo_1b_ab_apply _ broadcasts_S1x6_S2000x6 p q).trans ?_
    rw [shapeCast_self]

end Cert.KernelIdeal.Region2

end
-- ==== Proof.Region2Host.lean ====
/-
  The host's spelling of the sheaf weights, read at one entry.

  The reference computes the [250000, 6] array of weights from the whole [250000, 128] feature array at once: row sums by a
  reduction from zero, every re-layout a broadcast along listed dimensions, the product a dot_general, and the logistic
  function spelt 1 / (1 + exp(−x)).  At entry (r, q) it is the weight formula of row r of the features: each step is
  read at an index, the layer normalization as a function of one row, the product as a sum over the 128 columns.
-/
import proofs.«159071_j31842887533297_2_alg».proof.Proof.Spec
import proofs.«159071_j31842887533297_2_alg».proof.Proof.Region2Entry

noncomputable section

namespace Cert.KernelIdeal.Region2

open Idealize.ShloMosaic Idealize.ShloMosaic.ValueIdx

/-- The whole product's left index keeps the output's row. -/
theorem wholeDot_L0 (j : Cert.ReferenceIdeal.S250000x6.Idx)
    (q : Cert.ReferenceIdeal.dot_S250000x128_S128x6_S250000x6_1_0_0_1_n_n.contr.Idx) :
    (Cert.ReferenceIdeal.dot_S250000x128_S128x6_S250000x6_1_0_0_1_n_n.lhsIdx j q 0).val = (j 0).val := by
  unfold DotDims.lhsIdx
  rw [dif_neg (show ¬(0 : Fin Cert.ReferenceIdeal.S250000x128.rank) ∈ Cert.ReferenceIdeal.dot_S250000x128_S128x6_S250000x6_1_0_0_1_n_n.lhsBatch by decide),
    dif_pos (show (0 : Fin Cert.ReferenceIdeal.S250000x128.rank) ∈ Cert.ReferenceIdeal.dot_S250000x128_S128x6_S250000x6_1_0_0_1_n_n.lhsNonContracting by decide)]
  rfl

/-- The whole product's right index keeps the output's column. -/
theorem wholeDot_R1 (j : Cert.ReferenceIdeal.S250000x6.Idx)
    (q : Cert.ReferenceIdeal.dot_S250000x128_S128x6_S250000x6_1_0_0_1_n_n.contr.Idx) :
    (Cert.ReferenceIdeal.dot_S250000x128_S128x6_S250000x6_1_0_0_1_n_n.rhsIdx j q 1).val = (j 1).val := by
  unfold DotDims.rhsIdx
  rw [dif_neg (show ¬(1 : Fin Cert.ReferenceIdeal.S128x6.rank) ∈ Cert.ReferenceIdeal.dot_S250000x128_S128x6_S250000x6_1_0_0_1_n_n.rhsBatch by decide),
    dif_pos (show (1 : Fin Cert.ReferenceIdeal.S128x6.rank) ∈ Cert.ReferenceIdeal.dot_S250000x128_S128x6_S250000x6_1_0_0_1_n_n.rhsNonContracting by decide)]
  rfl

/-- The reference's weights at entry (r, q): the weight formula of row r of the features. -/
theorem alphaRows_apply (ft : Cert.Stages.Arr Ideal Cert.ReferenceIdeal.S250000x128 .f32)
    (g1 b1 : Cert.Stages.Arr Ideal Cert.ReferenceIdeal.S1x128 .f32) (ws : Cert.Stages.Arr Ideal Cert.ReferenceIdeal.S128x6 .f32)
    (bs1 : Cert.Stages.Arr Ideal Cert.ReferenceIdeal.S1x6 .f32) (r : Fin 250000) (q : Fin 6) :
    Cert.Stages.alphaRows (F := Ideal) ft g1 b1 ws bs1 (ix2 r q)
      = alphaEntry (fun k => ft (ix2 r k)) (fun k => g1 (ix2 (0 : Fin 1) k)) (fun k => b1 (ix2 (0 : Fin 1) k))
          (fun k => ws (ix2 k q)) (bs1 (ix2 (0 : Fin 1) q)) := by
  have one : (broadcastInDim Cert.ReferenceIdeal.S250000x6 ![] Cert.ReferenceIdeal.Gen.bcast_S_S250000x6
      (constant (F := Ideal) Cert.ReferenceIdeal.S_ .f32 0x3F800000#32) (ix2 r q) : EReal) = 1 :=
    (Cert.LibUnitAxes.broadcastInDim_scalar_apply _ Cert.ReferenceIdeal.Gen.bcast_S_S250000x6 (ix2 r q)).trans Ideal.ofBits_one_f32
  unfold Cert.Stages.alphaRows alphaEntry Ideal.logistic
  refine congrArg₂ Ideal.div one (congrArg₂ (fun a b : EReal => a + b) one
    (congrArg Ideal.exp (congrArg (fun a : EReal => -a) (congrArg₂ (fun a b : EReal => a + b) ?_ ?_))))
  · refine (Cert.LibPlainDot.dotGeneral_apply Cert.ReferenceIdeal.dot_S250000x128_S128x6_S250000x6_1_0_0_1_n_n rfl rfl rfl rfl
      wholeDot_L0 wholeDot_R1 none .single _ _ r q).trans (Finset.sum_congr rfl fun k _ => congrArg₂ (fun a b : EReal => a * b) ?_ rfl)
    refine congrArg₂ (fun a b : EReal => a + b) (congrArg₂ (fun a b : EReal => a * b) ?_ ?_) ?_
    · exact Cert.LibRowNorm.hNorm_apply 0x43000000#32 0x3727C5AC#32 Cert.ReferenceIdeal.Gen.reducesTo_S250000x128_S250000_d1
        (by decide) Cert.ReferenceIdeal.Gen.h_S_ Cert.ReferenceIdeal.Gen.bcast_S250000_S250000x1_0 Cert.ReferenceIdeal.Gen.bcast_S_S250000x1
        Cert.ReferenceIdeal.Gen.bcast_S250000x1_S250000x128_0_1 ft r k
    · exact Cert.LibUnitAxes.broadcastInDim_1b_ab_apply _ Cert.ReferenceIdeal.Gen.bcast_S1x128_S250000x128_0_1 r k
    · exact Cert.LibUnitAxes.broadcastInDim_1b_ab_apply _ Cert.ReferenceIdeal.Gen.bcast_S1x128_S250000x128_0_1 r k
  · exact Cert.LibUnitAxes.broadcastInDim_1b_ab_apply _ Cert.ReferenceIdeal.Gen.bcast_S1x6_S250000x6_0_1 r q

end Cert.KernelIdeal.Region2

end
-- ==== Proof.Region2.lean ====
/-
  The sheaf weights after the run of the row-tiled kernel.

  The kernel visits the 125 row tiles of 2000 rows of the [250000, 128] feature array; at tile t it reads rows
  2000·t … 2000·t + 1999 of the features and the whole gain row, shift row, [128, 6] matrix and [1, 6] row, and writes
  rows 2000·t … 2000·t + 1999 of the [250000, 6] output.  Every output entry (r, q) is the weight formula of row r of the
  features alone, so what a tile writes is that tile of the whole-array function the reference computes; the tiles cover
  every row (row r lies in tile r / 2000), hence the output array ends holding the reference's stage function of the
  arrays as the kernel found them.
-/
import proofs.«159071_j31842887533297_2_alg».proof.Proof.Gen.KernelIdeal.Frame
import proofs.«159071_j31842887533297_2_alg».proof.Proof.Spec
import proofs.«159071_j31842887533297_2_alg».proof.Proof.Region2Entry
import proofs.«159071_j31842887533297_2_alg».proof.Proof.Region2Host
import Idealize.ShloMosaic.Lib.Pipeline.Value

noncomputable section

open Idealize.ShloMosaic Idealize.ShloMosaic.TcCoe Idealize.SL.Sem
open Idealize.ShloMosaic.Pipeline (Dat)

namespace Cert.KernelIdeal.Region2

open Cert.KernelIdeal Cert.KernelIdeal.Gen Idealize.ShloMosaic.ValueIdx

theorem zero_offsets : (![0, 0] : Fin 2 → Nat) = fun _ => 0 := funext fun a => by fin_cases a <;> rfl

/-- One entry of a tile against one entry of the whole array: when the tile's row is the array's row, the columns agree
    and the four small operands are the whole small arrays, the body's value is the reference's. -/
theorem entry_eq (x0 : Vec Ideal S2000x128 .f32) (x1 x2 : Vec Ideal S1x128 .f32) (x3 : Vec Ideal S128x6 .f32)
    (x4 : Vec Ideal S1x6 .f32)
    (ft : Cert.Stages.Arr Ideal Cert.ReferenceIdeal.S250000x128 .f32)
    (g1 b1 : Cert.Stages.Arr Ideal Cert.ReferenceIdeal.S1x128 .f32) (ws : Cert.Stages.Arr Ideal Cert.ReferenceIdeal.S128x6 .f32)
    (bs1 : Cert.Stages.Arr Ideal Cert.ReferenceIdeal.S1x6 .f32)
    (j : S2000x6.Idx) (i : S250000x6.Idx) (hq : (i 1).val = (j 1).val)
    (h0 : ∀ k : Fin 128, (x0 (ix2 (j 0) k) : EReal) = ft (ix2 (i 0) k))
    (h1 : ∀ k : Fin 128, (x1 (ix2 (0 : Fin 1) k) : EReal) = g1 (ix2 (0 : Fin 1) k))
    (h2 : ∀ k : Fin 128, (x2 (ix2 (0 : Fin 1) k) : EReal) = b1 (ix2 (0 : Fin 1) k))
    (h3 : ∀ (k : Fin 128) (q : Fin 6), (x3 (ix2 k q) : EReal) = ws (ix2 k q))
    (h4 : ∀ q : Fin 6, (x4 (ix2 (0 : Fin 1) q) : EReal) = bs1 (ix2 (0 : Fin 1) q)) :
    (k2_pay1 x0 x1 x2 x3 x4 j : EReal) = Cert.Stages.alphaRows (F := Ideal) ft g1 b1 ws bs1 i := by
  obtain ⟨p, q, rfl⟩ : ∃ (p : Fin 2000) (q : Fin 6), j = ix2 p q := ⟨j 0, j 1, eq_ix2 j⟩
  obtain ⟨r, q', rfl⟩ : ∃ (r : Fin 250000) (q' : Fin 6), i = ix2 r q' := ⟨i 0, i 1, eq_ix2 i⟩
  obtain rfl : q = q' := Fin.ext hq.symm
  refine (pay_apply x0 x1 x2 x3 x4 p q).trans (Eq.trans ?_ (alphaRows_apply ft g1 b1 ws bs1 r q).symm)
  have e0 : (fun k : Fin 128 => (x0 (ix2 p k) : EReal)) = fun k => ft (ix2 r k) := funext h0
  have e1 : (fun k : Fin 128 => (x1 (ix2 (0 : Fin 1) k) : EReal)) = fun k => g1 (ix2 (0 : Fin 1) k) := funext h1
  have e2 : (fun k : Fin 128 => (x2 (ix2 (0 : Fin 1) k) : EReal)) = fun k => b1 (ix2 (0 : Fin 1) k) := funext h2
  have e3 : (fun k : Fin 128 => (x3 (ix2 k q) : EReal)) = fun k => ws (ix2 k q) := funext fun k => h3 k q
  rw [e0, e1, e2, e3, h4 q]

section Array

variable (V : (c : Dev nD) → (b : Ref sig .tc) → Buf (Elt Ideal) ((c : Thread nD τ).loc b))

/-- The printed index maps, decided over the grid: the feature and output windows sit at row block t, column block 0;
    the four small windows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What tile t writes back is tile t of the reference's stage function of the arrays as the kernel found them. -/
theorem flushed_eq (c : Dev nD) (t : Fin cfg2.N) :
    (dat2 (F := Ideal) V c).flushed 5 t = ((cfg2.win 5).blk t).view.read (Elt Ideal)
      (Cert.Stages.alphaRows (F := Ideal) (V c main_v28) (V c main_v29) (V c main_v30) (V c main_arg10) (V c main_v31)) := by
  show (cfg2.win 5).cut (grid2.coords t) ((dat2 (F := Ideal) V c).after 5 t) = _
  rw [after2_5]
  unfold out2_5
  rw [View.canon_unit_zero zero_offsets]
  simp only [View.ld_unit_zero (S := S2000x128) zero_offsets, View.ld_unit_zero (S := S1x128) zero_offsets,
    View.ld_unit_zero (S := S128x6) zero_offsets, View.ld_unit_zero (S := S1x6) zero_offsets]
  obtain ⟨a0, a1, b0, b1, c0, c1, d0, d1, e0, e1, f0, f1⟩ := idx_facts t
  funext j
  refine entry_eq (iblk2 V c 0 t) (iblk2 V c 1 t) (iblk2 V c 2 t) (iblk2 V c 3 t) (iblk2 V c 4 t)
    (V c main_v28) (V c main_v29) (V c main_v30) (V c main_arg10) (V c main_v31) j (((cfg2.win 5).blk t).view.emb j)
    ?_ (fun k => ?_) (fun k => ?_) (fun k => ?_) (fun k q => ?_) (fun q => ?_)
  · show win2_5.index t (1 : Fin 2) * 6 + 1 * (j 1).val = (j 1).val
    omega
  · show V c main_v28 (((cfg2.win 0).blk t).view.emb (ix2 (j 0) k)) = V c main_v28 (ix2 ((((cfg2.win 5).blk t).view.emb j) 0) k)
    refine congrArg (V c main_v28) (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * k.val = k.val; omega
  · show V c main_v29 (((cfg2.win 1).blk t).view.emb (ix2 (0 : Fin 1) k)) = V c main_v29 (ix2 (0 : Fin 1) k)
    refine congrArg (V c main_v29) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_v30 (((cfg2.win 2).blk t).view.emb (ix2 (0 : Fin 1) k)) = V c main_v30 (ix2 (0 : Fin 1) k)
    refine congrArg (V c main_v30) (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  · show V c main_arg10 (((cfg2.win 3).blk t).view.emb (ix2 k q)) = V c main_arg10 (ix2 k q)
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 6 + 1 * q.val = q.val; omega
  · show V c main_v31 (((cfg2.win 4).blk t).view.emb (ix2 (0 : Fin 1) q)) = V c main_v31 (ix2 (0 : Fin 1) q)
    refine congrArg (V c main_v31) (funext fun a => Fin.ext ?_)
    match a with
    | ⟨0, _⟩ => show win2_4.index t (0 : Fin 2) * 1 + 1 * 0 = 0; omega
    | ⟨1, _⟩ => show win2_4.index t (1 : Fin 2) * 6 + 1 * q.val = q.val; omega

/-- An index of the output array is in tile t's block iff each coordinate is in the block's range on its axis. -/
theorem mem_blk (t : Fin cfg2.N) (i : S250000x6.Idx) :
    i ∈ ((cfg2.win 5).blk t).view.set ↔ ∀ a : Fin 2, win2_5.index t a * S2000x6.size a ≤ (i a).val
      ∧ (i a).val < win2_5.index t a * S2000x6.size a + S2000x6.size a := by
  show i ∈ ((View.whole main_v32).slice (win2_5.rect t)).set ↔ _
  rw [View.set_slice_whole, Rect.mem_set_unit]
  exact Iff.rfl

/-- Every index of the output array lies in some tile's block: row r in tile r / 2000. -/
theorem cover (i : S250000x6.Idx) :
    ∃ t : Fin cfg2.N, (cfg2.win 5).flush t = true ∧ i ∈ ((cfg2.win 5).blk t).view.set := by
  have hN : cfg2.N = 125 := N_2
  have hi0 : (i 0).val < 250000 := (i 0).isLt
  have hi1 : (i 1).val < 6 := (i 1).isLt
  have ht : (i 0).val / 2000 < cfg2.N := by rw [hN]; omega
  obtain ⟨a0, a1, b0, b1, c0, c1, d0, d1, e0, e1, f0, f1⟩ := idx_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [f0]
    show (i 0).val / 2000 * 2000 ≤ (i 0).val ∧ (i 0).val < (i 0).val / 2000 * 2000 + 2000
    omega
  | ⟨1, _⟩ =>
    show win2_5.index ⟨(i 0).val / 2000, ht⟩ (1 : Fin 2) * 6 ≤ (i 1).val
      ∧ (i 1).val < win2_5.index ⟨(i 0).val / 2000, ht⟩ (1 : Fin 2) * 6 + 6
    rw [f1]
    omega

/-- The output array after the run: the reference's stage function of the arrays as the kernel found them. -/
theorem value (c : Dev nD) :
    (Gen.dat2 (F := Ideal) V c).arrAt 5 cfg2.N
      = Cert.Stages.alphaRows (F := Ideal) (V c main_v28) (V c main_v29) (V c main_v30) (V c main_arg10) (V c main_v31) :=
  (dat2 (F := Ideal) V c).arrAt_eq_of_cover 5 _ (fun t _ => flushed_eq V c t) cover

end Array

end Cert.KernelIdeal.Region2

end
-- ==== Proof.Region3.lean ====
/-
  The first layer's product of the node stalks with its weight matrix, tiled by rows.  The grid has 25 points; point t takes rows 12000·t … 12000·t + 11999 of the
  left array [300000,64], the whole matrix [64,64] and the whole row [1,64], multiplies the row tile by the matrix into a
  zero accumulator and adds the row to every row of the tile.  On the extended reals a change of float format is the
  identity, and entry (p, q) of the tile's product is the sum over k of left(12000·t + p, k) · matrix(k, q): entry
  (12000·t + p, q) of the whole product.  So point t writes back block t of (left · matrix + row), the 25 blocks tile the
  result, and the result array ends holding left · matrix + row.  No finiteness is used: both sides are the same sum.
-/
import proofs.«159071_j31842887533297_2_alg».proof.Proof.Gen.KernelIdeal.Frame
import proofs.«159071_j31842887533297_2_alg».proof.Proof.Spec
import proofs.«159071_j31842887533297_2_alg».proof.Proof.LibRowTileDot
import proofs.«159071_j31842887533297_2_alg».proof.Proof.LibUnitAxes
import Idealize.ShloMosaic.Lib.Pipeline.Value
import Idealize.ShloMosaic.Lib.ValueIdx
import Idealize.ShloMosaic.Lib.ValueLayout

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

/-- The tile's dimension numbers: the second axis of a [12000,64] tile against the first axis of the [64,64] matrix. -/
abbrev Dt := dot_S12000x64_S64x64_S12000x64_1_0_0_1_n_n
/-- The whole product's dimension numbers: the same axes, on all 300000 rows. -/
abbrev Dh := Cert.ReferenceIdeal.dot_S300000x64_S64x64_S300000x64_1_0_0_1_n_n

/-- The tile's left index keeps the output's row. -/
theorem tL0 (j : S12000x64.Idx) (k : Dt.contr.Idx) : (Dt.lhsIdx j k 0).val = (j 0).val := by
  unfold DotDims.lhsIdx
  rw [dif_neg (show ¬(0 : Fin S12000x64.rank) ∈ Dt.lhsBatch by decide), dif_pos (show (0 : Fin S12000x64.rank) ∈ Dt.lhsNonContracting by decide)]
  rfl

/-- The tile's right index keeps the output's column. -/
theorem tR1 (j : S12000x64.Idx) (k : Dt.contr.Idx) : (Dt.rhsIdx j k 1).val = (j 1).val := by
  unfold DotDims.rhsIdx
  rw [dif_neg (show ¬(1 : Fin S64x64.rank) ∈ Dt.rhsBatch by decide), dif_pos (show (1 : Fin S64x64.rank) ∈ Dt.rhsNonContracting by decide)]
  rfl

/-- The whole product's left index keeps the output's row. -/
theorem hL0 (j : S300000x64.Idx) (k : Dh.contr.Idx) : (Dh.lhsIdx j k 0).val = (j 0).val := by
  unfold DotDims.lhsIdx
  rw [dif_neg (show ¬(0 : Fin S300000x64.rank) ∈ Dh.lhsBatch by decide), dif_pos (show (0 : Fin S300000x64.rank) ∈ Dh.lhsNonContracting by decide)]
  rfl

/-- The whole product's right index keeps the output's column. -/
theorem hR1 (j : S300000x64.Idx) (k : Dh.contr.Idx) : (Dh.rhsIdx j k 1).val = (j 1).val := by
  unfold DotDims.rhsIdx
  rw [dif_neg (show ¬(1 : Fin S64x64.rank) ∈ Dh.rhsBatch by decide), dif_pos (show (1 : Fin S64x64.rank) ∈ Dh.rhsNonContracting by decide)]
  rfl

/-- The body's value at entry (p, q) of a row tile: when the tile's row p is row r of the left array, it is entry
    (r, q) of the whole product plus the row's entry q. The changes of float format are the identity on the extended
    reals, and the two sums over the contracted axis agree term by term. -/
theorem pay_apply (v0 : Vec Ideal S12000x64 .f32) (v2 : Vec Ideal S64x64 .f32) (v5 : Vec Ideal S1x64 .f32)
    (X : Vec Ideal S300000x64 .f32) (W : Vec Ideal S64x64 .f32) (b : Vec Ideal S1x64 .f32)
    (p : Fin 12000) (q : Fin 64) (r : Fin 300000)
    (hX : ∀ k : Fin 64, v0 (ix2 p k) = X (ix2 r k)) (hW : ∀ k : Fin 64, v2 (ix2 k q) = W (ix2 k q))
    (hb : v5 (ix2 (0 : Fin 1) q) = b (ix2 (0 : Fin 1) q)) :
    k3_pay1 v0 v2 v5 (ix2 p q) = Cert.Stages.convRows (F := Ideal) X W b (ix2 r q) := by
  unfold k3_pay1 Cert.Stages.convRows Cert.Stages.matmul64
  show _ + _ = _ + _
  rw [shapeCast_self, shapeCast_self]
  refine congrArg₂ (· + ·) ?_ ?_
  · exact Cert.LibRowTileDot.tile_entry Dt rfl rfl rfl rfl tL0 tR1 Dh rfl rfl rfl rfl hL0 hR1 none none .single _ _ X W p q r hX hW
  · exact (broadcastTo_1b_ab_apply _ _ p q).trans (hb.trans (Cert.LibUnitAxes.broadcastInDim_1b_ab_apply b _ r q).symm)

theorem hz : (![0, 0] : Fin 2 → Nat) = fun _ => 0 := funext fun a => by fin_cases a <;> rfl

/-- The index maps over the grid: point t takes row block t of the left array and of the result; the matrix and the
    row are whole at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- Entry j of what point t's body computes is the stage's value at row 12000·t + j₀, column j₁: the tile's row j₀ is
    that row of the left array, and the matrix and the row are read where they stand. -/
theorem blk_val (c : Dev nD) (t : Fin cfg3.N) (j : S12000x64.Idx) :
    k3_pay1 (iblk3 V c 0 t) (iblk3 V c 1 t) (iblk3 V c 2 t) j
      = Cert.Stages.convRows (F := Ideal) (V c main_v4) (V c main_arg12) (V c main_v68) (((cfg3.win 3).blk t).view.emb j) := by
  obtain ⟨p, q, rfl⟩ : ∃ (p : Fin 12000) (q : Fin 64), j = ix2 p q := ⟨j 0, j 1, eq_ix2 j⟩
  obtain ⟨e0, e1, e2, e3, e4, e5, e6, e7⟩ := idx_facts t
  have ht : t.val < 25 := lt_of_lt_of_eq t.isLt N_3
  have hemb : ((cfg3.win 3).blk t).view.emb (ix2 p q) = ix2 (⟨t.val * 12000 + p.val, by omega⟩ : Fin 300000) q := by
    funext a; apply Fin.ext
    match a with
    | ⟨0, _⟩ => show win3_3.index t (0 : Fin 2) * 12000 + 1 * p.val = t.val * 12000 + p.val; rw [e6]; omega
    | ⟨1, _⟩ => show win3_3.index t (1 : Fin 2) * 64 + 1 * q.val = q.val; rw [e7]; omega
  rw [hemb]
  refine pay_apply (iblk3 V c 0 t) (iblk3 V c 1 t) (iblk3 V c 2 t) (V c main_v4) (V c main_arg12) (V c main_v68) p q _ (fun k => ?_) (fun k => ?_) ?_
  · show V c main_v4 (((cfg3.win 0).blk t).view.emb (ix2 p k)) = V c main_v4 _
    refine congrArg (V c main_v4) ?_
    funext a; apply Fin.ext
    match a with
    | ⟨0, _⟩ => show win3_0.index t (0 : Fin 2) * 12000 + 1 * p.val = t.val * 12000 + p.val; rw [e0]; omega
    | ⟨1, _⟩ => show win3_0.index t (1 : Fin 2) * 64 + 1 * k.val = k.val; rw [e1]; omega
  · show V c main_arg12 (((cfg3.win 1).blk t).view.emb (ix2 k q)) = V c main_arg12 _
    refine congrArg (V c main_arg12) ?_
    funext a; apply Fin.ext
    match a with
    | ⟨0, _⟩ => show win3_1.index t (0 : Fin 2) * 64 + 1 * k.val = k.val; rw [e2]; omega
    | ⟨1, _⟩ => show win3_1.index t (1 : Fin 2) * 64 + 1 * q.val = q.val; rw [e3]; omega
  · show V c main_v68 (((cfg3.win 2).blk t).view.emb (ix2 (0 : Fin 1) q)) = V c main_v68 _
    refine congrArg (V c main_v68) ?_
    funext a; apply Fin.ext
    match a with
    | ⟨0, _⟩ => show win3_2.index t (0 : Fin 2) * 1 + 1 * 0 = 0; rw [e4]
    | ⟨1, _⟩ => show win3_2.index t (1 : Fin 2) * 64 + 1 * q.val = q.val; rw [e5]; omega

/-- What point t writes back is block t of the stage's value. -/
theorem flushed_eq (c : Dev nD) (t : Fin cfg3.N) :
    (dat3 V c).flushed 3 t = ((cfg3.win 3).blk t).view.read (Elt Ideal)
      (Cert.Stages.convRows (F := Ideal) (V c main_v4) (V c main_arg12) (V c main_v68)) := by
  show (cfg3.win 3).cut (grid3.coords t) ((dat3 V c).after 3 t) = _
  rw [after3_3]
  unfold out3_3
  rw [View.canon_unit_zero hz]
  simp only [View.ld_unit_zero (S := S12000x64) hz, View.ld_unit_zero (S := S64x64) hz, View.ld_unit_zero (S := S1x64) hz]
  funext j
  exact blk_val V c t j

/-- An index of the result is in point t's block iff each coordinate is in the block's range on its axis. -/
theorem mem_blk (t : Fin cfg3.N) (i : S300000x64.Idx) :
    i ∈ ((cfg3.win 3).blk t).view.set ↔ ∀ a : Fin 2, win3_3.index t a * S12000x64.size a ≤ (i a).val ∧ (i a).val < win3_3.index t a * S12000x64.size a + S12000x64.size a := by
  show i ∈ ((View.whole main_v69).slice (win3_3.rect t)).set ↔ _
  rw [View.set_slice_whole, Rect.mem_set_unit]
  exact Iff.rfl

/-- Row r of the result is in the block of point r / 12000: the 25 blocks tile the 300000 rows. -/
theorem cover (i : S300000x64.Idx) : ∃ t : Fin cfg3.N, (cfg3.win 3).flush t = true ∧ i ∈ ((cfg3.win 3).blk t).view.set := by
  have hi0 : (i 0).val < 300000 := (i 0).isLt
  have hi1 : (i 1).val < 64 := (i 1).isLt
  obtain ⟨t, ht⟩ : ∃ t : Fin cfg3.N, t.val = (i 0).val / 12000 := ⟨⟨(i 0).val / 12000, by rw [show cfg3.N = 25 from N_3]; omega⟩, rfl⟩
  obtain ⟨e0, e1, e2, e3, e4, e5, e6, e7⟩ := idx_facts t
  refine ⟨t, flush3_3 t, ?_⟩
  rw [mem_blk]
  intro a
  match a with
  | ⟨0, _⟩ => show win3_3.index t (0 : Fin 2) * 12000 ≤ (i 0).val ∧ (i 0).val < win3_3.index t (0 : Fin 2) * 12000 + 12000; rw [e6, ht]; omega
  | ⟨1, _⟩ => show win3_3.index t (1 : Fin 2) * 64 ≤ (i 1).val ∧ (i 1).val < win3_3.index t (1 : Fin 2) * 64 + 64; rw [e7]; omega

/-- The result array after the region is the whole product plus the row, as a function of the arrays the region found. -/
theorem value (c : Dev nD) :
    (Gen.dat3 (F := Ideal) V c).arrAt 3 cfg3.N = Cert.Stages.convRows (F := Ideal) (V c main_v4) (V c main_arg12) (V c main_v68) :=
  (dat3 V c).arrAt_eq_of_cover 3 _ (fun t _ => flushed_eq V c t) cover

end Cert.KernelIdeal.Region3
end
-- ==== Proof.Region4.lean ====
/-
  The first diffusion layer's combining step with its activation.  The output array [300000,64] is written in 50 row
  blocks of 6000 rows; at row block t the body reads rows 6000t … 6000t + 5999 of the two [300000,64] inputs and the
  whole [1,64] row, forms d = x − y + row, and stores d where d > 0 and e^d − 1 elsewhere.  The host's spelling of the
  activation is d where d > 0 and 1 · (e^y − 1) elsewhere, with y = d clipped to zero where d > 0; on the extended reals
  1 · z = z, and where d is not positive y = d, so the two agree.  Element (r, q) of the result is therefore the host's
  activation of a(r, q) − b(r, q) + row(0, q): the combining stage of the three arrays as the region finds them.  Row r
  lies in the block of point r / 6000, so the blocks cover the array.
-/
import proofs.«159071_j31842887533297_2_alg».proof.Proof.Gen.KernelIdeal.Frame
import proofs.«159071_j31842887533297_2_alg».proof.Proof.Spec
import proofs.«159071_j31842887533297_2_alg».proof.Proof.LibUnitAxes
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- x where x > 0 and eˣ − 1 elsewhere, as the body spells it. -/
def eluBody (d : EReal) : EReal :=
  Scalar.select (Ideal.cmp .ogt d (Ideal.ofBits .f32 0x00000000#32)) d (Ideal.exp d - Ideal.ofBits .f32 0x3F800000#32)

/-- The same function as the host spells it: 1 · (e^y − 1) elsewhere, with y = x clipped to zero where x > 0. -/
def eluHost (d : EReal) : EReal :=
  Scalar.select (Ideal.cmp .ogt d (Ideal.ofBits .f32 0x00000000#32)) d
    (Ideal.ofBits .f32 0x3F800000#32
      * (Ideal.exp (Scalar.select (Ideal.cmp .ogt d (Ideal.ofBits .f32 0x00000000#32)) (Ideal.ofBits .f32 0x00000000#32) d) - 1))

/-- On the extended reals the two spellings agree: where x > 0 both take x, elsewhere y = x and 1 · z = z. -/
theorem elu_eq (d : EReal) : eluBody d = eluHost d := by
  unfold eluBody eluHost
  rw [Ideal.ofBits_one_f32]
  by_cases h : Ideal.cmp .ogt d (Ideal.ofBits .f32 0x00000000#32) = 1#1
  · rw [h, select_one, select_one]
  · rw [eq_zero_of_ne_one h, select_zero, select_zero, select_zero, one_mul]

/-- The body's value at (p, q): the activation of x − y plus the row at q. -/
theorem pay_apply (x0 x1 : Vec Ideal S6000x64 .f32) (x2 : Vec Ideal S1x64 .f32) (p : Fin 6000) (q : Fin 64) :
    k4_pay1 (F := Ideal) x0 x1 x2 (ix2 p q) = eluBody (x0 (ix2 p q) - x1 (ix2 p q) + x2 (ix2 (0 : Fin 1) q)) := by
  have hd : (addf (subf x0 x1) (broadcastTo S6000x64 x2 broadcasts_S1x64_S6000x64) : FVec Ideal S6000x64 .f32) (ix2 p q)
      = x0 (ix2 p q) - x1 (ix2 p q) + x2 (ix2 (0 : Fin 1) q) := by
    rw [addf_apply, subf_apply, broadcastTo_1b_ab_apply]
  unfold k4_pay1
  rw [shapeCast_self, shapeCast_self, shapeCast_self, ← hd]
  rfl

/-- The stage at (r, q): the activation of a − b plus the row at q. -/
theorem stage_apply (A B : Cert.Stages.Arr Ideal Cert.ReferenceIdeal.S300000x64 .f32) (R : Cert.Stages.Arr Ideal Cert.ReferenceIdeal.S1x64 .f32)
    (r : Fin 300000) (q : Fin 64) :
    Cert.Stages.combineElu (F := Ideal) A B R (ix2 r q) = eluHost (A (ix2 r q) - B (ix2 r q) + R (ix2 (0 : Fin 1) q)) := by
  have hd : (addf (subf A B) (broadcastInDim Cert.ReferenceIdeal.S300000x64 ![0, 1] Cert.ReferenceIdeal.Gen.bcast_S1x64_S300000x64_0_1 R)
        : FVec Ideal Cert.ReferenceIdeal.S300000x64 .f32) (ix2 r q)
      = A (ix2 r q) - B (ix2 r q) + R (ix2 (0 : Fin 1) q) := by
    rw [addf_apply, subf_apply, Cert.LibUnitAxes.broadcastInDim_1b_ab_apply]
  unfold Cert.Stages.combineElu
  rw [← hd]
  rfl

/-- One element: the body's value at a block index is the stage's at the array index of the same column whose inputs agree. -/
theorem point_eq (A B : Cert.Stages.Arr Ideal Cert.ReferenceIdeal.S300000x64 .f32) (R : Cert.Stages.Arr Ideal Cert.ReferenceIdeal.S1x64 .f32)
    (x0 x1 : Vec Ideal S6000x64 .f32) (x2 : Vec Ideal S1x64 .f32) (j : S6000x64.Idx) (i : S300000x64.Idx)
    (h0 : x0 j = A i) (h1 : x1 j = B i) (h2 : ∀ q : Fin 64, x2 (ix2 (0 : Fin 1) q) = R (ix2 (0 : Fin 1) q))
    (hq : (i 1).val = (j 1).val) :
    k4_pay1 (F := Ideal) x0 x1 x2 j = Cert.Stages.combineElu (F := Ideal) A B R i := by
  obtain ⟨p, q, rfl⟩ : ∃ (p : Fin 6000) (q : Fin 64), j = ix2 p q := ⟨j 0, j 1, eq_ix2 j⟩
  obtain ⟨r, q', rfl⟩ : ∃ (r : Fin 300000) (q' : Fin 64), i = ix2 r q' := ⟨i 0, i 1, eq_ix2 i⟩
  obtain rfl : q' = q := Fin.ext hq
  rw [pay_apply, stage_apply, h0, h1, h2, elu_eq]

/-- The windows' index maps over the grid: the three row-blocked windows sit at row block t, the row window at (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point t writes back is block t of the stage of the arrays as entered. -/
theorem flushed_eq (c : Dev nD) (t : Fin cfg4.N) :
    (dat4 (F := Ideal) V c).flushed 3 t = ((cfg4.win 3).blk t).view.read (Elt Ideal)
      (Cert.Stages.combineElu (F := Ideal) (V c main_v69) (V c main_v101) (V c main_v102)) := by
  show (cfg4.win 3).cut (grid4.coords t) ((dat4 V c).after 3 t) = _
  rw [after4_3]
  unfold out4_3
  rw [View.canon_unit_zero hz]
  simp only [View.ld_unit_zero (S := S6000x64) hz, View.ld_unit_zero (S := S1x64) hz]
  obtain ⟨e00, e01, e10, e11, e20, e21, e30, e31⟩ := idx_facts t
  funext j
  show k4_pay1 (F := Ideal) (iblk4 V c 0 t) (iblk4 V c 1 t) (iblk4 V c 2 t) j
    = Cert.Stages.combineElu (F := Ideal) (V c main_v69) (V c main_v101) (V c main_v102) (((cfg4.win 3).blk t).view.emb j)
  refine point_eq (V c main_v69) (V c main_v101) (V c main_v102) (iblk4 V c 0 t) (iblk4 V c 1 t) (iblk4 V c 2 t) j
    (((cfg4.win 3).blk t).view.emb j) ?_ ?_ ?_ ?_
  · show V c main_v69 (((cfg4.win 0).blk t).view.emb j) = V c main_v69 (((cfg4.win 3).blk t).view.emb j)
    refine congrArg _ (funext fun a => Fin.ext ?_)
    match a with
    | ⟨0, _⟩ => show win4_0.index t (0 : Fin 2) * 6000 + 1 * (j 0).val = win4_3.index t (0 : Fin 2) * 6000 + 1 * (j 0).val; omega
    | ⟨1, _⟩ => show win4_0.index t (1 : Fin 2) * 64 + 1 * (j 1).val = win4_3.index t (1 : Fin 2) * 64 + 1 * (j 1).val; omega
  · show V c main_v101 (((cfg4.win 1).blk t).view.emb j) = V c main_v101 (((cfg4.win 3).blk t).view.emb j)
    refine congrArg _ (funext fun a => Fin.ext ?_)
    match a with
    | ⟨0, _⟩ => show win4_1.index t (0 : Fin 2) * 6000 + 1 * (j 0).val = win4_3.index t (0 : Fin 2) * 6000 + 1 * (j 0).val; omega
    | ⟨1, _⟩ => show win4_1.index t (1 : Fin 2) * 64 + 1 * (j 1).val = win4_3.index t (1 : Fin 2) * 64 + 1 * (j 1).val; omega
  · intro q
    show V c main_v102 (((cfg4.win 2).blk t).view.emb (ix2 (0 : Fin 1) q)) = V c main_v102 (ix2 (0 : Fin 1) q)
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * q.val = q.val; omega
  · show win4_3.index t (1 : Fin 2) * 64 + 1 * (j 1).val = (j 1).val; omega

/-- An array index is in point t's block iff each coordinate is in the block's range on its axis. -/
theorem mem_blk (t : Fin cfg4.N) (i : S300000x64.Idx) :
    i ∈ ((cfg4.win 3).blk t).view.set ↔ ∀ a : Fin 2, win4_3.index t a * S6000x64.size a ≤ (i a).val ∧ (i a).val < win4_3.index t a * S6000x64.size a + S6000x64.size a := by
  show i ∈ ((View.whole main_v103).slice (win4_3.rect t)).set ↔ _
  rw [View.set_slice_whole, Rect.mem_set_unit]
  exact Iff.rfl

/-- Row r of the array lies in the block of point r / 6000. -/
theorem cover (i : S300000x64.Idx) : ∃ t : Fin cfg4.N, (cfg4.win 3).flush t = true ∧ i ∈ ((cfg4.win 3).blk t).view.set := by
  have hi0 : (i 0).val < 300000 := (i 0).isLt
  have hi1 : (i 1).val < 64 := (i 1).isLt
  have hN : cfg4.N = 50 := N_4
  let t : Fin cfg4.N := ⟨(i 0).val / 6000, by rw [hN]; omega⟩
  obtain ⟨_, _, _, _, _, _, e30, e31⟩ := idx_facts t
  have ht : t.val = (i 0).val / 6000 := rfl
  refine ⟨t, flush4_3 t, ?_⟩
  rw [mem_blk]
  intro a
  match a with
  | ⟨0, _⟩ => show win4_3.index t (0 : Fin 2) * 6000 ≤ (i 0).val ∧ (i 0).val < win4_3.index t (0 : Fin 2) * 6000 + 6000; omega
  | ⟨1, _⟩ => show win4_3.index t (1 : Fin 2) * 64 ≤ (i 1).val ∧ (i 1).val < win4_3.index t (1 : Fin 2) * 64 + 64; omega

/-- The output array after the region: the stage of the three input arrays as entered. -/
theorem value (c : Dev nD) :
    (Gen.dat4 (F := Ideal) V c).arrAt 3 cfg4.N = Cert.Stages.combineElu (F := Ideal) (V c main_v69) (V c main_v101) (V c main_v102) :=
  (dat4 (F := Ideal) V c).arrAt_eq_of_cover 3 _ (fun t _ => flushed_eq V c t) cover

end Cert.KernelIdeal.Region4

end
-- ==== Proof.Region5.lean ====
/-
  The second layer's product of the node stalks with its weight matrix, tiled by rows.  The grid has 25 points; point t takes rows 12000·t … 12000·t + 11999 of the
  left array [300000,64], the whole matrix [64,64] and the whole row [1,64], multiplies the row tile by the matrix into a
  zero accumulator and adds the row to every row of the tile.  On the extended reals a change of float format is the
  identity, and entry (p, q) of the tile's product is the sum over k of left(12000·t + p, k) · matrix(k, q): entry
  (12000·t + p, q) of the whole product.  So point t writes back block t of (left · matrix + row), the 25 blocks tile the
  result, and the result array ends holding left · matrix + row.  No finiteness is used: both sides are the same sum.
-/
import proofs.«159071_j31842887533297_2_alg».proof.Proof.Gen.KernelIdeal.Frame
import proofs.«159071_j31842887533297_2_alg».proof.Proof.Spec
import proofs.«159071_j31842887533297_2_alg».proof.Proof.LibRowTileDot
import proofs.«159071_j31842887533297_2_alg».proof.Proof.LibUnitAxes
import Idealize.ShloMosaic.Lib.Pipeline.Value
import Idealize.ShloMosaic.Lib.ValueIdx
import Idealize.ShloMosaic.Lib.ValueLayout

noncomputable section

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx

/-- The tile's dimension numbers: the second axis of a [12000,64] tile against the first axis of the [64,64] matrix. -/
abbrev Dt := dot_S12000x64_S64x64_S12000x64_1_0_0_1_n_n
/-- The whole product's dimension numbers: the same axes, on all 300000 rows. -/
abbrev Dh := Cert.ReferenceIdeal.dot_S300000x64_S64x64_S300000x64_1_0_0_1_n_n

/-- The tile's left index keeps the output's row. -/
theorem tL0 (j : S12000x64.Idx) (k : Dt.contr.Idx) : (Dt.lhsIdx j k 0).val = (j 0).val := by
  unfold DotDims.lhsIdx
  rw [dif_neg (show ¬(0 : Fin S12000x64.rank) ∈ Dt.lhsBatch by decide), dif_pos (show (0 : Fin S12000x64.rank) ∈ Dt.lhsNonContracting by decide)]
  rfl

/-- The tile's right index keeps the output's column. -/
theorem tR1 (j : S12000x64.Idx) (k : Dt.contr.Idx) : (Dt.rhsIdx j k 1).val = (j 1).val := by
  unfold DotDims.rhsIdx
  rw [dif_neg (show ¬(1 : Fin S64x64.rank) ∈ Dt.rhsBatch by decide), dif_pos (show (1 : Fin S64x64.rank) ∈ Dt.rhsNonContracting by decide)]
  rfl

/-- The whole product's left index keeps the output's row. -/
theorem hL0 (j : S300000x64.Idx) (k : Dh.contr.Idx) : (Dh.lhsIdx j k 0).val = (j 0).val := by
  unfold DotDims.lhsIdx
  rw [dif_neg (show ¬(0 : Fin S300000x64.rank) ∈ Dh.lhsBatch by decide), dif_pos (show (0 : Fin S300000x64.rank) ∈ Dh.lhsNonContracting by decide)]
  rfl

/-- The whole product's right index keeps the output's column. -/
theorem hR1 (j : S300000x64.Idx) (k : Dh.contr.Idx) : (Dh.rhsIdx j k 1).val = (j 1).val := by
  unfold DotDims.rhsIdx
  rw [dif_neg (show ¬(1 : Fin S64x64.rank) ∈ Dh.rhsBatch by decide), dif_pos (show (1 : Fin S64x64.rank) ∈ Dh.rhsNonContracting by decide)]
  rfl

/-- The body's value at entry (p, q) of a row tile: when the tile's row p is row r of the left array, it is entry
    (r, q) of the whole product plus the row's entry q. The changes of float format are the identity on the extended
    reals, and the two sums over the contracted axis agree term by term. -/
theorem pay_apply (v0 : Vec Ideal S12000x64 .f32) (v2 : Vec Ideal S64x64 .f32) (v5 : Vec Ideal S1x64 .f32)
    (X : Vec Ideal S300000x64 .f32) (W : Vec Ideal S64x64 .f32) (b : Vec Ideal S1x64 .f32)
    (p : Fin 12000) (q : Fin 64) (r : Fin 300000)
    (hX : ∀ k : Fin 64, v0 (ix2 p k) = X (ix2 r k)) (hW : ∀ k : Fin 64, v2 (ix2 k q) = W (ix2 k q))
    (hb : v5 (ix2 (0 : Fin 1) q) = b (ix2 (0 : Fin 1) q)) :
    k5_pay1 v0 v2 v5 (ix2 p q) = Cert.Stages.convRows (F := Ideal) X W b (ix2 r q) := by
  unfold k5_pay1 Cert.Stages.convRows Cert.Stages.matmul64
  show _ + _ = _ + _
  rw [shapeCast_self, shapeCast_self]
  refine congrArg₂ (· + ·) ?_ ?_
  · exact Cert.LibRowTileDot.tile_entry Dt rfl rfl rfl rfl tL0 tR1 Dh rfl rfl rfl rfl hL0 hR1 none none .single _ _ X W p q r hX hW
  · exact (broadcastTo_1b_ab_apply _ _ p q).trans (hb.trans (Cert.LibUnitAxes.broadcastInDim_1b_ab_apply b _ r q).symm)

theorem hz : (![0, 0] : Fin 2 → Nat) = fun _ => 0 := funext fun a => by fin_cases a <;> rfl

/-- The index maps over the grid: point t takes row block t of the left array and of the result; the matrix and the
    row are whole at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- Entry j of what point t's body computes is the stage's value at row 12000·t + j₀, column j₁: the tile's row j₀ is
    that row of the left array, and the matrix and the row are read where they stand. -/
theorem blk_val (c : Dev nD) (t : Fin cfg5.N) (j : S12000x64.Idx) :
    k5_pay1 (iblk5 V c 0 t) (iblk5 V c 1 t) (iblk5 V c 2 t) j
      = Cert.Stages.convRows (F := Ideal) (V c main_v103) (V c main_arg14) (V c main_v68) (((cfg5.win 3).blk t).view.emb j) := by
  obtain ⟨p, q, rfl⟩ : ∃ (p : Fin 12000) (q : Fin 64), j = ix2 p q := ⟨j 0, j 1, eq_ix2 j⟩
  obtain ⟨e0, e1, e2, e3, e4, e5, e6, e7⟩ := idx_facts t
  have ht : t.val < 25 := lt_of_lt_of_eq t.isLt N_5
  have hemb : ((cfg5.win 3).blk t).view.emb (ix2 p q) = ix2 (⟨t.val * 12000 + p.val, by omega⟩ : Fin 300000) q := by
    funext a; apply Fin.ext
    match a with
    | ⟨0, _⟩ => show win5_3.index t (0 : Fin 2) * 12000 + 1 * p.val = t.val * 12000 + p.val; rw [e6]; omega
    | ⟨1, _⟩ => show win5_3.index t (1 : Fin 2) * 64 + 1 * q.val = q.val; rw [e7]; omega
  rw [hemb]
  refine pay_apply (iblk5 V c 0 t) (iblk5 V c 1 t) (iblk5 V c 2 t) (V c main_v103) (V c main_arg14) (V c main_v68) p q _ (fun k => ?_) (fun k => ?_) ?_
  · show V c main_v103 (((cfg5.win 0).blk t).view.emb (ix2 p k)) = V c main_v103 _
    refine congrArg (V c main_v103) ?_
    funext a; apply Fin.ext
    match a with
    | ⟨0, _⟩ => show win5_0.index t (0 : Fin 2) * 12000 + 1 * p.val = t.val * 12000 + p.val; rw [e0]; omega
    | ⟨1, _⟩ => show win5_0.index t (1 : Fin 2) * 64 + 1 * k.val = k.val; rw [e1]; omega
  · show V c main_arg14 (((cfg5.win 1).blk t).view.emb (ix2 k q)) = V c main_arg14 _
    refine congrArg (V c main_arg14) ?_
    funext a; apply Fin.ext
    match a with
    | ⟨0, _⟩ => show win5_1.index t (0 : Fin 2) * 64 + 1 * k.val = k.val; rw [e2]; omega
    | ⟨1, _⟩ => show win5_1.index t (1 : Fin 2) * 64 + 1 * q.val = q.val; rw [e3]; omega
  · show V c main_v68 (((cfg5.win 2).blk t).view.emb (ix2 (0 : Fin 1) q)) = V c main_v68 _
    refine congrArg (V c main_v68) ?_
    funext a; apply Fin.ext
    match a with
    | ⟨0, _⟩ => show win5_2.index t (0 : Fin 2) * 1 + 1 * 0 = 0; rw [e4]
    | ⟨1, _⟩ => show win5_2.index t (1 : Fin 2) * 64 + 1 * q.val = q.val; rw [e5]; omega

/-- What point t writes back is block t of the stage's value. -/
theorem flushed_eq (c : Dev nD) (t : Fin cfg5.N) :
    (dat5 V c).flushed 3 t = ((cfg5.win 3).blk t).view.read (Elt Ideal)
      (Cert.Stages.convRows (F := Ideal) (V c main_v103) (V c main_arg14) (V c main_v68)) := by
  show (cfg5.win 3).cut (grid5.coords t) ((dat5 V c).after 3 t) = _
  rw [after5_3]
  unfold out5_3
  rw [View.canon_unit_zero hz]
  simp only [View.ld_unit_zero (S := S12000x64) hz, View.ld_unit_zero (S := S64x64) hz, View.ld_unit_zero (S := S1x64) hz]
  funext j
  exact blk_val V c t j

/-- An index of the result is in point t's block iff each coordinate is in the block's range on its axis. -/
theorem mem_blk (t : Fin cfg5.N) (i : S300000x64.Idx) :
    i ∈ ((cfg5.win 3).blk t).view.set ↔ ∀ a : Fin 2, win5_3.index t a * S12000x64.size a ≤ (i a).val ∧ (i a).val < win5_3.index t a * S12000x64.size a + S12000x64.size a := by
  show i ∈ ((View.whole main_v104).slice (win5_3.rect t)).set ↔ _
  rw [View.set_slice_whole, Rect.mem_set_unit]
  exact Iff.rfl

/-- Row r of the result is in the block of point r / 12000: the 25 blocks tile the 300000 rows. -/
theorem cover (i : S300000x64.Idx) : ∃ t : Fin cfg5.N, (cfg5.win 3).flush t = true ∧ i ∈ ((cfg5.win 3).blk t).view.set := by
  have hi0 : (i 0).val < 300000 := (i 0).isLt
  have hi1 : (i 1).val < 64 := (i 1).isLt
  obtain ⟨t, ht⟩ : ∃ t : Fin cfg5.N, t.val = (i 0).val / 12000 := ⟨⟨(i 0).val / 12000, by rw [show cfg5.N = 25 from N_5]; omega⟩, rfl⟩
  obtain ⟨e0, e1, e2, e3, e4, e5, e6, e7⟩ := idx_facts t
  refine ⟨t, flush5_3 t, ?_⟩
  rw [mem_blk]
  intro a
  match a with
  | ⟨0, _⟩ => show win5_3.index t (0 : Fin 2) * 12000 ≤ (i 0).val ∧ (i 0).val < win5_3.index t (0 : Fin 2) * 12000 + 12000; rw [e6, ht]; omega
  | ⟨1, _⟩ => show win5_3.index t (1 : Fin 2) * 64 ≤ (i 1).val ∧ (i 1).val < win5_3.index t (1 : Fin 2) * 64 + 64; rw [e7]; omega

/-- The result array after the region is the whole product plus the row, as a function of the arrays the region found. -/
theorem value (c : Dev nD) :
    (Gen.dat5 (F := Ideal) V c).arrAt 3 cfg5.N = Cert.Stages.convRows (F := Ideal) (V c main_v103) (V c main_arg14) (V c main_v68) :=
  (dat5 V c).arrAt_eq_of_cover 3 _ (fun t _ => flushed_eq V c t) cover

end Cert.KernelIdeal.Region5
end
-- ==== Proof.Region6.lean ====
/-
  The second diffusion layer's combining step.  The output array [300000,64] is written in 50 row blocks of 6000 rows;
  at row block t the body reads rows 6000t … 6000t + 5999 of the two [300000,64] inputs and the whole [1,64] row, and
  stores x − y + row.  Element (r, q) of the result is therefore a(r, q) − b(r, q) + row(0, q): the combining stage of
  the three arrays as the region finds them.  Row r lies in the block of point r / 6000, so the blocks cover the array.
-/
import proofs.«159071_j31842887533297_2_alg».proof.Proof.Gen.KernelIdeal.Frame
import proofs.«159071_j31842887533297_2_alg».proof.Proof.Spec
import proofs.«159071_j31842887533297_2_alg».proof.Proof.LibUnitAxes
import Idealize.ShloMosaic.Lib.Pipeline.Value
import Idealize.ShloMosaic.Lib.ValueIdx
import Idealize.ShloMosaic.Lib.ValueLayout

noncomputable section

namespace Cert.KernelIdeal.Region6

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- The body's value at (p, q): x − y plus the row at q. -/
theorem pay_apply (x0 x1 : Vec Ideal S6000x64 .f32) (x2 : Vec Ideal S1x64 .f32) (p : Fin 6000) (q : Fin 64) :
    k6_pay1 (F := Ideal) x0 x1 x2 (ix2 p q) = x0 (ix2 p q) - x1 (ix2 p q) + x2 (ix2 (0 : Fin 1) q) := by
  unfold k6_pay1
  rw [shapeCast_self, shapeCast_self, shapeCast_self, addf_apply, subf_apply, broadcastTo_1b_ab_apply]

/-- The stage at (r, q): a − b plus the row at q. -/
theorem stage_apply (A B : Cert.Stages.Arr Ideal Cert.ReferenceIdeal.S300000x64 .f32) (R : Cert.Stages.Arr Ideal Cert.ReferenceIdeal.S1x64 .f32)
    (r : Fin 300000) (q : Fin 64) :
    Cert.Stages.combinePlain (F := Ideal) A B R (ix2 r q) = A (ix2 r q) - B (ix2 r q) + R (ix2 (0 : Fin 1) q) := by
  unfold Cert.Stages.combinePlain
  rw [addf_apply, subf_apply, Cert.LibUnitAxes.broadcastInDim_1b_ab_apply]

/-- One element: the body's value at a block index is the stage's at the array index of the same column whose inputs agree. -/
theorem point_eq (A B : Cert.Stages.Arr Ideal Cert.ReferenceIdeal.S300000x64 .f32) (R : Cert.Stages.Arr Ideal Cert.ReferenceIdeal.S1x64 .f32)
    (x0 x1 : Vec Ideal S6000x64 .f32) (x2 : Vec Ideal S1x64 .f32) (j : S6000x64.Idx) (i : S300000x64.Idx)
    (h0 : x0 j = A i) (h1 : x1 j = B i) (h2 : ∀ q : Fin 64, x2 (ix2 (0 : Fin 1) q) = R (ix2 (0 : Fin 1) q))
    (hq : (i 1).val = (j 1).val) :
    k6_pay1 (F := Ideal) x0 x1 x2 j = Cert.Stages.combinePlain (F := Ideal) A B R i := by
  obtain ⟨p, q, rfl⟩ : ∃ (p : Fin 6000) (q : Fin 64), j = ix2 p q := ⟨j 0, j 1, eq_ix2 j⟩
  obtain ⟨r, q', rfl⟩ : ∃ (r : Fin 300000) (q' : Fin 64), i = ix2 r q' := ⟨i 0, i 1, eq_ix2 i⟩
  obtain rfl : q' = q := Fin.ext hq
  rw [pay_apply, stage_apply, h0, h1, h2]

/-- The windows' index maps over the grid: the three row-blocked windows sit at row block t, the row window at (0, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- What point t writes back is block t of the stage of the arrays as entered. -/
theorem flushed_eq (c : Dev nD) (t : Fin cfg6.N) :
    (dat6 (F := Ideal) V c).flushed 3 t = ((cfg6.win 3).blk t).view.read (Elt Ideal)
      (Cert.Stages.combinePlain (F := Ideal) (V c main_v104) (V c main_v136) (V c main_v137)) := by
  show (cfg6.win 3).cut (grid6.coords t) ((dat6 V c).after 3 t) = _
  rw [after6_3]
  unfold out6_3
  rw [View.canon_unit_zero hz]
  simp only [View.ld_unit_zero (S := S6000x64) hz, View.ld_unit_zero (S := S1x64) hz]
  obtain ⟨e00, e01, e10, e11, e20, e21, e30, e31⟩ := idx_facts t
  funext j
  show k6_pay1 (F := Ideal) (iblk6 V c 0 t) (iblk6 V c 1 t) (iblk6 V c 2 t) j
    = Cert.Stages.combinePlain (F := Ideal) (V c main_v104) (V c main_v136) (V c main_v137) (((cfg6.win 3).blk t).view.emb j)
  refine point_eq (V c main_v104) (V c main_v136) (V c main_v137) (iblk6 V c 0 t) (iblk6 V c 1 t) (iblk6 V c 2 t) j
    (((cfg6.win 3).blk t).view.emb j) ?_ ?_ ?_ ?_
  · show V c main_v104 (((cfg6.win 0).blk t).view.emb j) = V c main_v104 (((cfg6.win 3).blk t).view.emb j)
    refine congrArg _ (funext fun a => Fin.ext ?_)
    match a with
    | ⟨0, _⟩ => show win6_0.index t (0 : Fin 2) * 6000 + 1 * (j 0).val = win6_3.index t (0 : Fin 2) * 6000 + 1 * (j 0).val; omega
    | ⟨1, _⟩ => show win6_0.index t (1 : Fin 2) * 64 + 1 * (j 1).val = win6_3.index t (1 : Fin 2) * 64 + 1 * (j 1).val; omega
  · show V c main_v136 (((cfg6.win 1).blk t).view.emb j) = V c main_v136 (((cfg6.win 3).blk t).view.emb j)
    refine congrArg _ (funext fun a => Fin.ext ?_)
    match a with
    | ⟨0, _⟩ => show win6_1.index t (0 : Fin 2) * 6000 + 1 * (j 0).val = win6_3.index t (0 : Fin 2) * 6000 + 1 * (j 0).val; omega
    | ⟨1, _⟩ => show win6_1.index t (1 : Fin 2) * 64 + 1 * (j 1).val = win6_3.index t (1 : Fin 2) * 64 + 1 * (j 1).val; omega
  · intro q
    show V c main_v137 (((cfg6.win 2).blk t).view.emb (ix2 (0 : Fin 1) q)) = V c main_v137 (ix2 (0 : Fin 1) q)
    refine congrArg _ (funext fun a => Fin.ext ?_)
    match a with
    | ⟨0, _⟩ => show win6_2.index t (0 : Fin 2) * 1 + 1 * 0 = 0; omega
    | ⟨1, _⟩ => show win6_2.index t (1 : Fin 2) * 64 + 1 * q.val = q.val; omega
  · show win6_3.index t (1 : Fin 2) * 64 + 1 * (j 1).val = (j 1).val; omega

/-- An array index is in point t's block iff each coordinate is in the block's range on its axis. -/
theorem mem_blk (t : Fin cfg6.N) (i : S300000x64.Idx) :
    i ∈ ((cfg6.win 3).blk t).view.set ↔ ∀ a : Fin 2, win6_3.index t a * S6000x64.size a ≤ (i a).val ∧ (i a).val < win6_3.index t a * S6000x64.size a + S6000x64.size a := by
  show i ∈ ((View.whole main_v138).slice (win6_3.rect t)).set ↔ _
  rw [View.set_slice_whole, Rect.mem_set_unit]
  exact Iff.rfl

/-- Row r of the array lies in the block of point r / 6000. -/
theorem cover (i : S300000x64.Idx) : ∃ t : Fin cfg6.N, (cfg6.win 3).flush t = true ∧ i ∈ ((cfg6.win 3).blk t).view.set := by
  have hi0 : (i 0).val < 300000 := (i 0).isLt
  have hi1 : (i 1).val < 64 := (i 1).isLt
  have hN : cfg6.N = 50 := N_6
  let t : Fin cfg6.N := ⟨(i 0).val / 6000, by rw [hN]; omega⟩
  obtain ⟨_, _, _, _, _, _, e30, e31⟩ := idx_facts t
  have ht : t.val = (i 0).val / 6000 := rfl
  refine ⟨t, flush6_3 t, ?_⟩
  rw [mem_blk]
  intro a
  match a with
  | ⟨0, _⟩ => show win6_3.index t (0 : Fin 2) * 6000 ≤ (i 0).val ∧ (i 0).val < win6_3.index t (0 : Fin 2) * 6000 + 6000; omega
  | ⟨1, _⟩ => show win6_3.index t (1 : Fin 2) * 64 ≤ (i 1).val ∧ (i 1).val < win6_3.index t (1 : Fin 2) * 64 + 64; omega

/-- The output array after the region: the stage of the three input arrays as entered. -/
theorem value (c : Dev nD) :
    (Gen.dat6 (F := Ideal) V c).arrAt 3 cfg6.N = Cert.Stages.combinePlain (F := Ideal) (V c main_v104) (V c main_v136) (V c main_v137) :=
  (dat6 (F := Ideal) V c).arrAt_eq_of_cover 3 _ (fun t _ => flushed_eq V c t) cover

end Cert.KernelIdeal.Region6

end
-- ==== Proof.Region7.lean ====
/-
  The final activation on the [50000,384] layout.  The output array is written in 25 row blocks of 2000 rows; at row
  block t the body reads rows 2000t … 2000t + 1999 of the input and stores, element by element, x where x > 0 and
  eˣ − 1 elsewhere.  The host's spelling of the same function is x where x > 0 and 1 · (e^y − 1) elsewhere, with y = x
  clipped to zero where x > 0; on the extended reals 1 · z = z, and where x is not positive y = x, so the two agree at
  every element.  Row r lies in the block of point r / 2000, so the blocks cover the array.
-/
import proofs.«159071_j31842887533297_2_alg».proof.Proof.Gen.KernelIdeal.Frame
import proofs.«159071_j31842887533297_2_alg».proof.Proof.Spec
import proofs.«159071_j31842887533297_2_alg».proof.Proof.LibUnitAxes
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Region7

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- On the extended reals: x where x > 0 and eˣ − 1 elsewhere, in the body's spelling and in the host's
    (1 · (e^y − 1) at y = x clipped to zero where x > 0): where x > 0 both take x, elsewhere y = x and 1 · z = z. -/
theorem elu_eq (x : EReal) :
    Scalar.select (Ideal.cmp .ogt x (Ideal.ofBits .f32 0x00000000#32)) x (Ideal.exp x - Ideal.ofBits .f32 0x3F800000#32)
      = Scalar.select (Ideal.cmp .ogt x (Ideal.ofBits .f32 0x00000000#32)) x
          (Ideal.ofBits .f32 0x3F800000#32
            * (Ideal.exp (Scalar.select (Ideal.cmp .ogt x (Ideal.ofBits .f32 0x00000000#32)) (Ideal.ofBits .f32 0x00000000#32) x) - 1)) := by
  rw [Ideal.ofBits_one_f32]
  by_cases h : Ideal.cmp .ogt x (Ideal.ofBits .f32 0x00000000#32) = 1#1
  · rw [h, select_one, select_one]
  · rw [eq_zero_of_ne_one h, select_zero, select_zero, select_zero, one_mul]

/-- The body's value at an index. -/
theorem pay_apply (x0 : Vec Ideal S2000x384 .f32) (j : S2000x384.Idx) :
    k7_pay1 (F := Ideal) x0 j
      = Scalar.select (Ideal.cmp .ogt (x0 j) (Ideal.ofBits .f32 0x00000000#32)) (x0 j) (Ideal.exp (x0 j) - Ideal.ofBits .f32 0x3F800000#32) := by
  unfold k7_pay1
  rw [shapeCast_self]
  rfl

/-- The stage at an index. -/
theorem stage_apply (h : Cert.Stages.Arr Ideal Cert.ReferenceIdeal.S50000x384 .f32) (i : S50000x384.Idx) :
    Cert.Stages.elu50 (F := Ideal) h i
      = Scalar.select (Ideal.cmp .ogt (h i) (Ideal.ofBits .f32 0x00000000#32)) (h i)
          (Ideal.ofBits .f32 0x3F800000#32
            * (Ideal.exp (Scalar.select (Ideal.cmp .ogt (h i) (Ideal.ofBits .f32 0x00000000#32)) (Ideal.ofBits .f32 0x00000000#32) (h i)) - 1)) := by
  unfold Cert.Stages.elu50
  rfl

/-- One element: the body's value at a block index is the stage's at the array index whose input agrees. -/
theorem point_eq (h : Cert.Stages.Arr Ideal Cert.ReferenceIdeal.S50000x384 .f32) (x0 : Vec Ideal S2000x384 .f32)
    (j : S2000x384.Idx) (i : S50000x384.Idx) (h0 : x0 j = h i) :
    k7_pay1 (F := Ideal) x0 j = Cert.Stages.elu50 (F := Ideal) h i := by
  rw [pay_apply, stage_apply, h0, elu_eq]

/-- The windows' index maps over the grid: both windows sit at row block t. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

variable (V : (c : Dev nD) → (b : Ref sig .tc) → Buf (Elt Ideal) ((c : Thread nD τ).loc b))

/-- What point t writes back is block t of the stage of the array as entered. -/
theorem flushed_eq (c : Dev nD) (t : Fin cfg7.N) :
    (dat7 (F := Ideal) V c).flushed 1 t = ((cfg7.win 1).blk t).view.read (Elt Ideal)
      (Cert.Stages.elu50 (F := Ideal) (V c main_v139)) := by
  show (cfg7.win 1).cut (grid7.coords t) ((dat7 V c).after 1 t) = _
  rw [after7_1]
  unfold out7_1
  rw [View.canon_unit_zero hz]
  simp only [View.ld_unit_zero (S := S2000x384) hz]
  obtain ⟨e00, e01, e10, e11⟩ := idx_facts t
  funext j
  show k7_pay1 (F := Ideal) (iblk7 V c 0 t) j
    = Cert.Stages.elu50 (F := Ideal) (V c main_v139) (((cfg7.win 1).blk t).view.emb j)
  refine point_eq (V c main_v139) (iblk7 V c 0 t) j (((cfg7.win 1).blk t).view.emb j) ?_
  show V c main_v139 (((cfg7.win 0).blk t).view.emb j) = V c main_v139 (((cfg7.win 1).blk t).view.emb j)
  refine congrArg _ (funext fun a => Fin.ext ?_)
  match a with
  | ⟨0, _⟩ => show win7_0.index t (0 : Fin 2) * 2000 + 1 * (j 0).val = win7_1.index t (0 : Fin 2) * 2000 + 1 * (j 0).val; omega
  | ⟨1, _⟩ => show win7_0.index t (1 : Fin 2) * 384 + 1 * (j 1).val = win7_1.index t (1 : Fin 2) * 384 + 1 * (j 1).val; omega

/-- An array index is in point t's block iff each coordinate is in the block's range on its axis. -/
theorem mem_blk (t : Fin cfg7.N) (i : S50000x384.Idx) :
    i ∈ ((cfg7.win 1).blk t).view.set ↔ ∀ a : Fin 2, win7_1.index t a * S2000x384.size a ≤ (i a).val ∧ (i a).val < win7_1.index t a * S2000x384.size a + S2000x384.size a := by
  show i ∈ ((View.whole main_v140).slice (win7_1.rect t)).set ↔ _
  rw [View.set_slice_whole, Rect.mem_set_unit]
  exact Iff.rfl

/-- Row r of the array lies in the block of point r / 2000. -/
theorem cover (i : S50000x384.Idx) : ∃ t : Fin cfg7.N, (cfg7.win 1).flush t = true ∧ i ∈ ((cfg7.win 1).blk t).view.set := by
  have hi0 : (i 0).val < 50000 := (i 0).isLt
  have hi1 : (i 1).val < 384 := (i 1).isLt
  have hN : cfg7.N = 25 := N_7
  let t : Fin cfg7.N := ⟨(i 0).val / 2000, by rw [hN]; omega⟩
  obtain ⟨_, _, e10, e11⟩ := idx_facts t
  have ht : t.val = (i 0).val / 2000 := rfl
  refine ⟨t, flush7_1 t, ?_⟩
  rw [mem_blk]
  intro a
  match a with
  | ⟨0, _⟩ => show win7_1.index t (0 : Fin 2) * 2000 ≤ (i 0).val ∧ (i 0).val < win7_1.index t (0 : Fin 2) * 2000 + 2000; omega
  | ⟨1, _⟩ => show win7_1.index t (1 : Fin 2) * 384 ≤ (i 1).val ∧ (i 1).val < win7_1.index t (1 : Fin 2) * 384 + 384; omega

/-- The output array after the region: the stage of the input array as entered. -/
theorem value (c : Dev nD) :
    (Gen.dat7 (F := Ideal) V c).arrAt 1 cfg7.N = Cert.Stages.elu50 (F := Ideal) (V c main_v139) :=
  (dat7 (F := Ideal) V c).arrAt_eq_of_cover 1 _ (fun t _ => flushed_eq V c t) cover

end Cert.KernelIdeal.Region7

end
-- ==== Proof.lean ====
/-
  A hypergraph sheaf-diffusion layer stack: the input projection x·W_lin + b_lin of 50000 nodes and 10000 hyperedges,
  read as six 64-wide stalks each; per incidence the stalk means of its node and hyperedge joined, layer-normalized,
  mapped to six sheaf weights through the logistic function; then two diffusion layers
      xl − D⁻¹ Hᵀ (alpha · B⁻¹ H (alpha · xl)) + bias,   xl = xin · W_conv,
  the first followed by ELU, and a final ELU on the [50000, 384] layout.

  The kernel program runs the dense parts as eight row-tiled regions (two projections, the sheaf weights, two conv
  products with a zero bias row, two residual combinations, the last ELU) among the same gathers, scatter-adds and
  reshapes on the host that the reference runs; the reference is host operations only. On the extended reals:
    · a row tile of a product, of a row-wise normalization or of a pointwise map is the corresponding rows of the
      whole-array operation, so each region's output array is a stage function of its input arrays (Region0 … Region7);
    · the kernel's logistic is 1 / (1 + exp (−x)), the reference's spelling; exp x − 1 is expm1 x, and 1 · y = y;
      where x > 0 both ELU spellings take x, elsewhere the reference's inner selection is x itself;
    · a vector cast to a one-row matrix is its broadcast along the second axis; a cast of a cast is one cast; adding a
      row of zeros to a product changes nothing (Glue).
  No step needs finiteness: the precondition is never opened.

  Both runs end with the result array at ONE function of the argument arrays, Cert.Stages.wholeOf (Spec.lean), built
  from the reference's own stage terms (Stages.lean): the kernel's by following the result through the run's nineteen
  boundaries (KerRun, Carry, Chain), the reference's by reading its operations' results back (RefOps, RefRun, RefValue).
-/
import proofs.«159071_j31842887533297_2_alg».proof.Defs
import proofs.«159071_j31842887533297_2_alg».proof.Proof.Gen.Kernel
import proofs.«159071_j31842887533297_2_alg».proof.Proof.Gen.Kernel.Frame
import proofs.«159071_j31842887533297_2_alg».proof.Proof.Gen.KernelIdeal
import proofs.«159071_j31842887533297_2_alg».proof.Proof.Gen.KernelIdeal.Frame
import proofs.«159071_j31842887533297_2_alg».proof.Proof.Gen.ReferenceIdeal
import proofs.«159071_j31842887533297_2_alg».proof.Proof.Gen.Pre_finite_inputs
import proofs.«159071_j31842887533297_2_alg».proof.Proof.KerRun
import proofs.«159071_j31842887533297_2_alg».proof.Proof.Chain
import proofs.«159071_j31842887533297_2_alg».proof.Proof.RefValue
import proofs.«159071_j31842887533297_2_alg».proof.Proof.Region0
import proofs.«159071_j31842887533297_2_alg».proof.Proof.Region1
import proofs.«159071_j31842887533297_2_alg».proof.Proof.Region2
import proofs.«159071_j31842887533297_2_alg».proof.Proof.Region3
import proofs.«159071_j31842887533297_2_alg».proof.Proof.Region4
import proofs.«159071_j31842887533297_2_alg».proof.Proof.Region5
import proofs.«159071_j31842887533297_2_alg».proof.Proof.Region6
import proofs.«159071_j31842887533297_2_alg».proof.Proof.Region7
import Idealize.ShloMosaic.Adequacy
import Idealize.ShloMosaic.Init

noncomputable section

namespace Cert.Proof

open Idealize.ShloMosaic Idealize.ShloMosaic.TcCoe Idealize.SL.Sem

/-- The eight regions' closed forms together. -/
theorem regions : Cert.KernelIdeal.Chain.Regions :=
  ⟨Cert.KernelIdeal.Region0.value, Cert.KernelIdeal.Region1.value, Cert.KernelIdeal.Region2.value,
    Cert.KernelIdeal.Region3.value, Cert.KernelIdeal.Region4.value, Cert.KernelIdeal.Region5.value,
    Cert.KernelIdeal.Region6.value, Cert.KernelIdeal.Region7.value⟩

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both programs end with the result at the whole computation of the (agreeing) argument arrays. -/
theorem algebraic : Cert.algebraic_KernelIdeal_ReferenceIdeal := by
  intro m ρ m' ρ' _ hagree
  refine ⟨fun c => Cert.Stages.wholeOf (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.result m ρ c regions), (h c).2⟩)
      (Cert.KernelIdeal.Run.run_result m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
